-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v712) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S3x11x64x64 : Shape := ⟨4, ![3, 11, 64, 64]⟩
abbrev S3x11x64 : Shape := ⟨3, ![3, 11, 64]⟩
abbrev S3x64x64 : Shape := ⟨3, ![3, 64, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x11x64x64 : S_.BroadcastsInDim S3x11x64x64 (![] : Fin 0 → Fin S3x11x64x64.rank)
  reducesTo_S3x11x64x64_S_d0_1_2_3 : S3x11x64x64.ReducesTo [0, 1, 2, 3] S_
  bcast_S_S3x11x64 : S_.BroadcastsInDim S3x11x64 (![] : Fin 0 → Fin S3x11x64.rank)
  reducesTo_S3x11x64_S_d0_1_2 : S3x11x64.ReducesTo [0, 1, 2] S_
  bcast_S_S3x64x64 : S_.BroadcastsInDim S3x64x64 (![] : Fin 0 → Fin S3x64x64.rank)
  reducesTo_S3x64x64_S_d0_1_2 : S3x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S3x64x64 .f32) (main_arg7 : FVec F S64x64 .f32) (main_arg8 : FVec F S64 .f32) (main_v13 : IVec S_ 1) (main_v16 : IVec S3x11x64x64 1) : IVec S_ 1 :=
  let main_c_5 : IVec S_ 1 := constantI S_ 1 1#1
  let main_v17 : IVec S_ 1 := (fun x v => Host.reduce IntOp.andi x v reducesTo_S3x11x64x64_S_d0_1_2_3 h_S_) main_v16 main_c_5
  let main_v18 : IVec S_ 1 := andi main_v13 main_v17
  let main_v19 : FVec F S3x64x64 .f32 := Host.absf main_arg6
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1000000 32) (main_arg2 : IVec S100000 32) (main_arg3 : FVec F S3x11x64x64 .f32) (main_arg4 : FVec F S3x11x64 .f32) (main_arg5 : FVec F S3x11x64x64 .f32) (main_arg6 : FVec F S3x64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x11x64x64 .f32 := Host.absf main_arg3
  let main_cst_0 : FVec F S_ .f32 := constant S_ .f32 0x7F800000#32
  let main_v5 : FVec F S3x11x64x64 .f32 := broadcastInDim S3x11x64x64 ![] bcast_S_S3x11x64x64 main_cst_0
  let main_v6 : IVec S3x11x64x64 1 := cmpf .olt main_v4 main_v5
  let main_c_1 : IVec S_ 1 := constantI S_ 1 1#1
  let main_v7 : IVec S_ 1 := (fun x v => Host.reduce IntOp.andi x v reducesTo_S3x11x64x64_S_d0_1_2_3 h_S_) main_v6 main_c_1
  let main_v8 : IVec S_ 1 := andi main_v3 main_v7
  let main_v9 : FVec F S3x11x64 .f32 := Host.absf main_arg4
  let main_cst_2 : FVec F S_ .f32 := constant S_ .f32 0x7F800000#32
  let main_v10 : FVec F S3x11x64 .f32 := broadcastInDim S3x11x64 ![] bcast_S_S3x11x64 main_cst_2
  let main_v11 : IVec S3x11x64 1 := cmpf .olt main_v9 main_v10
  let main_c_3 : IVec S_ 1 := constantI S_ 1 1#1
  let main_v12 : IVec S_ 1 := (fun x v => Host.reduce IntOp.andi x v reducesTo_S3x11x64_S_d0_1_2 h_S_) main_v11 main_c_3
  let main_v13 : IVec S_ 1 := andi main_v8 main_v12
  let main_v14 : FVec F S3x11x64x64 .f32 := Host.absf main_arg5
  let main_cst_4 : FVec F S_ .f32 := constant S_ .f32 0x7F800000#32
  let main_v15 : FVec F S3x11x64x64 .f32 := broadcastInDim S3x11x64x64 ![] bcast_S_S3x11x64x64 main_cst_4
  let main_v16 : IVec S3x11x64x64 1 := cmpf .olt main_v14 main_v15
  fn_part1 (F := F) main_arg6 main_arg7 main_arg8 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S3x11x64x64 : Shape := ⟨4, ![3, 11, 64, 64]⟩
abbrev S3x11x64 : Shape := ⟨3, ![3, 11, 64]⟩
abbrev S3x64x64 : Shape := ⟨3, ![3, 64, 64]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S512x64 : Shape := ⟨2, ![512, 64]⟩
abbrev S1000000x64 : Shape := ⟨2, ![1000000, 64]⟩
abbrev S1x11x64x64 : Shape := ⟨4, ![1, 11, 64, 64]⟩
abbrev S11x64x64 : Shape := ⟨3, ![11, 64, 64]⟩
abbrev S1x11x64 : Shape := ⟨3, ![1, 11, 64]⟩
abbrev S11x64 : Shape := ⟨2, ![11, 64]⟩
abbrev S1x64x64 : Shape := ⟨3, ![1, 64, 64]⟩
abbrev S10000x1 : Shape := ⟨2, ![10000, 1]⟩
abbrev S10000x64 : Shape := ⟨2, ![10000, 64]⟩
abbrev S1x64 : Shape := ⟨2, ![1, 64]⟩

abbrev nBuf : Space → Nat
  | .hbm => 118
  | .vmem => 42
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S3x11x64x64, .f32⟩
  | .hbm, ⟨4, _⟩ => ⟨S3x11x64, .f32⟩
  | .hbm, ⟨5, _⟩ => ⟨S3x11x64x64, .f32⟩
  | .hbm, ⟨6, _⟩ => ⟨S3x64x64, .f32⟩
  | .hbm, ⟨7, _⟩ => ⟨S64x64, .f32⟩
  | .hbm, ⟨8, _⟩ => ⟨S64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S_, .i32⟩
  | .hbm, ⟨16, _⟩ => ⟨S100000, .i32⟩
  | .hbm, ⟨17, _⟩ => ⟨S1000000x1, .i32⟩
  | .hbm, ⟨18, _⟩ => ⟨S100000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000x1, .i32⟩
  | .hbm, ⟨28, _⟩ => ⟨S_, .f32⟩
  | .hbm, ⟨29, _⟩ => ⟨S512x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S_, .f32⟩
  | .hbm, ⟨40, _⟩ => ⟨S100000x64, .f32⟩
  | .hbm, ⟨41, _⟩ => ⟨S1000000x1, .i32⟩
  | .hbm, ⟨42, _⟩ => ⟨S100000x64, .f32⟩
  | .hbm, ⟨43, _⟩ => ⟨S1x11x64x64, .f32⟩
  | .hbm, ⟨44, _⟩ => ⟨S11x64x64, .f32⟩
  | .hbm, ⟨45, _⟩ => ⟨S1x11x64, .f32⟩
  | .hbm, ⟨46, _⟩ => ⟨S11x64, .f32⟩
  | .hbm, ⟨47, _⟩ => ⟨S1x11x64x64, .f32⟩
  | .hbm, ⟨48, _⟩ => ⟨S11x64x64, .f32⟩
  | .hbm, ⟨49, _⟩ => ⟨S1x64x64, .f32⟩
  | .hbm, ⟨50, _⟩ => ⟨S64x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S512x64, .f32⟩
  | .hbm, ⟨55, _⟩ => ⟨S100000x1, .i32⟩
  | .hbm, ⟨56, _⟩ => ⟨S512x64, .f32⟩
  | .hbm, ⟨57, _⟩ => ⟨S512x64, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S_, .f32⟩
  | .hbm, ⟨68, _⟩ => ⟨S100000x64, .f32⟩
  | .hbm, ⟨69, _⟩ => ⟨S1000000x1, .i32⟩
  | .hbm, ⟨70, _⟩ => ⟨S100000x64, .f32⟩
  | .hbm, ⟨71, _⟩ => ⟨S1x11x64x64, .f32⟩
  | .hbm, ⟨72, _⟩ => ⟨S11x64x64, .f32⟩
  | .hbm, ⟨73, _⟩ => ⟨S1x11x64, .f32⟩
  | .hbm, ⟨74, _⟩ => ⟨S11x64, .f32⟩
  | .hbm, ⟨75, _⟩ => ⟨S1x11x64x64, .f32⟩
  | .hbm, ⟨76, _⟩ => ⟨S11x64x64, .f32⟩
  | .hbm, ⟨77, _⟩ => ⟨S1x64x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S512x64, .f32⟩
  | .hbm, ⟨83, _⟩ => ⟨S100000x1, .i32⟩
  | .hbm, ⟨84, _⟩ => ⟨S512x64, .f32⟩
  | .hbm, ⟨85, _⟩ => ⟨S512x64, .f32⟩
  | .hbm, ⟨86, _⟩ => ⟨S_, .i32⟩
  | .hbm, ⟨87, _⟩ => ⟨S1000000, .i32⟩
  | .hbm, ⟨88, _⟩ => ⟨S1000000, .i1⟩
  | .hbm, ⟨89, _⟩ => ⟨S_, .i32⟩
  | .hbm, ⟨90, _⟩ => ⟨S1000000, .i32⟩
  | .hbm, ⟨91, _⟩ => ⟨S1000000, .i32⟩
  | .hbm, ⟨92, _⟩ => ⟨S1000000, .i32⟩
  | .hbm, ⟨93, _⟩ => ⟨S1000000x1, .i32⟩
  | .hbm, ⟨94, _⟩ => ⟨S1000000x64, .f32⟩
  | .hbm, ⟨95, _⟩ => ⟨S_, .f32⟩
  | .hbm, ⟨96, _⟩ => ⟨S100000x64, .f32⟩
  | .hbm, ⟨97, _⟩ => ⟨S1000000x1, .i32⟩
  | .hbm, ⟨98, _⟩ => ⟨S100000x64, .f32⟩
  | .hbm, ⟨99, _⟩ => ⟨S1x11x64x64, .f32⟩
  | .hbm, ⟨100, _⟩ => ⟨S11x64x64, .f32⟩
  | .hbm, ⟨101, _⟩ => ⟨S1x11x64, .f32⟩
  | .hbm, ⟨102, _⟩ => ⟨S11x64, .f32⟩
  | .hbm, ⟨103, _⟩ => ⟨S1x11x64x64, .f32⟩
  | .hbm, ⟨104, _⟩ => ⟨S11x64x64, .f32⟩
  | .hbm, ⟨105, _⟩ => ⟨S1x64x64, .f32⟩
  | .hbm, ⟨106, _⟩ => ⟨S64x64, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S512x64, .f32⟩
  | .hbm, ⟨111, _⟩ => ⟨S100000x1, .i32⟩
  | .hbm, ⟨112, _⟩ => ⟨S512x64, .f32⟩
  | .hbm, ⟨113, _⟩ => ⟨S512x64, .f32⟩
  | .hbm, ⟨114, _⟩ => ⟨S512x64, .f32⟩
  | .hbm, ⟨115, _⟩ => ⟨S1x64, .f32⟩
  | .hbm, ⟨116, _⟩ => ⟨S512x64, .f32⟩
  | .hbm, ⟨117, _⟩ => ⟨S512x64, .f32⟩
  | .local _ .vmem, ⟨0, _⟩ => ⟨S10000x1, .i32⟩
  | .local _ .vmem, ⟨1, _⟩ => ⟨S10000x1, .i32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S11x64x64, .f32⟩
  | .local _ .vmem, ⟨7, _⟩ => ⟨S11x64, .f32⟩
  | .local _ .vmem, ⟨8, _⟩ => ⟨S11x64x64, .f32⟩
  | .local _ .vmem, ⟨9, _⟩ => ⟨S64x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .i32⟩
  | .local _ .vmem, ⟨15, _⟩ => ⟨S10000x1, .i32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S11x64x64, .f32⟩
  | .local _ .vmem, ⟨21, _⟩ => ⟨S11x64, .f32⟩
  | .local _ .vmem, ⟨22, _⟩ => ⟨S11x64x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x1, .i32⟩
  | .local _ .vmem, ⟨29, _⟩ => ⟨S10000x1, .i32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S11x64x64, .f32⟩
  | .local _ .vmem, ⟨35, _⟩ => ⟨S11x64, .f32⟩
  | .local _ .vmem, ⟨36, _⟩ => ⟨S11x64x64, .f32⟩
  | .local _ .vmem, ⟨37, _⟩ => ⟨S64x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_c_3 : Ref sig .tc := ⟨.hbm, 30, rfl⟩
abbrev main_v11 : Ref sig .tc := ⟨.hbm, 31, rfl⟩
abbrev main_v12 : Ref sig .tc := ⟨.hbm, 32, rfl⟩
abbrev main_c_4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52_0 : Ref sig .tc := ⟨.hbm, 79, rfl⟩
abbrev main_v52_1 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75_0 : Ref sig .tc := ⟨.hbm, 107, rfl⟩
abbrev main_v75_1 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S11x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S11x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S11x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S11x64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S11x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S11x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S11x64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S10000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  bcast_S_S512x64 : S_.BroadcastsInDim S512x64 (![] : Fin 0 → Fin S512x64.rank)
  bcast_S_S100000x64 : S_.BroadcastsInDim S100000x64 (![] : Fin 0 → Fin S100000x64.rank)
  slices_S3x11x64x64_S1x11x64x64_0_0_0_0 : S3x11x64x64.Slices ![0, 0, 0, 0] S1x11x64x64
  shapeCasts_S1x11x64x64_S11x64x64 : S1x11x64x64.ShapeCasts S11x64x64
  slices_S3x11x64_S1x11x64_0_0_0 : S3x11x64.Slices ![0, 0, 0] S1x11x64
  shapeCasts_S1x11x64_S11x64 : S1x11x64.ShapeCasts S11x64
  slices_S3x64x64_S1x64x64_0_0_0 : S3x64x64.Slices ![0, 0, 0] S1x64x64
  shapeCasts_S1x64x64_S64x64 : S1x64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  natLt_1_32 : 1 < 32
  inb_S11x64x64_S1x64x64_0_0_0 : ∀ a, (![0, 0, 0] : Fin 3 → Nat) a + S1x64x64.size a ≤ S11x64x64.size a
  h_S1x64x64 : 0 < S1x64x64.numel
  inb_S11x64_S1x64_0_0 : ∀ a, (![0, 0] : Fin 2 → Nat) a + S1x64.size a ≤ S11x64.size a
  h_S1x64 : 0 < S1x64.numel
  shapeCasts_S1x64_S64 : S1x64.ShapeCasts S64
  shapeCasts_S64_S1x64 : S64.ShapeCasts S1x64
  broadcasts_S1x64_S10000x64 : S1x64.Broadcasts S10000x64
  broadcasts_S10000x1_S10000x64 : S10000x1.Broadcasts S10000x64
  inb_S11x64x64_S1x64x64_1_0_0 : ∀ a, (![1, 0, 0] : Fin 3 → Nat) a + S1x64x64.size a ≤ S11x64x64.size a
  inb_S11x64_S1x64_1_0 : ∀ a, (![1, 0] : Fin 2 → Nat) a + S1x64.size a ≤ S11x64.size a
  inb_S11x64x64_S1x64x64_2_0_0 : ∀ a, (![2, 0, 0] : Fin 3 → Nat) a + S1x64x64.size a ≤ S11x64x64.size a
  inb_S11x64_S1x64_2_0 : ∀ a, (![2, 0] : Fin 2 → Nat) a + S1x64.size a ≤ S11x64.size a
  inb_S11x64x64_S1x64x64_3_0_0 : ∀ a, (![3, 0, 0] : Fin 3 → Nat) a + S1x64x64.size a ≤ S11x64x64.size a
  inb_S11x64_S1x64_3_0 : ∀ a, (![3, 0] : Fin 2 → Nat) a + S1x64.size a ≤ S11x64.size a
  inb_S11x64x64_S1x64x64_4_0_0 : ∀ a, (![4, 0, 0] : Fin 3 → Nat) a + S1x64x64.size a ≤ S11x64x64.size a
  inb_S11x64_S1x64_4_0 : ∀ a, (![4, 0] : Fin 2 → Nat) a + S1x64.size a ≤ S11x64.size a
  inb_S11x64x64_S1x64x64_5_0_0 : ∀ a, (![5, 0, 0] : Fin 3 → Nat) a + S1x64x64.size a ≤ S11x64x64.size a
  inb_S11x64_S1x64_5_0 : ∀ a, (![5, 0] : Fin 2 → Nat) a + S1x64.size a ≤ S11x64.size a
  inb_S11x64x64_S1x64x64_6_0_0 : ∀ a, (![6, 0, 0] : Fin 3 → Nat) a + S1x64x64.size a ≤ S11x64x64.size a
  inb_S11x64_S1x64_6_0 : ∀ a, (![6, 0] : Fin 2 → Nat) a + S1x64.size a ≤ S11x64.size a
  inb_S11x64x64_S1x64x64_7_0_0 : ∀ a, (![7, 0, 0] : Fin 3 → Nat) a + S1x64x64.size a ≤ S11x64x64.size a
  inb_S11x64_S1x64_7_0 : ∀ a, (![7, 0] : Fin 2 → Nat) a + S1x64.size a ≤ S11x64.size a
  inb_S11x64x64_S1x64x64_8_0_0 : ∀ a, (![8, 0, 0] : Fin 3 → Nat) a + S1x64x64.size a ≤ S11x64x64.size a
  inb_S11x64_S1x64_8_0 : ∀ a, (![8, 0] : Fin 2 → Nat) a + S1x64.size a ≤ S11x64.size a
  inb_S11x64x64_S1x64x64_9_0_0 : ∀ a, (![9, 0, 0] : Fin 3 → Nat) a + S1x64x64.size a ≤ S11x64x64.size a
  inb_S11x64_S1x64_9_0 : ∀ a, (![9, 0] : Fin 2 → Nat) a + S1x64.size a ≤ S11x64.size a
  inb_S11x64x64_S1x64x64_10_0_0 : ∀ a, (![10, 0, 0] : Fin 3 → Nat) a + S1x64x64.size a ≤ S11x64x64.size a
  inb_S11x64_S1x64_10_0 : ∀ a, (![10, 0] : Fin 2 → Nat) a + S1x64.size a ≤ S11x64.size a
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S100000_S100000x1_0 : S100000.BroadcastsInDim S100000x1 (![0] : Fin 1 → Fin S100000x1.rank)
  slices_S3x11x64x64_S1x11x64x64_1_0_0_0 : S3x11x64x64.Slices ![1, 0, 0, 0] S1x11x64x64
  slices_S3x11x64_S1x11x64_1_0_0 : S3x11x64.Slices ![1, 0, 0] S1x11x64
  slices_S3x64x64_S1x64x64_1_0_0 : S3x64x64.Slices ![1, 0, 0] S1x64x64
  slices_S3x11x64x64_S1x11x64x64_2_0_0_0 : S3x11x64x64.Slices ![2, 0, 0, 0] S1x11x64x64
  slices_S3x11x64_S1x11x64_2_0_0 : S3x11x64.Slices ![2, 0, 0] S1x11x64
  slices_S3x64x64_S1x64x64_2_0_0 : S3x64x64.Slices ![2, 0, 0] S1x64x64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .i32 = 32 ∨ (Rect.block (s := S100000x1) S10000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x64x64.size a ≤ S11x64x64.size a
  hwx0_3 : ∀ i : grid0.Coords, EltTy.bits .f32 = 32 ∨ (Rect.block (s := S11x64x64) S11x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S11x64.size a ≤ S11x64.size a
  hwx0_4 : ∀ i : grid0.Coords, EltTy.bits .f32 = 32 ∨ (Rect.block (s := S11x64) S11x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11x64x64.size a ≤ S11x64x64.size a
  hwx0_5 : ∀ i : grid0.Coords, EltTy.bits .f32 = 32 ∨ (Rect.block (s := S11x64x64) S11x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x64.size a ≤ S100000x64.size a
  hwx0_8 : ∀ i : grid0.Coords, EltTy.bits .f32 = 32 ∨ (Rect.block (s := S100000x64) S10000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S100000x1.size a
  hwx1_0 : ∀ i : grid1.Coords, EltTy.bits .i32 = 32 ∨ (Rect.block (s := S100000x1) S10000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S11x64x64.size a ≤ S11x64x64.size a
  hwx1_3 : ∀ i : grid1.Coords, EltTy.bits .f32 = 32 ∨ (Rect.block (s := S11x64x64) S11x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S11x64.size a ≤ S11x64.size a
  hwx1_4 : ∀ i : grid1.Coords, EltTy.bits .f32 = 32 ∨ (Rect.block (s := S11x64) S11x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S11x64x64.size a ≤ S11x64x64.size a
  hwx1_5 : ∀ i : grid1.Coords, EltTy.bits .f32 = 32 ∨ (Rect.block (s := S11x64x64) S11x64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S100000x64.size a
  hwx1_8 : ∀ i : grid1.Coords, EltTy.bits .f32 = 32 ∨ (Rect.block (s := S100000x64) S10000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .i32 = 32 ∨ (Rect.block (s := S100000x1) S10000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S11x64x64.size a ≤ S11x64x64.size a
  hwx2_3 : ∀ i : grid2.Coords, EltTy.bits .f32 = 32 ∨ (Rect.block (s := S11x64x64) S11x64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S11x64.size a ≤ S11x64.size a
  hwx2_4 : ∀ i : grid2.Coords, EltTy.bits .f32 = 32 ∨ (Rect.block (s := S11x64) S11x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S11x64x64.size a ≤ S11x64x64.size a
  hwx2_5 : ∀ i : grid2.Coords, EltTy.bits .f32 = 32 ∨ (Rect.block (s := S11x64x64) S11x64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S100000x64.size a
  hwx2_7 : ∀ i : grid2.Coords, EltTy.bits .f32 = 32 ∨ (Rect.block (s := S100000x64) S10000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x64.size a ≤ S100000x64.size a
  hwx2_8 : ∀ i : grid2.Coords, EltTy.bits .f32 = 32 ∨ (Rect.block (s := S100000x64) S10000x64.size (cc2_transform_8 i) (hinb2_8 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v9) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S11x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S11x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S11x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29_0) S10000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_1) S10000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29_0) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S11x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S11x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S11x64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52_0) S10000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v52_1) S10000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v9) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52_0) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S11x64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S11x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S11x64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v74) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v75_0) S10000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v75_1) S10000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S3x11x64x64 : Shape := ⟨4, ![3, 11, 64, 64]⟩
abbrev S3x11x64 : Shape := ⟨3, ![3, 11, 64]⟩
abbrev S3x64x64 : Shape := ⟨3, ![3, 64, 64]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S512x64 : Shape := ⟨2, ![512, 64]⟩
abbrev S1000000x64 : Shape := ⟨2, ![1000000, 64]⟩
abbrev S100000x1 : Shape := ⟨2, ![100000, 1]⟩
abbrev S1x1x64x64 : Shape := ⟨4, ![1, 1, 64, 64]⟩
abbrev S1x1x64 : Shape := ⟨3, ![1, 1, 64]⟩
abbrev S1x64 : Shape := ⟨2, ![1, 64]⟩
abbrev S1x64x64 : Shape := ⟨3, ![1, 64, 64]⟩

abbrev nBuf : Space → Nat
  | .hbm => 786
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S3x11x64x64, .f32⟩
  | 4 => ⟨S3x11x64, .f32⟩
  | 5 => ⟨S3x11x64x64, .f32⟩
  | 6 => ⟨S3x64x64, .f32⟩
  | 7 => ⟨S64x64, .f32⟩
  | 8 => ⟨S64, .f32⟩
  | 9 => ⟨S1x1000000, .i32⟩
  | 10 => ⟨S1000000, .i32⟩
  | 11 => ⟨S1x1000000, .i32⟩
  | 12 => ⟨S1000000, .i32⟩
  | 13 => ⟨S_, .i32⟩
  | 14 => ⟨S1000000, .i32⟩
  | 15 => ⟨S_, .i32⟩
  | 16 => ⟨S100000, .i32⟩
  | 17 => ⟨S1000000x1, .i32⟩
  | 18 => ⟨S100000, .i32⟩
  | 19 => ⟨S_, .i32⟩
  | 20 => ⟨S_, .i32⟩
  | 21 => ⟨S_, .i32⟩
  | 22 => ⟨S100000, .i32⟩
  | 23 => ⟨S100000, .i32⟩
  | 24 => ⟨S_, .i32⟩
  | 25 => ⟨S100000, .i32⟩
  | 26 => ⟨S100000, .i32⟩
  | 27 => ⟨S_, .f32⟩
  | 28 => ⟨S512x64, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S_, .f32⟩
  | 39 => ⟨S100000x64, .f32⟩
  | 40 => ⟨S1000000x1, .i32⟩
  | 41 => ⟨S100000x64, .f32⟩
  | 42 => ⟨S_, .f32⟩
  | 43 => ⟨S100000x64, .f32⟩
  | 44 => ⟨S_, .i32⟩
  | 45 => ⟨S100000, .i32⟩
  | 46 => ⟨S100000, .i1⟩
  | 47 => ⟨S100000x1, .i1⟩
  | 48 => ⟨S100000x1, .f32⟩
  | 49 => ⟨S1x1x64x64, .f32⟩
  | 50 => ⟨S64x64, .f32⟩
  | 51 => ⟨S100000x64, .f32⟩
  | 52 => ⟨S1x1x64, .f32⟩
  | 53 => ⟨S64, .f32⟩
  | 54 => ⟨S1x64, .f32⟩
  | 55 => ⟨S100000x64, .f32⟩
  | 56 => ⟨S100000x64, .f32⟩
  | 57 => ⟨S1x1x64x64, .f32⟩
  | 58 => ⟨S64x64, .f32⟩
  | 59 => ⟨S100000x64, .f32⟩
  | 60 => ⟨S100000x64, .f32⟩
  | 61 => ⟨S100000x64, .f32⟩
  | 62 => ⟨S100000x64, .f32⟩
  | 63 => ⟨S100000x64, .f32⟩
  | 64 => ⟨S_, .i32⟩
  | 65 => ⟨S100000, .i32⟩
  | 66 => ⟨S100000, .i1⟩
  | 67 => ⟨S100000x1, .i1⟩
  | 68 => ⟨S100000x1, .f32⟩
  | 69 => ⟨S1x1x64x64, .f32⟩
  | 70 => ⟨S64x64, .f32⟩
  | 71 => ⟨S100000x64, .f32⟩
  | 72 => ⟨S1x1x64, .f32⟩
  | 73 => ⟨S64, .f32⟩
  | 74 => ⟨S1x64, .f32⟩
  | 75 => ⟨S100000x64, .f32⟩
  | 76 => ⟨S100000x64, .f32⟩
  | 77 => ⟨S1x1x64x64, .f32⟩
  | 78 => ⟨S64x64, .f32⟩
  | 79 => ⟨S100000x64, .f32⟩
  | 80 => ⟨S100000x64, .f32⟩
  | 81 => ⟨S100000x64, .f32⟩
  | 82 => ⟨S100000x64, .f32⟩
  | 83 => ⟨S100000x64, .f32⟩
  | 84 => ⟨S_, .i32⟩
  | 85 => ⟨S100000, .i32⟩
  | 86 => ⟨S100000, .i1⟩
  | 87 => ⟨S100000x1, .i1⟩
  | 88 => ⟨S100000x1, .f32⟩
  | 89 => ⟨S1x1x64x64, .f32⟩
  | 90 => ⟨S64x64, .f32⟩
  | 91 => ⟨S100000x64, .f32⟩
  | 92 => ⟨S1x1x64, .f32⟩
  | 93 => ⟨S64, .f32⟩
  | 94 => ⟨S1x64, .f32⟩
  | 95 => ⟨S100000x64, .f32⟩
  | 96 => ⟨S100000x64, .f32⟩
  | 97 => ⟨S1x1x64x64, .f32⟩
  | 98 => ⟨S64x64, .f32⟩
  | 99 => ⟨S100000x64, .f32⟩
  | 100 => ⟨S100000x64, .f32⟩
  | 101 => ⟨S100000x64, .f32⟩
  | 102 => ⟨S100000x64, .f32⟩
  | 103 => ⟨S100000x64, .f32⟩
  | 104 => ⟨S_, .i32⟩
  | 105 => ⟨S100000, .i32⟩
  | 106 => ⟨S100000, .i1⟩
  | 107 => ⟨S100000x1, .i1⟩
  | 108 => ⟨S100000x1, .f32⟩
  | 109 => ⟨S1x1x64x64, .f32⟩
  | 110 => ⟨S64x64, .f32⟩
  | 111 => ⟨S100000x64, .f32⟩
  | 112 => ⟨S1x1x64, .f32⟩
  | 113 => ⟨S64, .f32⟩
  | 114 => ⟨S1x64, .f32⟩
  | 115 => ⟨S100000x64, .f32⟩
  | 116 => ⟨S100000x64, .f32⟩
  | 117 => ⟨S1x1x64x64, .f32⟩
  | 118 => ⟨S64x64, .f32⟩
  | 119 => ⟨S100000x64, .f32⟩
  | 120 => ⟨S100000x64, .f32⟩
  | 121 => ⟨S100000x64, .f32⟩
  | 122 => ⟨S100000x64, .f32⟩
  | 123 => ⟨S100000x64, .f32⟩
  | 124 => ⟨S_, .i32⟩
  | 125 => ⟨S100000, .i32⟩
  | 126 => ⟨S100000, .i1⟩
  | 127 => ⟨S100000x1, .i1⟩
  | _ => ⟨S100000x64, .f32⟩

abbrev hbmTy0_1 (i : Nat) : BufTy := match i % 128 with
  | 0 => ⟨S100000x1, .f32⟩
  | 1 => ⟨S1x1x64x64, .f32⟩
  | 2 => ⟨S64x64, .f32⟩
  | 3 => ⟨S100000x64, .f32⟩
  | 4 => ⟨S1x1x64, .f32⟩
  | 5 => ⟨S64, .f32⟩
  | 6 => ⟨S1x64, .f32⟩
  | 7 => ⟨S100000x64, .f32⟩
  | 8 => ⟨S100000x64, .f32⟩
  | 9 => ⟨S1x1x64x64, .f32⟩
  | 10 => ⟨S64x64, .f32⟩
  | 11 => ⟨S100000x64, .f32⟩
  | 12 => ⟨S100000x64, .f32⟩
  | 13 => ⟨S100000x64, .f32⟩
  | 14 => ⟨S100000x64, .f32⟩
  | 15 => ⟨S100000x64, .f32⟩
  | 16 => ⟨S_, .i32⟩
  | 17 => ⟨S100000, .i32⟩
  | 18 => ⟨S100000, .i1⟩
  | 19 => ⟨S100000x1, .i1⟩
  | 20 => ⟨S100000x1, .f32⟩
  | 21 => ⟨S1x1x64x64, .f32⟩
  | 22 => ⟨S64x64, .f32⟩
  | 23 => ⟨S100000x64, .f32⟩
  | 24 => ⟨S1x1x64, .f32⟩
  | 25 => ⟨S64, .f32⟩
  | 26 => ⟨S1x64, .f32⟩
  | 27 => ⟨S100000x64, .f32⟩
  | 28 => ⟨S100000x64, .f32⟩
  | 29 => ⟨S1x1x64x64, .f32⟩
  | 30 => ⟨S64x64, .f32⟩
  | 31 => ⟨S100000x64, .f32⟩
  | 32 => ⟨S100000x64, .f32⟩
  | 33 => ⟨S100000x64, .f32⟩
  | 34 => ⟨S100000x64, .f32⟩
  | 35 => ⟨S100000x64, .f32⟩
  | 36 => ⟨S_, .i32⟩
  | 37 => ⟨S100000, .i32⟩
  | 38 => ⟨S100000, .i1⟩
  | 39 => ⟨S100000x1, .i1⟩
  | 40 => ⟨S100000x1, .f32⟩
  | 41 => ⟨S1x1x64x64, .f32⟩
  | 42 => ⟨S64x64, .f32⟩
  | 43 => ⟨S100000x64, .f32⟩
  | 44 => ⟨S1x1x64, .f32⟩
  | 45 => ⟨S64, .f32⟩
  | 46 => ⟨S1x64, .f32⟩
  | 47 => ⟨S100000x64, .f32⟩
  | 48 => ⟨S100000x64, .f32⟩
  | 49 => ⟨S1x1x64x64, .f32⟩
  | 50 => ⟨S64x64, .f32⟩
  | 51 => ⟨S100000x64, .f32⟩
  | 52 => ⟨S100000x64, .f32⟩
  | 53 => ⟨S100000x64, .f32⟩
  | 54 => ⟨S100000x64, .f32⟩
  | 55 => ⟨S100000x64, .f32⟩
  | 56 => ⟨S_, .i32⟩
  | 57 => ⟨S100000, .i32⟩
  | 58 => ⟨S100000, .i1⟩
  | 59 => ⟨S100000x1, .i1⟩
  | 60 => ⟨S100000x1, .f32⟩
  | 61 => ⟨S1x1x64x64, .f32⟩
  | 62 => ⟨S64x64, .f32⟩
  | 63 => ⟨S100000x64, .f32⟩
  | 64 => ⟨S1x1x64, .f32⟩
  | 65 => ⟨S64, .f32⟩
  | 66 => ⟨S1x64, .f32⟩
  | 67 => ⟨S100000x64, .f32⟩
  | 68 => ⟨S100000x64, .f32⟩
  | 69 => ⟨S1x1x64x64, .f32⟩
  | 70 => ⟨S64x64, .f32⟩
  | 71 => ⟨S100000x64, .f32⟩
  | 72 => ⟨S100000x64, .f32⟩
  | 73 => ⟨S100000x64, .f32⟩
  | 74 => ⟨S100000x64, .f32⟩
  | 75 => ⟨S100000x64, .f32⟩
  | 76 => ⟨S_, .i32⟩
  | 77 => ⟨S100000, .i32⟩
  | 78 => ⟨S100000, .i1⟩
  | 79 => ⟨S100000x1, .i1⟩
  | 80 => ⟨S100000x1, .f32⟩
  | 81 => ⟨S1x1x64x64, .f32⟩
  | 82 => ⟨S64x64, .f32⟩
  | 83 => ⟨S100000x64, .f32⟩
  | 84 => ⟨S1x1x64, .f32⟩
  | 85 => ⟨S64, .f32⟩
  | 86 => ⟨S1x64, .f32⟩
  | 87 => ⟨S100000x64, .f32⟩
  | 88 => ⟨S100000x64, .f32⟩
  | 89 => ⟨S1x1x64x64, .f32⟩
  | 90 => ⟨S64x64, .f32⟩
  | 91 => ⟨S100000x64, .f32⟩
  | 92 => ⟨S100000x64, .f32⟩
  | 93 => ⟨S100000x64, .f32⟩
  | 94 => ⟨S100000x64, .f32⟩
  | 95 => ⟨S100000x64, .f32⟩
  | 96 => ⟨S_, .i32⟩
  | 97 => ⟨S100000, .i32⟩
  | 98 => ⟨S100000, .i1⟩
  | 99 => ⟨S100000x1, .i1⟩
  | 100 => ⟨S100000x1, .f32⟩
  | 101 => ⟨S1x1x64x64, .f32⟩
  | 102 => ⟨S64x64, .f32⟩
  | 103 => ⟨S100000x64, .f32⟩
  | 104 => ⟨S1x1x64, .f32⟩
  | 105 => ⟨S64, .f32⟩
  | 106 => ⟨S1x64, .f32⟩
  | 107 => ⟨S100000x64, .f32⟩
  | 108 => ⟨S100000x64, .f32⟩
  | 109 => ⟨S1x1x64x64, .f32⟩
  | 110 => ⟨S64x64, .f32⟩
  | 111 => ⟨S100000x64, .f32⟩
  | 112 => ⟨S100000x64, .f32⟩
  | 113 => ⟨S100000x64, .f32⟩
  | 114 => ⟨S100000x64, .f32⟩
  | 115 => ⟨S100000x64, .f32⟩
  | 116 => ⟨S_, .i32⟩
  | 117 => ⟨S100000, .i32⟩
  | 118 => ⟨S100000, .i1⟩
  | 119 => ⟨S100000x1, .i1⟩
  | 120 => ⟨S100000x1, .f32⟩
  | 121 => ⟨S1x1x64x64, .f32⟩
  | 122 => ⟨S64x64, .f32⟩
  | 123 => ⟨S100000x64, .f32⟩
  | 124 => ⟨S1x1x64, .f32⟩
  | 125 => ⟨S64, .f32⟩
  | 126 => ⟨S1x64, .f32⟩
  | 127 => ⟨S100000x64, .f32⟩
  | _ => ⟨S100000x64, .f32⟩

abbrev hbmTy0_2 (i : Nat) : BufTy := match i % 128 with
  | 0 => ⟨S100000x64, .f32⟩
  | 1 => ⟨S1x1x64x64, .f32⟩
  | 2 => ⟨S64x64, .f32⟩
  | 3 => ⟨S100000x64, .f32⟩
  | 4 => ⟨S100000x64, .f32⟩
  | 5 => ⟨S100000x64, .f32⟩
  | 6 => ⟨S100000x64, .f32⟩
  | 7 => ⟨S100000x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S_, .f32⟩
  | 20 => ⟨S512x64, .f32⟩
  | 21 => ⟨S100000x1, .i32⟩
  | 22 => ⟨S512x64, .f32⟩
  | 23 => ⟨S512x64, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x64, .f32⟩
  | 33 => ⟨S_, .f32⟩
  | 34 => ⟨S100000x64, .f32⟩
  | 35 => ⟨S1000000x1, .i32⟩
  | 36 => ⟨S100000x64, .f32⟩
  | 37 => ⟨S_, .f32⟩
  | 38 => ⟨S100000x64, .f32⟩
  | 39 => ⟨S_, .i32⟩
  | 40 => ⟨S100000, .i32⟩
  | 41 => ⟨S100000, .i1⟩
  | 42 => ⟨S100000x1, .i1⟩
  | 43 => ⟨S100000x1, .f32⟩
  | 44 => ⟨S1x1x64x64, .f32⟩
  | 45 => ⟨S64x64, .f32⟩
  | 46 => ⟨S100000x64, .f32⟩
  | 47 => ⟨S1x1x64, .f32⟩
  | 48 => ⟨S64, .f32⟩
  | 49 => ⟨S1x64, .f32⟩
  | 50 => ⟨S100000x64, .f32⟩
  | 51 => ⟨S100000x64, .f32⟩
  | 52 => ⟨S1x1x64x64, .f32⟩
  | 53 => ⟨S64x64, .f32⟩
  | 54 => ⟨S100000x64, .f32⟩
  | 55 => ⟨S100000x64, .f32⟩
  | 56 => ⟨S100000x64, .f32⟩
  | 57 => ⟨S100000x64, .f32⟩
  | 58 => ⟨S100000x64, .f32⟩
  | 59 => ⟨S_, .i32⟩
  | 60 => ⟨S100000, .i32⟩
  | 61 => ⟨S100000, .i1⟩
  | 62 => ⟨S100000x1, .i1⟩
  | 63 => ⟨S100000x1, .f32⟩
  | 64 => ⟨S1x1x64x64, .f32⟩
  | 65 => ⟨S64x64, .f32⟩
  | 66 => ⟨S100000x64, .f32⟩
  | 67 => ⟨S1x1x64, .f32⟩
  | 68 => ⟨S64, .f32⟩
  | 69 => ⟨S1x64, .f32⟩
  | 70 => ⟨S100000x64, .f32⟩
  | 71 => ⟨S100000x64, .f32⟩
  | 72 => ⟨S1x1x64x64, .f32⟩
  | 73 => ⟨S64x64, .f32⟩
  | 74 => ⟨S100000x64, .f32⟩
  | 75 => ⟨S100000x64, .f32⟩
  | 76 => ⟨S100000x64, .f32⟩
  | 77 => ⟨S100000x64, .f32⟩
  | 78 => ⟨S100000x64, .f32⟩
  | 79 => ⟨S_, .i32⟩
  | 80 => ⟨S100000, .i32⟩
  | 81 => ⟨S100000, .i1⟩
  | 82 => ⟨S100000x1, .i1⟩
  | 83 => ⟨S100000x1, .f32⟩
  | 84 => ⟨S1x1x64x64, .f32⟩
  | 85 => ⟨S64x64, .f32⟩
  | 86 => ⟨S100000x64, .f32⟩
  | 87 => ⟨S1x1x64, .f32⟩
  | 88 => ⟨S64, .f32⟩
  | 89 => ⟨S1x64, .f32⟩
  | 90 => ⟨S100000x64, .f32⟩
  | 91 => ⟨S100000x64, .f32⟩
  | 92 => ⟨S1x1x64x64, .f32⟩
  | 93 => ⟨S64x64, .f32⟩
  | 94 => ⟨S100000x64, .f32⟩
  | 95 => ⟨S100000x64, .f32⟩
  | 96 => ⟨S100000x64, .f32⟩
  | 97 => ⟨S100000x64, .f32⟩
  | 98 => ⟨S100000x64, .f32⟩
  | 99 => ⟨S_, .i32⟩
  | 100 => ⟨S100000, .i32⟩
  | 101 => ⟨S100000, .i1⟩
  | 102 => ⟨S100000x1, .i1⟩
  | 103 => ⟨S100000x1, .f32⟩
  | 104 => ⟨S1x1x64x64, .f32⟩
  | 105 => ⟨S64x64, .f32⟩
  | 106 => ⟨S100000x64, .f32⟩
  | 107 => ⟨S1x1x64, .f32⟩
  | 108 => ⟨S64, .f32⟩
  | 109 => ⟨S1x64, .f32⟩
  | 110 => ⟨S100000x64, .f32⟩
  | 111 => ⟨S100000x64, .f32⟩
  | 112 => ⟨S1x1x64x64, .f32⟩
  | 113 => ⟨S64x64, .f32⟩
  | 114 => ⟨S100000x64, .f32⟩
  | 115 => ⟨S100000x64, .f32⟩
  | 116 => ⟨S100000x64, .f32⟩
  | 117 => ⟨S100000x64, .f32⟩
  | 118 => ⟨S100000x64, .f32⟩
  | 119 => ⟨S_, .i32⟩
  | 120 => ⟨S100000, .i32⟩
  | 121 => ⟨S100000, .i1⟩
  | 122 => ⟨S100000x1, .i1⟩
  | 123 => ⟨S100000x1, .f32⟩
  | 124 => ⟨S1x1x64x64, .f32⟩
  | 125 => ⟨S64x64, .f32⟩
  | 126 => ⟨S100000x64, .f32⟩
  | 127 => ⟨S1x1x64, .f32⟩
  | _ => ⟨S100000x64, .f32⟩

abbrev hbmTy0_3 (i : Nat) : BufTy := match i % 128 with
  | 0 => ⟨S64, .f32⟩
  | 1 => ⟨S1x64, .f32⟩
  | 2 => ⟨S100000x64, .f32⟩
  | 3 => ⟨S100000x64, .f32⟩
  | 4 => ⟨S1x1x64x64, .f32⟩
  | 5 => ⟨S64x64, .f32⟩
  | 6 => ⟨S100000x64, .f32⟩
  | 7 => ⟨S100000x64, .f32⟩
  | 8 => ⟨S100000x64, .f32⟩
  | 9 => ⟨S100000x64, .f32⟩
  | 10 => ⟨S100000x64, .f32⟩
  | 11 => ⟨S_, .i32⟩
  | 12 => ⟨S100000, .i32⟩
  | 13 => ⟨S100000, .i1⟩
  | 14 => ⟨S100000x1, .i1⟩
  | 15 => ⟨S100000x1, .f32⟩
  | 16 => ⟨S1x1x64x64, .f32⟩
  | 17 => ⟨S64x64, .f32⟩
  | 18 => ⟨S100000x64, .f32⟩
  | 19 => ⟨S1x1x64, .f32⟩
  | 20 => ⟨S64, .f32⟩
  | 21 => ⟨S1x64, .f32⟩
  | 22 => ⟨S100000x64, .f32⟩
  | 23 => ⟨S100000x64, .f32⟩
  | 24 => ⟨S1x1x64x64, .f32⟩
  | 25 => ⟨S64x64, .f32⟩
  | 26 => ⟨S100000x64, .f32⟩
  | 27 => ⟨S100000x64, .f32⟩
  | 28 => ⟨S100000x64, .f32⟩
  | 29 => ⟨S100000x64, .f32⟩
  | 30 => ⟨S100000x64, .f32⟩
  | 31 => ⟨S_, .i32⟩
  | 32 => ⟨S100000, .i32⟩
  | 33 => ⟨S100000, .i1⟩
  | 34 => ⟨S100000x1, .i1⟩
  | 35 => ⟨S100000x1, .f32⟩
  | 36 => ⟨S1x1x64x64, .f32⟩
  | 37 => ⟨S64x64, .f32⟩
  | 38 => ⟨S100000x64, .f32⟩
  | 39 => ⟨S1x1x64, .f32⟩
  | 40 => ⟨S64, .f32⟩
  | 41 => ⟨S1x64, .f32⟩
  | 42 => ⟨S100000x64, .f32⟩
  | 43 => ⟨S100000x64, .f32⟩
  | 44 => ⟨S1x1x64x64, .f32⟩
  | 45 => ⟨S64x64, .f32⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S_, .i32⟩
  | 52 => ⟨S100000, .i32⟩
  | 53 => ⟨S100000, .i1⟩
  | 54 => ⟨S100000x1, .i1⟩
  | 55 => ⟨S100000x1, .f32⟩
  | 56 => ⟨S1x1x64x64, .f32⟩
  | 57 => ⟨S64x64, .f32⟩
  | 58 => ⟨S100000x64, .f32⟩
  | 59 => ⟨S1x1x64, .f32⟩
  | 60 => ⟨S64, .f32⟩
  | 61 => ⟨S1x64, .f32⟩
  | 62 => ⟨S100000x64, .f32⟩
  | 63 => ⟨S100000x64, .f32⟩
  | 64 => ⟨S1x1x64x64, .f32⟩
  | 65 => ⟨S64x64, .f32⟩
  | 66 => ⟨S100000x64, .f32⟩
  | 67 => ⟨S100000x64, .f32⟩
  | 68 => ⟨S100000x64, .f32⟩
  | 69 => ⟨S100000x64, .f32⟩
  | 70 => ⟨S100000x64, .f32⟩
  | 71 => ⟨S_, .i32⟩
  | 72 => ⟨S100000, .i32⟩
  | 73 => ⟨S100000, .i1⟩
  | 74 => ⟨S100000x1, .i1⟩
  | 75 => ⟨S100000x1, .f32⟩
  | 76 => ⟨S1x1x64x64, .f32⟩
  | 77 => ⟨S64x64, .f32⟩
  | 78 => ⟨S100000x64, .f32⟩
  | 79 => ⟨S1x1x64, .f32⟩
  | 80 => ⟨S64, .f32⟩
  | 81 => ⟨S1x64, .f32⟩
  | 82 => ⟨S100000x64, .f32⟩
  | 83 => ⟨S100000x64, .f32⟩
  | 84 => ⟨S1x1x64x64, .f32⟩
  | 85 => ⟨S64x64, .f32⟩
  | 86 => ⟨S100000x64, .f32⟩
  | 87 => ⟨S100000x64, .f32⟩
  | 88 => ⟨S100000x64, .f32⟩
  | 89 => ⟨S100000x64, .f32⟩
  | 90 => ⟨S100000x64, .f32⟩
  | 91 => ⟨S_, .i32⟩
  | 92 => ⟨S100000, .i32⟩
  | 93 => ⟨S100000, .i1⟩
  | 94 => ⟨S100000x1, .i1⟩
  | 95 => ⟨S100000x1, .f32⟩
  | 96 => ⟨S1x1x64x64, .f32⟩
  | 97 => ⟨S64x64, .f32⟩
  | 98 => ⟨S100000x64, .f32⟩
  | 99 => ⟨S1x1x64, .f32⟩
  | 100 => ⟨S64, .f32⟩
  | 101 => ⟨S1x64, .f32⟩
  | 102 => ⟨S100000x64, .f32⟩
  | 103 => ⟨S100000x64, .f32⟩
  | 104 => ⟨S1x1x64x64, .f32⟩
  | 105 => ⟨S64x64, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S_, .i32⟩
  | 112 => ⟨S100000, .i32⟩
  | 113 => ⟨S100000, .i1⟩
  | 114 => ⟨S100000x1, .i1⟩
  | 115 => ⟨S100000x1, .f32⟩
  | 116 => ⟨S1x1x64x64, .f32⟩
  | 117 => ⟨S64x64, .f32⟩
  | 118 => ⟨S100000x64, .f32⟩
  | 119 => ⟨S1x1x64, .f32⟩
  | 120 => ⟨S64, .f32⟩
  | 121 => ⟨S1x64, .f32⟩
  | 122 => ⟨S100000x64, .f32⟩
  | 123 => ⟨S100000x64, .f32⟩
  | 124 => ⟨S1x1x64x64, .f32⟩
  | 125 => ⟨S64x64, .f32⟩
  | 126 => ⟨S100000x64, .f32⟩
  | 127 => ⟨S100000x64, .f32⟩
  | _ => ⟨S100000x64, .f32⟩

abbrev hbmTy0_4 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S1x64x64, .f32⟩
  | 12 => ⟨S64x64, .f32⟩
  | 13 => ⟨S100000x64, .f32⟩
  | 14 => ⟨S_, .f32⟩
  | 15 => ⟨S512x64, .f32⟩
  | 16 => ⟨S100000x1, .i32⟩
  | 17 => ⟨S512x64, .f32⟩
  | 18 => ⟨S512x64, .f32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S_, .f32⟩
  | 33 => ⟨S100000x64, .f32⟩
  | 34 => ⟨S_, .i32⟩
  | 35 => ⟨S100000, .i32⟩
  | 36 => ⟨S100000, .i1⟩
  | 37 => ⟨S100000x1, .i1⟩
  | 38 => ⟨S100000x1, .f32⟩
  | 39 => ⟨S1x1x64x64, .f32⟩
  | 40 => ⟨S64x64, .f32⟩
  | 41 => ⟨S100000x64, .f32⟩
  | 42 => ⟨S1x1x64, .f32⟩
  | 43 => ⟨S64, .f32⟩
  | 44 => ⟨S1x64, .f32⟩
  | 45 => ⟨S100000x64, .f32⟩
  | 46 => ⟨S100000x64, .f32⟩
  | 47 => ⟨S1x1x64x64, .f32⟩
  | 48 => ⟨S64x64, .f32⟩
  | 49 => ⟨S100000x64, .f32⟩
  | 50 => ⟨S100000x64, .f32⟩
  | 51 => ⟨S100000x64, .f32⟩
  | 52 => ⟨S100000x64, .f32⟩
  | 53 => ⟨S100000x64, .f32⟩
  | 54 => ⟨S_, .i32⟩
  | 55 => ⟨S100000, .i32⟩
  | 56 => ⟨S100000, .i1⟩
  | 57 => ⟨S100000x1, .i1⟩
  | 58 => ⟨S100000x1, .f32⟩
  | 59 => ⟨S1x1x64x64, .f32⟩
  | 60 => ⟨S64x64, .f32⟩
  | 61 => ⟨S100000x64, .f32⟩
  | 62 => ⟨S1x1x64, .f32⟩
  | 63 => ⟨S64, .f32⟩
  | 64 => ⟨S1x64, .f32⟩
  | 65 => ⟨S100000x64, .f32⟩
  | 66 => ⟨S100000x64, .f32⟩
  | 67 => ⟨S1x1x64x64, .f32⟩
  | 68 => ⟨S64x64, .f32⟩
  | 69 => ⟨S100000x64, .f32⟩
  | 70 => ⟨S100000x64, .f32⟩
  | 71 => ⟨S100000x64, .f32⟩
  | 72 => ⟨S100000x64, .f32⟩
  | 73 => ⟨S100000x64, .f32⟩
  | 74 => ⟨S_, .i32⟩
  | 75 => ⟨S100000, .i32⟩
  | 76 => ⟨S100000, .i1⟩
  | 77 => ⟨S100000x1, .i1⟩
  | 78 => ⟨S100000x1, .f32⟩
  | 79 => ⟨S1x1x64x64, .f32⟩
  | 80 => ⟨S64x64, .f32⟩
  | 81 => ⟨S100000x64, .f32⟩
  | 82 => ⟨S1x1x64, .f32⟩
  | 83 => ⟨S64, .f32⟩
  | 84 => ⟨S1x64, .f32⟩
  | 85 => ⟨S100000x64, .f32⟩
  | 86 => ⟨S100000x64, .f32⟩
  | 87 => ⟨S1x1x64x64, .f32⟩
  | 88 => ⟨S64x64, .f32⟩
  | 89 => ⟨S100000x64, .f32⟩
  | 90 => ⟨S100000x64, .f32⟩
  | 91 => ⟨S100000x64, .f32⟩
  | 92 => ⟨S100000x64, .f32⟩
  | 93 => ⟨S100000x64, .f32⟩
  | 94 => ⟨S_, .i32⟩
  | 95 => ⟨S100000, .i32⟩
  | 96 => ⟨S100000, .i1⟩
  | 97 => ⟨S100000x1, .i1⟩
  | 98 => ⟨S100000x1, .f32⟩
  | 99 => ⟨S1x1x64x64, .f32⟩
  | 100 => ⟨S64x64, .f32⟩
  | 101 => ⟨S100000x64, .f32⟩
  | 102 => ⟨S1x1x64, .f32⟩
  | 103 => ⟨S64, .f32⟩
  | 104 => ⟨S1x64, .f32⟩
  | 105 => ⟨S100000x64, .f32⟩
  | 106 => ⟨S100000x64, .f32⟩
  | 107 => ⟨S1x1x64x64, .f32⟩
  | 108 => ⟨S64x64, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S_, .i32⟩
  | 115 => ⟨S100000, .i32⟩
  | 116 => ⟨S100000, .i1⟩
  | 117 => ⟨S100000x1, .i1⟩
  | 118 => ⟨S100000x1, .f32⟩
  | 119 => ⟨S1x1x64x64, .f32⟩
  | 120 => ⟨S64x64, .f32⟩
  | 121 => ⟨S100000x64, .f32⟩
  | 122 => ⟨S1x1x64, .f32⟩
  | 123 => ⟨S64, .f32⟩
  | 124 => ⟨S1x64, .f32⟩
  | 125 => ⟨S100000x64, .f32⟩
  | 126 => ⟨S100000x64, .f32⟩
  | 127 => ⟨S1x1x64x64, .f32⟩
  | _ => ⟨S100000x64, .f32⟩

abbrev hbmTy0_5 (i : Nat) : BufTy := match i % 128 with
  | 0 => ⟨S64x64, .f32⟩
  | 1 => ⟨S100000x64, .f32⟩
  | 2 => ⟨S100000x64, .f32⟩
  | 3 => ⟨S100000x64, .f32⟩
  | 4 => ⟨S100000x64, .f32⟩
  | 5 => ⟨S100000x64, .f32⟩
  | 6 => ⟨S_, .i32⟩
  | 7 => ⟨S100000, .i32⟩
  | 8 => ⟨S100000, .i1⟩
  | 9 => ⟨S100000x1, .i1⟩
  | 10 => ⟨S100000x1, .f32⟩
  | 11 => ⟨S1x1x64x64, .f32⟩
  | 12 => ⟨S64x64, .f32⟩
  | 13 => ⟨S100000x64, .f32⟩
  | 14 => ⟨S1x1x64, .f32⟩
  | 15 => ⟨S64, .f32⟩
  | 16 => ⟨S1x64, .f32⟩
  | 17 => ⟨S100000x64, .f32⟩
  | 18 => ⟨S100000x64, .f32⟩
  | 19 => ⟨S1x1x64x64, .f32⟩
  | 20 => ⟨S64x64, .f32⟩
  | 21 => ⟨S100000x64, .f32⟩
  | 22 => ⟨S100000x64, .f32⟩
  | 23 => ⟨S100000x64, .f32⟩
  | 24 => ⟨S100000x64, .f32⟩
  | 25 => ⟨S100000x64, .f32⟩
  | 26 => ⟨S_, .i32⟩
  | 27 => ⟨S100000, .i32⟩
  | 28 => ⟨S100000, .i1⟩
  | 29 => ⟨S100000x1, .i1⟩
  | 30 => ⟨S100000x1, .f32⟩
  | 31 => ⟨S1x1x64x64, .f32⟩
  | 32 => ⟨S64x64, .f32⟩
  | 33 => ⟨S100000x64, .f32⟩
  | 34 => ⟨S1x1x64, .f32⟩
  | 35 => ⟨S64, .f32⟩
  | 36 => ⟨S1x64, .f32⟩
  | 37 => ⟨S100000x64, .f32⟩
  | 38 => ⟨S100000x64, .f32⟩
  | 39 => ⟨S1x1x64x64, .f32⟩
  | 40 => ⟨S64x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S_, .i32⟩
  | 47 => ⟨S100000, .i32⟩
  | 48 => ⟨S100000, .i1⟩
  | 49 => ⟨S100000x1, .i1⟩
  | 50 => ⟨S100000x1, .f32⟩
  | 51 => ⟨S1x1x64x64, .f32⟩
  | 52 => ⟨S64x64, .f32⟩
  | 53 => ⟨S100000x64, .f32⟩
  | 54 => ⟨S1x1x64, .f32⟩
  | 55 => ⟨S64, .f32⟩
  | 56 => ⟨S1x64, .f32⟩
  | 57 => ⟨S100000x64, .f32⟩
  | 58 => ⟨S100000x64, .f32⟩
  | 59 => ⟨S1x1x64x64, .f32⟩
  | 60 => ⟨S64x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S_, .i32⟩
  | 67 => ⟨S100000, .i32⟩
  | 68 => ⟨S100000, .i1⟩
  | 69 => ⟨S100000x1, .i1⟩
  | 70 => ⟨S100000x1, .f32⟩
  | 71 => ⟨S1x1x64x64, .f32⟩
  | 72 => ⟨S64x64, .f32⟩
  | 73 => ⟨S100000x64, .f32⟩
  | 74 => ⟨S1x1x64, .f32⟩
  | 75 => ⟨S64, .f32⟩
  | 76 => ⟨S1x64, .f32⟩
  | 77 => ⟨S100000x64, .f32⟩
  | 78 => ⟨S100000x64, .f32⟩
  | 79 => ⟨S1x1x64x64, .f32⟩
  | 80 => ⟨S64x64, .f32⟩
  | 81 => ⟨S100000x64, .f32⟩
  | 82 => ⟨S100000x64, .f32⟩
  | 83 => ⟨S100000x64, .f32⟩
  | 84 => ⟨S100000x64, .f32⟩
  | 85 => ⟨S100000x64, .f32⟩
  | 86 => ⟨S_, .i32⟩
  | 87 => ⟨S100000, .i32⟩
  | 88 => ⟨S100000, .i1⟩
  | 89 => ⟨S100000x1, .i1⟩
  | 90 => ⟨S100000x1, .f32⟩
  | 91 => ⟨S1x1x64x64, .f32⟩
  | 92 => ⟨S64x64, .f32⟩
  | 93 => ⟨S100000x64, .f32⟩
  | 94 => ⟨S1x1x64, .f32⟩
  | 95 => ⟨S64, .f32⟩
  | 96 => ⟨S1x64, .f32⟩
  | 97 => ⟨S100000x64, .f32⟩
  | 98 => ⟨S100000x64, .f32⟩
  | 99 => ⟨S1x1x64x64, .f32⟩
  | 100 => ⟨S64x64, .f32⟩
  | 101 => ⟨S100000x64, .f32⟩
  | 102 => ⟨S100000x64, .f32⟩
  | 103 => ⟨S100000x64, .f32⟩
  | 104 => ⟨S100000x64, .f32⟩
  | 105 => ⟨S100000x64, .f32⟩
  | 106 => ⟨S_, .i32⟩
  | 107 => ⟨S100000, .i32⟩
  | 108 => ⟨S100000, .i1⟩
  | 109 => ⟨S100000x1, .i1⟩
  | 110 => ⟨S100000x1, .f32⟩
  | 111 => ⟨S1x1x64x64, .f32⟩
  | 112 => ⟨S64x64, .f32⟩
  | 113 => ⟨S100000x64, .f32⟩
  | 114 => ⟨S1x1x64, .f32⟩
  | 115 => ⟨S64, .f32⟩
  | 116 => ⟨S1x64, .f32⟩
  | 117 => ⟨S100000x64, .f32⟩
  | 118 => ⟨S100000x64, .f32⟩
  | 119 => ⟨S1x1x64x64, .f32⟩
  | 120 => ⟨S64x64, .f32⟩
  | 121 => ⟨S100000x64, .f32⟩
  | 122 => ⟨S100000x64, .f32⟩
  | 123 => ⟨S100000x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_6 (i : Nat) : BufTy := match i % 128 with
  | 0 => ⟨S_, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S1x64x64, .f32⟩
  | 7 => ⟨S64x64, .f32⟩
  | 8 => ⟨S100000x64, .f32⟩
  | 9 => ⟨S_, .f32⟩
  | 10 => ⟨S512x64, .f32⟩
  | 11 => ⟨S100000x1, .i32⟩
  | 12 => ⟨S512x64, .f32⟩
  | 13 => ⟨S512x64, .f32⟩
  | 14 => ⟨S512x64, .f32⟩
  | 15 => ⟨S1x64, .f32⟩
  | 16 => ⟨S512x64, .f32⟩
  | 17 => ⟨S512x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_c_3 : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_c_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_11 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_c_12 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_c_13 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_c_14 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_c_15 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_c_16 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_c_17 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_cst_18 : Ref sig .tc := ⟨.hbm, 266, rfl⟩
abbrev main_v232 : Ref sig .tc := ⟨.hbm, 267, rfl⟩
abbrev main_v233 : Ref sig .tc := ⟨.hbm, 268, rfl⟩
abbrev main_cst_19 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_cst_20 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_c_21 : Ref sig .tc := ⟨.hbm, 280, rfl⟩
abbrev main_v243 : Ref sig .tc := ⟨.hbm, 281, rfl⟩
abbrev main_v244 : Ref sig .tc := ⟨.hbm, 282, rfl⟩
abbrev main_c_22 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_cst_23 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_cst_24 : Ref sig .tc := ⟨.hbm, 293, rfl⟩
abbrev main_v253 : Ref sig .tc := ⟨.hbm, 294, rfl⟩
abbrev main_c_25 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_c_26 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_v279 : Ref sig .tc := ⟨.hbm, 322, rfl⟩
abbrev main_v280 : Ref sig .tc := ⟨.hbm, 323, rfl⟩
abbrev main_v281 : Ref sig .tc := ⟨.hbm, 324, rfl⟩
abbrev main_v282 : Ref sig .tc := ⟨.hbm, 325, rfl⟩
abbrev main_v283 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_v288 : Ref sig .tc := ⟨.hbm, 331, rfl⟩
abbrev main_v289 : Ref sig .tc := ⟨.hbm, 332, rfl⟩
abbrev main_v290 : Ref sig .tc := ⟨.hbm, 333, rfl⟩
abbrev main_v291 : Ref sig .tc := ⟨.hbm, 334, rfl⟩
abbrev main_c_27 : Ref sig .tc := ⟨.hbm, 335, rfl⟩
abbrev main_v292 : Ref sig .tc := ⟨.hbm, 336, rfl⟩
abbrev main_v293 : Ref sig .tc := ⟨.hbm, 337, rfl⟩
abbrev main_v294 : Ref sig .tc := ⟨.hbm, 338, rfl⟩
abbrev main_v295 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_v299 : Ref sig .tc := ⟨.hbm, 343, rfl⟩
abbrev main_v300 : Ref sig .tc := ⟨.hbm, 344, rfl⟩
abbrev main_v301 : Ref sig .tc := ⟨.hbm, 345, rfl⟩
abbrev main_v302 : Ref sig .tc := ⟨.hbm, 346, rfl⟩
abbrev main_v303 : Ref sig .tc := ⟨.hbm, 347, rfl⟩
abbrev main_v304 : Ref sig .tc := ⟨.hbm, 348, rfl⟩
abbrev main_v305 : Ref sig .tc := ⟨.hbm, 349, rfl⟩
abbrev main_v306 : Ref sig .tc := ⟨.hbm, 350, rfl⟩
abbrev main_v307 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_c_28 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_v319 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_c_29 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_c_30 : Ref sig .tc := ⟨.hbm, 395, rfl⟩
abbrev main_v349 : Ref sig .tc := ⟨.hbm, 396, rfl⟩
abbrev main_v350 : Ref sig .tc := ⟨.hbm, 397, rfl⟩
abbrev main_v351 : Ref sig .tc := ⟨.hbm, 398, rfl⟩
abbrev main_v352 : Ref sig .tc := ⟨.hbm, 399, rfl⟩
abbrev main_v353 : Ref sig .tc := ⟨.hbm, 400, rfl⟩
abbrev main_v354 : Ref sig .tc := ⟨.hbm, 401, rfl⟩
abbrev main_v355 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_v366 : Ref sig .tc := ⟨.hbm, 413, rfl⟩
abbrev main_v367 : Ref sig .tc := ⟨.hbm, 414, rfl⟩
abbrev main_c_31 : Ref sig .tc := ⟨.hbm, 415, rfl⟩
abbrev main_v368 : Ref sig .tc := ⟨.hbm, 416, rfl⟩
abbrev main_v369 : Ref sig .tc := ⟨.hbm, 417, rfl⟩
abbrev main_v370 : Ref sig .tc := ⟨.hbm, 418, rfl⟩
abbrev main_v371 : Ref sig .tc := ⟨.hbm, 419, rfl⟩
abbrev main_v372 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_v376 : Ref sig .tc := ⟨.hbm, 424, rfl⟩
abbrev main_v377 : Ref sig .tc := ⟨.hbm, 425, rfl⟩
abbrev main_v378 : Ref sig .tc := ⟨.hbm, 426, rfl⟩
abbrev main_v379 : Ref sig .tc := ⟨.hbm, 427, rfl⟩
abbrev main_v380 : Ref sig .tc := ⟨.hbm, 428, rfl⟩
abbrev main_v381 : Ref sig .tc := ⟨.hbm, 429, rfl⟩
abbrev main_v382 : Ref sig .tc := ⟨.hbm, 430, rfl⟩
abbrev main_v383 : Ref sig .tc := ⟨.hbm, 431, rfl⟩
abbrev main_v384 : Ref sig .tc := ⟨.hbm, 432, rfl⟩
abbrev main_v385 : Ref sig .tc := ⟨.hbm, 433, rfl⟩
abbrev main_v386 : Ref sig .tc := ⟨.hbm, 434, rfl⟩
abbrev main_c_32 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_v391 : Ref sig .tc := ⟨.hbm, 440, rfl⟩
abbrev main_v392 : Ref sig .tc := ⟨.hbm, 441, rfl⟩
abbrev main_v393 : Ref sig .tc := ⟨.hbm, 442, rfl⟩
abbrev main_v394 : Ref sig .tc := ⟨.hbm, 443, rfl⟩
abbrev main_v395 : Ref sig .tc := ⟨.hbm, 444, rfl⟩
abbrev main_v396 : Ref sig .tc := ⟨.hbm, 445, rfl⟩
abbrev main_v397 : Ref sig .tc := ⟨.hbm, 446, rfl⟩
abbrev main_v398 : Ref sig .tc := ⟨.hbm, 447, rfl⟩
abbrev main_v399 : Ref sig .tc := ⟨.hbm, 448, rfl⟩
abbrev main_v400 : Ref sig .tc := ⟨.hbm, 449, rfl⟩
abbrev main_v401 : Ref sig .tc := ⟨.hbm, 450, rfl⟩
abbrev main_v402 : Ref sig .tc := ⟨.hbm, 451, rfl⟩
abbrev main_v403 : Ref sig .tc := ⟨.hbm, 452, rfl⟩
abbrev main_v404 : Ref sig .tc := ⟨.hbm, 453, rfl⟩
abbrev main_v405 : Ref sig .tc := ⟨.hbm, 454, rfl⟩
abbrev main_c_33 : Ref sig .tc := ⟨.hbm, 455, rfl⟩
abbrev main_v406 : Ref sig .tc := ⟨.hbm, 456, rfl⟩
abbrev main_v407 : Ref sig .tc := ⟨.hbm, 457, rfl⟩
abbrev main_v408 : Ref sig .tc := ⟨.hbm, 458, rfl⟩
abbrev main_v409 : Ref sig .tc := ⟨.hbm, 459, rfl⟩
abbrev main_v410 : Ref sig .tc := ⟨.hbm, 460, rfl⟩
abbrev main_v411 : Ref sig .tc := ⟨.hbm, 461, rfl⟩
abbrev main_v412 : Ref sig .tc := ⟨.hbm, 462, rfl⟩
abbrev main_v413 : Ref sig .tc := ⟨.hbm, 463, rfl⟩
abbrev main_v414 : Ref sig .tc := ⟨.hbm, 464, rfl⟩
abbrev main_v415 : Ref sig .tc := ⟨.hbm, 465, rfl⟩
abbrev main_v416 : Ref sig .tc := ⟨.hbm, 466, rfl⟩
abbrev main_v417 : Ref sig .tc := ⟨.hbm, 467, rfl⟩
abbrev main_v418 : Ref sig .tc := ⟨.hbm, 468, rfl⟩
abbrev main_v419 : Ref sig .tc := ⟨.hbm, 469, rfl⟩
abbrev main_v420 : Ref sig .tc := ⟨.hbm, 470, rfl⟩
abbrev main_v421 : Ref sig .tc := ⟨.hbm, 471, rfl⟩
abbrev main_v422 : Ref sig .tc := ⟨.hbm, 472, rfl⟩
abbrev main_v423 : Ref sig .tc := ⟨.hbm, 473, rfl⟩
abbrev main_v424 : Ref sig .tc := ⟨.hbm, 474, rfl⟩
abbrev main_c_34 : Ref sig .tc := ⟨.hbm, 475, rfl⟩
abbrev main_v425 : Ref sig .tc := ⟨.hbm, 476, rfl⟩
abbrev main_v426 : Ref sig .tc := ⟨.hbm, 477, rfl⟩
abbrev main_v427 : Ref sig .tc := ⟨.hbm, 478, rfl⟩
abbrev main_v428 : Ref sig .tc := ⟨.hbm, 479, rfl⟩
abbrev main_v429 : Ref sig .tc := ⟨.hbm, 480, rfl⟩
abbrev main_v430 : Ref sig .tc := ⟨.hbm, 481, rfl⟩
abbrev main_v431 : Ref sig .tc := ⟨.hbm, 482, rfl⟩
abbrev main_v432 : Ref sig .tc := ⟨.hbm, 483, rfl⟩
abbrev main_v433 : Ref sig .tc := ⟨.hbm, 484, rfl⟩
abbrev main_v434 : Ref sig .tc := ⟨.hbm, 485, rfl⟩
abbrev main_v435 : Ref sig .tc := ⟨.hbm, 486, rfl⟩
abbrev main_v436 : Ref sig .tc := ⟨.hbm, 487, rfl⟩
abbrev main_v437 : Ref sig .tc := ⟨.hbm, 488, rfl⟩
abbrev main_v438 : Ref sig .tc := ⟨.hbm, 489, rfl⟩
abbrev main_v439 : Ref sig .tc := ⟨.hbm, 490, rfl⟩
abbrev main_v440 : Ref sig .tc := ⟨.hbm, 491, rfl⟩
abbrev main_v441 : Ref sig .tc := ⟨.hbm, 492, rfl⟩
abbrev main_v442 : Ref sig .tc := ⟨.hbm, 493, rfl⟩
abbrev main_v443 : Ref sig .tc := ⟨.hbm, 494, rfl⟩
abbrev main_c_35 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_v450 : Ref sig .tc := ⟨.hbm, 502, rfl⟩
abbrev main_v451 : Ref sig .tc := ⟨.hbm, 503, rfl⟩
abbrev main_v452 : Ref sig .tc := ⟨.hbm, 504, rfl⟩
abbrev main_v453 : Ref sig .tc := ⟨.hbm, 505, rfl⟩
abbrev main_v454 : Ref sig .tc := ⟨.hbm, 506, rfl⟩
abbrev main_v455 : Ref sig .tc := ⟨.hbm, 507, rfl⟩
abbrev main_v456 : Ref sig .tc := ⟨.hbm, 508, rfl⟩
abbrev main_v457 : Ref sig .tc := ⟨.hbm, 509, rfl⟩
abbrev main_v458 : Ref sig .tc := ⟨.hbm, 510, rfl⟩
abbrev main_v459 : Ref sig .tc := ⟨.hbm, 511, rfl⟩
abbrev main_v460 : Ref sig .tc := ⟨.hbm, 512, rfl⟩
abbrev main_v461 : Ref sig .tc := ⟨.hbm, 513, rfl⟩
abbrev main_v462 : Ref sig .tc := ⟨.hbm, 514, rfl⟩
abbrev main_v463 : Ref sig .tc := ⟨.hbm, 515, rfl⟩
abbrev main_v464 : Ref sig .tc := ⟨.hbm, 516, rfl⟩
abbrev main_cst_36 : Ref sig .tc := ⟨.hbm, 517, rfl⟩
abbrev main_v465 : Ref sig .tc := ⟨.hbm, 518, rfl⟩
abbrev main_v466 : Ref sig .tc := ⟨.hbm, 519, rfl⟩
abbrev main_cst_37 : Ref sig .tc := ⟨.hbm, 520, rfl⟩
abbrev main_v467 : Ref sig .tc := ⟨.hbm, 521, rfl⟩
abbrev main_v468 : Ref sig .tc := ⟨.hbm, 522, rfl⟩
abbrev main_v469 : Ref sig .tc := ⟨.hbm, 523, rfl⟩
abbrev main_v470 : Ref sig .tc := ⟨.hbm, 524, rfl⟩
abbrev main_v471 : Ref sig .tc := ⟨.hbm, 525, rfl⟩
abbrev main_cst_38 : Ref sig .tc := ⟨.hbm, 526, rfl⟩
abbrev main_v472 : Ref sig .tc := ⟨.hbm, 527, rfl⟩
abbrev main_v473 : Ref sig .tc := ⟨.hbm, 528, rfl⟩
abbrev main_v474 : Ref sig .tc := ⟨.hbm, 529, rfl⟩
abbrev main_v475 : Ref sig .tc := ⟨.hbm, 530, rfl⟩
abbrev main_c_39 : Ref sig .tc := ⟨.hbm, 531, rfl⟩
abbrev main_v476 : Ref sig .tc := ⟨.hbm, 532, rfl⟩
abbrev main_v477 : Ref sig .tc := ⟨.hbm, 533, rfl⟩
abbrev main_c_40 : Ref sig .tc := ⟨.hbm, 534, rfl⟩
abbrev main_v478 : Ref sig .tc := ⟨.hbm, 535, rfl⟩
abbrev main_v479 : Ref sig .tc := ⟨.hbm, 536, rfl⟩
abbrev main_v480 : Ref sig .tc := ⟨.hbm, 537, rfl⟩
abbrev main_v481 : Ref sig .tc := ⟨.hbm, 538, rfl⟩
abbrev main_v482 : Ref sig .tc := ⟨.hbm, 539, rfl⟩
abbrev main_cst_41 : Ref sig .tc := ⟨.hbm, 540, rfl⟩
abbrev main_v483 : Ref sig .tc := ⟨.hbm, 541, rfl⟩
abbrev main_v484 : Ref sig .tc := ⟨.hbm, 542, rfl⟩
abbrev main_v485 : Ref sig .tc := ⟨.hbm, 543, rfl⟩
abbrev main_cst_42 : Ref sig .tc := ⟨.hbm, 544, rfl⟩
abbrev main_v486 : Ref sig .tc := ⟨.hbm, 545, rfl⟩
abbrev main_c_43 : Ref sig .tc := ⟨.hbm, 546, rfl⟩
abbrev main_v487 : Ref sig .tc := ⟨.hbm, 547, rfl⟩
abbrev main_v488 : Ref sig .tc := ⟨.hbm, 548, rfl⟩
abbrev main_v489 : Ref sig .tc := ⟨.hbm, 549, rfl⟩
abbrev main_v490 : Ref sig .tc := ⟨.hbm, 550, rfl⟩
abbrev main_v491 : Ref sig .tc := ⟨.hbm, 551, rfl⟩
abbrev main_v492 : Ref sig .tc := ⟨.hbm, 552, rfl⟩
abbrev main_v493 : Ref sig .tc := ⟨.hbm, 553, rfl⟩
abbrev main_v494 : Ref sig .tc := ⟨.hbm, 554, rfl⟩
abbrev main_v495 : Ref sig .tc := ⟨.hbm, 555, rfl⟩
abbrev main_v496 : Ref sig .tc := ⟨.hbm, 556, rfl⟩
abbrev main_v497 : Ref sig .tc := ⟨.hbm, 557, rfl⟩
abbrev main_v498 : Ref sig .tc := ⟨.hbm, 558, rfl⟩
abbrev main_v499 : Ref sig .tc := ⟨.hbm, 559, rfl⟩
abbrev main_v500 : Ref sig .tc := ⟨.hbm, 560, rfl⟩
abbrev main_v501 : Ref sig .tc := ⟨.hbm, 561, rfl⟩
abbrev main_v502 : Ref sig .tc := ⟨.hbm, 562, rfl⟩
abbrev main_v503 : Ref sig .tc := ⟨.hbm, 563, rfl⟩
abbrev main_v504 : Ref sig .tc := ⟨.hbm, 564, rfl⟩
abbrev main_v505 : Ref sig .tc := ⟨.hbm, 565, rfl⟩
abbrev main_c_44 : Ref sig .tc := ⟨.hbm, 566, rfl⟩
abbrev main_v506 : Ref sig .tc := ⟨.hbm, 567, rfl⟩
abbrev main_v507 : Ref sig .tc := ⟨.hbm, 568, rfl⟩
abbrev main_v508 : Ref sig .tc := ⟨.hbm, 569, rfl⟩
abbrev main_v509 : Ref sig .tc := ⟨.hbm, 570, rfl⟩
abbrev main_v510 : Ref sig .tc := ⟨.hbm, 571, rfl⟩
abbrev main_v511 : Ref sig .tc := ⟨.hbm, 572, rfl⟩
abbrev main_v512 : Ref sig .tc := ⟨.hbm, 573, rfl⟩
abbrev main_v513 : Ref sig .tc := ⟨.hbm, 574, rfl⟩
abbrev main_v514 : Ref sig .tc := ⟨.hbm, 575, rfl⟩
abbrev main_v515 : Ref sig .tc := ⟨.hbm, 576, rfl⟩
abbrev main_v516 : Ref sig .tc := ⟨.hbm, 577, rfl⟩
abbrev main_v517 : Ref sig .tc := ⟨.hbm, 578, rfl⟩
abbrev main_v518 : Ref sig .tc := ⟨.hbm, 579, rfl⟩
abbrev main_v519 : Ref sig .tc := ⟨.hbm, 580, rfl⟩
abbrev main_v520 : Ref sig .tc := ⟨.hbm, 581, rfl⟩
abbrev main_v521 : Ref sig .tc := ⟨.hbm, 582, rfl⟩
abbrev main_v522 : Ref sig .tc := ⟨.hbm, 583, rfl⟩
abbrev main_v523 : Ref sig .tc := ⟨.hbm, 584, rfl⟩
abbrev main_v524 : Ref sig .tc := ⟨.hbm, 585, rfl⟩
abbrev main_c_45 : Ref sig .tc := ⟨.hbm, 586, rfl⟩
abbrev main_v525 : Ref sig .tc := ⟨.hbm, 587, rfl⟩
abbrev main_v526 : Ref sig .tc := ⟨.hbm, 588, rfl⟩
abbrev main_v527 : Ref sig .tc := ⟨.hbm, 589, rfl⟩
abbrev main_v528 : Ref sig .tc := ⟨.hbm, 590, rfl⟩
abbrev main_v529 : Ref sig .tc := ⟨.hbm, 591, rfl⟩
abbrev main_v530 : Ref sig .tc := ⟨.hbm, 592, rfl⟩
abbrev main_v531 : Ref sig .tc := ⟨.hbm, 593, rfl⟩
abbrev main_v532 : Ref sig .tc := ⟨.hbm, 594, rfl⟩
abbrev main_v533 : Ref sig .tc := ⟨.hbm, 595, rfl⟩
abbrev main_v534 : Ref sig .tc := ⟨.hbm, 596, rfl⟩
abbrev main_v535 : Ref sig .tc := ⟨.hbm, 597, rfl⟩
abbrev main_v536 : Ref sig .tc := ⟨.hbm, 598, rfl⟩
abbrev main_v537 : Ref sig .tc := ⟨.hbm, 599, rfl⟩
abbrev main_v538 : Ref sig .tc := ⟨.hbm, 600, rfl⟩
abbrev main_v539 : Ref sig .tc := ⟨.hbm, 601, rfl⟩
abbrev main_v540 : Ref sig .tc := ⟨.hbm, 602, rfl⟩
abbrev main_v541 : Ref sig .tc := ⟨.hbm, 603, rfl⟩
abbrev main_v542 : Ref sig .tc := ⟨.hbm, 604, rfl⟩
abbrev main_v543 : Ref sig .tc := ⟨.hbm, 605, rfl⟩
abbrev main_c_46 : Ref sig .tc := ⟨.hbm, 606, rfl⟩
abbrev main_v544 : Ref sig .tc := ⟨.hbm, 607, rfl⟩
abbrev main_v545 : Ref sig .tc := ⟨.hbm, 608, rfl⟩
abbrev main_v546 : Ref sig .tc := ⟨.hbm, 609, rfl⟩
abbrev main_v547 : Ref sig .tc := ⟨.hbm, 610, rfl⟩
abbrev main_v548 : Ref sig .tc := ⟨.hbm, 611, rfl⟩
abbrev main_v549 : Ref sig .tc := ⟨.hbm, 612, rfl⟩
abbrev main_v550 : Ref sig .tc := ⟨.hbm, 613, rfl⟩
abbrev main_v551 : Ref sig .tc := ⟨.hbm, 614, rfl⟩
abbrev main_v552 : Ref sig .tc := ⟨.hbm, 615, rfl⟩
abbrev main_v553 : Ref sig .tc := ⟨.hbm, 616, rfl⟩
abbrev main_v554 : Ref sig .tc := ⟨.hbm, 617, rfl⟩
abbrev main_v555 : Ref sig .tc := ⟨.hbm, 618, rfl⟩
abbrev main_v556 : Ref sig .tc := ⟨.hbm, 619, rfl⟩
abbrev main_v557 : Ref sig .tc := ⟨.hbm, 620, rfl⟩
abbrev main_v558 : Ref sig .tc := ⟨.hbm, 621, rfl⟩
abbrev main_v559 : Ref sig .tc := ⟨.hbm, 622, rfl⟩
abbrev main_v560 : Ref sig .tc := ⟨.hbm, 623, rfl⟩
abbrev main_v561 : Ref sig .tc := ⟨.hbm, 624, rfl⟩
abbrev main_v562 : Ref sig .tc := ⟨.hbm, 625, rfl⟩
abbrev main_c_47 : Ref sig .tc := ⟨.hbm, 626, rfl⟩
abbrev main_v563 : Ref sig .tc := ⟨.hbm, 627, rfl⟩
abbrev main_v564 : Ref sig .tc := ⟨.hbm, 628, rfl⟩
abbrev main_v565 : Ref sig .tc := ⟨.hbm, 629, rfl⟩
abbrev main_v566 : Ref sig .tc := ⟨.hbm, 630, rfl⟩
abbrev main_v567 : Ref sig .tc := ⟨.hbm, 631, rfl⟩
abbrev main_v568 : Ref sig .tc := ⟨.hbm, 632, rfl⟩
abbrev main_v569 : Ref sig .tc := ⟨.hbm, 633, rfl⟩
abbrev main_v570 : Ref sig .tc := ⟨.hbm, 634, rfl⟩
abbrev main_v571 : Ref sig .tc := ⟨.hbm, 635, rfl⟩
abbrev main_v572 : Ref sig .tc := ⟨.hbm, 636, rfl⟩
abbrev main_v573 : Ref sig .tc := ⟨.hbm, 637, rfl⟩
abbrev main_v574 : Ref sig .tc := ⟨.hbm, 638, rfl⟩
abbrev main_v575 : Ref sig .tc := ⟨.hbm, 639, rfl⟩
abbrev main_v576 : Ref sig .tc := ⟨.hbm, 640, rfl⟩
abbrev main_v577 : Ref sig .tc := ⟨.hbm, 641, rfl⟩
abbrev main_v578 : Ref sig .tc := ⟨.hbm, 642, rfl⟩
abbrev main_v579 : Ref sig .tc := ⟨.hbm, 643, rfl⟩
abbrev main_v580 : Ref sig .tc := ⟨.hbm, 644, rfl⟩
abbrev main_v581 : Ref sig .tc := ⟨.hbm, 645, rfl⟩
abbrev main_c_48 : Ref sig .tc := ⟨.hbm, 646, rfl⟩
abbrev main_v582 : Ref sig .tc := ⟨.hbm, 647, rfl⟩
abbrev main_v583 : Ref sig .tc := ⟨.hbm, 648, rfl⟩
abbrev main_v584 : Ref sig .tc := ⟨.hbm, 649, rfl⟩
abbrev main_v585 : Ref sig .tc := ⟨.hbm, 650, rfl⟩
abbrev main_v586 : Ref sig .tc := ⟨.hbm, 651, rfl⟩
abbrev main_v587 : Ref sig .tc := ⟨.hbm, 652, rfl⟩
abbrev main_v588 : Ref sig .tc := ⟨.hbm, 653, rfl⟩
abbrev main_v589 : Ref sig .tc := ⟨.hbm, 654, rfl⟩
abbrev main_v590 : Ref sig .tc := ⟨.hbm, 655, rfl⟩
abbrev main_v591 : Ref sig .tc := ⟨.hbm, 656, rfl⟩
abbrev main_v592 : Ref sig .tc := ⟨.hbm, 657, rfl⟩
abbrev main_v593 : Ref sig .tc := ⟨.hbm, 658, rfl⟩
abbrev main_v594 : Ref sig .tc := ⟨.hbm, 659, rfl⟩
abbrev main_v595 : Ref sig .tc := ⟨.hbm, 660, rfl⟩
abbrev main_v596 : Ref sig .tc := ⟨.hbm, 661, rfl⟩
abbrev main_v597 : Ref sig .tc := ⟨.hbm, 662, rfl⟩
abbrev main_v598 : Ref sig .tc := ⟨.hbm, 663, rfl⟩
abbrev main_v599 : Ref sig .tc := ⟨.hbm, 664, rfl⟩
abbrev main_v600 : Ref sig .tc := ⟨.hbm, 665, rfl⟩
abbrev main_c_49 : Ref sig .tc := ⟨.hbm, 666, rfl⟩
abbrev main_v601 : Ref sig .tc := ⟨.hbm, 667, rfl⟩
abbrev main_v602 : Ref sig .tc := ⟨.hbm, 668, rfl⟩
abbrev main_v603 : Ref sig .tc := ⟨.hbm, 669, rfl⟩
abbrev main_v604 : Ref sig .tc := ⟨.hbm, 670, rfl⟩
abbrev main_v605 : Ref sig .tc := ⟨.hbm, 671, rfl⟩
abbrev main_v606 : Ref sig .tc := ⟨.hbm, 672, rfl⟩
abbrev main_v607 : Ref sig .tc := ⟨.hbm, 673, rfl⟩
abbrev main_v608 : Ref sig .tc := ⟨.hbm, 674, rfl⟩
abbrev main_v609 : Ref sig .tc := ⟨.hbm, 675, rfl⟩
abbrev main_v610 : Ref sig .tc := ⟨.hbm, 676, rfl⟩
abbrev main_v611 : Ref sig .tc := ⟨.hbm, 677, rfl⟩
abbrev main_v612 : Ref sig .tc := ⟨.hbm, 678, rfl⟩
abbrev main_v613 : Ref sig .tc := ⟨.hbm, 679, rfl⟩
abbrev main_v614 : Ref sig .tc := ⟨.hbm, 680, rfl⟩
abbrev main_v615 : Ref sig .tc := ⟨.hbm, 681, rfl⟩
abbrev main_v616 : Ref sig .tc := ⟨.hbm, 682, rfl⟩
abbrev main_v617 : Ref sig .tc := ⟨.hbm, 683, rfl⟩
abbrev main_v618 : Ref sig .tc := ⟨.hbm, 684, rfl⟩
abbrev main_v619 : Ref sig .tc := ⟨.hbm, 685, rfl⟩
abbrev main_c_50 : Ref sig .tc := ⟨.hbm, 686, rfl⟩
abbrev main_v620 : Ref sig .tc := ⟨.hbm, 687, rfl⟩
abbrev main_v621 : Ref sig .tc := ⟨.hbm, 688, rfl⟩
abbrev main_v622 : Ref sig .tc := ⟨.hbm, 689, rfl⟩
abbrev main_v623 : Ref sig .tc := ⟨.hbm, 690, rfl⟩
abbrev main_v624 : Ref sig .tc := ⟨.hbm, 691, rfl⟩
abbrev main_v625 : Ref sig .tc := ⟨.hbm, 692, rfl⟩
abbrev main_v626 : Ref sig .tc := ⟨.hbm, 693, rfl⟩
abbrev main_v627 : Ref sig .tc := ⟨.hbm, 694, rfl⟩
abbrev main_v628 : Ref sig .tc := ⟨.hbm, 695, rfl⟩
abbrev main_v629 : Ref sig .tc := ⟨.hbm, 696, rfl⟩
abbrev main_v630 : Ref sig .tc := ⟨.hbm, 697, rfl⟩
abbrev main_v631 : Ref sig .tc := ⟨.hbm, 698, rfl⟩
abbrev main_v632 : Ref sig .tc := ⟨.hbm, 699, rfl⟩
abbrev main_v633 : Ref sig .tc := ⟨.hbm, 700, rfl⟩
abbrev main_v634 : Ref sig .tc := ⟨.hbm, 701, rfl⟩
abbrev main_v635 : Ref sig .tc := ⟨.hbm, 702, rfl⟩
abbrev main_v636 : Ref sig .tc := ⟨.hbm, 703, rfl⟩
abbrev main_v637 : Ref sig .tc := ⟨.hbm, 704, rfl⟩
abbrev main_v638 : Ref sig .tc := ⟨.hbm, 705, rfl⟩
abbrev main_c_51 : Ref sig .tc := ⟨.hbm, 706, rfl⟩
abbrev main_v639 : Ref sig .tc := ⟨.hbm, 707, rfl⟩
abbrev main_v640 : Ref sig .tc := ⟨.hbm, 708, rfl⟩
abbrev main_v641 : Ref sig .tc := ⟨.hbm, 709, rfl⟩
abbrev main_v642 : Ref sig .tc := ⟨.hbm, 710, rfl⟩
abbrev main_v643 : Ref sig .tc := ⟨.hbm, 711, rfl⟩
abbrev main_v644 : Ref sig .tc := ⟨.hbm, 712, rfl⟩
abbrev main_v645 : Ref sig .tc := ⟨.hbm, 713, rfl⟩
abbrev main_v646 : Ref sig .tc := ⟨.hbm, 714, rfl⟩
abbrev main_v647 : Ref sig .tc := ⟨.hbm, 715, rfl⟩
abbrev main_v648 : Ref sig .tc := ⟨.hbm, 716, rfl⟩
abbrev main_v649 : Ref sig .tc := ⟨.hbm, 717, rfl⟩
abbrev main_v650 : Ref sig .tc := ⟨.hbm, 718, rfl⟩
abbrev main_v651 : Ref sig .tc := ⟨.hbm, 719, rfl⟩
abbrev main_v652 : Ref sig .tc := ⟨.hbm, 720, rfl⟩
abbrev main_v653 : Ref sig .tc := ⟨.hbm, 721, rfl⟩
abbrev main_v654 : Ref sig .tc := ⟨.hbm, 722, rfl⟩
abbrev main_v655 : Ref sig .tc := ⟨.hbm, 723, rfl⟩
abbrev main_v656 : Ref sig .tc := ⟨.hbm, 724, rfl⟩
abbrev main_v657 : Ref sig .tc := ⟨.hbm, 725, rfl⟩
abbrev main_c_52 : Ref sig .tc := ⟨.hbm, 726, rfl⟩
abbrev main_v658 : Ref sig .tc := ⟨.hbm, 727, rfl⟩
abbrev main_v659 : Ref sig .tc := ⟨.hbm, 728, rfl⟩
abbrev main_v660 : Ref sig .tc := ⟨.hbm, 729, rfl⟩
abbrev main_v661 : Ref sig .tc := ⟨.hbm, 730, rfl⟩
abbrev main_v662 : Ref sig .tc := ⟨.hbm, 731, rfl⟩
abbrev main_v663 : Ref sig .tc := ⟨.hbm, 732, rfl⟩
abbrev main_v664 : Ref sig .tc := ⟨.hbm, 733, rfl⟩
abbrev main_v665 : Ref sig .tc := ⟨.hbm, 734, rfl⟩
abbrev main_v666 : Ref sig .tc := ⟨.hbm, 735, rfl⟩
abbrev main_v667 : Ref sig .tc := ⟨.hbm, 736, rfl⟩
abbrev main_v668 : Ref sig .tc := ⟨.hbm, 737, rfl⟩
abbrev main_v669 : Ref sig .tc := ⟨.hbm, 738, rfl⟩
abbrev main_v670 : Ref sig .tc := ⟨.hbm, 739, rfl⟩
abbrev main_v671 : Ref sig .tc := ⟨.hbm, 740, rfl⟩
abbrev main_v672 : Ref sig .tc := ⟨.hbm, 741, rfl⟩
abbrev main_v673 : Ref sig .tc := ⟨.hbm, 742, rfl⟩
abbrev main_v674 : Ref sig .tc := ⟨.hbm, 743, rfl⟩
abbrev main_v675 : Ref sig .tc := ⟨.hbm, 744, rfl⟩
abbrev main_v676 : Ref sig .tc := ⟨.hbm, 745, rfl⟩
abbrev main_c_53 : Ref sig .tc := ⟨.hbm, 746, rfl⟩
abbrev main_v677 : Ref sig .tc := ⟨.hbm, 747, rfl⟩
abbrev main_v678 : Ref sig .tc := ⟨.hbm, 748, rfl⟩
abbrev main_v679 : Ref sig .tc := ⟨.hbm, 749, rfl⟩
abbrev main_v680 : Ref sig .tc := ⟨.hbm, 750, rfl⟩
abbrev main_v681 : Ref sig .tc := ⟨.hbm, 751, rfl⟩
abbrev main_v682 : Ref sig .tc := ⟨.hbm, 752, rfl⟩
abbrev main_v683 : Ref sig .tc := ⟨.hbm, 753, rfl⟩
abbrev main_v684 : Ref sig .tc := ⟨.hbm, 754, rfl⟩
abbrev main_v685 : Ref sig .tc := ⟨.hbm, 755, rfl⟩
abbrev main_v686 : Ref sig .tc := ⟨.hbm, 756, rfl⟩
abbrev main_v687 : Ref sig .tc := ⟨.hbm, 757, rfl⟩
abbrev main_v688 : Ref sig .tc := ⟨.hbm, 758, rfl⟩
abbrev main_v689 : Ref sig .tc := ⟨.hbm, 759, rfl⟩
abbrev main_v690 : Ref sig .tc := ⟨.hbm, 760, rfl⟩
abbrev main_v691 : Ref sig .tc := ⟨.hbm, 761, rfl⟩
abbrev main_v692 : Ref sig .tc := ⟨.hbm, 762, rfl⟩
abbrev main_v693 : Ref sig .tc := ⟨.hbm, 763, rfl⟩
abbrev main_v694 : Ref sig .tc := ⟨.hbm, 764, rfl⟩
abbrev main_v695 : Ref sig .tc := ⟨.hbm, 765, rfl⟩
abbrev main_v696 : Ref sig .tc := ⟨.hbm, 766, rfl⟩
abbrev main_v697 : Ref sig .tc := ⟨.hbm, 767, rfl⟩
abbrev main_cst_54 : Ref sig .tc := ⟨.hbm, 768, rfl⟩
abbrev main_v698 : Ref sig .tc := ⟨.hbm, 769, rfl⟩
abbrev main_v699 : Ref sig .tc := ⟨.hbm, 770, rfl⟩
abbrev main_cst_55 : Ref sig .tc := ⟨.hbm, 771, rfl⟩
abbrev main_v700 : Ref sig .tc := ⟨.hbm, 772, rfl⟩
abbrev main_v701 : Ref sig .tc := ⟨.hbm, 773, rfl⟩
abbrev main_v702 : Ref sig .tc := ⟨.hbm, 774, rfl⟩
abbrev main_v703 : Ref sig .tc := ⟨.hbm, 775, rfl⟩
abbrev main_v704 : Ref sig .tc := ⟨.hbm, 776, rfl⟩
abbrev main_cst_56 : Ref sig .tc := ⟨.hbm, 777, rfl⟩
abbrev main_v705 : Ref sig .tc := ⟨.hbm, 778, rfl⟩
abbrev main_v706 : Ref sig .tc := ⟨.hbm, 779, rfl⟩
abbrev main_v707 : Ref sig .tc := ⟨.hbm, 780, rfl⟩
abbrev main_v708 : Ref sig .tc := ⟨.hbm, 781, rfl⟩
abbrev main_v709 : Ref sig .tc := ⟨.hbm, 782, rfl⟩
abbrev main_v710 : Ref sig .tc := ⟨.hbm, 783, rfl⟩
abbrev main_v711 : Ref sig .tc := ⟨.hbm, 784, rfl⟩
abbrev main_v712 : Ref sig .tc := ⟨.hbm, 785, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S512x64 : S_.BroadcastsInDim S512x64 (![] : Fin 0 → Fin S512x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  slices_S3x11x64x64_S1x1x64x64_0_0_0_0 : S3x11x64x64.Slices ![0, 0, 0, 0] S1x1x64x64
  shapeCasts_S1x1x64x64_S64x64 : S1x1x64x64.ShapeCasts S64x64
  slices_S3x11x64_S1x1x64_0_0_0 : S3x11x64.Slices ![0, 0, 0] S1x1x64
  shapeCasts_S1x1x64_S64 : S1x1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  slices_S3x11x64x64_S1x1x64x64_0_1_0_0 : S3x11x64x64.Slices ![0, 1, 0, 0] S1x1x64x64
  slices_S3x11x64_S1x1x64_0_1_0 : S3x11x64.Slices ![0, 1, 0] S1x1x64
  slices_S3x11x64x64_S1x1x64x64_0_2_0_0 : S3x11x64x64.Slices ![0, 2, 0, 0] S1x1x64x64
  slices_S3x11x64_S1x1x64_0_2_0 : S3x11x64.Slices ![0, 2, 0] S1x1x64
  slices_S3x11x64x64_S1x1x64x64_0_3_0_0 : S3x11x64x64.Slices ![0, 3, 0, 0] S1x1x64x64
  slices_S3x11x64_S1x1x64_0_3_0 : S3x11x64.Slices ![0, 3, 0] S1x1x64
  slices_S3x11x64x64_S1x1x64x64_0_4_0_0 : S3x11x64x64.Slices ![0, 4, 0, 0] S1x1x64x64
  slices_S3x11x64_S1x1x64_0_4_0 : S3x11x64.Slices ![0, 4, 0] S1x1x64
  slices_S3x11x64x64_S1x1x64x64_0_5_0_0 : S3x11x64x64.Slices ![0, 5, 0, 0] S1x1x64x64
  slices_S3x11x64_S1x1x64_0_5_0 : S3x11x64.Slices ![0, 5, 0] S1x1x64
  slices_S3x11x64x64_S1x1x64x64_0_6_0_0 : S3x11x64x64.Slices ![0, 6, 0, 0] S1x1x64x64
  slices_S3x11x64_S1x1x64_0_6_0 : S3x11x64.Slices ![0, 6, 0] S1x1x64
  slices_S3x11x64x64_S1x1x64x64_0_7_0_0 : S3x11x64x64.Slices ![0, 7, 0, 0] S1x1x64x64
  slices_S3x11x64_S1x1x64_0_7_0 : S3x11x64.Slices ![0, 7, 0] S1x1x64
  slices_S3x11x64x64_S1x1x64x64_0_8_0_0 : S3x11x64x64.Slices ![0, 8, 0, 0] S1x1x64x64
  slices_S3x11x64_S1x1x64_0_8_0 : S3x11x64.Slices ![0, 8, 0] S1x1x64
  slices_S3x11x64x64_S1x1x64x64_0_9_0_0 : S3x11x64x64.Slices ![0, 9, 0, 0] S1x1x64x64
  slices_S3x11x64_S1x1x64_0_9_0 : S3x11x64.Slices ![0, 9, 0] S1x1x64
  slices_S3x11x64x64_S1x1x64x64_0_10_0_0 : S3x11x64x64.Slices ![0, 10, 0, 0] S1x1x64x64
  slices_S3x11x64_S1x1x64_0_10_0 : S3x11x64.Slices ![0, 10, 0] S1x1x64
  slices_S3x64x64_S1x64x64_0_0_0 : S3x64x64.Slices ![0, 0, 0] S1x64x64
  shapeCasts_S1x64x64_S64x64 : S1x64x64.ShapeCasts S64x64
  slices_S3x11x64x64_S1x1x64x64_1_0_0_0 : S3x11x64x64.Slices ![1, 0, 0, 0] S1x1x64x64
  slices_S3x11x64_S1x1x64_1_0_0 : S3x11x64.Slices ![1, 0, 0] S1x1x64
  slices_S3x11x64x64_S1x1x64x64_1_1_0_0 : S3x11x64x64.Slices ![1, 1, 0, 0] S1x1x64x64
  slices_S3x11x64_S1x1x64_1_1_0 : S3x11x64.Slices ![1, 1, 0] S1x1x64
  slices_S3x11x64x64_S1x1x64x64_1_2_0_0 : S3x11x64x64.Slices ![1, 2, 0, 0] S1x1x64x64
  slices_S3x11x64_S1x1x64_1_2_0 : S3x11x64.Slices ![1, 2, 0] S1x1x64
  slices_S3x11x64x64_S1x1x64x64_1_3_0_0 : S3x11x64x64.Slices ![1, 3, 0, 0] S1x1x64x64
  slices_S3x11x64_S1x1x64_1_3_0 : S3x11x64.Slices ![1, 3, 0] S1x1x64
  slices_S3x11x64x64_S1x1x64x64_1_4_0_0 : S3x11x64x64.Slices ![1, 4, 0, 0] S1x1x64x64
  slices_S3x11x64_S1x1x64_1_4_0 : S3x11x64.Slices ![1, 4, 0] S1x1x64
  slices_S3x11x64x64_S1x1x64x64_1_5_0_0 : S3x11x64x64.Slices ![1, 5, 0, 0] S1x1x64x64
  slices_S3x11x64_S1x1x64_1_5_0 : S3x11x64.Slices ![1, 5, 0] S1x1x64
  slices_S3x11x64x64_S1x1x64x64_1_6_0_0 : S3x11x64x64.Slices ![1, 6, 0, 0] S1x1x64x64
  slices_S3x11x64_S1x1x64_1_6_0 : S3x11x64.Slices ![1, 6, 0] S1x1x64
  slices_S3x11x64x64_S1x1x64x64_1_7_0_0 : S3x11x64x64.Slices ![1, 7, 0, 0] S1x1x64x64
  slices_S3x11x64_S1x1x64_1_7_0 : S3x11x64.Slices ![1, 7, 0] S1x1x64
  slices_S3x11x64x64_S1x1x64x64_1_8_0_0 : S3x11x64x64.Slices ![1, 8, 0, 0] S1x1x64x64
  slices_S3x11x64_S1x1x64_1_8_0 : S3x11x64.Slices ![1, 8, 0] S1x1x64
  slices_S3x11x64x64_S1x1x64x64_1_9_0_0 : S3x11x64x64.Slices ![1, 9, 0, 0] S1x1x64x64
  slices_S3x11x64_S1x1x64_1_9_0 : S3x11x64.Slices ![1, 9, 0] S1x1x64
  slices_S3x11x64x64_S1x1x64x64_1_10_0_0 : S3x11x64x64.Slices ![1, 10, 0, 0] S1x1x64x64
  slices_S3x11x64_S1x1x64_1_10_0 : S3x11x64.Slices ![1, 10, 0] S1x1x64
  slices_S3x64x64_S1x64x64_1_0_0 : S3x64x64.Slices ![1, 0, 0] S1x64x64
  slices_S3x11x64x64_S1x1x64x64_2_0_0_0 : S3x11x64x64.Slices ![2, 0, 0, 0] S1x1x64x64
  slices_S3x11x64_S1x1x64_2_0_0 : S3x11x64.Slices ![2, 0, 0] S1x1x64
  slices_S3x11x64x64_S1x1x64x64_2_1_0_0 : S3x11x64x64.Slices ![2, 1, 0, 0] S1x1x64x64
  slices_S3x11x64_S1x1x64_2_1_0 : S3x11x64.Slices ![2, 1, 0] S1x1x64
  slices_S3x11x64x64_S1x1x64x64_2_2_0_0 : S3x11x64x64.Slices ![2, 2, 0, 0] S1x1x64x64
  slices_S3x11x64_S1x1x64_2_2_0 : S3x11x64.Slices ![2, 2, 0] S1x1x64
  slices_S3x11x64x64_S1x1x64x64_2_3_0_0 : S3x11x64x64.Slices ![2, 3, 0, 0] S1x1x64x64
  slices_S3x11x64_S1x1x64_2_3_0 : S3x11x64.Slices ![2, 3, 0] S1x1x64
  slices_S3x11x64x64_S1x1x64x64_2_4_0_0 : S3x11x64x64.Slices ![2, 4, 0, 0] S1x1x64x64
  slices_S3x11x64_S1x1x64_2_4_0 : S3x11x64.Slices ![2, 4, 0] S1x1x64
  slices_S3x11x64x64_S1x1x64x64_2_5_0_0 : S3x11x64x64.Slices ![2, 5, 0, 0] S1x1x64x64
  slices_S3x11x64_S1x1x64_2_5_0 : S3x11x64.Slices ![2, 5, 0] S1x1x64
  slices_S3x11x64x64_S1x1x64x64_2_6_0_0 : S3x11x64x64.Slices ![2, 6, 0, 0] S1x1x64x64
  slices_S3x11x64_S1x1x64_2_6_0 : S3x11x64.Slices ![2, 6, 0] S1x1x64
  slices_S3x11x64x64_S1x1x64x64_2_7_0_0 : S3x11x64x64.Slices ![2, 7, 0, 0] S1x1x64x64
  slices_S3x11x64_S1x1x64_2_7_0 : S3x11x64.Slices ![2, 7, 0] S1x1x64
  slices_S3x11x64x64_S1x1x64x64_2_8_0_0 : S3x11x64x64.Slices ![2, 8, 0, 0] S1x1x64x64
  slices_S3x11x64_S1x1x64_2_8_0 : S3x11x64.Slices ![2, 8, 0] S1x1x64
  slices_S3x11x64x64_S1x1x64x64_2_9_0_0 : S3x11x64x64.Slices ![2, 9, 0, 0] S1x1x64x64
  slices_S3x11x64_S1x1x64_2_9_0 : S3x11x64.Slices ![2, 9, 0] S1x1x64
  slices_S3x11x64x64_S1x1x64x64_2_10_0_0 : S3x11x64x64.Slices ![2, 10, 0, 0] S1x1x64x64
  slices_S3x11x64_S1x1x64_2_10_0 : S3x11x64.Slices ![2, 10, 0] S1x1x64
  slices_S3x64x64_S1x64x64_2_0_0 : S3x64x64.Slices ![2, 0, 0] S1x64x64
  bcast_S1x64_S512x64_0_1 : S1x64.BroadcastsInDim S512x64 (![0, 1] : Fin 2 → Fin S512x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.ValueRun.lean ====
/-
  The idealized kernel program's run with its whole final memory named. Every weakly fair execution of @main from a
  memory with zero counters terminates without a fault, and every buffer that lives for the whole program — the nine
  arguments, every host result, the three kernels' outputs — ends at the value the fold of @main's segments assigns it:
  the host operations applied in order, each kernel's output arrays at what its grid points wrote back. The frame
  certificate's run keeps of this final memory only the nine arguments; the value claim needs the result buffer too,
  so the same launch is stated here with the final memory kept whole, and the result and the arguments are read off it.
-/
import proofs.«161618_j71751723647734_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the final memory whole: on every core, every buffer that lives for the whole program ends at the
    last segment boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c b hb)

/-- The run read at the result buffer and at the nine arguments: the result ends at the fold's value, the arguments as
    launched. -/
theorem run_result : θ_run defs (onTc (τ := τ) (main (F := F))) ⟨m, fun _ => 0, ρ⟩ (fun r => ∀ c : Dev nD,
      r.2.mem ((c.tc : Thread nD τ).loc main_v83) = W9 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v83 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩) (run_final m ρ)

end Cert.KernelIdeal.ValueRun

end
-- ==== Proof.LayerSpec.lean ====
/-
  The mathematics both programs compute for one message-passing layer, stated once, index by index, on the
  extended reals, over plain functions (no program is imported here).

  A node of clamped in-degree `g` with aggregated neighbour row `hr` and own row `xr` (64 features each) gets, at
  output feature `q`, the pre-activation

      z = Σ_{d = 0..10} [g = d] · ((Σ_k hr k · wl d k q + b d q) + Σ_k xr k · wr d k q),

  accumulated bucket by bucket from `0` in the order d = 0, 1, …, 10 (`bucket`, `z`); its new feature is the
  logistic function of `z` (`act`), and its projection at `q` is `Σ_k a k · lw k q` over its new features `a`
  (`proj`). `layerX` and `layerP` are these read over whole arrays of 100000 nodes: row `i 0`, feature `i 1`.
-/
import Idealize.ShloMosaic.PureOps.Ideal
import Idealize.ShloMosaic.Lib.ValueIdx

noncomputable section

namespace Cert.LayerSpec

open Idealize.ShloMosaic Idealize.ShloMosaic.ValueIdx

/-- The indicator of "the clamped degree `g` is `d`", as an extended real. -/
def ind (d g : BitVec 32) : EReal := if g = d then 1 else 0

/-- Bucket `d`'s contribution added to the running pre-activation `acc`: the indicator of degree `d` times
    ((the aggregated row through `wl d`, plus the bias `b d`) plus the node's own row through `wr d`). -/
def bucket (g : BitVec 32) (hr xr : Fin 64 → EReal) (wl wr : Fin 11 → Fin 64 → Fin 64 → EReal) (b : Fin 11 → Fin 64 → EReal)
    (q : Fin 64) (d : Fin 11) (acc : EReal) : EReal :=
  acc + ind (BitVec.ofNat 32 d.val) g * (((∑ k : Fin 64, hr k * wl d k q) + b d q) + ∑ k : Fin 64, xr k * wr d k q)

/-- The pre-activation: the eleven buckets added from `0`, in the order 0, 1, …, 10. -/
def z (g : BitVec 32) (hr xr : Fin 64 → EReal) (wl wr : Fin 11 → Fin 64 → Fin 64 → EReal) (b : Fin 11 → Fin 64 → EReal)
    (q : Fin 64) : EReal :=
  bucket g hr xr wl wr b q 10 (bucket g hr xr wl wr b q 9 (bucket g hr xr wl wr b q 8 (bucket g hr xr wl wr b q 7
    (bucket g hr xr wl wr b q 6 (bucket g hr xr wl wr b q 5 (bucket g hr xr wl wr b q 4 (bucket g hr xr wl wr b q 3
      (bucket g hr xr wl wr b q 2 (bucket g hr xr wl wr b q 1 (bucket g hr xr wl wr b q 0 0))))))))))

/-- The node's new feature `q`: the logistic function of its pre-activation. -/
def act (g : BitVec 32) (hr xr : Fin 64 → EReal) (wl wr : Fin 11 → Fin 64 → Fin 64 → EReal) (b : Fin 11 → Fin 64 → EReal)
    (q : Fin 64) : EReal :=
  Ideal.logistic (z g hr xr wl wr b q)

/-- The node's projection at `q`: its new features through the layer's projection matrix. -/
def proj (a : Fin 64 → EReal) (lw : Fin 64 → Fin 64 → EReal) (q : Fin 64) : EReal := ∑ k : Fin 64, a k * lw k q

/-- The layer's new features over all nodes: node `i 0`, feature `i 1`, from the clamped degrees `deg`, the
    aggregated rows `h`, the nodes' own rows `x` and the layer's eleven weight pairs and biases. -/
def layerX (deg : Fin 100000 → BitVec 32) (h x : (⟨2, ![100000, 64]⟩ : Shape).Idx → EReal)
    (wl wr : (⟨3, ![11, 64, 64]⟩ : Shape).Idx → EReal) (b : (⟨2, ![11, 64]⟩ : Shape).Idx → EReal) :
    (⟨2, ![100000, 64]⟩ : Shape).Idx → EReal :=
  fun i => act (deg (i 0)) (fun k => h (ix2 (i 0) k)) (fun k => x (ix2 (i 0) k))
    (fun d k q => wl (ix3 d k q)) (fun d k q => wr (ix3 d k q)) (fun d q => b (ix2 d q)) (i 1)

/-- The layer's projections over all nodes, from the new features `a` and the projection matrix `lw`. -/
def layerP (a : (⟨2, ![100000, 64]⟩ : Shape).Idx → EReal) (lw : (⟨2, ![64, 64]⟩ : Shape).Idx → EReal) :
    (⟨2, ![100000, 64]⟩ : Shape).Idx → EReal :=
  fun i => proj (fun k => a (ix2 (i 0) k)) (fun k q => lw (ix2 k q)) (i 1)

/-- Layer `l`'s eleven 64 × 64 weight matrices out of the stacked weights of the three layers. -/
def wslice (l : Fin 3) (w : (⟨4, ![3, 11, 64, 64]⟩ : Shape).Idx → EReal) : (⟨3, ![11, 64, 64]⟩ : Shape).Idx → EReal :=
  fun i => w (ix4 l (i 0) (i 1) (i 2))

/-- Layer `l`'s eleven bias rows out of the stacked biases. -/
def bslice (l : Fin 3) (b : (⟨3, ![3, 11, 64]⟩ : Shape).Idx → EReal) : (⟨2, ![11, 64]⟩ : Shape).Idx → EReal :=
  fun i => b (ix3 l (i 0) (i 1))

/-- Layer `l`'s projection matrix out of the stacked projections. -/
def lslice (l : Fin 3) (w : (⟨3, ![3, 64, 64]⟩ : Shape).Idx → EReal) : (⟨2, ![64, 64]⟩ : Shape).Idx → EReal :=
  fun i => w (ix3 l (i 0) (i 1))

end Cert.LayerSpec

end
-- ==== Proof.KernBucket.lean ====
/-
  The operations the three layer kernels' bodies are made of, read at one index of a block, on the extended reals:
  the degree mask (the one-bit comparison with a constant, widened and converted, is the indicator of equality), a
  column or a row spread over the block, a weight block viewed as a matrix, a product into a zero accumulator (the
  sum over the contracted axis), and a weight or bias block read through its rectangle of the stacked array.
-/
import proofs.«161618_j71751723647734_1_alg».proof.Proof.LayerSpec
import proofs.«161618_j71751723647734_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KernPay

open Cert.KernelIdeal Cert.KernelIdeal.Gen Idealize.ShloMosaic Idealize.ShloMosaic.ValueIdx
open Cert.KernelIdeal.Facts₀ Cert.KernelIdeal.Facts
open Cert.LayerSpec (ind)

/-! ## The degree mask -/

/-- The comparison "`g = c`" as one bit, widened to a word and read as a signed integer, is the indicator of `g = c`. -/
theorem mask_word (c g : BitVec 32) :
    (FloatOps.sitofp (F := Ideal) .f32 ((IntOp.cmpi .eq g c).setWidth 32) : Ideal .f32) = ind c g := by
  unfold ind
  by_cases h : g = c
  · subst h
    rw [if_pos rfl]
    have e : IntOp.cmpi .eq g g = 1#1 := by simp [IntOp.cmpi]
    rw [e]
    show (((BitVec.setWidth 32 1#1).toInt : ℝ) : EReal) = 1
    norm_num
  · rw [if_neg h]
    have e : IntOp.cmpi .eq g c = 0#1 := by
      have hb : (g == c) = false := by simpa using h
      simp [IntOp.cmpi, hb]
    rw [e]
    show (((BitVec.setWidth 32 0#1).toInt : ℝ) : EReal) = 0
    norm_num

/-- The mask column of bucket `c` at row `p`. -/
theorem mask_apply (g1 : IVec S10000x1 32) (c : BitVec 32) (h : 1 < 32) (p : Fin 10000) :
    (sitofp (F := Ideal) .f32 (extui 32 (cmpi .eq g1 (broadcast S10000x1 c)) h)) (ix2 p 0) = ind c (g1 (ix2 p 0)) :=
  mask_word c _

/-! ## Spreading a column or a row over the block -/

/-- A column spread over the block reads the column's entry of the row. -/
theorem bcol_apply {α : Type} (v : S10000x1.Idx → α) (h : S10000x1.Broadcasts S10000x64) (p : Fin 10000) (q : Fin 64) :
    broadcastTo S10000x64 v h (ix2 p q) = v (ix2 p 0) :=
  broadcastTo_apply v _ (ix2 p q) (ix2 p 0) (fun a => by
    match a with
    | ⟨0, _⟩ => rfl
    | ⟨1, _⟩ => rfl)

/-- A row spread over the block reads the row's entry of the column. -/
theorem brow_apply {α : Type} (v : S1x64.Idx → α) (h : S1x64.Broadcasts S10000x64) (p : Fin 10000) (q : Fin 64) :
    broadcastTo S10000x64 v h (ix2 p q) = v (ix2 0 q) :=
  broadcastTo_apply v _ (ix2 p q) (ix2 0 q) (fun a => by
    match a with
    | ⟨0, _⟩ => rfl
    | ⟨1, _⟩ => rfl)

/-- A bias row flattened and made a row again is itself. -/
theorem bias_cast {α : Type} (b : S1x64.Idx → α) (h : S1x64.ShapeCasts S64) (h' : S64.ShapeCasts S1x64) :
    shapeCast S1x64 (shapeCast S64 b h) h' = b :=
  shapeCast_shapeCast b _ _

/-- A 1 × 64 × 64 weight block viewed as a 64 × 64 matrix. -/
theorem wcast_apply {α : Type} (w : S1x64x64.Idx → α) (h : S1x64x64.ShapeCasts S64x64) (k q : Fin 64) :
    shapeCast S64x64 w h (ix2 k q) = w (ix3 0 k q) :=
  shapeCast_apply w _ (ix2 k q) (ix3 0 k q) (by
    rewrite [Shape.rowMajor_val_three, Shape.rowMajor_val_two]
    show (0 * 64 + k.val) * 64 + q.val = k.val * 64 + q.val
    omega)

/-! ## A product into the zero accumulator -/

theorem dot_lhs0 (i : S10000x64.Idx) (κ : dot_S10000x64_S64x64_S10000x64_1_0_0_1_n_n.contr.Idx) :
    (dot_S10000x64_S64x64_S10000x64_1_0_0_1_n_n.lhsIdx i κ 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem dot_rhs1 (i : S10000x64.Idx) (κ : dot_S10000x64_S64x64_S10000x64_1_0_0_1_n_n.contr.Idx) :
    (dot_S10000x64_S64x64_S10000x64_1_0_0_1_n_n.rhsIdx i κ 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block-by-matrix product into the zero accumulator, at row `p` and column `q`: the sum over the 64 contracted
    features. -/
theorem mm_apply {φ₁ φ₂ : FTy} (a : FVec Ideal S10000x64 φ₁) (b : FVec Ideal S64x64 φ₂) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply,
    ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q)
      ((contrEquiv1 dot_S10000x64_S64x64_S10000x64_1_0_0_1_n_n 64 rfl rfl).symm k) = ix2 p k := funext fun a => Fin.ext (by
    match a with
    | ⟨0, _⟩ => exact dot_lhs0 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p q)
      ((contrEquiv1 dot_S10000x64_S64x64_S10000x64_1_0_0_1_n_n 64 rfl rfl).symm k) = ix2 k q := funext fun a => Fin.ext (by
    match a with
    | ⟨0, _⟩ => exact (dot_S10000x64_S64x64_S10000x64_1_0_0_1_n_n.rhsIdx_val_of_single rfl _ _).trans hk
    | ⟨1, _⟩ => exact dot_rhs1 _ _)
  rw [el, er]

/-! ## The stacked weights and biases read through a bucket's rectangle -/

/-- Bucket `d`'s 1 × 64 × 64 block of stacked weights `x`. -/
def wblk {α : Type} (x : S11x64x64.Idx → α) (d : Fin 11) : S1x64x64.Idx → α := fun j => x (ix3 d (j 1) (j 2))

/-- Bucket `d`'s 1 × 64 row of stacked biases `x`. -/
def bblk {α : Type} (x : S11x64.Idx → α) (d : Fin 11) : S1x64.Idx → α := fun j => x (ix2 d (j 1))

theorem wblk_apply {α : Type} (x : S11x64x64.Idx → α) (d : Fin 11) (k q : Fin 64) : wblk x d (ix3 0 k q) = x (ix3 d k q) := rfl
theorem bblk_apply {α : Type} (x : S11x64.Idx → α) (d : Fin 11) (q : Fin 64) : bblk x d (ix2 0 q) = x (ix2 d q) := rfl

/-- A load through the unit-stride rectangle of extent 1 × 64 × 64 at offset (d, 0, 0) reads bucket `d`'s block. -/
theorem ldw_eq (x : Vec Ideal S11x64x64 .f32) (off : Fin 3 → Nat) (inb : ∀ a, off a + S1x64x64.size a ≤ S11x64x64.size a)
    (d : Fin 11) (h : off = ![d.val, 0, 0]) :
    View.ld (Val := Elt Ideal) x (Rect.unit (s := S11x64x64) off S1x64x64.size inb) = wblk x d := by
  subst h
  funext j
  refine congrArg x (funext fun a => Fin.ext ?_)
  match a with
  | ⟨0, _⟩ =>
    have h0 : (j 0).val = 0 := by have := (j 0).isLt; simp at this; omega
    show d.val + 1 * (j 0).val = d.val
    omega
  | ⟨1, _⟩ => show 0 + 1 * (j 1).val = (j 1).val; omega
  | ⟨2, _⟩ => show 0 + 1 * (j 2).val = (j 2).val; omega

/-- A load through the unit-stride rectangle of extent 1 × 64 at offset (d, 0) reads bucket `d`'s row. -/
theorem ldb_eq (x : Vec Ideal S11x64 .f32) (off : Fin 2 → Nat) (inb : ∀ a, off a + S1x64.size a ≤ S11x64.size a)
    (d : Fin 11) (h : off = ![d.val, 0]) :
    View.ld (Val := Elt Ideal) x (Rect.unit (s := S11x64) off S1x64.size inb) = bblk x d := by
  subst h
  funext j
  refine congrArg x (funext fun a => Fin.ext ?_)
  match a with
  | ⟨0, _⟩ =>
    have h0 : (j 0).val = 0 := by have := (j 0).isLt; simp at this; omega
    show d.val + 1 * (j 0).val = d.val
    omega
  | ⟨1, _⟩ => show 0 + 1 * (j 1).val = (j 1).val; omega

/-- The zero offsets of a rank-2 block, however spelt. -/
theorem hz2 : (![0, 0] : Fin 2 → Nat) = fun _ => 0 := by
  funext a
  match a with
  | ⟨0, _⟩ => rfl
  | ⟨1, _⟩ => rfl

/-- A load of a whole rank-2 block reads the block. -/
theorem ld_whole2 {n0 n1 : Nat} {e : EltTy} (x : Vec Ideal ⟨2, ![n0, n1]⟩ e)
    (inb : ∀ a, (![0, 0] : Fin 2 → Nat) a + (⟨2, ![n0, n1]⟩ : Shape).size a ≤ (⟨2, ![n0, n1]⟩ : Shape).size a) :
    View.ld (Val := Elt Ideal) x (Rect.unit (s := ⟨2, ![n0, n1]⟩) ![0, 0] (⟨2, ![n0, n1]⟩ : Shape).size inb) = x :=
  View.ld_unit_zero hz2 inb x

/-! ## The zero the accumulation starts from, and the activation -/

/-- The splat of the zero word reads the extended real `0`. -/
theorem zero_bcast (i : S10000x64.Idx) :
    broadcast S10000x64 (Scalar.ofBits (F := Ideal) .f32 0x00000000#32) i = (0 : EReal) :=
  Ideal.ofBits_zero_f32

/-- The logistic of a block, at an index. -/
theorem logistic_apply {s : Shape} {φ : FTy} (v : FVec Ideal s φ) (i : s.Idx) : logistic v i = Ideal.logistic (v i) := rfl

end Cert.KernelIdeal.KernPay

end
-- ==== Proof.KernPay0.lean ====
/-
  Layer kernel 0's two stored blocks read at one index, on the extended reals. The block of new features at row `p`,
  feature `q` is the logistic function of the eleven degree buckets accumulated from zero in the order 0, 1, …, 10 —
  bucket `d` adds the indicator of "the row's clamped degree is `d`" times ((the aggregated row through the `d`-th left
  matrix, plus the `d`-th bias) plus the row's own features through the `d`-th right matrix) —, and the block of
  projections is that row of new features through the projection matrix. Each is obtained by reading the whole-block
  loads as the blocks, each weight and bias load as bucket `d`'s slice of the stacked array, and every vector operation
  of the body at the index.
-/
import proofs.«161618_j71751723647734_1_alg».proof.Proof.KernBucket

set_option maxRecDepth 16384

noncomputable section

namespace Cert.KernelIdeal.KernPay

open Cert.KernelIdeal Cert.KernelIdeal.Gen Idealize.ShloMosaic Idealize.ShloMosaic.ValueIdx

/-- The new-features block of layer kernel 0 at row `p`, feature `q`: the layer's activation of the row. -/
theorem out0_7_apply (x0 : Vec Ideal S10000x1 .i32) (x1 x2 : Vec Ideal S10000x64 .f32) (x3 : Vec Ideal S11x64x64 .f32)
    (x4 : Vec Ideal S11x64 .f32) (x5 : Vec Ideal S11x64x64 .f32) (x6 : Vec Ideal S64x64 .f32) (p : Fin 10000) (q : Fin 64) :
    Gen.out0_7 (F := Ideal) x0 x1 x2 x3 x4 x5 x6 (ix2 p q)
      = Cert.LayerSpec.act (x0 (ix2 p 0)) (fun k => x1 (ix2 p k)) (fun k => x2 (ix2 p k)) (fun d k q => x3 (ix3 d k q))
        (fun d k q => x5 (ix3 d k q)) (fun d q => x4 (ix2 d q)) q := by
  unfold Gen.out0_7
  rw [View.canon_unit_zero hz2]
  rw [ld_whole2 x0, ld_whole2 x1, ld_whole2 x2]
  rw [ldw_eq x3 ![0, 0, 0] _ 0 rfl,
    ldw_eq x5 ![0, 0, 0] _ 0 rfl,
    ldb_eq x4 ![0, 0] _ 0 rfl,
    ldw_eq x3 ![1, 0, 0] _ 1 rfl,
    ldw_eq x5 ![1, 0, 0] _ 1 rfl,
    ldb_eq x4 ![1, 0] _ 1 rfl,
    ldw_eq x3 ![2, 0, 0] _ 2 rfl,
    ldw_eq x5 ![2, 0, 0] _ 2 rfl,
    ldb_eq x4 ![2, 0] _ 2 rfl,
    ldw_eq x3 ![3, 0, 0] _ 3 rfl,
    ldw_eq x5 ![3, 0, 0] _ 3 rfl,
    ldb_eq x4 ![3, 0] _ 3 rfl,
    ldw_eq x3 ![4, 0, 0] _ 4 rfl,
    ldw_eq x5 ![4, 0, 0] _ 4 rfl,
    ldb_eq x4 ![4, 0] _ 4 rfl,
    ldw_eq x3 ![5, 0, 0] _ 5 rfl,
    ldw_eq x5 ![5, 0, 0] _ 5 rfl,
    ldb_eq x4 ![5, 0] _ 5 rfl,
    ldw_eq x3 ![6, 0, 0] _ 6 rfl,
    ldw_eq x5 ![6, 0, 0] _ 6 rfl,
    ldb_eq x4 ![6, 0] _ 6 rfl,
    ldw_eq x3 ![7, 0, 0] _ 7 rfl,
    ldw_eq x5 ![7, 0, 0] _ 7 rfl,
    ldb_eq x4 ![7, 0] _ 7 rfl,
    ldw_eq x3 ![8, 0, 0] _ 8 rfl,
    ldw_eq x5 ![8, 0, 0] _ 8 rfl,
    ldb_eq x4 ![8, 0] _ 8 rfl,
    ldw_eq x3 ![9, 0, 0] _ 9 rfl,
    ldw_eq x5 ![9, 0, 0] _ 9 rfl,
    ldb_eq x4 ![9, 0] _ 9 rfl,
    ldw_eq x3 ![10, 0, 0] _ 10 rfl,
    ldw_eq x5 ![10, 0, 0] _ 10 rfl,
    ldb_eq x4 ![10, 0] _ 10 rfl]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22,
    logistic_apply, addf_apply, mulf_apply, truncf_apply, bcol_apply, brow_apply, mm_apply, wcast_apply,
    bias_cast, mask_apply, shapeCast_self, wblk_apply, bblk_apply, zero_bcast]
  rfl

/-- The projections block of layer kernel 0 at row `p`, column `q`: the row's new features through the projection
    matrix. -/
theorem out0_8_apply (x0 : Vec Ideal S10000x1 .i32) (x1 x2 : Vec Ideal S10000x64 .f32) (x3 : Vec Ideal S11x64x64 .f32)
    (x4 : Vec Ideal S11x64 .f32) (x5 : Vec Ideal S11x64x64 .f32) (x6 : Vec Ideal S64x64 .f32) (p : Fin 10000) (q : Fin 64) :
    Gen.out0_8 (F := Ideal) x0 x1 x2 x3 x4 x5 x6 (ix2 p q)
      = Cert.LayerSpec.proj (fun k => Cert.LayerSpec.act (x0 (ix2 p 0)) (fun k => x1 (ix2 p k)) (fun k => x2 (ix2 p k)) (fun d k q => x3 (ix3 d k q))
        (fun d k q => x5 (ix3 d k q)) (fun d q => x4 (ix2 d q)) k)
          (fun k q => x6 (ix2 k q)) q := by
  unfold Gen.out0_8
  rw [View.canon_unit_zero hz2]
  rw [ld_whole2 x0, ld_whole2 x1, ld_whole2 x2, ld_whole2 x6]
  rw [ldw_eq x3 ![0, 0, 0] _ 0 rfl,
    ldw_eq x5 ![0, 0, 0] _ 0 rfl,
    ldb_eq x4 ![0, 0] _ 0 rfl,
    ldw_eq x3 ![1, 0, 0] _ 1 rfl,
    ldw_eq x5 ![1, 0, 0] _ 1 rfl,
    ldb_eq x4 ![1, 0] _ 1 rfl,
    ldw_eq x3 ![2, 0, 0] _ 2 rfl,
    ldw_eq x5 ![2, 0, 0] _ 2 rfl,
    ldb_eq x4 ![2, 0] _ 2 rfl,
    ldw_eq x3 ![3, 0, 0] _ 3 rfl,
    ldw_eq x5 ![3, 0, 0] _ 3 rfl,
    ldb_eq x4 ![3, 0] _ 3 rfl,
    ldw_eq x3 ![4, 0, 0] _ 4 rfl,
    ldw_eq x5 ![4, 0, 0] _ 4 rfl,
    ldb_eq x4 ![4, 0] _ 4 rfl,
    ldw_eq x3 ![5, 0, 0] _ 5 rfl,
    ldw_eq x5 ![5, 0, 0] _ 5 rfl,
    ldb_eq x4 ![5, 0] _ 5 rfl,
    ldw_eq x3 ![6, 0, 0] _ 6 rfl,
    ldw_eq x5 ![6, 0, 0] _ 6 rfl,
    ldb_eq x4 ![6, 0] _ 6 rfl,
    ldw_eq x3 ![7, 0, 0] _ 7 rfl,
    ldw_eq x5 ![7, 0, 0] _ 7 rfl,
    ldb_eq x4 ![7, 0] _ 7 rfl,
    ldw_eq x3 ![8, 0, 0] _ 8 rfl,
    ldw_eq x5 ![8, 0, 0] _ 8 rfl,
    ldb_eq x4 ![8, 0] _ 8 rfl,
    ldw_eq x3 ![9, 0, 0] _ 9 rfl,
    ldw_eq x5 ![9, 0, 0] _ 9 rfl,
    ldb_eq x4 ![9, 0] _ 9 rfl,
    ldw_eq x3 ![10, 0, 0] _ 10 rfl,
    ldw_eq x5 ![10, 0, 0] _ 10 rfl,
    ldb_eq x4 ![10, 0] _ 10 rfl]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22,
    logistic_apply, addf_apply, mulf_apply, truncf_apply, bcol_apply, brow_apply, mm_apply, wcast_apply,
    bias_cast, mask_apply, shapeCast_self, wblk_apply, bblk_apply, zero_bcast]
  rfl

end Cert.KernelIdeal.KernPay

end
-- ==== Proof.Blocks0.lean ====
/-
  Region 0 of the idealized kernel program (layer 0's Pallas call), from blocks to arrays. The grid has ten points;
  point `t` is handed rows 10000·t … 10000·t + 9999 of the degrees, of the aggregated rows and of the nodes' own rows,
  and every weight array whole; it writes back the same ten thousand rows of the two outputs. Since the body's value
  at a local (row, column) is the layer specification of that row's data (the payload module), what point `t` writes
  back is block `t` of the specification taken over the whole arrays; the ten blocks cover the 100000 rows, so each
  output array ends as the specification of the arrays the region was entered with: `final7` (new features) and
  `final8` (projections).
-/
import proofs.«161618_j71751723647734_1_alg».proof.Proof.Gen.KernelIdeal.Frame
import proofs.«161618_j71751723647734_1_alg».proof.Proof.LayerSpec
import proofs.«161618_j71751723647734_1_alg».proof.Proof.KernPay0
import Idealize.ShloMosaic.Lib.Pipeline.Value
import Idealize.ShloMosaic.Lib.ValueIdx

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Grid point `t` handles the rows `10000 t … 10000 t + 9999` of every row-blocked array (degrees, aggregated rows,
    own rows, both outputs), all 64 columns, and sees each weight array whole: the printed index maps, decided over
    the ten grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0 :=
  (by decide +kernel : ∀ t : Fin grid0.N, _)

/-- The global row of local row `p` of grid point `t`'s block. -/
def row (t : Fin cfg0.N) (p : Fin 10000) : Fin 100000 :=
  ⟨t.val * 10000 + p.val, by have h1 := t.isLt; have h2 := p.isLt; have hN : cfg0.N = 10 := N_0; omega⟩

/-- The degree block of point `t` at local row `p` is the degree array at the global row. -/
theorem blk_deg (c : Dev nD) (t : Fin cfg0.N) (p : Fin 10000) :
    iblk0 V c 0 t (ix2 p 0) = V c main_v9 (ix2 (row t p) 0) := by
  obtain ⟨f0, f1, -⟩ := idx_facts t
  show V c main_v9 (((cfg0.win 0).blk t).view.emb (ix2 p 0)) = _
  refine congrArg (V c main_v9) (funext fun a => Fin.ext ?_)
  match a with
  | ⟨0, _⟩ => show win0_0.index t (0 : Fin 2) * 10000 + 1 * p.val = t.val * 10000 + p.val; rw [f0]; omega
  | ⟨1, _⟩ => show win0_0.index t (1 : Fin 2) * 1 + 1 * 0 = 0; rw [f1]

/-- The aggregated-rows block of point `t` at local (p, k) is the array at the global row. -/
theorem blk_h (c : Dev nD) (t : Fin cfg0.N) (p : Fin 10000) (k : Fin 64) :
    iblk0 V c 1 t (ix2 p k) = V c main_v20 (ix2 (row t p) k) := by
  obtain ⟨-, -, f0, f1, -⟩ := idx_facts t
  show V c main_v20 (((cfg0.win 1).blk t).view.emb (ix2 p k)) = _
  refine congrArg (V c main_v20) (funext fun a => Fin.ext ?_)
  match a with
  | ⟨0, _⟩ => show win0_1.index t (0 : Fin 2) * 10000 + 1 * p.val = t.val * 10000 + p.val; rw [f0]; omega
  | ⟨1, _⟩ => show win0_1.index t (1 : Fin 2) * 64 + 1 * k.val = k.val; rw [f1]; omega

/-- The own-rows block likewise. -/
theorem blk_x (c : Dev nD) (t : Fin cfg0.N) (p : Fin 10000) (k : Fin 64) :
    iblk0 V c 2 t (ix2 p k) = V c main_arg0 (ix2 (row t p) k) := by
  obtain ⟨-, -, -, -, f0, f1, -⟩ := idx_facts t
  show V c main_arg0 (((cfg0.win 2).blk t).view.emb (ix2 p k)) = _
  refine congrArg (V c main_arg0) (funext fun a => Fin.ext ?_)
  match a with
  | ⟨0, _⟩ => show win0_2.index t (0 : Fin 2) * 10000 + 1 * p.val = t.val * 10000 + p.val; rw [f0]; omega
  | ⟨1, _⟩ => show win0_2.index t (1 : Fin 2) * 64 + 1 * k.val = k.val; rw [f1]; omega

/-- Every point sees the aggregated-rows weights whole. -/
theorem blk_wl (c : Dev nD) (t : Fin cfg0.N) (d : Fin 11) (k q : Fin 64) :
    iblk0 V c 3 t (ix3 d k q) = V c main_v22 (ix3 d k q) := by
  obtain ⟨-, -, -, -, -, -, -, -, -, -, f0, f1, f2, -⟩ := idx_facts t
  show V c main_v22 (((cfg0.win 3).blk t).view.emb (ix3 d k q)) = _
  refine congrArg (V c main_v22) (funext fun a => Fin.ext ?_)
  match a with
  | ⟨0, _⟩ => show win0_3.index t (0 : Fin 3) * 11 + 1 * d.val = d.val; rw [f0]; omega
  | ⟨1, _⟩ => show win0_3.index t (1 : Fin 3) * 64 + 1 * k.val = k.val; rw [f1]; omega
  | ⟨2, _⟩ => show win0_3.index t (2 : Fin 3) * 64 + 1 * q.val = q.val; rw [f2]; omega

/-- Every point sees the biases whole. -/
theorem blk_bl (c : Dev nD) (t : Fin cfg0.N) (d : Fin 11) (q : Fin 64) :
    iblk0 V c 4 t (ix2 d q) = V c main_v24 (ix2 d q) := by
  obtain ⟨-, -, -, -, -, -, -, -, -, -, -, -, -, f0, f1, -⟩ := idx_facts t
  show V c main_v24 (((cfg0.win 4).blk t).view.emb (ix2 d q)) = _
  refine congrArg (V c main_v24) (funext fun a => Fin.ext ?_)
  match a with
  | ⟨0, _⟩ => show win0_4.index t (0 : Fin 2) * 11 + 1 * d.val = d.val; rw [f0]; omega
  | ⟨1, _⟩ => show win0_4.index t (1 : Fin 2) * 64 + 1 * q.val = q.val; rw [f1]; omega

/-- Every point sees the own-rows weights whole. -/
theorem blk_wr (c : Dev nD) (t : Fin cfg0.N) (d : Fin 11) (k q : Fin 64) :
    iblk0 V c 5 t (ix3 d k q) = V c main_v26 (ix3 d k q) := by
  obtain ⟨-, -, -, -, -, -, -, -, -, -, -, -, -, -, -, f0, f1, f2, -⟩ := idx_facts t
  show V c main_v26 (((cfg0.win 5).blk t).view.emb (ix3 d k q)) = _
  refine congrArg (V c main_v26) (funext fun a => Fin.ext ?_)
  match a with
  | ⟨0, _⟩ => show win0_5.index t (0 : Fin 3) * 11 + 1 * d.val = d.val; rw [f0]; omega
  | ⟨1, _⟩ => show win0_5.index t (1 : Fin 3) * 64 + 1 * k.val = k.val; rw [f1]; omega
  | ⟨2, _⟩ => show win0_5.index t (2 : Fin 3) * 64 + 1 * q.val = q.val; rw [f2]; omega

/-- Every point sees the projection matrix whole. -/
theorem blk_lw (c : Dev nD) (t : Fin cfg0.N) (k q : Fin 64) :
    iblk0 V c 6 t (ix2 k q) = V c main_v28 (ix2 k q) := by
  obtain ⟨-, -, -, -, -, -, -, -, -, -, -, -, -, -, -, -, -, -, f0, f1⟩ := idx_facts t
  show V c main_v28 (((cfg0.win 6).blk t).view.emb (ix2 k q)) = _
  refine congrArg (V c main_v28) (funext fun a => Fin.ext ?_)
  match a with
  | ⟨0, _⟩ => show win0_6.index t (0 : Fin 2) * 64 + 1 * k.val = k.val; rw [f0]; omega
  | ⟨1, _⟩ => show win0_6.index t (1 : Fin 2) * 64 + 1 * q.val = q.val; rw [f1]; omega

/-- The layer's new features over all nodes, of the arrays as the region finds them. -/
def X (c : Dev nD) : S100000x64.Idx → EReal :=
  Cert.LayerSpec.layerX (fun r => V c main_v9 (ix2 r 0)) (V c main_v20) (V c main_arg0) (V c main_v22) (V c main_v26) (V c main_v24)

/-- The layer's projections over all nodes, of the arrays as the region finds them. -/
def P (c : Dev nD) : S100000x64.Idx → EReal :=
  Cert.LayerSpec.layerP (X V c) (V c main_v28)

/-- Where point `t`'s output block sits in the output array: local (p, q) at global (10000 t + p, q). -/
theorem emb7 (t : Fin cfg0.N) (p : Fin 10000) (q : Fin 64) :
    ((cfg0.win 7).blk t).view.emb (ix2 p q) = ix2 (row t p) q := by
  obtain ⟨-, -, -, -, -, -, f0, f1, -⟩ := idx_facts t
  funext a; apply Fin.ext
  match a with
  | ⟨0, _⟩ => show win0_7.index t (0 : Fin 2) * 10000 + 1 * p.val = t.val * 10000 + p.val; rw [f0]; omega
  | ⟨1, _⟩ => show win0_7.index t (1 : Fin 2) * 64 + 1 * q.val = q.val; rw [f1]; omega

theorem emb8 (t : Fin cfg0.N) (p : Fin 10000) (q : Fin 64) :
    ((cfg0.win 8).blk t).view.emb (ix2 p q) = ix2 (row t p) q := by
  obtain ⟨-, -, -, -, -, -, -, -, f0, f1, -⟩ := idx_facts t
  funext a; apply Fin.ext
  match a with
  | ⟨0, _⟩ => show win0_8.index t (0 : Fin 2) * 10000 + 1 * p.val = t.val * 10000 + p.val; rw [f0]; omega
  | ⟨1, _⟩ => show win0_8.index t (1 : Fin 2) * 64 + 1 * q.val = q.val; rw [f1]; omega

/-- The new feature the body computes at local (p, q) of point `t` is the specification's at the global row. -/
theorem act_blk (c : Dev nD) (t : Fin cfg0.N) (p : Fin 10000) (q : Fin 64) :
    Cert.LayerSpec.act (iblk0 V c 0 t (ix2 p 0)) (fun k => iblk0 V c 1 t (ix2 p k)) (fun k => iblk0 V c 2 t (ix2 p k))
        (fun d k q => iblk0 V c 3 t (ix3 d k q)) (fun d k q => iblk0 V c 5 t (ix3 d k q)) (fun d q => iblk0 V c 4 t (ix2 d q)) q
      = X V c (ix2 (row t p) q) := by
  show _ = Cert.LayerSpec.act (V c main_v9 (ix2 (row t p) 0)) (fun k => V c main_v20 (ix2 (row t p) k)) (fun k => V c main_arg0 (ix2 (row t p) k))
        (fun d k q => V c main_v22 (ix3 d k q)) (fun d k q => V c main_v26 (ix3 d k q)) (fun d q => V c main_v24 (ix2 d q)) q
  rw [blk_deg V c t p, funext (blk_h V c t p), funext (blk_x V c t p),
    (funext fun d => funext fun k => funext fun q => blk_wl V c t d k q : (fun d k q => iblk0 V c 3 t (ix3 d k q)) = fun d k q => V c main_v22 (ix3 d k q)),
    (funext fun d => funext fun k => funext fun q => blk_wr V c t d k q : (fun d k q => iblk0 V c 5 t (ix3 d k q)) = fun d k q => V c main_v26 (ix3 d k q)),
    (funext fun d => funext fun q => blk_bl V c t d q : (fun d q => iblk0 V c 4 t (ix2 d q)) = fun d q => V c main_v24 (ix2 d q))]

/-- WHAT POINT `t` WRITES BACK to the new-features array is block `t` of the specification. -/
theorem flushed7_eq (c : Dev nD) (t : Fin cfg0.N) :
    (dat0 (F := Ideal) V c).flushed 7 t = ((cfg0.win 7).blk t).view.read (Elt Ideal) (X V c) := by
  show (cfg0.win 7).cut (grid0.coords t) ((dat0 V c).after 7 t) = _
  rw [after0_7]
  funext j
  obtain ⟨p, q, rfl⟩ : ∃ (p : Fin 10000) (q : Fin 64), j = ix2 p q := ⟨j 0, j 1, eq_ix2 j⟩
  show out0_7 (iblk0 V c 0 t) (iblk0 V c 1 t) (iblk0 V c 2 t) (iblk0 V c 3 t) (iblk0 V c 4 t) (iblk0 V c 5 t) (iblk0 V c 6 t) (ix2 p q)
    = X V c (((cfg0.win 7).blk t).view.emb (ix2 p q))
  rw [emb7 t p q]
  exact (Cert.KernelIdeal.KernPay.out0_7_apply (iblk0 V c 0 t) (iblk0 V c 1 t) (iblk0 V c 2 t) (iblk0 V c 3 t) (iblk0 V c 4 t) (iblk0 V c 5 t) (iblk0 V c 6 t) p q).trans
    (act_blk V c t p q)

/-- WHAT POINT `t` WRITES BACK to the projections array is block `t` of the specification. -/
theorem flushed8_eq (c : Dev nD) (t : Fin cfg0.N) :
    (dat0 (F := Ideal) V c).flushed 8 t = ((cfg0.win 8).blk t).view.read (Elt Ideal) (P V c) := by
  show (cfg0.win 8).cut (grid0.coords t) ((dat0 V c).after 8 t) = _
  rw [after0_8]
  funext j
  obtain ⟨p, q, rfl⟩ : ∃ (p : Fin 10000) (q : Fin 64), j = ix2 p q := ⟨j 0, j 1, eq_ix2 j⟩
  show out0_8 (iblk0 V c 0 t) (iblk0 V c 1 t) (iblk0 V c 2 t) (iblk0 V c 3 t) (iblk0 V c 4 t) (iblk0 V c 5 t) (iblk0 V c 6 t) (ix2 p q)
    = P V c (((cfg0.win 8).blk t).view.emb (ix2 p q))
  rw [emb8 t p q]
  refine (Cert.KernelIdeal.KernPay.out0_8_apply (iblk0 V c 0 t) (iblk0 V c 1 t) (iblk0 V c 2 t) (iblk0 V c 3 t) (iblk0 V c 4 t) (iblk0 V c 5 t) (iblk0 V c 6 t) p q).trans ?_
  show _ = Cert.LayerSpec.proj (fun k => X V c (ix2 (row t p) k)) (fun k q => V c main_v28 (ix2 k q)) q
  rw [(funext fun k => act_blk V c t p k : (fun k => Cert.LayerSpec.act (iblk0 V c 0 t (ix2 p 0)) (fun k => iblk0 V c 1 t (ix2 p k)) (fun k => iblk0 V c 2 t (ix2 p k))
        (fun d k q => iblk0 V c 3 t (ix3 d k q)) (fun d k q => iblk0 V c 5 t (ix3 d k q)) (fun d q => iblk0 V c 4 t (ix2 d q)) k) = fun k => X V c (ix2 (row t p) k)),
    (funext fun k => funext fun q => blk_lw V c t k q : (fun k q => iblk0 V c 6 t (ix2 k q)) = fun k q => V c main_v28 (ix2 k q))]

/-- An index of an output array is in point `t`'s block iff its row is among the point's ten thousand. -/
theorem mem_blk7 (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v29_0).slice (win0_7.rect t)).set ↔ _
  rw [View.set_slice_whole, Rect.mem_set_unit]
  exact Iff.rfl

theorem mem_blk8 (t : Fin cfg0.N) (i : S100000x64.Idx) :
    i ∈ ((cfg0.win 8).blk t).view.set ↔ ∀ a : Fin 2, win0_8.index t a * S10000x64.size a ≤ (i a).val ∧ (i a).val < win0_8.index t a * S10000x64.size a + S10000x64.size a := by
  show i ∈ ((View.whole main_v29_1).slice (win0_8.rect t)).set ↔ _
  rw [View.set_slice_whole, Rect.mem_set_unit]
  exact Iff.rfl

/-- The ten row blocks cover the array: row `r` is in block `r / 10000`. -/
theorem cover7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 10 := N_0
  let t : Fin cfg0.N := ⟨(i 0).val / 10000, by omega⟩
  obtain ⟨-, -, -, -, -, -, f0, f1, -⟩ := idx_facts t
  refine ⟨t, flush0_7 t, ?_⟩
  rw [mem_blk7]
  intro a
  match a with
  | ⟨0, _⟩ => show win0_7.index t (0 : Fin 2) * 10000 ≤ (i 0).val ∧ (i 0).val < win0_7.index t (0 : Fin 2) * 10000 + 10000; rw [f0]; show (i 0).val / 10000 * 10000 ≤ (i 0).val ∧ (i 0).val < (i 0).val / 10000 * 10000 + 10000; omega
  | ⟨1, _⟩ => show win0_7.index t (1 : Fin 2) * 64 ≤ (i 1).val ∧ (i 1).val < win0_7.index t (1 : Fin 2) * 64 + 64; rw [f1]; omega

theorem cover8 (i : S100000x64.Idx) : ∃ t : Fin cfg0.N, (cfg0.win 8).flush t = true ∧ i ∈ ((cfg0.win 8).blk t).view.set := by
  have hi0 : (i 0).val < 100000 := (i 0).isLt
  have hi1 : (i 1).val < 64 := (i 1).isLt
  have hN : cfg0.N = 10 := N_0
  let t : Fin cfg0.N := ⟨(i 0).val / 10000, by omega⟩
  obtain ⟨-, -, -, -, -, -, -, -, f0, f1, -⟩ := idx_facts t
  refine ⟨t, flush0_8 t, ?_⟩
  rw [mem_blk8]
  intro a
  match a with
  | ⟨0, _⟩ => show win0_8.index t (0 : Fin 2) * 10000 ≤ (i 0).val ∧ (i 0).val < win0_8.index t (0 : Fin 2) * 10000 + 10000; rw [f0]; show (i 0).val / 10000 * 10000 ≤ (i 0).val ∧ (i 0).val < (i 0).val / 10000 * 10000 + 10000; omega
  | ⟨1, _⟩ => show win0_8.index t (1 : Fin 2) * 64 ≤ (i 1).val ∧ (i 1).val < win0_8.index t (1 : Fin 2) * 64 + 64; rw [f1]; omega

/-- THE NEW-FEATURES ARRAY after the region: the specification of the arrays as the region finds them. -/
theorem final7 (c : Dev nD) : (dat0 (F := Ideal) V c).arrAt 7 cfg0.N = X V c :=
  (dat0 V c).arrAt_eq_of_cover 7 (X V c) (fun t _ => flushed7_eq V c t) cover7

/-- THE PROJECTIONS ARRAY after the region. -/
theorem final8 (c : Dev nD) : (dat0 (F := Ideal) V c).arrAt 8 cfg0.N = P V c :=
  (dat0 V c).arrAt_eq_of_cover 8 (P V c) (fun t _ => flushed8_eq V c t) cover8

end Cert.KernelIdeal.Blocks0

end
-- ==== Proof.KernPay1.lean ====
/-
  Layer kernel 1's two stored blocks read at one index, on the extended reals. The block of new features at row `p`,
  feature `q` is the logistic function of the eleven degree buckets accumulated from zero in the order 0, 1, …, 10 —
  bucket `d` adds the indicator of "the row's clamped degree is `d`" times ((the aggregated row through the `d`-th left
  matrix, plus the `d`-th bias) plus the row's own features through the `d`-th right matrix) —, and the block of
  projections is that row of new features through the projection matrix. Each is obtained by reading the whole-block
  loads as the blocks, each weight and bias load as bucket `d`'s slice of the stacked array, and every vector operation
  of the body at the index.
-/
import proofs.«161618_j71751723647734_1_alg».proof.Proof.KernBucket

set_option maxRecDepth 16384

noncomputable section

namespace Cert.KernelIdeal.KernPay

open Cert.KernelIdeal Cert.KernelIdeal.Gen Idealize.ShloMosaic Idealize.ShloMosaic.ValueIdx

/-- The new-features block of layer kernel 1 at row `p`, feature `q`: the layer's activation of the row. -/
theorem out1_7_apply (x0 : Vec Ideal S10000x1 .i32) (x1 x2 : Vec Ideal S10000x64 .f32) (x3 : Vec Ideal S11x64x64 .f32)
    (x4 : Vec Ideal S11x64 .f32) (x5 : Vec Ideal S11x64x64 .f32) (x6 : Vec Ideal S64x64 .f32) (p : Fin 10000) (q : Fin 64) :
    Gen.out1_7 (F := Ideal) x0 x1 x2 x3 x4 x5 x6 (ix2 p q)
      = Cert.LayerSpec.act (x0 (ix2 p 0)) (fun k => x1 (ix2 p k)) (fun k => x2 (ix2 p k)) (fun d k q => x3 (ix3 d k q))
        (fun d k q => x5 (ix3 d k q)) (fun d q => x4 (ix2 d q)) q := by
  unfold Gen.out1_7
  rw [View.canon_unit_zero hz2]
  rw [ld_whole2 x0, ld_whole2 x1, ld_whole2 x2]
  rw [ldw_eq x3 ![0, 0, 0] _ 0 rfl,
    ldw_eq x5 ![0, 0, 0] _ 0 rfl,
    ldb_eq x4 ![0, 0] _ 0 rfl,
    ldw_eq x3 ![1, 0, 0] _ 1 rfl,
    ldw_eq x5 ![1, 0, 0] _ 1 rfl,
    ldb_eq x4 ![1, 0] _ 1 rfl,
    ldw_eq x3 ![2, 0, 0] _ 2 rfl,
    ldw_eq x5 ![2, 0, 0] _ 2 rfl,
    ldb_eq x4 ![2, 0] _ 2 rfl,
    ldw_eq x3 ![3, 0, 0] _ 3 rfl,
    ldw_eq x5 ![3, 0, 0] _ 3 rfl,
    ldb_eq x4 ![3, 0] _ 3 rfl,
    ldw_eq x3 ![4, 0, 0] _ 4 rfl,
    ldw_eq x5 ![4, 0, 0] _ 4 rfl,
    ldb_eq x4 ![4, 0] _ 4 rfl,
    ldw_eq x3 ![5, 0, 0] _ 5 rfl,
    ldw_eq x5 ![5, 0, 0] _ 5 rfl,
    ldb_eq x4 ![5, 0] _ 5 rfl,
    ldw_eq x3 ![6, 0, 0] _ 6 rfl,
    ldw_eq x5 ![6, 0, 0] _ 6 rfl,
    ldb_eq x4 ![6, 0] _ 6 rfl,
    ldw_eq x3 ![7, 0, 0] _ 7 rfl,
    ldw_eq x5 ![7, 0, 0] _ 7 rfl,
    ldb_eq x4 ![7, 0] _ 7 rfl,
    ldw_eq x3 ![8, 0, 0] _ 8 rfl,
    ldw_eq x5 ![8, 0, 0] _ 8 rfl,
    ldb_eq x4 ![8, 0] _ 8 rfl,
    ldw_eq x3 ![9, 0, 0] _ 9 rfl,
    ldw_eq x5 ![9, 0, 0] _ 9 rfl,
    ldb_eq x4 ![9, 0] _ 9 rfl,
    ldw_eq x3 ![10, 0, 0] _ 10 rfl,
    ldw_eq x5 ![10, 0, 0] _ 10 rfl,
    ldb_eq x4 ![10, 0] _ 10 rfl]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23,
    logistic_apply, addf_apply, mulf_apply, truncf_apply, bcol_apply, brow_apply, mm_apply, wcast_apply,
    bias_cast, mask_apply, shapeCast_self, wblk_apply, bblk_apply, zero_bcast]
  rfl

/-- The projections block of layer kernel 1 at row `p`, column `q`: the row's new features through the projection
    matrix. -/
theorem out1_8_apply (x0 : Vec Ideal S10000x1 .i32) (x1 x2 : Vec Ideal S10000x64 .f32) (x3 : Vec Ideal S11x64x64 .f32)
    (x4 : Vec Ideal S11x64 .f32) (x5 : Vec Ideal S11x64x64 .f32) (x6 : Vec Ideal S64x64 .f32) (p : Fin 10000) (q : Fin 64) :
    Gen.out1_8 (F := Ideal) x0 x1 x2 x3 x4 x5 x6 (ix2 p q)
      = Cert.LayerSpec.proj (fun k => Cert.LayerSpec.act (x0 (ix2 p 0)) (fun k => x1 (ix2 p k)) (fun k => x2 (ix2 p k)) (fun d k q => x3 (ix3 d k q))
        (fun d k q => x5 (ix3 d k q)) (fun d q => x4 (ix2 d q)) k)
          (fun k q => x6 (ix2 k q)) q := by
  unfold Gen.out1_8
  rw [View.canon_unit_zero hz2]
  rw [ld_whole2 x0, ld_whole2 x1, ld_whole2 x2, ld_whole2 x6]
  rw [ldw_eq x3 ![0, 0, 0] _ 0 rfl,
    ldw_eq x5 ![0, 0, 0] _ 0 rfl,
    ldb_eq x4 ![0, 0] _ 0 rfl,
    ldw_eq x3 ![1, 0, 0] _ 1 rfl,
    ldw_eq x5 ![1, 0, 0] _ 1 rfl,
    ldb_eq x4 ![1, 0] _ 1 rfl,
    ldw_eq x3 ![2, 0, 0] _ 2 rfl,
    ldw_eq x5 ![2, 0, 0] _ 2 rfl,
    ldb_eq x4 ![2, 0] _ 2 rfl,
    ldw_eq x3 ![3, 0, 0] _ 3 rfl,
    ldw_eq x5 ![3, 0, 0] _ 3 rfl,
    ldb_eq x4 ![3, 0] _ 3 rfl,
    ldw_eq x3 ![4, 0, 0] _ 4 rfl,
    ldw_eq x5 ![4, 0, 0] _ 4 rfl,
    ldb_eq x4 ![4, 0] _ 4 rfl,
    ldw_eq x3 ![5, 0, 0] _ 5 rfl,
    ldw_eq x5 ![5, 0, 0] _ 5 rfl,
    ldb_eq x4 ![5, 0] _ 5 rfl,
    ldw_eq x3 ![6, 0, 0] _ 6 rfl,
    ldw_eq x5 ![6, 0, 0] _ 6 rfl,
    ldb_eq x4 ![6, 0] _ 6 rfl,
    ldw_eq x3 ![7, 0, 0] _ 7 rfl,
    ldw_eq x5 ![7, 0, 0] _ 7 rfl,
    ldb_eq x4 ![7, 0] _ 7 rfl,
    ldw_eq x3 ![8, 0, 0] _ 8 rfl,
    ldw_eq x5 ![8, 0, 0] _ 8 rfl,
    ldb_eq x4 ![8, 0] _ 8 rfl,
    ldw_eq x3 ![9, 0, 0] _ 9 rfl,
    ldw_eq x5 ![9, 0, 0] _ 9 rfl,
    ldb_eq x4 ![9, 0] _ 9 rfl,
    ldw_eq x3 ![10, 0, 0] _ 10 rfl,
    ldw_eq x5 ![10, 0, 0] _ 10 rfl,
    ldb_eq x4 ![10, 0] _ 10 rfl]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23,
    logistic_apply, addf_apply, mulf_apply, truncf_apply, bcol_apply, brow_apply, mm_apply, wcast_apply,
    bias_cast, mask_apply, shapeCast_self, wblk_apply, bblk_apply, zero_bcast]
  rfl

end Cert.KernelIdeal.KernPay

end
-- ==== Proof.Blocks1.lean ====
/-
  Region 1 of the idealized kernel program (layer 1's Pallas call), from blocks to arrays. The grid has ten points;
  point `t` is handed rows 10000·t … 10000·t + 9999 of the degrees, of the aggregated rows and of the nodes' own rows,
  and every weight array whole; it writes back the same ten thousand rows of the two outputs. Since the body's value
  at a local (row, column) is the layer specification of that row's data (the payload module), what point `t` writes
  back is block `t` of the specification taken over the whole arrays; the ten blocks cover the 100000 rows, so each
  output array ends as the specification of the arrays the region was entered with: `final7` (new features) and
  `final8` (projections).
-/
import proofs.«161618_j71751723647734_1_alg».proof.Proof.Gen.KernelIdeal.Frame
import proofs.«161618_j71751723647734_1_alg».proof.Proof.LayerSpec
import proofs.«161618_j71751723647734_1_alg».proof.Proof.KernPay1
import Idealize.ShloMosaic.Lib.Pipeline.Value
import Idealize.ShloMosaic.Lib.ValueIdx

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Grid point `t` handles the rows `10000 t … 10000 t + 9999` of every row-blocked array (degrees, aggregated rows,
    own rows, both outputs), all 64 columns, and sees each weight array whole: the printed index maps, decided over
    the ten grid points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 3) = 0 ∧ win1_5.index t (1 : Fin 3) = 0 ∧ win1_5.index t (2 : Fin 3) = 0
    ∧ win1_6.index t (0 : Fin 2) = 0 ∧ win1_6.index t (1 : Fin 2) = 0 :=
  (by decide +kernel : ∀ t : Fin grid1.N, _)

/-- The global row of local row `p` of grid point `t`'s block. -/
def row (t : Fin cfg1.N) (p : Fin 10000) : Fin 100000 :=
  ⟨t.val * 10000 + p.val, by have h1 := t.isLt; have h2 := p.isLt; have hN : cfg1.N = 10 := N_1; omega⟩

/-- The degree block of point `t` at local row `p` is the degree array at the global row. -/
theorem blk_deg (c : Dev nD) (t : Fin cfg1.N) (p : Fin 10000) :
    iblk1 V c 0 t (ix2 p 0) = V c main_v9 (ix2 (row t p) 0) := by
  obtain ⟨f0, f1, -⟩ := idx_facts t
  show V c main_v9 (((cfg1.win 0).blk t).view.emb (ix2 p 0)) = _
  refine congrArg (V c main_v9) (funext fun a => Fin.ext ?_)
  match a with
  | ⟨0, _⟩ => show win1_0.index t (0 : Fin 2) * 10000 + 1 * p.val = t.val * 10000 + p.val; rw [f0]; omega
  | ⟨1, _⟩ => show win1_0.index t (1 : Fin 2) * 1 + 1 * 0 = 0; rw [f1]

/-- The aggregated-rows block of point `t` at local (p, k) is the array at the global row. -/
theorem blk_h (c : Dev nD) (t : Fin cfg1.N) (p : Fin 10000) (k : Fin 64) :
    iblk1 V c 1 t (ix2 p k) = V c main_v43 (ix2 (row t p) k) := by
  obtain ⟨-, -, f0, f1, -⟩ := idx_facts t
  show V c main_v43 (((cfg1.win 1).blk t).view.emb (ix2 p k)) = _
  refine congrArg (V c main_v43) (funext fun a => Fin.ext ?_)
  match a with
  | ⟨0, _⟩ => show win1_1.index t (0 : Fin 2) * 10000 + 1 * p.val = t.val * 10000 + p.val; rw [f0]; omega
  | ⟨1, _⟩ => show win1_1.index t (1 : Fin 2) * 64 + 1 * k.val = k.val; rw [f1]; omega

/-- The own-rows block likewise. -/
theorem blk_x (c : Dev nD) (t : Fin cfg1.N) (p : Fin 10000) (k : Fin 64) :
    iblk1 V c 2 t (ix2 p k) = V c main_v29_0 (ix2 (row t p) k) := by
  obtain ⟨-, -, -, -, f0, f1, -⟩ := idx_facts t
  show V c main_v29_0 (((cfg1.win 2).blk t).view.emb (ix2 p k)) = _
  refine congrArg (V c main_v29_0) (funext fun a => Fin.ext ?_)
  match a with
  | ⟨0, _⟩ => show win1_2.index t (0 : Fin 2) * 10000 + 1 * p.val = t.val * 10000 + p.val; rw [f0]; omega
  | ⟨1, _⟩ => show win1_2.index t (1 : Fin 2) * 64 + 1 * k.val = k.val; rw [f1]; omega

/-- Every point sees the aggregated-rows weights whole. -/
theorem blk_wl (c : Dev nD) (t : Fin cfg1.N) (d : Fin 11) (k q : Fin 64) :
    iblk1 V c 3 t (ix3 d k q) = V c main_v45 (ix3 d k q) := by
  obtain ⟨-, -, -, -, -, -, -, -, -, -, f0, f1, f2, -⟩ := idx_facts t
  show V c main_v45 (((cfg1.win 3).blk t).view.emb (ix3 d k q)) = _
  refine congrArg (V c main_v45) (funext fun a => Fin.ext ?_)
  match a with
  | ⟨0, _⟩ => show win1_3.index t (0 : Fin 3) * 11 + 1 * d.val = d.val; rw [f0]; omega
  | ⟨1, _⟩ => show win1_3.index t (1 : Fin 3) * 64 + 1 * k.val = k.val; rw [f1]; omega
  | ⟨2, _⟩ => show win1_3.index t (2 : Fin 3) * 64 + 1 * q.val = q.val; rw [f2]; omega

/-- Every point sees the biases whole. -/
theorem blk_bl (c : Dev nD) (t : Fin cfg1.N) (d : Fin 11) (q : Fin 64) :
    iblk1 V c 4 t (ix2 d q) = V c main_v47 (ix2 d q) := by
  obtain ⟨-, -, -, -, -, -, -, -, -, -, -, -, -, f0, f1, -⟩ := idx_facts t
  show V c main_v47 (((cfg1.win 4).blk t).view.emb (ix2 d q)) = _
  refine congrArg (V c main_v47) (funext fun a => Fin.ext ?_)
  match a with
  | ⟨0, _⟩ => show win1_4.index t (0 : Fin 2) * 11 + 1 * d.val = d.val; rw [f0]; omega
  | ⟨1, _⟩ => show win1_4.index t (1 : Fin 2) * 64 + 1 * q.val = q.val; rw [f1]; omega

/-- Every point sees the own-rows weights whole. -/
theorem blk_wr (c : Dev nD) (t : Fin cfg1.N) (d : Fin 11) (k q : Fin 64) :
    iblk1 V c 5 t (ix3 d k q) = V c main_v49 (ix3 d k q) := by
  obtain ⟨-, -, -, -, -, -, -, -, -, -, -, -, -, -, -, f0, f1, f2, -⟩ := idx_facts t
  show V c main_v49 (((cfg1.win 5).blk t).view.emb (ix3 d k q)) = _
  refine congrArg (V c main_v49) (funext fun a => Fin.ext ?_)
  match a with
  | ⟨0, _⟩ => show win1_5.index t (0 : Fin 3) * 11 + 1 * d.val = d.val; rw [f0]; omega
  | ⟨1, _⟩ => show win1_5.index t (1 : Fin 3) * 64 + 1 * k.val = k.val; rw [f1]; omega
  | ⟨2, _⟩ => show win1_5.index t (2 : Fin 3) * 64 + 1 * q.val = q.val; rw [f2]; omega

/-- Every point sees the projection matrix whole. -/
theorem blk_lw (c : Dev nD) (t : Fin cfg1.N) (k q : Fin 64) :
    iblk1 V c 6 t (ix2 k q) = V c main_v51 (ix2 k q) := by
  obtain ⟨-, -, -, -, -, -, -, -, -, -, -, -, -, -, -, -, -, -, f0, f1⟩ := idx_facts t
  show V c main_v51 (((cfg1.win 6).blk t).view.emb (ix2 k q)) = _
  refine congrArg (V c main_v51) (funext fun a => Fin.ext ?_)
  match a with
  | ⟨0, _⟩ => show win1_6.index t (0 : Fin 2) * 64 + 1 * k.val = k.val; rw [f0]; omega
  | ⟨1, _⟩ => show win1_6.index t (1 : Fin 2) * 64 + 1 * q.val = q.val; rw [f1]; omega

/-- The layer's new features over all nodes, of the arrays as the region finds them. -/
def X (c : Dev nD) : S100000x64.Idx → EReal :=
  Cert.LayerSpec.layerX (fun r => V c main_v9 (ix2 r 0)) (V c main_v43) (V c main_v29_0) (V c main_v45) (V c main_v49) (V c main_v47)

/-- The layer's projections over all nodes, of the arrays as the region finds them. -/
def P (c : Dev nD) : S100000x64.Idx → EReal :=
  Cert.LayerSpec.layerP (X V c) (V c main_v51)

/-- Where point `t`'s output block sits in the output array: local (p, q) at global (10000 t + p, q). -/
theorem emb7 (t : Fin cfg1.N) (p : Fin 10000) (q : Fin 64) :
    ((cfg1.win 7).blk t).view.emb (ix2 p q) = ix2 (row t p) q := by
  obtain ⟨-, -, -, -, -, -, f0, f1, -⟩ := idx_facts t
  funext a; apply Fin.ext
  match a with
  | ⟨0, _⟩ => show win1_7.index t (0 : Fin 2) * 10000 + 1 * p.val = t.val * 10000 + p.val; rw [f0]; omega
  | ⟨1, _⟩ => show win1_7.index t (1 : Fin 2) * 64 + 1 * q.val = q.val; rw [f1]; omega

theorem emb8 (t : Fin cfg1.N) (p : Fin 10000) (q : Fin 64) :
    ((cfg1.win 8).blk t).view.emb (ix2 p q) = ix2 (row t p) q := by
  obtain ⟨-, -, -, -, -, -, -, -, f0, f1, -⟩ := idx_facts t
  funext a; apply Fin.ext
  match a with
  | ⟨0, _⟩ => show win1_8.index t (0 : Fin 2) * 10000 + 1 * p.val = t.val * 10000 + p.val; rw [f0]; omega
  | ⟨1, _⟩ => show win1_8.index t (1 : Fin 2) * 64 + 1 * q.val = q.val; rw [f1]; omega

/-- The new feature the body computes at local (p, q) of point `t` is the specification's at the global row. -/
theorem act_blk (c : Dev nD) (t : Fin cfg1.N) (p : Fin 10000) (q : Fin 64) :
    Cert.LayerSpec.act (iblk1 V c 0 t (ix2 p 0)) (fun k => iblk1 V c 1 t (ix2 p k)) (fun k => iblk1 V c 2 t (ix2 p k))
        (fun d k q => iblk1 V c 3 t (ix3 d k q)) (fun d k q => iblk1 V c 5 t (ix3 d k q)) (fun d q => iblk1 V c 4 t (ix2 d q)) q
      = X V c (ix2 (row t p) q) := by
  show _ = Cert.LayerSpec.act (V c main_v9 (ix2 (row t p) 0)) (fun k => V c main_v43 (ix2 (row t p) k)) (fun k => V c main_v29_0 (ix2 (row t p) k))
        (fun d k q => V c main_v45 (ix3 d k q)) (fun d k q => V c main_v49 (ix3 d k q)) (fun d q => V c main_v47 (ix2 d q)) q
  rw [blk_deg V c t p, funext (blk_h V c t p), funext (blk_x V c t p),
    (funext fun d => funext fun k => funext fun q => blk_wl V c t d k q : (fun d k q => iblk1 V c 3 t (ix3 d k q)) = fun d k q => V c main_v45 (ix3 d k q)),
    (funext fun d => funext fun k => funext fun q => blk_wr V c t d k q : (fun d k q => iblk1 V c 5 t (ix3 d k q)) = fun d k q => V c main_v49 (ix3 d k q)),
    (funext fun d => funext fun q => blk_bl V c t d q : (fun d q => iblk1 V c 4 t (ix2 d q)) = fun d q => V c main_v47 (ix2 d q))]

/-- WHAT POINT `t` WRITES BACK to the new-features array is block `t` of the specification. -/
theorem flushed7_eq (c : Dev nD) (t : Fin cfg1.N) :
    (dat1 (F := Ideal) V c).flushed 7 t = ((cfg1.win 7).blk t).view.read (Elt Ideal) (X V c) := by
  show (cfg1.win 7).cut (grid1.coords t) ((dat1 V c).after 7 t) = _
  rw [after1_7]
  funext j
  obtain ⟨p, q, rfl⟩ : ∃ (p : Fin 10000) (q : Fin 64), j = ix2 p q := ⟨j 0, j 1, eq_ix2 j⟩
  show out1_7 (iblk1 V c 0 t) (iblk1 V c 1 t) (iblk1 V c 2 t) (iblk1 V c 3 t) (iblk1 V c 4 t) (iblk1 V c 5 t) (iblk1 V c 6 t) (ix2 p q)
    = X V c (((cfg1.win 7).blk t).view.emb (ix2 p q))
  rw [emb7 t p q]
  exact (Cert.KernelIdeal.KernPay.out1_7_apply (iblk1 V c 0 t) (iblk1 V c 1 t) (iblk1 V c 2 t) (iblk1 V c 3 t) (iblk1 V c 4 t) (iblk1 V c 5 t) (iblk1 V c 6 t) p q).trans
    (act_blk V c t p q)

/-- WHAT POINT `t` WRITES BACK to the projections array is block `t` of the specification. -/
theorem flushed8_eq (c : Dev nD) (t : Fin cfg1.N) :
    (dat1 (F := Ideal) V c).flushed 8 t = ((cfg1.win 8).blk t).view.read (Elt Ideal) (P V c) := by
  show (cfg1.win 8).cut (grid1.coords t) ((dat1 V c).after 8 t) = _
  rw [after1_8]
  funext j
  obtain ⟨p, q, rfl⟩ : ∃ (p : Fin 10000) (q : Fin 64), j = ix2 p q := ⟨j 0, j 1, eq_ix2 j⟩
  show out1_8 (iblk1 V c 0 t) (iblk1 V c 1 t) (iblk1 V c 2 t) (iblk1 V c 3 t) (iblk1 V c 4 t) (iblk1 V c 5 t) (iblk1 V c 6 t) (ix2 p q)
    = P V c (((cfg1.win 8).blk t).view.emb (ix2 p q))
  rw [emb8 t p q]
  refine (Cert.KernelIdeal.KernPay.out1_8_apply (iblk1 V c 0 t) (iblk1 V c 1 t) (iblk1 V c 2 t) (iblk1 V c 3 t) (iblk1 V c 4 t) (iblk1 V c 5 t) (iblk1 V c 6 t) p q).trans ?_
  show _ = Cert.LayerSpec.proj (fun k => X V c (ix2 (row t p) k)) (fun k q => V c main_v51 (ix2 k q)) q
  rw [(funext fun k => act_blk V c t p k : (fun k => Cert.LayerSpec.act (iblk1 V c 0 t (ix2 p 0)) (fun k => iblk1 V c 1 t (ix2 p k)) (fun k => iblk1 V c 2 t (ix2 p k))
        (fun d k q => iblk1 V c 3 t (ix3 d k q)) (fun d k q => iblk1 V c 5 t (ix3 d k q)) (fun d q => iblk1 V c 4 t (ix2 d q)) k) = fun k => X V c (ix2 (row t p) k)),
    (funext fun k => funext fun q => blk_lw V c t k q : (fun k q => iblk1 V c 6 t (ix2 k q)) = fun k q => V c main_v51 (ix2 k q))]

/-- An index of an output array is in point `t`'s block iff its row is among the point's ten thousand. -/
theorem mem_blk7 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v52_0).slice (win1_7.rect t)).set ↔ _
  rw [View.set_slice_whole, Rect.mem_set_unit]
  exact Iff.rfl

theorem mem_blk8 (t : Fin cfg1.N) (i : S100000x64.Idx) :
    i ∈ ((cfg1.win 8).blk t).view.set ↔ ∀ a : Fin 2, win1_8.index t a * S10000x64.size a ≤ (i a).val ∧ (i a).val < win1_8.index t a * S10000x64.size a + S10000x64.size a := by
  show i ∈ ((View.whole main_v52_1).slice (win1_8.rect t)).set ↔ _
  rw [View.set_slice_whole, Rect.mem_set_unit]
  exact Iff.rfl

/-- The ten row blocks cover the array: row `r` is in block `r / 10000`. -/
theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 10 := N_1
  let t : Fin cfg1.N := ⟨(i 0).val / 10000, by omega⟩
  obtain ⟨-, -, -, -, -, -, f0, f1, -⟩ := idx_facts t
  refine ⟨t, flush1_7 t, ?_⟩
  rw [mem_blk7]
  intro a
  match a with
  | ⟨0, _⟩ => show win1_7.index t (0 : Fin 2) * 10000 ≤ (i 0).val ∧ (i 0).val < win1_7.index t (0 : Fin 2) * 10000 + 10000; rw [f0]; show (i 0).val / 10000 * 10000 ≤ (i 0).val ∧ (i 0).val < (i 0).val / 10000 * 10000 + 10000; omega
  | ⟨1, _⟩ => show win1_7.index t (1 : Fin 2) * 64 ≤ (i 1).val ∧ (i 1).val < win1_7.index t (1 : Fin 2) * 64 + 64; rw [f1]; omega

theorem cover8 (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 10 := N_1
  let t : Fin cfg1.N := ⟨(i 0).val / 10000, by omega⟩
  obtain ⟨-, -, -, -, -, -, -, -, f0, f1, -⟩ := idx_facts t
  refine ⟨t, flush1_8 t, ?_⟩
  rw [mem_blk8]
  intro a
  match a with
  | ⟨0, _⟩ => show win1_8.index t (0 : Fin 2) * 10000 ≤ (i 0).val ∧ (i 0).val < win1_8.index t (0 : Fin 2) * 10000 + 10000; rw [f0]; show (i 0).val / 10000 * 10000 ≤ (i 0).val ∧ (i 0).val < (i 0).val / 10000 * 10000 + 10000; omega
  | ⟨1, _⟩ => show win1_8.index t (1 : Fin 2) * 64 ≤ (i 1).val ∧ (i 1).val < win1_8.index t (1 : Fin 2) * 64 + 64; rw [f1]; omega

/-- THE NEW-FEATURES ARRAY after the region: the specification of the arrays as the region finds them. -/
theorem final7 (c : Dev nD) : (dat1 (F := Ideal) V c).arrAt 7 cfg1.N = X V c :=
  (dat1 V c).arrAt_eq_of_cover 7 (X V c) (fun t _ => flushed7_eq V c t) cover7

/-- THE PROJECTIONS ARRAY after the region. -/
theorem final8 (c : Dev nD) : (dat1 (F := Ideal) V c).arrAt 8 cfg1.N = P V c :=
  (dat1 V c).arrAt_eq_of_cover 8 (P V c) (fun t _ => flushed8_eq V c t) cover8

end Cert.KernelIdeal.Blocks1

end
-- ==== Proof.KernPay2.lean ====
/-
  Layer kernel 2's two stored blocks read at one index, on the extended reals. The block of new features at row `p`,
  feature `q` is the logistic function of the eleven degree buckets accumulated from zero in the order 0, 1, …, 10 —
  bucket `d` adds the indicator of "the row's clamped degree is `d`" times ((the aggregated row through the `d`-th left
  matrix, plus the `d`-th bias) plus the row's own features through the `d`-th right matrix) —, and the block of
  projections is that row of new features through the projection matrix. Each is obtained by reading the whole-block
  loads as the blocks, each weight and bias load as bucket `d`'s slice of the stacked array, and every vector operation
  of the body at the index.
-/
import proofs.«161618_j71751723647734_1_alg».proof.Proof.KernBucket

set_option maxRecDepth 16384

noncomputable section

namespace Cert.KernelIdeal.KernPay

open Cert.KernelIdeal Cert.KernelIdeal.Gen Idealize.ShloMosaic Idealize.ShloMosaic.ValueIdx

/-- The new-features block of layer kernel 2 at row `p`, feature `q`: the layer's activation of the row. -/
theorem out2_7_apply (x0 : Vec Ideal S10000x1 .i32) (x1 x2 : Vec Ideal S10000x64 .f32) (x3 : Vec Ideal S11x64x64 .f32)
    (x4 : Vec Ideal S11x64 .f32) (x5 : Vec Ideal S11x64x64 .f32) (x6 : Vec Ideal S64x64 .f32) (p : Fin 10000) (q : Fin 64) :
    Gen.out2_7 (F := Ideal) x0 x1 x2 x3 x4 x5 x6 (ix2 p q)
      = Cert.LayerSpec.act (x0 (ix2 p 0)) (fun k => x1 (ix2 p k)) (fun k => x2 (ix2 p k)) (fun d k q => x3 (ix3 d k q))
        (fun d k q => x5 (ix3 d k q)) (fun d q => x4 (ix2 d q)) q := by
  unfold Gen.out2_7
  rw [View.canon_unit_zero hz2]
  rw [ld_whole2 x0, ld_whole2 x1, ld_whole2 x2]
  rw [ldw_eq x3 ![0, 0, 0] _ 0 rfl,
    ldw_eq x5 ![0, 0, 0] _ 0 rfl,
    ldb_eq x4 ![0, 0] _ 0 rfl,
    ldw_eq x3 ![1, 0, 0] _ 1 rfl,
    ldw_eq x5 ![1, 0, 0] _ 1 rfl,
    ldb_eq x4 ![1, 0] _ 1 rfl,
    ldw_eq x3 ![2, 0, 0] _ 2 rfl,
    ldw_eq x5 ![2, 0, 0] _ 2 rfl,
    ldb_eq x4 ![2, 0] _ 2 rfl,
    ldw_eq x3 ![3, 0, 0] _ 3 rfl,
    ldw_eq x5 ![3, 0, 0] _ 3 rfl,
    ldb_eq x4 ![3, 0] _ 3 rfl,
    ldw_eq x3 ![4, 0, 0] _ 4 rfl,
    ldw_eq x5 ![4, 0, 0] _ 4 rfl,
    ldb_eq x4 ![4, 0] _ 4 rfl,
    ldw_eq x3 ![5, 0, 0] _ 5 rfl,
    ldw_eq x5 ![5, 0, 0] _ 5 rfl,
    ldb_eq x4 ![5, 0] _ 5 rfl,
    ldw_eq x3 ![6, 0, 0] _ 6 rfl,
    ldw_eq x5 ![6, 0, 0] _ 6 rfl,
    ldb_eq x4 ![6, 0] _ 6 rfl,
    ldw_eq x3 ![7, 0, 0] _ 7 rfl,
    ldw_eq x5 ![7, 0, 0] _ 7 rfl,
    ldb_eq x4 ![7, 0] _ 7 rfl,
    ldw_eq x3 ![8, 0, 0] _ 8 rfl,
    ldw_eq x5 ![8, 0, 0] _ 8 rfl,
    ldb_eq x4 ![8, 0] _ 8 rfl,
    ldw_eq x3 ![9, 0, 0] _ 9 rfl,
    ldw_eq x5 ![9, 0, 0] _ 9 rfl,
    ldb_eq x4 ![9, 0] _ 9 rfl,
    ldw_eq x3 ![10, 0, 0] _ 10 rfl,
    ldw_eq x5 ![10, 0, 0] _ 10 rfl,
    ldb_eq x4 ![10, 0] _ 10 rfl]
  simp only [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23,
    logistic_apply, addf_apply, mulf_apply, truncf_apply, bcol_apply, brow_apply, mm_apply, wcast_apply,
    bias_cast, mask_apply, shapeCast_self, wblk_apply, bblk_apply, zero_bcast]
  rfl

/-- The projections block of layer kernel 2 at row `p`, column `q`: the row's new features through the projection
    matrix. -/
theorem out2_8_apply (x0 : Vec Ideal S10000x1 .i32) (x1 x2 : Vec Ideal S10000x64 .f32) (x3 : Vec Ideal S11x64x64 .f32)
    (x4 : Vec Ideal S11x64 .f32) (x5 : Vec Ideal S11x64x64 .f32) (x6 : Vec Ideal S64x64 .f32) (p : Fin 10000) (q : Fin 64) :
    Gen.out2_8 (F := Ideal) x0 x1 x2 x3 x4 x5 x6 (ix2 p q)
      = Cert.LayerSpec.proj (fun k => Cert.LayerSpec.act (x0 (ix2 p 0)) (fun k => x1 (ix2 p k)) (fun k => x2 (ix2 p k)) (fun d k q => x3 (ix3 d k q))
        (fun d k q => x5 (ix3 d k q)) (fun d q => x4 (ix2 d q)) k)
          (fun k q => x6 (ix2 k q)) q := by
  unfold Gen.out2_8
  rw [View.canon_unit_zero hz2]
  rw [ld_whole2 x0, ld_whole2 x1, ld_whole2 x2, ld_whole2 x6]
  rw [ldw_eq x3 ![0, 0, 0] _ 0 rfl,
    ldw_eq x5 ![0, 0, 0] _ 0 rfl,
    ldb_eq x4 ![0, 0] _ 0 rfl,
    ldw_eq x3 ![1, 0, 0] _ 1 rfl,
    ldw_eq x5 ![1, 0, 0] _ 1 rfl,
    ldb_eq x4 ![1, 0] _ 1 rfl,
    ldw_eq x3 ![2, 0, 0] _ 2 rfl,
    ldw_eq x5 ![2, 0, 0] _ 2 rfl,
    ldb_eq x4 ![2, 0] _ 2 rfl,
    ldw_eq x3 ![3, 0, 0] _ 3 rfl,
    ldw_eq x5 ![3, 0, 0] _ 3 rfl,
    ldb_eq x4 ![3, 0] _ 3 rfl,
    ldw_eq x3 ![4, 0, 0] _ 4 rfl,
    ldw_eq x5 ![4, 0, 0] _ 4 rfl,
    ldb_eq x4 ![4, 0] _ 4 rfl,
    ldw_eq x3 ![5, 0, 0] _ 5 rfl,
    ldw_eq x5 ![5, 0, 0] _ 5 rfl,
    ldb_eq x4 ![5, 0] _ 5 rfl,
    ldw_eq x3 ![6, 0, 0] _ 6 rfl,
    ldw_eq x5 ![6, 0, 0] _ 6 rfl,
    ldb_eq x4 ![6, 0] _ 6 rfl,
    ldw_eq x3 ![7, 0, 0] _ 7 rfl,
    ldw_eq x5 ![7, 0, 0] _ 7 rfl,
    ldb_eq x4 ![7, 0] _ 7 rfl,
    ldw_eq x3 ![8, 0, 0] _ 8 rfl,
    ldw_eq x5 ![8, 0, 0] _ 8 rfl,
    ldb_eq x4 ![8, 0] _ 8 rfl,
    ldw_eq x3 ![9, 0, 0] _ 9 rfl,
    ldw_eq x5 ![9, 0, 0] _ 9 rfl,
    ldb_eq x4 ![9, 0] _ 9 rfl,
    ldw_eq x3 ![10, 0, 0] _ 10 rfl,
    ldw_eq x5 ![10, 0, 0] _ 10 rfl,
    ldb_eq x4 ![10, 0] _ 10 rfl]
  simp only [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23,
    logistic_apply, addf_apply, mulf_apply, truncf_apply, bcol_apply, brow_apply, mm_apply, wcast_apply,
    bias_cast, mask_apply, shapeCast_self, wblk_apply, bblk_apply, zero_bcast]
  rfl

end Cert.KernelIdeal.KernPay

end
-- ==== Proof.Blocks2.lean ====
/-
  Region 2 of the idealized kernel program (layer 2's Pallas call), from blocks to arrays. The grid has ten points;
  point `t` is handed rows 10000·t … 10000·t + 9999 of the degrees, of the aggregated rows and of the nodes' own rows,
  and every weight array whole; it writes back the same ten thousand rows of the two outputs. Since the body's value
  at a local (row, column) is the layer specification of that row's data (the payload module), what point `t` writes
  back is block `t` of the specification taken over the whole arrays; the ten blocks cover the 100000 rows, so each
  output array ends as the specification of the arrays the region was entered with: `final7` (new features) and
  `final8` (projections).
-/
import proofs.«161618_j71751723647734_1_alg».proof.Proof.Gen.KernelIdeal.Frame
import proofs.«161618_j71751723647734_1_alg».proof.Proof.LayerSpec
import proofs.«161618_j71751723647734_1_alg».proof.Proof.KernPay2
import Idealize.ShloMosaic.Lib.Pipeline.Value
import Idealize.ShloMosaic.Lib.ValueIdx

set_option maxRecDepth 16384

noncomputable section

namespace Cert.KernelIdeal.Blocks2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Grid point `t` handles the rows `10000 t … 10000 t + 9999` of every row-blocked array (degrees, aggregated rows,
    own rows, both outputs), all 64 columns, and sees each weight array whole: the printed index maps, decided over
    the ten grid points. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 3) = 0 ∧ win2_5.index t (1 : Fin 3) = 0 ∧ win2_5.index t (2 : Fin 3) = 0
    ∧ win2_6.index t (0 : Fin 2) = 0 ∧ win2_6.index t (1 : Fin 2) = 0 :=
  (by decide +kernel : ∀ t : Fin grid2.N, _)

/-- The global row of local row `p` of grid point `t`'s block. -/
def row (t : Fin cfg2.N) (p : Fin 10000) : Fin 100000 :=
  ⟨t.val * 10000 + p.val, by have h1 := t.isLt; have h2 := p.isLt; have hN : cfg2.N = 10 := N_2; omega⟩

/-- The degree block of point `t` at local row `p` is the degree array at the global row. -/
theorem blk_deg (c : Dev nD) (t : Fin cfg2.N) (p : Fin 10000) :
    iblk2 V c 0 t (ix2 p 0) = V c main_v9 (ix2 (row t p) 0) := by
  obtain ⟨f0, f1, -⟩ := idx_facts t
  show V c main_v9 (((cfg2.win 0).blk t).view.emb (ix2 p 0)) = _
  refine congrArg (V c main_v9) (funext fun a => Fin.ext ?_)
  match a with
  | ⟨0, _⟩ => show win2_0.index t (0 : Fin 2) * 10000 + 1 * p.val = t.val * 10000 + p.val; rw [f0]; omega
  | ⟨1, _⟩ => show win2_0.index t (1 : Fin 2) * 1 + 1 * 0 = 0; rw [f1]

/-- The aggregated-rows block of point `t` at local (p, k) is the array at the global row. -/
theorem blk_h (c : Dev nD) (t : Fin cfg2.N) (p : Fin 10000) (k : Fin 64) :
    iblk2 V c 1 t (ix2 p k) = V c main_v66 (ix2 (row t p) k) := by
  obtain ⟨-, -, f0, f1, -⟩ := idx_facts t
  show V c main_v66 (((cfg2.win 1).blk t).view.emb (ix2 p k)) = _
  refine congrArg (V c main_v66) (funext fun a => Fin.ext ?_)
  match a with
  | ⟨0, _⟩ => show win2_1.index t (0 : Fin 2) * 10000 + 1 * p.val = t.val * 10000 + p.val; rw [f0]; omega
  | ⟨1, _⟩ => show win2_1.index t (1 : Fin 2) * 64 + 1 * k.val = k.val; rw [f1]; omega

/-- The own-rows block likewise. -/
theorem blk_x (c : Dev nD) (t : Fin cfg2.N) (p : Fin 10000) (k : Fin 64) :
    iblk2 V c 2 t (ix2 p k) = V c main_v52_0 (ix2 (row t p) k) := by
  obtain ⟨-, -, -, -, f0, f1, -⟩ := idx_facts t
  show V c main_v52_0 (((cfg2.win 2).blk t).view.emb (ix2 p k)) = _
  refine congrArg (V c main_v52_0) (funext fun a => Fin.ext ?_)
  match a with
  | ⟨0, _⟩ => show win2_2.index t (0 : Fin 2) * 10000 + 1 * p.val = t.val * 10000 + p.val; rw [f0]; omega
  | ⟨1, _⟩ => show win2_2.index t (1 : Fin 2) * 64 + 1 * k.val = k.val; rw [f1]; omega

/-- Every point sees the aggregated-rows weights whole. -/
theorem blk_wl (c : Dev nD) (t : Fin cfg2.N) (d : Fin 11) (k q : Fin 64) :
    iblk2 V c 3 t (ix3 d k q) = V c main_v68 (ix3 d k q) := by
  obtain ⟨-, -, -, -, -, -, -, -, -, -, f0, f1, f2, -⟩ := idx_facts t
  show V c main_v68 (((cfg2.win 3).blk t).view.emb (ix3 d k q)) = _
  refine congrArg (V c main_v68) (funext fun a => Fin.ext ?_)
  match a with
  | ⟨0, _⟩ => show win2_3.index t (0 : Fin 3) * 11 + 1 * d.val = d.val; rw [f0]; omega
  | ⟨1, _⟩ => show win2_3.index t (1 : Fin 3) * 64 + 1 * k.val = k.val; rw [f1]; omega
  | ⟨2, _⟩ => show win2_3.index t (2 : Fin 3) * 64 + 1 * q.val = q.val; rw [f2]; omega

/-- Every point sees the biases whole. -/
theorem blk_bl (c : Dev nD) (t : Fin cfg2.N) (d : Fin 11) (q : Fin 64) :
    iblk2 V c 4 t (ix2 d q) = V c main_v70 (ix2 d q) := by
  obtain ⟨-, -, -, -, -, -, -, -, -, -, -, -, -, f0, f1, -⟩ := idx_facts t
  show V c main_v70 (((cfg2.win 4).blk t).view.emb (ix2 d q)) = _
  refine congrArg (V c main_v70) (funext fun a => Fin.ext ?_)
  match a with
  | ⟨0, _⟩ => show win2_4.index t (0 : Fin 2) * 11 + 1 * d.val = d.val; rw [f0]; omega
  | ⟨1, _⟩ => show win2_4.index t (1 : Fin 2) * 64 + 1 * q.val = q.val; rw [f1]; omega

/-- Every point sees the own-rows weights whole. -/
theorem blk_wr (c : Dev nD) (t : Fin cfg2.N) (d : Fin 11) (k q : Fin 64) :
    iblk2 V c 5 t (ix3 d k q) = V c main_v72 (ix3 d k q) := by
  obtain ⟨-, -, -, -, -, -, -, -, -, -, -, -, -, -, -, f0, f1, f2, -⟩ := idx_facts t
  show V c main_v72 (((cfg2.win 5).blk t).view.emb (ix3 d k q)) = _
  refine congrArg (V c main_v72) (funext fun a => Fin.ext ?_)
  match a with
  | ⟨0, _⟩ => show win2_5.index t (0 : Fin 3) * 11 + 1 * d.val = d.val; rw [f0]; omega
  | ⟨1, _⟩ => show win2_5.index t (1 : Fin 3) * 64 + 1 * k.val = k.val; rw [f1]; omega
  | ⟨2, _⟩ => show win2_5.index t (2 : Fin 3) * 64 + 1 * q.val = q.val; rw [f2]; omega

/-- Every point sees the projection matrix whole. -/
theorem blk_lw (c : Dev nD) (t : Fin cfg2.N) (k q : Fin 64) :
    iblk2 V c 6 t (ix2 k q) = V c main_v74 (ix2 k q) := by
  obtain ⟨-, -, -, -, -, -, -, -, -, -, -, -, -, -, -, -, -, -, f0, f1⟩ := idx_facts t
  show V c main_v74 (((cfg2.win 6).blk t).view.emb (ix2 k q)) = _
  refine congrArg (V c main_v74) (funext fun a => Fin.ext ?_)
  match a with
  | ⟨0, _⟩ => show win2_6.index t (0 : Fin 2) * 64 + 1 * k.val = k.val; rw [f0]; omega
  | ⟨1, _⟩ => show win2_6.index t (1 : Fin 2) * 64 + 1 * q.val = q.val; rw [f1]; omega

/-- The layer's new features over all nodes, of the arrays as the region finds them. -/
def X (c : Dev nD) : S100000x64.Idx → EReal :=
  Cert.LayerSpec.layerX (fun r => V c main_v9 (ix2 r 0)) (V c main_v66) (V c main_v52_0) (V c main_v68) (V c main_v72) (V c main_v70)

/-- The layer's projections over all nodes, of the arrays as the region finds them. -/
def P (c : Dev nD) : S100000x64.Idx → EReal :=
  Cert.LayerSpec.layerP (X V c) (V c main_v74)

/-- Where point `t`'s output block sits in the output array: local (p, q) at global (10000 t + p, q). -/
theorem emb7 (t : Fin cfg2.N) (p : Fin 10000) (q : Fin 64) :
    ((cfg2.win 7).blk t).view.emb (ix2 p q) = ix2 (row t p) q := by
  obtain ⟨-, -, -, -, -, -, f0, f1, -⟩ := idx_facts t
  funext a; apply Fin.ext
  match a with
  | ⟨0, _⟩ => show win2_7.index t (0 : Fin 2) * 10000 + 1 * p.val = t.val * 10000 + p.val; rw [f0]; omega
  | ⟨1, _⟩ => show win2_7.index t (1 : Fin 2) * 64 + 1 * q.val = q.val; rw [f1]; omega

theorem emb8 (t : Fin cfg2.N) (p : Fin 10000) (q : Fin 64) :
    ((cfg2.win 8).blk t).view.emb (ix2 p q) = ix2 (row t p) q := by
  obtain ⟨-, -, -, -, -, -, -, -, f0, f1, -⟩ := idx_facts t
  funext a; apply Fin.ext
  match a with
  | ⟨0, _⟩ => show win2_8.index t (0 : Fin 2) * 10000 + 1 * p.val = t.val * 10000 + p.val; rw [f0]; omega
  | ⟨1, _⟩ => show win2_8.index t (1 : Fin 2) * 64 + 1 * q.val = q.val; rw [f1]; omega

/-- The new feature the body computes at local (p, q) of point `t` is the specification's at the global row. -/
theorem act_blk (c : Dev nD) (t : Fin cfg2.N) (p : Fin 10000) (q : Fin 64) :
    Cert.LayerSpec.act (iblk2 V c 0 t (ix2 p 0)) (fun k => iblk2 V c 1 t (ix2 p k)) (fun k => iblk2 V c 2 t (ix2 p k))
        (fun d k q => iblk2 V c 3 t (ix3 d k q)) (fun d k q => iblk2 V c 5 t (ix3 d k q)) (fun d q => iblk2 V c 4 t (ix2 d q)) q
      = X V c (ix2 (row t p) q) := by
  show _ = Cert.LayerSpec.act (V c main_v9 (ix2 (row t p) 0)) (fun k => V c main_v66 (ix2 (row t p) k)) (fun k => V c main_v52_0 (ix2 (row t p) k))
        (fun d k q => V c main_v68 (ix3 d k q)) (fun d k q => V c main_v72 (ix3 d k q)) (fun d q => V c main_v70 (ix2 d q)) q
  rw [blk_deg V c t p, funext (blk_h V c t p), funext (blk_x V c t p),
    (funext fun d => funext fun k => funext fun q => blk_wl V c t d k q : (fun d k q => iblk2 V c 3 t (ix3 d k q)) = fun d k q => V c main_v68 (ix3 d k q)),
    (funext fun d => funext fun k => funext fun q => blk_wr V c t d k q : (fun d k q => iblk2 V c 5 t (ix3 d k q)) = fun d k q => V c main_v72 (ix3 d k q)),
    (funext fun d => funext fun q => blk_bl V c t d q : (fun d q => iblk2 V c 4 t (ix2 d q)) = fun d q => V c main_v70 (ix2 d q))]

/-- WHAT POINT `t` WRITES BACK to the new-features array is block `t` of the specification. -/
theorem flushed7_eq (c : Dev nD) (t : Fin cfg2.N) :
    (dat2 (F := Ideal) V c).flushed 7 t = ((cfg2.win 7).blk t).view.read (Elt Ideal) (X V c) := by
  show (cfg2.win 7).cut (grid2.coords t) ((dat2 V c).after 7 t) = _
  rw [after2_7]
  funext j
  obtain ⟨p, q, rfl⟩ : ∃ (p : Fin 10000) (q : Fin 64), j = ix2 p q := ⟨j 0, j 1, eq_ix2 j⟩
  show out2_7 (iblk2 V c 0 t) (iblk2 V c 1 t) (iblk2 V c 2 t) (iblk2 V c 3 t) (iblk2 V c 4 t) (iblk2 V c 5 t) (iblk2 V c 6 t) (ix2 p q)
    = X V c (((cfg2.win 7).blk t).view.emb (ix2 p q))
  rw [emb7 t p q]
  exact (Cert.KernelIdeal.KernPay.out2_7_apply (iblk2 V c 0 t) (iblk2 V c 1 t) (iblk2 V c 2 t) (iblk2 V c 3 t) (iblk2 V c 4 t) (iblk2 V c 5 t) (iblk2 V c 6 t) p q).trans
    (act_blk V c t p q)

/-- WHAT POINT `t` WRITES BACK to the projections array is block `t` of the specification. -/
theorem flushed8_eq (c : Dev nD) (t : Fin cfg2.N) :
    (dat2 (F := Ideal) V c).flushed 8 t = ((cfg2.win 8).blk t).view.read (Elt Ideal) (P V c) := by
  show (cfg2.win 8).cut (grid2.coords t) ((dat2 V c).after 8 t) = _
  rw [after2_8]
  funext j
  obtain ⟨p, q, rfl⟩ : ∃ (p : Fin 10000) (q : Fin 64), j = ix2 p q := ⟨j 0, j 1, eq_ix2 j⟩
  show out2_8 (iblk2 V c 0 t) (iblk2 V c 1 t) (iblk2 V c 2 t) (iblk2 V c 3 t) (iblk2 V c 4 t) (iblk2 V c 5 t) (iblk2 V c 6 t) (ix2 p q)
    = P V c (((cfg2.win 8).blk t).view.emb (ix2 p q))
  rw [emb8 t p q]
  refine (Cert.KernelIdeal.KernPay.out2_8_apply (iblk2 V c 0 t) (iblk2 V c 1 t) (iblk2 V c 2 t) (iblk2 V c 3 t) (iblk2 V c 4 t) (iblk2 V c 5 t) (iblk2 V c 6 t) p q).trans ?_
  show _ = Cert.LayerSpec.proj (fun k => X V c (ix2 (row t p) k)) (fun k q => V c main_v74 (ix2 k q)) q
  rw [(funext fun k => act_blk V c t p k : (fun k => Cert.LayerSpec.act (iblk2 V c 0 t (ix2 p 0)) (fun k => iblk2 V c 1 t (ix2 p k)) (fun k => iblk2 V c 2 t (ix2 p k))
        (fun d k q => iblk2 V c 3 t (ix3 d k q)) (fun d k q => iblk2 V c 5 t (ix3 d k q)) (fun d q => iblk2 V c 4 t (ix2 d q)) k) = fun k => X V c (ix2 (row t p) k)),
    (funext fun k => funext fun q => blk_lw V c t k q : (fun k q => iblk2 V c 6 t (ix2 k q)) = fun k q => V c main_v74 (ix2 k q))]

/-- An index of an output array is in point `t`'s block iff its row is among the point's ten thousand. -/
theorem mem_blk7 (t : Fin cfg2.N) (i : S100000x64.Idx) :
    i ∈ ((cfg2.win 7).blk t).view.set ↔ ∀ a : Fin 2, win2_7.index t a * S10000x64.size a ≤ (i a).val ∧ (i a).val < win2_7.index t a * S10000x64.size a + S10000x64.size a := by
  show i ∈ ((View.whole main_v75_0).slice (win2_7.rect t)).set ↔ _
  rw [View.set_slice_whole, Rect.mem_set_unit]
  exact Iff.rfl

theorem mem_blk8 (t : Fin cfg2.N) (i : S100000x64.Idx) :
    i ∈ ((cfg2.win 8).blk t).view.set ↔ ∀ a : Fin 2, win2_8.index t a * S10000x64.size a ≤ (i a).val ∧ (i a).val < win2_8.index t a * S10000x64.size a + S10000x64.size a := by
  show i ∈ ((View.whole main_v75_1).slice (win2_8.rect t)).set ↔ _
  rw [View.set_slice_whole, Rect.mem_set_unit]
  exact Iff.rfl

/-- The ten row blocks cover the array: row `r` is in block `r / 10000`. -/
theorem cover7 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have hN : cfg2.N = 10 := N_2
  let t : Fin cfg2.N := ⟨(i 0).val / 10000, by omega⟩
  obtain ⟨-, -, -, -, -, -, f0, f1, -⟩ := idx_facts t
  refine ⟨t, flush2_7 t, ?_⟩
  rw [mem_blk7]
  intro a
  match a with
  | ⟨0, _⟩ => show win2_7.index t (0 : Fin 2) * 10000 ≤ (i 0).val ∧ (i 0).val < win2_7.index t (0 : Fin 2) * 10000 + 10000; rw [f0]; show (i 0).val / 10000 * 10000 ≤ (i 0).val ∧ (i 0).val < (i 0).val / 10000 * 10000 + 10000; omega
  | ⟨1, _⟩ => show win2_7.index t (1 : Fin 2) * 64 ≤ (i 1).val ∧ (i 1).val < win2_7.index t (1 : Fin 2) * 64 + 64; rw [f1]; omega

theorem cover8 (i : S100000x64.Idx) : ∃ t : Fin cfg2.N, (cfg2.win 8).flush t = true ∧ i ∈ ((cfg2.win 8).blk t).view.set := by
  have hi0 : (i 0).val < 100000 := (i 0).isLt
  have hi1 : (i 1).val < 64 := (i 1).isLt
  have hN : cfg2.N = 10 := N_2
  let t : Fin cfg2.N := ⟨(i 0).val / 10000, by omega⟩
  obtain ⟨-, -, -, -, -, -, -, -, f0, f1, -⟩ := idx_facts t
  refine ⟨t, flush2_8 t, ?_⟩
  rw [mem_blk8]
  intro a
  match a with
  | ⟨0, _⟩ => show win2_8.index t (0 : Fin 2) * 10000 ≤ (i 0).val ∧ (i 0).val < win2_8.index t (0 : Fin 2) * 10000 + 10000; rw [f0]; show (i 0).val / 10000 * 10000 ≤ (i 0).val ∧ (i 0).val < (i 0).val / 10000 * 10000 + 10000; omega
  | ⟨1, _⟩ => show win2_8.index t (1 : Fin 2) * 64 ≤ (i 1).val ∧ (i 1).val < win2_8.index t (1 : Fin 2) * 64 + 64; rw [f1]; omega

/-- THE NEW-FEATURES ARRAY after the region: the specification of the arrays as the region finds them. -/
theorem final7 (c : Dev nD) : (dat2 (F := Ideal) V c).arrAt 7 cfg2.N = X V c :=
  (dat2 V c).arrAt_eq_of_cover 7 (X V c) (fun t _ => flushed7_eq V c t) cover7

/-- THE PROJECTIONS ARRAY after the region. -/
theorem final8 (c : Dev nD) : (dat2 (F := Ideal) V c).arrAt 8 cfg2.N = P V c :=
  (dat2 V c).arrAt_eq_of_cover 8 (P V c) (fun t _ => flushed8_eq V c t) cover8

end Cert.KernelIdeal.Blocks2

end
-- ==== Proof.RefBucket.lean ====
/-
  One bucket of the reference's layer, read at a node and a feature.

  The reference spells bucket d of a layer over whole arrays: the indicator "clamped degree = d" as a 0/1 float
  broadcast along the features, times ((h · W[l,d] + b[l,d]) + x · V[l,d]) with the two matrices and the bias row
  cut out of the stacked weights by a slice and a reshape, added to the running sum. Read at node r and feature q
  this is the specification's bucket on the rows of r (LayerSpec.bucket). The tail negate / exponential / 1 + · /
  1 / · is the logistic function, and the projection is a plain 64-term sum.
-/
import proofs.«161618_j71751723647734_1_alg».proof.Proof.RefRead
import proofs.«161618_j71751723647734_1_alg».proof.Proof.LayerSpec
import Idealize.ShloMosaic.Lib.IdealHost

noncomputable section

namespace Cert.ReferenceIdeal.RefLayer

open Cert.ReferenceIdeal Cert.ReferenceIdeal.Gen Cert.ReferenceIdeal.ReadP Idealize.ShloMosaic Idealize.ShloMosaic.ValueIdx
open scoped BigOperators

/-- The 0/1 float of "g = c" is the indicator. -/
theorem uitofp_cmpi_eq (g c : BitVec 32) :
    (FloatOps.uitofp (F := Ideal) .f32 (IntOp.cmpi .eq g c) : EReal) = Cert.LayerSpec.ind c g := by
  unfold Cert.LayerSpec.ind IntOp.cmpi
  by_cases h : g = c
  · rw [if_pos h]; subst h
    show (((BitVec.ofBool (g == g)).toNat : ℝ) : EReal) = 1
    simp
  · rw [if_neg h]
    show (((BitVec.ofBool (g == c)).toNat : ℝ) : EReal) = 0
    simp [h]

/-- The mask of bucket c, broadcast over the features, read at (r, q): the indicator of "node r has degree c". -/
theorem mask_apply (deg : IVec S100000 32) (c : BitVec 32) (r : Fin 100000) (q : Fin 64) :
    (broadcastInDim S100000x64 ![0, 1] bcast_S100000x1_S100000x64_0_1
      (uitofp (F := Ideal) .f32 (broadcastInDim S100000x1 ![0] bcast_S100000_S100000x1_0
        (cmpi .eq deg (broadcastInDim S100000 ![] bcast_S_S100000 (constantI S_ 32 c)))))) (ix2 r q)
      = Cert.LayerSpec.ind c (deg (ix1 r)) := by
  rw [broadcastInDim_apply _ bcast_S100000x1_S100000x64_0_1 _ (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])]
  show FloatOps.uitofp (F := Ideal) .f32 ((broadcastInDim S100000x1 ![0] bcast_S100000_S100000x1_0
        (cmpi .eq deg (broadcastInDim S100000 ![] bcast_S_S100000 (constantI S_ 32 c)))) (ix2 r (0 : Fin 1))) = _
  rw [broadcastInDim_apply _ bcast_S100000_S100000x1_0 _ (ix2 r (0 : Fin 1)) (ix1 r) (fun a => match a with
    | ⟨0, _⟩ => by show r.val = if (100000 : Nat) = 1 then 0 else r.val; rw [if_neg (by decide)])]
  show FloatOps.uitofp (F := Ideal) .f32 (IntOp.cmpi .eq (deg (ix1 r))
    ((broadcastInDim S100000 ![] bcast_S_S100000 (constantI S_ 32 c)) (ix1 r))) = _
  rw [broadcastInDim_apply _ bcast_S_S100000 (constantI S_ 32 c) (ix1 r) ix0 (fun a => a.elim0)]
  exact uitofp_cmpi_eq _ _

/-- The matrix of layer l, bucket d, cut out of the stacked weights, read at (k, q). -/
theorem wmat_apply (W4 : FVec Ideal S3x11x64x64 .f32) (offW : Fin 4 → ℕ) (hW : S3x11x64x64.Slices offW S1x1x64x64)
    (l : Fin 3) (d : Fin 11) (h0 : offW 0 = l.val) (h1 : offW 1 = d.val) (h2 : offW 2 = 0) (h3 : offW 3 = 0)
    (k q : Fin 64) :
    (shapeCast S64x64 (extractStridedSlice S1x1x64x64 offW W4 hW) shapeCasts_S1x1x64x64_S64x64) (ix2 k q)
      = W4 (ix4 l d k q) := by
  rw [shapeCast_apply _ shapeCasts_S1x1x64x64_S64x64 (ix2 k q) (ix4 (0 : Fin 1) (0 : Fin 1) k q)
    (by rewrite [Shape.rowMajor_val_four, Shape.rowMajor_val_two]
        show ((0 * 1 + 0) * 64 + k.val) * 64 + q.val = k.val * 64 + q.val
        omega)]
  exact extractStridedSlice_apply offW W4 hW _ (ix4 l d k q) (fun a => match a with
    | ⟨0, _⟩ => by show l.val = offW 0 + 0; omega
    | ⟨1, _⟩ => by show d.val = offW 1 + 0; omega
    | ⟨2, _⟩ => by show k.val = offW 2 + k.val; omega
    | ⟨3, _⟩ => by show q.val = offW 3 + q.val; omega)

/-- The bias row of layer l, bucket d, cut out of the stacked biases and broadcast over the nodes, read at (r, q). -/
theorem bias_apply (B3 : FVec Ideal S3x11x64 .f32) (offB : Fin 3 → ℕ) (hB : S3x11x64.Slices offB S1x1x64)
    (l : Fin 3) (d : Fin 11) (h0 : offB 0 = l.val) (h1 : offB 1 = d.val) (h2 : offB 2 = 0)
    (r : Fin 100000) (q : Fin 64) :
    (broadcastInDim S100000x64 ![0, 1] bcast_S1x64_S100000x64_0_1 (broadcastInDim S1x64 ![1] bcast_S64_S1x64_1
      (shapeCast S64 (extractStridedSlice S1x1x64 offB B3 hB) shapeCasts_S1x1x64_S64))) (ix2 r q)
      = B3 (ix3 l d q) := by
  rw [broadcastInDim_apply _ bcast_S1x64_S100000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])]
  rw [broadcastInDim_apply _ bcast_S64_S1x64_1 _ (ix2 (0 : Fin 1) q) (ix1 q) (fun a => match a with
    | ⟨0, _⟩ => by show q.val = if (64 : Nat) = 1 then 0 else q.val; rw [if_neg (by decide)])]
  rw [shapeCast_apply _ shapeCasts_S1x1x64_S64 (ix1 q) (ix3 (0 : Fin 1) (0 : Fin 1) q)
    (by rewrite [Shape.rowMajor_val_three, Shape.rowMajor_val_one]
        show (0 * 1 + 0) * 64 + q.val = q.val
        omega)]
  exact extractStridedSlice_apply offB B3 hB _ (ix3 l d q) (fun a => match a with
    | ⟨0, _⟩ => by show l.val = offB 0 + 0; omega
    | ⟨1, _⟩ => by show d.val = offB 1 + 0; omega
    | ⟨2, _⟩ => by show q.val = offB 2 + q.val; omega)

/-- A 100000×64 by 64×64 product on the host, read at (r, q): the 64-term sum. -/
theorem dot_apply (a : FVec Ideal S100000x64 .f32) (m : FVec Ideal S64x64 .f32) (r : Fin 100000) (q : Fin 64) :
    (Host.dotGeneral dot_S100000x64_S64x64_S100000x64_1_0_0_1_n_n none a m) (ix2 r q)
      = ∑ k : Fin 64, a (ix2 r k) * m (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k := funext fun a => Fin.ext (by
    match a with
    | ⟨0, _⟩ => exact lhs_main_v27_0 _ _
    | ⟨1, _⟩ => exact (lhs_main_v27_1 _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q := funext fun a => Fin.ext (by
    match a with
    | ⟨0, _⟩ => exact (rhs_main_v27_0 _ _).trans hk
    | ⟨1, _⟩ => exact rhs_main_v27_1 _ _)
  rw [el, er]

/-- ONE BUCKET as the reference spells it. Whatever array out is, if it is the running sum acc plus the masked
    ((h · W[l,d] + b[l,d]) + x · V[l,d]) over whole arrays, then at node r and feature q it is the specification's
    bucket d on acc's element, for layer l's slices of the stacked weights. -/
theorem bucket_apply (out acc h x : FVec Ideal S100000x64 .f32) (deg : IVec S100000 32)
    (W4 : FVec Ideal S3x11x64x64 .f32) (B3 : FVec Ideal S3x11x64 .f32) (V4 : FVec Ideal S3x11x64x64 .f32)
    (c : BitVec 32) (offW : Fin 4 → ℕ) (hW : S3x11x64x64.Slices offW S1x1x64x64)
    (offB : Fin 3 → ℕ) (hB : S3x11x64.Slices offB S1x1x64) (l : Fin 3) (d : Fin 11)
    (hout : out = addf acc (mulf
      (broadcastInDim S100000x64 ![0, 1] bcast_S100000x1_S100000x64_0_1
        (uitofp (F := Ideal) .f32 (broadcastInDim S100000x1 ![0] bcast_S100000_S100000x1_0
          (cmpi .eq deg (broadcastInDim S100000 ![] bcast_S_S100000 (constantI S_ 32 c))))))
      (addf (addf
        (Host.dotGeneral dot_S100000x64_S64x64_S100000x64_1_0_0_1_n_n none h
          (shapeCast S64x64 (extractStridedSlice S1x1x64x64 offW W4 hW) shapeCasts_S1x1x64x64_S64x64))
        (broadcastInDim S100000x64 ![0, 1] bcast_S1x64_S100000x64_0_1 (broadcastInDim S1x64 ![1] bcast_S64_S1x64_1
          (shapeCast S64 (extractStridedSlice S1x1x64 offB B3 hB) shapeCasts_S1x1x64_S64))))
        (Host.dotGeneral dot_S100000x64_S64x64_S100000x64_1_0_0_1_n_n none x
          (shapeCast S64x64 (extractStridedSlice S1x1x64x64 offW V4 hW) shapeCasts_S1x1x64x64_S64x64)))))
    (hc : c = BitVec.ofNat 32 d.val)
    (w0 : offW 0 = l.val) (w1 : offW 1 = d.val) (w2 : offW 2 = 0) (w3 : offW 3 = 0)
    (b0 : offB 0 = l.val) (b1 : offB 1 = d.val) (b2 : offB 2 = 0)
    (r : Fin 100000) (q : Fin 64) :
    out (ix2 r q) = Cert.LayerSpec.bucket (deg (ix1 r)) (fun k => h (ix2 r k)) (fun k => x (ix2 r k))
      (fun d k q => Cert.LayerSpec.wslice l W4 (ix3 d k q)) (fun d k q => Cert.LayerSpec.wslice l V4 (ix3 d k q))
      (fun d q => Cert.LayerSpec.bslice l B3 (ix2 d q)) q d (acc (ix2 r q)) := by
  subst hout hc
  unfold Cert.LayerSpec.bucket
  rw [addf_apply, mulf_apply, addf_apply, addf_apply, mask_apply, dot_apply, dot_apply,
    bias_apply B3 offB hB l d b0 b1 b2]
  simp only [wmat_apply _ offW hW l d w0 w1 w2 w3]
  rfl

/-- The reference's tail 1 / (1 + exp (−z)), with its two constants 1, is the logistic function. -/
theorem tail_eq (one1 one2 zz : EReal) (h1 : one1 = Ideal.ofBits .f32 0x3F800000#32) (h2 : one2 = Ideal.ofBits .f32 0x3F800000#32) :
    Ideal.div one2 (one1 + Ideal.hostUnary .exp (-zz)) = Ideal.logistic zz := by
  subst h1 h2
  rw [Ideal.ofBits_one_f32]
  rfl

/-- The reference's tail 1 / (1 + exp (−z)), spelt with the float operations at the ideal instance and its two
    constants 1, is the logistic function. -/
theorem tail_ops_eq (zz : Ideal .f32) :
    FloatOps.hostDivf (F := Ideal) (Ideal.ofBits .f32 0x3F800000#32 : Ideal .f32)
      (FloatOps.addf (F := Ideal) (Ideal.ofBits .f32 0x3F800000#32 : Ideal .f32)
        (FloatOps.hostUnary (F := Ideal) .exp (FloatOps.hostNegf (F := Ideal) zz))) = Ideal.logistic zz :=
  tail_eq _ _ zz rfl rfl

/-- A scalar float constant broadcast to the node-by-feature shape reads the constant. -/
theorem splat_apply (b : BitVec 32) (i : S100000x64.Idx) :
    (broadcastInDim S100000x64 ![] bcast_S_S100000x64 (constant (F := Ideal) S_ .f32 b)) i = Ideal.ofBits .f32 b := by
  rw [broadcastInDim_apply _ bcast_S_S100000x64 _ i ix0 (fun a => a.elim0)]
  rfl

/-- The projection matrix of layer l cut out of the stacked projections, read at (k, q). -/
theorem lmat_apply (L3 : FVec Ideal S3x64x64 .f32) (offL : Fin 3 → ℕ) (hL : S3x64x64.Slices offL S1x64x64)
    (l : Fin 3) (h0 : offL 0 = l.val) (h1 : offL 1 = 0) (h2 : offL 2 = 0) (k q : Fin 64) :
    (shapeCast S64x64 (extractStridedSlice S1x64x64 offL L3 hL) shapeCasts_S1x64x64_S64x64) (ix2 k q)
      = L3 (ix3 l k q) := by
  rw [shapeCast_apply _ shapeCasts_S1x64x64_S64x64 (ix2 k q) (ix3 (0 : Fin 1) k q)
    (by rewrite [Shape.rowMajor_val_three, Shape.rowMajor_val_two]
        show (0 * 64 + k.val) * 64 + q.val = k.val * 64 + q.val
        omega)]
  exact extractStridedSlice_apply offL L3 hL _ (ix3 l k q) (fun a => match a with
    | ⟨0, _⟩ => by show l.val = offL 0 + 0; omega
    | ⟨1, _⟩ => by show k.val = offL 1 + k.val; omega
    | ⟨2, _⟩ => by show q.val = offL 2 + q.val; omega)

/-- THE PROJECTION as the reference spells it: the new features times layer l's slice of the stacked projections
    is the specification's layerP. -/
theorem proj_eq (out a : FVec Ideal S100000x64 .f32) (L3 : FVec Ideal S3x64x64 .f32) (offL : Fin 3 → ℕ)
    (hL : S3x64x64.Slices offL S1x64x64) (l : Fin 3)
    (hout : out = Host.dotGeneral dot_S100000x64_S64x64_S100000x64_1_0_0_1_n_n none a
      (shapeCast S64x64 (extractStridedSlice S1x64x64 offL L3 hL) shapeCasts_S1x64x64_S64x64))
    (h0 : offL 0 = l.val) (h1 : offL 1 = 0) (h2 : offL 2 = 0) :
    out = Cert.LayerSpec.layerP a (Cert.LayerSpec.lslice l L3) := by
  subst hout
  funext i
  obtain ⟨r, q, rfl⟩ : ∃ r q, i = ix2 r q := ⟨i 0, i 1, eq_ix2 i⟩
  rw [dot_apply]
  simp only [lmat_apply _ offL hL l h0 h1 h2]
  rfl

end Cert.ReferenceIdeal.RefLayer

end
-- ==== Proof.RefLayer0.lean ====
/-
  The reference's layer 0: its new features and its projections are the specification's (LayerSpec.layerX,
  LayerSpec.layerP). Each of the eleven running sums is one bucket of the specification on the previous one
  (RefBucket.bucket_apply), the first running sum starts from the zero array, and the tail is the logistic function.
-/
import proofs.«161618_j71751723647734_1_alg».proof.Proof.RefBucket

noncomputable section

namespace Cert.ReferenceIdeal.RefLayer

open Cert.ReferenceIdeal Cert.ReferenceIdeal.Gen Cert.ReferenceIdeal.ReadP Idealize.ShloMosaic Idealize.ShloMosaic.ValueIdx
open scoped BigOperators

/-- Layer 0's new features in the reference are the specification's, on the clamped degrees, the layer's aggregated
    rows and its node rows, with layer 0's slices of the stacked weights. -/
theorem x1_eq (x0 : FVec Ideal S100000x64 .f32) (x1 : IVec S2x1000000 32) (x3 : FVec Ideal S3x11x64x64 .f32) (x4 : FVec Ideal S3x11x64 .f32) (x5 : FVec Ideal S3x11x64x64 .f32) :
    val_main_v235 (F := Ideal) x0 x1 x3 x4 x5 = Cert.LayerSpec.layerX (fun r => val_main_v8 (F := Ideal) x1 (ix1 r)) (val_main_v19 (F := Ideal) x0 x1) x0
      (Cert.LayerSpec.wslice 0 x3) (Cert.LayerSpec.wslice 0 x5) (Cert.LayerSpec.bslice 0 x4) := by
  funext i
  obtain ⟨r, q, rfl⟩ : ∃ r q, i = ix2 r q := ⟨i 0, i 1, eq_ix2 i⟩
  have e0 := bucket_apply (val_main_v39 (F := Ideal) x0 x1 x3 x4 x5) (val_main_v20 (F := Ideal)) (val_main_v19 (F := Ideal) x0 x1) x0 (val_main_v8 (F := Ideal) x1)
    x3 x4 x5 0#32 ![0, 0, 0, 0] slices_S3x11x64x64_S1x1x64x64_0_0_0_0 ![0, 0, 0] slices_S3x11x64_S1x1x64_0_0_0 0 0 rfl rfl rfl rfl rfl rfl rfl rfl rfl r q
  have e1 := bucket_apply (val_main_v58 (F := Ideal) x0 x1 x3 x4 x5) (val_main_v39 (F := Ideal) x0 x1 x3 x4 x5) (val_main_v19 (F := Ideal) x0 x1) x0 (val_main_v8 (F := Ideal) x1)
    x3 x4 x5 1#32 ![0, 1, 0, 0] slices_S3x11x64x64_S1x1x64x64_0_1_0_0 ![0, 1, 0] slices_S3x11x64_S1x1x64_0_1_0 0 1 rfl rfl rfl rfl rfl rfl rfl rfl rfl r q
  have e2 := bucket_apply (val_main_v77 (F := Ideal) x0 x1 x3 x4 x5) (val_main_v58 (F := Ideal) x0 x1 x3 x4 x5) (val_main_v19 (F := Ideal) x0 x1) x0 (val_main_v8 (F := Ideal) x1)
    x3 x4 x5 2#32 ![0, 2, 0, 0] slices_S3x11x64x64_S1x1x64x64_0_2_0_0 ![0, 2, 0] slices_S3x11x64_S1x1x64_0_2_0 0 2 rfl rfl rfl rfl rfl rfl rfl rfl rfl r q
  have e3 := bucket_apply (val_main_v96 (F := Ideal) x0 x1 x3 x4 x5) (val_main_v77 (F := Ideal) x0 x1 x3 x4 x5) (val_main_v19 (F := Ideal) x0 x1) x0 (val_main_v8 (F := Ideal) x1)
    x3 x4 x5 3#32 ![0, 3, 0, 0] slices_S3x11x64x64_S1x1x64x64_0_3_0_0 ![0, 3, 0] slices_S3x11x64_S1x1x64_0_3_0 0 3 rfl rfl rfl rfl rfl rfl rfl rfl rfl r q
  have e4 := bucket_apply (val_main_v115 (F := Ideal) x0 x1 x3 x4 x5) (val_main_v96 (F := Ideal) x0 x1 x3 x4 x5) (val_main_v19 (F := Ideal) x0 x1) x0 (val_main_v8 (F := Ideal) x1)
    x3 x4 x5 4#32 ![0, 4, 0, 0] slices_S3x11x64x64_S1x1x64x64_0_4_0_0 ![0, 4, 0] slices_S3x11x64_S1x1x64_0_4_0 0 4 rfl rfl rfl rfl rfl rfl rfl rfl rfl r q
  have e5 := bucket_apply (val_main_v134 (F := Ideal) x0 x1 x3 x4 x5) (val_main_v115 (F := Ideal) x0 x1 x3 x4 x5) (val_main_v19 (F := Ideal) x0 x1) x0 (val_main_v8 (F := Ideal) x1)
    x3 x4 x5 5#32 ![0, 5, 0, 0] slices_S3x11x64x64_S1x1x64x64_0_5_0_0 ![0, 5, 0] slices_S3x11x64_S1x1x64_0_5_0 0 5 rfl rfl rfl rfl rfl rfl rfl rfl rfl r q
  have e6 := bucket_apply (val_main_v153 (F := Ideal) x0 x1 x3 x4 x5) (val_main_v134 (F := Ideal) x0 x1 x3 x4 x5) (val_main_v19 (F := Ideal) x0 x1) x0 (val_main_v8 (F := Ideal) x1)
    x3 x4 x5 6#32 ![0, 6, 0, 0] slices_S3x11x64x64_S1x1x64x64_0_6_0_0 ![0, 6, 0] slices_S3x11x64_S1x1x64_0_6_0 0 6 rfl rfl rfl rfl rfl rfl rfl rfl rfl r q
  have e7 := bucket_apply (val_main_v172 (F := Ideal) x0 x1 x3 x4 x5) (val_main_v153 (F := Ideal) x0 x1 x3 x4 x5) (val_main_v19 (F := Ideal) x0 x1) x0 (val_main_v8 (F := Ideal) x1)
    x3 x4 x5 7#32 ![0, 7, 0, 0] slices_S3x11x64x64_S1x1x64x64_0_7_0_0 ![0, 7, 0] slices_S3x11x64_S1x1x64_0_7_0 0 7 rfl rfl rfl rfl rfl rfl rfl rfl rfl r q
  have e8 := bucket_apply (val_main_v191 (F := Ideal) x0 x1 x3 x4 x5) (val_main_v172 (F := Ideal) x0 x1 x3 x4 x5) (val_main_v19 (F := Ideal) x0 x1) x0 (val_main_v8 (F := Ideal) x1)
    x3 x4 x5 8#32 ![0, 8, 0, 0] slices_S3x11x64x64_S1x1x64x64_0_8_0_0 ![0, 8, 0] slices_S3x11x64_S1x1x64_0_8_0 0 8 rfl rfl rfl rfl rfl rfl rfl rfl rfl r q
  have e9 := bucket_apply (val_main_v210 (F := Ideal) x0 x1 x3 x4 x5) (val_main_v191 (F := Ideal) x0 x1 x3 x4 x5) (val_main_v19 (F := Ideal) x0 x1) x0 (val_main_v8 (F := Ideal) x1)
    x3 x4 x5 9#32 ![0, 9, 0, 0] slices_S3x11x64x64_S1x1x64x64_0_9_0_0 ![0, 9, 0] slices_S3x11x64_S1x1x64_0_9_0 0 9 rfl rfl rfl rfl rfl rfl rfl rfl rfl r q
  have e10 := bucket_apply (val_main_v229 (F := Ideal) x0 x1 x3 x4 x5) (val_main_v210 (F := Ideal) x0 x1 x3 x4 x5) (val_main_v19 (F := Ideal) x0 x1) x0 (val_main_v8 (F := Ideal) x1)
    x3 x4 x5 10#32 ![0, 10, 0, 0] slices_S3x11x64x64_S1x1x64x64_0_10_0_0 ![0, 10, 0] slices_S3x11x64_S1x1x64_0_10_0 0 10 rfl rfl rfl rfl rfl rfl rfl rfl rfl r q
  have ez : (val_main_v20 (F := Ideal)) (ix2 r q) = 0 := by
    unfold val_main_v20 val_main_cst_6
    rw [splat_apply, Ideal.ofBits_zero_f32]
  have h1 : (val_main_v232 (F := Ideal)) (ix2 r q) = Ideal.ofBits .f32 0x3F800000#32 := by
    unfold val_main_v232 val_main_cst_18
    exact splat_apply _ _
  have h2 : (val_main_v234 (F := Ideal)) (ix2 r q) = Ideal.ofBits .f32 0x3F800000#32 := by
    unfold val_main_v234 val_main_cst_19
    exact splat_apply _ _
  rw [val_main_v235_apply, val_main_v233_apply, val_main_v231_apply, val_main_v230_apply, h1, h2, tail_ops_eq]
  rw [e10, e9, e8, e7, e6, e5, e4, e3, e2, e1, e0, ez]
  rfl

/-- Layer 0's projections in the reference are the specification's, from the layer's new features and layer 0's
    slice of the stacked projections. -/
theorem p1_eq (x0 : FVec Ideal S100000x64 .f32) (x1 : IVec S2x1000000 32) (x3 : FVec Ideal S3x11x64x64 .f32) (x4 : FVec Ideal S3x11x64 .f32) (x5 : FVec Ideal S3x11x64x64 .f32) (x6 : FVec Ideal S3x64x64 .f32) :
    val_main_v238 (F := Ideal) x0 x1 x3 x4 x5 x6 = Cert.LayerSpec.layerP (val_main_v235 (F := Ideal) x0 x1 x3 x4 x5) (Cert.LayerSpec.lslice 0 x6) :=
  proj_eq _ _ x6 ![0, 0, 0] slices_S3x64x64_S1x64x64_0_0_0 0 rfl rfl rfl rfl

end Cert.ReferenceIdeal.RefLayer

end
-- ==== Proof.RefLayer1.lean ====
/-
  The reference's layer 1: its new features and its projections are the specification's (LayerSpec.layerX,
  LayerSpec.layerP). Each of the eleven running sums is one bucket of the specification on the previous one
  (RefBucket.bucket_apply), the first running sum starts from the zero array, and the tail is the logistic function.
-/
import proofs.«161618_j71751723647734_1_alg».proof.Proof.RefBucket

noncomputable section

namespace Cert.ReferenceIdeal.RefLayer

open Cert.ReferenceIdeal Cert.ReferenceIdeal.Gen Cert.ReferenceIdeal.ReadP Idealize.ShloMosaic Idealize.ShloMosaic.ValueIdx
open scoped BigOperators

/-- Layer 1's new features in the reference are the specification's, on the clamped degrees, the layer's aggregated
    rows and its node rows, with layer 1's slices of the stacked weights. -/
theorem x2_eq (x0 : FVec Ideal S100000x64 .f32) (x1 : IVec S2x1000000 32) (x3 : FVec Ideal S3x11x64x64 .f32) (x4 : FVec Ideal S3x11x64 .f32) (x5 : FVec Ideal S3x11x64x64 .f32) :
    val_main_v468 (F := Ideal) x0 x1 x3 x4 x5 = Cert.LayerSpec.layerX (fun r => val_main_v8 (F := Ideal) x1 (ix1 r)) (val_main_v252 (F := Ideal) x0 x1 x3 x4 x5) (val_main_v235 (F := Ideal) x0 x1 x3 x4 x5)
      (Cert.LayerSpec.wslice 1 x3) (Cert.LayerSpec.wslice 1 x5) (Cert.LayerSpec.bslice 1 x4) := by
  funext i
  obtain ⟨r, q, rfl⟩ : ∃ r q, i = ix2 r q := ⟨i 0, i 1, eq_ix2 i⟩
  have e0 := bucket_apply (val_main_v272 (F := Ideal) x0 x1 x3 x4 x5) (val_main_v253 (F := Ideal)) (val_main_v252 (F := Ideal) x0 x1 x3 x4 x5) (val_main_v235 (F := Ideal) x0 x1 x3 x4 x5) (val_main_v8 (F := Ideal) x1)
    x3 x4 x5 0#32 ![1, 0, 0, 0] slices_S3x11x64x64_S1x1x64x64_1_0_0_0 ![1, 0, 0] slices_S3x11x64_S1x1x64_1_0_0 1 0 rfl rfl rfl rfl rfl rfl rfl rfl rfl r q
  have e1 := bucket_apply (val_main_v291 (F := Ideal) x0 x1 x3 x4 x5) (val_main_v272 (F := Ideal) x0 x1 x3 x4 x5) (val_main_v252 (F := Ideal) x0 x1 x3 x4 x5) (val_main_v235 (F := Ideal) x0 x1 x3 x4 x5) (val_main_v8 (F := Ideal) x1)
    x3 x4 x5 1#32 ![1, 1, 0, 0] slices_S3x11x64x64_S1x1x64x64_1_1_0_0 ![1, 1, 0] slices_S3x11x64_S1x1x64_1_1_0 1 1 rfl rfl rfl rfl rfl rfl rfl rfl rfl r q
  have e2 := bucket_apply (val_main_v310 (F := Ideal) x0 x1 x3 x4 x5) (val_main_v291 (F := Ideal) x0 x1 x3 x4 x5) (val_main_v252 (F := Ideal) x0 x1 x3 x4 x5) (val_main_v235 (F := Ideal) x0 x1 x3 x4 x5) (val_main_v8 (F := Ideal) x1)
    x3 x4 x5 2#32 ![1, 2, 0, 0] slices_S3x11x64x64_S1x1x64x64_1_2_0_0 ![1, 2, 0] slices_S3x11x64_S1x1x64_1_2_0 1 2 rfl rfl rfl rfl rfl rfl rfl rfl rfl r q
  have e3 := bucket_apply (val_main_v329 (F := Ideal) x0 x1 x3 x4 x5) (val_main_v310 (F := Ideal) x0 x1 x3 x4 x5) (val_main_v252 (F := Ideal) x0 x1 x3 x4 x5) (val_main_v235 (F := Ideal) x0 x1 x3 x4 x5) (val_main_v8 (F := Ideal) x1)
    x3 x4 x5 3#32 ![1, 3, 0, 0] slices_S3x11x64x64_S1x1x64x64_1_3_0_0 ![1, 3, 0] slices_S3x11x64_S1x1x64_1_3_0 1 3 rfl rfl rfl rfl rfl rfl rfl rfl rfl r q
  have e4 := bucket_apply (val_main_v348 (F := Ideal) x0 x1 x3 x4 x5) (val_main_v329 (F := Ideal) x0 x1 x3 x4 x5) (val_main_v252 (F := Ideal) x0 x1 x3 x4 x5) (val_main_v235 (F := Ideal) x0 x1 x3 x4 x5) (val_main_v8 (F := Ideal) x1)
    x3 x4 x5 4#32 ![1, 4, 0, 0] slices_S3x11x64x64_S1x1x64x64_1_4_0_0 ![1, 4, 0] slices_S3x11x64_S1x1x64_1_4_0 1 4 rfl rfl rfl rfl rfl rfl rfl rfl rfl r q
  have e5 := bucket_apply (val_main_v367 (F := Ideal) x0 x1 x3 x4 x5) (val_main_v348 (F := Ideal) x0 x1 x3 x4 x5) (val_main_v252 (F := Ideal) x0 x1 x3 x4 x5) (val_main_v235 (F := Ideal) x0 x1 x3 x4 x5) (val_main_v8 (F := Ideal) x1)
    x3 x4 x5 5#32 ![1, 5, 0, 0] slices_S3x11x64x64_S1x1x64x64_1_5_0_0 ![1, 5, 0] slices_S3x11x64_S1x1x64_1_5_0 1 5 rfl rfl rfl rfl rfl rfl rfl rfl rfl r q
  have e6 := bucket_apply (val_main_v386 (F := Ideal) x0 x1 x3 x4 x5) (val_main_v367 (F := Ideal) x0 x1 x3 x4 x5) (val_main_v252 (F := Ideal) x0 x1 x3 x4 x5) (val_main_v235 (F := Ideal) x0 x1 x3 x4 x5) (val_main_v8 (F := Ideal) x1)
    x3 x4 x5 6#32 ![1, 6, 0, 0] slices_S3x11x64x64_S1x1x64x64_1_6_0_0 ![1, 6, 0] slices_S3x11x64_S1x1x64_1_6_0 1 6 rfl rfl rfl rfl rfl rfl rfl rfl rfl r q
  have e7 := bucket_apply (val_main_v405 (F := Ideal) x0 x1 x3 x4 x5) (val_main_v386 (F := Ideal) x0 x1 x3 x4 x5) (val_main_v252 (F := Ideal) x0 x1 x3 x4 x5) (val_main_v235 (F := Ideal) x0 x1 x3 x4 x5) (val_main_v8 (F := Ideal) x1)
    x3 x4 x5 7#32 ![1, 7, 0, 0] slices_S3x11x64x64_S1x1x64x64_1_7_0_0 ![1, 7, 0] slices_S3x11x64_S1x1x64_1_7_0 1 7 rfl rfl rfl rfl rfl rfl rfl rfl rfl r q
  have e8 := bucket_apply (val_main_v424 (F := Ideal) x0 x1 x3 x4 x5) (val_main_v405 (F := Ideal) x0 x1 x3 x4 x5) (val_main_v252 (F := Ideal) x0 x1 x3 x4 x5) (val_main_v235 (F := Ideal) x0 x1 x3 x4 x5) (val_main_v8 (F := Ideal) x1)
    x3 x4 x5 8#32 ![1, 8, 0, 0] slices_S3x11x64x64_S1x1x64x64_1_8_0_0 ![1, 8, 0] slices_S3x11x64_S1x1x64_1_8_0 1 8 rfl rfl rfl rfl rfl rfl rfl rfl rfl r q
  have e9 := bucket_apply (val_main_v443 (F := Ideal) x0 x1 x3 x4 x5) (val_main_v424 (F := Ideal) x0 x1 x3 x4 x5) (val_main_v252 (F := Ideal) x0 x1 x3 x4 x5) (val_main_v235 (F := Ideal) x0 x1 x3 x4 x5) (val_main_v8 (F := Ideal) x1)
    x3 x4 x5 9#32 ![1, 9, 0, 0] slices_S3x11x64x64_S1x1x64x64_1_9_0_0 ![1, 9, 0] slices_S3x11x64_S1x1x64_1_9_0 1 9 rfl rfl rfl rfl rfl rfl rfl rfl rfl r q
  have e10 := bucket_apply (val_main_v462 (F := Ideal) x0 x1 x3 x4 x5) (val_main_v443 (F := Ideal) x0 x1 x3 x4 x5) (val_main_v252 (F := Ideal) x0 x1 x3 x4 x5) (val_main_v235 (F := Ideal) x0 x1 x3 x4 x5) (val_main_v8 (F := Ideal) x1)
    x3 x4 x5 10#32 ![1, 10, 0, 0] slices_S3x11x64x64_S1x1x64x64_1_10_0_0 ![1, 10, 0] slices_S3x11x64_S1x1x64_1_10_0 1 10 rfl rfl rfl rfl rfl rfl rfl rfl rfl r q
  have ez : (val_main_v253 (F := Ideal)) (ix2 r q) = 0 := by
    unfold val_main_v253 val_main_cst_24
    rw [splat_apply, Ideal.ofBits_zero_f32]
  have h1 : (val_main_v465 (F := Ideal)) (ix2 r q) = Ideal.ofBits .f32 0x3F800000#32 := by
    unfold val_main_v465 val_main_cst_36
    exact splat_apply _ _
  have h2 : (val_main_v467 (F := Ideal)) (ix2 r q) = Ideal.ofBits .f32 0x3F800000#32 := by
    unfold val_main_v467 val_main_cst_37
    exact splat_apply _ _
  rw [val_main_v468_apply, val_main_v466_apply, val_main_v464_apply, val_main_v463_apply, h1, h2, tail_ops_eq]
  rw [e10, e9, e8, e7, e6, e5, e4, e3, e2, e1, e0, ez]
  rfl

/-- Layer 1's projections in the reference are the specification's, from the layer's new features and layer 1's
    slice of the stacked projections. -/
theorem p2_eq (x0 : FVec Ideal S100000x64 .f32) (x1 : IVec S2x1000000 32) (x3 : FVec Ideal S3x11x64x64 .f32) (x4 : FVec Ideal S3x11x64 .f32) (x5 : FVec Ideal S3x11x64x64 .f32) (x6 : FVec Ideal S3x64x64 .f32) :
    val_main_v471 (F := Ideal) x0 x1 x3 x4 x5 x6 = Cert.LayerSpec.layerP (val_main_v468 (F := Ideal) x0 x1 x3 x4 x5) (Cert.LayerSpec.lslice 1 x6) :=
  proj_eq _ _ x6 ![1, 0, 0] slices_S3x64x64_S1x64x64_1_0_0 1 rfl rfl rfl rfl

end Cert.ReferenceIdeal.RefLayer

end
-- ==== Proof.RefLayer2.lean ====
/-
  The reference's layer 2: its new features and its projections are the specification's (LayerSpec.layerX,
  LayerSpec.layerP). Each of the eleven running sums is one bucket of the specification on the previous one
  (RefBucket.bucket_apply), the first running sum starts from the zero array, and the tail is the logistic function.
-/
import proofs.«161618_j71751723647734_1_alg».proof.Proof.RefBucket

noncomputable section

namespace Cert.ReferenceIdeal.RefLayer

open Cert.ReferenceIdeal Cert.ReferenceIdeal.Gen Cert.ReferenceIdeal.ReadP Idealize.ShloMosaic Idealize.ShloMosaic.ValueIdx
open scoped BigOperators

/-- Layer 2's new features in the reference are the specification's, on the clamped degrees, the layer's aggregated
    rows and its node rows, with layer 2's slices of the stacked weights. -/
theorem x3_eq (x0 : FVec Ideal S100000x64 .f32) (x1 : IVec S2x1000000 32) (x3 : FVec Ideal S3x11x64x64 .f32) (x4 : FVec Ideal S3x11x64 .f32) (x5 : FVec Ideal S3x11x64x64 .f32) :
    val_main_v701 (F := Ideal) x0 x1 x3 x4 x5 = Cert.LayerSpec.layerX (fun r => val_main_v8 (F := Ideal) x1 (ix1 r)) (val_main_v485 (F := Ideal) x0 x1 x3 x4 x5) (val_main_v468 (F := Ideal) x0 x1 x3 x4 x5)
      (Cert.LayerSpec.wslice 2 x3) (Cert.LayerSpec.wslice 2 x5) (Cert.LayerSpec.bslice 2 x4) := by
  funext i
  obtain ⟨r, q, rfl⟩ : ∃ r q, i = ix2 r q := ⟨i 0, i 1, eq_ix2 i⟩
  have e0 := bucket_apply (val_main_v505 (F := Ideal) x0 x1 x3 x4 x5) (val_main_v486 (F := Ideal)) (val_main_v485 (F := Ideal) x0 x1 x3 x4 x5) (val_main_v468 (F := Ideal) x0 x1 x3 x4 x5) (val_main_v8 (F := Ideal) x1)
    x3 x4 x5 0#32 ![2, 0, 0, 0] slices_S3x11x64x64_S1x1x64x64_2_0_0_0 ![2, 0, 0] slices_S3x11x64_S1x1x64_2_0_0 2 0 rfl rfl rfl rfl rfl rfl rfl rfl rfl r q
  have e1 := bucket_apply (val_main_v524 (F := Ideal) x0 x1 x3 x4 x5) (val_main_v505 (F := Ideal) x0 x1 x3 x4 x5) (val_main_v485 (F := Ideal) x0 x1 x3 x4 x5) (val_main_v468 (F := Ideal) x0 x1 x3 x4 x5) (val_main_v8 (F := Ideal) x1)
    x3 x4 x5 1#32 ![2, 1, 0, 0] slices_S3x11x64x64_S1x1x64x64_2_1_0_0 ![2, 1, 0] slices_S3x11x64_S1x1x64_2_1_0 2 1 rfl rfl rfl rfl rfl rfl rfl rfl rfl r q
  have e2 := bucket_apply (val_main_v543 (F := Ideal) x0 x1 x3 x4 x5) (val_main_v524 (F := Ideal) x0 x1 x3 x4 x5) (val_main_v485 (F := Ideal) x0 x1 x3 x4 x5) (val_main_v468 (F := Ideal) x0 x1 x3 x4 x5) (val_main_v8 (F := Ideal) x1)
    x3 x4 x5 2#32 ![2, 2, 0, 0] slices_S3x11x64x64_S1x1x64x64_2_2_0_0 ![2, 2, 0] slices_S3x11x64_S1x1x64_2_2_0 2 2 rfl rfl rfl rfl rfl rfl rfl rfl rfl r q
  have e3 := bucket_apply (val_main_v562 (F := Ideal) x0 x1 x3 x4 x5) (val_main_v543 (F := Ideal) x0 x1 x3 x4 x5) (val_main_v485 (F := Ideal) x0 x1 x3 x4 x5) (val_main_v468 (F := Ideal) x0 x1 x3 x4 x5) (val_main_v8 (F := Ideal) x1)
    x3 x4 x5 3#32 ![2, 3, 0, 0] slices_S3x11x64x64_S1x1x64x64_2_3_0_0 ![2, 3, 0] slices_S3x11x64_S1x1x64_2_3_0 2 3 rfl rfl rfl rfl rfl rfl rfl rfl rfl r q
  have e4 := bucket_apply (val_main_v581 (F := Ideal) x0 x1 x3 x4 x5) (val_main_v562 (F := Ideal) x0 x1 x3 x4 x5) (val_main_v485 (F := Ideal) x0 x1 x3 x4 x5) (val_main_v468 (F := Ideal) x0 x1 x3 x4 x5) (val_main_v8 (F := Ideal) x1)
    x3 x4 x5 4#32 ![2, 4, 0, 0] slices_S3x11x64x64_S1x1x64x64_2_4_0_0 ![2, 4, 0] slices_S3x11x64_S1x1x64_2_4_0 2 4 rfl rfl rfl rfl rfl rfl rfl rfl rfl r q
  have e5 := bucket_apply (val_main_v600 (F := Ideal) x0 x1 x3 x4 x5) (val_main_v581 (F := Ideal) x0 x1 x3 x4 x5) (val_main_v485 (F := Ideal) x0 x1 x3 x4 x5) (val_main_v468 (F := Ideal) x0 x1 x3 x4 x5) (val_main_v8 (F := Ideal) x1)
    x3 x4 x5 5#32 ![2, 5, 0, 0] slices_S3x11x64x64_S1x1x64x64_2_5_0_0 ![2, 5, 0] slices_S3x11x64_S1x1x64_2_5_0 2 5 rfl rfl rfl rfl rfl rfl rfl rfl rfl r q
  have e6 := bucket_apply (val_main_v619 (F := Ideal) x0 x1 x3 x4 x5) (val_main_v600 (F := Ideal) x0 x1 x3 x4 x5) (val_main_v485 (F := Ideal) x0 x1 x3 x4 x5) (val_main_v468 (F := Ideal) x0 x1 x3 x4 x5) (val_main_v8 (F := Ideal) x1)
    x3 x4 x5 6#32 ![2, 6, 0, 0] slices_S3x11x64x64_S1x1x64x64_2_6_0_0 ![2, 6, 0] slices_S3x11x64_S1x1x64_2_6_0 2 6 rfl rfl rfl rfl rfl rfl rfl rfl rfl r q
  have e7 := bucket_apply (val_main_v638 (F := Ideal) x0 x1 x3 x4 x5) (val_main_v619 (F := Ideal) x0 x1 x3 x4 x5) (val_main_v485 (F := Ideal) x0 x1 x3 x4 x5) (val_main_v468 (F := Ideal) x0 x1 x3 x4 x5) (val_main_v8 (F := Ideal) x1)
    x3 x4 x5 7#32 ![2, 7, 0, 0] slices_S3x11x64x64_S1x1x64x64_2_7_0_0 ![2, 7, 0] slices_S3x11x64_S1x1x64_2_7_0 2 7 rfl rfl rfl rfl rfl rfl rfl rfl rfl r q
  have e8 := bucket_apply (val_main_v657 (F := Ideal) x0 x1 x3 x4 x5) (val_main_v638 (F := Ideal) x0 x1 x3 x4 x5) (val_main_v485 (F := Ideal) x0 x1 x3 x4 x5) (val_main_v468 (F := Ideal) x0 x1 x3 x4 x5) (val_main_v8 (F := Ideal) x1)
    x3 x4 x5 8#32 ![2, 8, 0, 0] slices_S3x11x64x64_S1x1x64x64_2_8_0_0 ![2, 8, 0] slices_S3x11x64_S1x1x64_2_8_0 2 8 rfl rfl rfl rfl rfl rfl rfl rfl rfl r q
  have e9 := bucket_apply (val_main_v676 (F := Ideal) x0 x1 x3 x4 x5) (val_main_v657 (F := Ideal) x0 x1 x3 x4 x5) (val_main_v485 (F := Ideal) x0 x1 x3 x4 x5) (val_main_v468 (F := Ideal) x0 x1 x3 x4 x5) (val_main_v8 (F := Ideal) x1)
    x3 x4 x5 9#32 ![2, 9, 0, 0] slices_S3x11x64x64_S1x1x64x64_2_9_0_0 ![2, 9, 0] slices_S3x11x64_S1x1x64_2_9_0 2 9 rfl rfl rfl rfl rfl rfl rfl rfl rfl r q
  have e10 := bucket_apply (val_main_v695 (F := Ideal) x0 x1 x3 x4 x5) (val_main_v676 (F := Ideal) x0 x1 x3 x4 x5) (val_main_v485 (F := Ideal) x0 x1 x3 x4 x5) (val_main_v468 (F := Ideal) x0 x1 x3 x4 x5) (val_main_v8 (F := Ideal) x1)
    x3 x4 x5 10#32 ![2, 10, 0, 0] slices_S3x11x64x64_S1x1x64x64_2_10_0_0 ![2, 10, 0] slices_S3x11x64_S1x1x64_2_10_0 2 10 rfl rfl rfl rfl rfl rfl rfl rfl rfl r q
  have ez : (val_main_v486 (F := Ideal)) (ix2 r q) = 0 := by
    unfold val_main_v486 val_main_cst_42
    rw [splat_apply, Ideal.ofBits_zero_f32]
  have h1 : (val_main_v698 (F := Ideal)) (ix2 r q) = Ideal.ofBits .f32 0x3F800000#32 := by
    unfold val_main_v698 val_main_cst_54
    exact splat_apply _ _
  have h2 : (val_main_v700 (F := Ideal)) (ix2 r q) = Ideal.ofBits .f32 0x3F800000#32 := by
    unfold val_main_v700 val_main_cst_55
    exact splat_apply _ _
  rw [val_main_v701_apply, val_main_v699_apply, val_main_v697_apply, val_main_v696_apply, h1, h2, tail_ops_eq]
  rw [e10, e9, e8, e7, e6, e5, e4, e3, e2, e1, e0, ez]
  rfl

/-- Layer 2's projections in the reference are the specification's, from the layer's new features and layer 2's
    slice of the stacked projections. -/
theorem p3_eq (x0 : FVec Ideal S100000x64 .f32) (x1 : IVec S2x1000000 32) (x3 : FVec Ideal S3x11x64x64 .f32) (x4 : FVec Ideal S3x11x64 .f32) (x5 : FVec Ideal S3x11x64x64 .f32) (x6 : FVec Ideal S3x64x64 .f32) :
    val_main_v704 (F := Ideal) x0 x1 x3 x4 x5 x6 = Cert.LayerSpec.layerP (val_main_v701 (F := Ideal) x0 x1 x3 x4 x5) (Cert.LayerSpec.lslice 2 x6) :=
  proj_eq _ _ x6 ![2, 0, 0] slices_S3x64x64_S1x64x64_2_0_0 2 rfl rfl rfl rfl

end Cert.ReferenceIdeal.RefLayer

end
-- ==== Proof.Regions.lean ====
/-
  The three kernel regions against the reference's stages. A region's two output arrays end as the layer specification
  of the arrays it was entered with (the blocks-to-array modules); the reference's stages of the same layer are the same
  specification of ITS inputs (the reference-layer modules). So whenever the region's input arrays hold the reference's
  corresponding stages — the clamped degrees, the layer's aggregated rows, the previous layer's features, the layer's
  slices of the weights — its outputs hold the reference's new features and projections of that layer.
-/
import proofs.«161618_j71751723647734_1_alg».proof.Proof.Blocks0
import proofs.«161618_j71751723647734_1_alg».proof.Proof.Blocks1
import proofs.«161618_j71751723647734_1_alg».proof.Proof.Blocks2
import proofs.«161618_j71751723647734_1_alg».proof.Proof.RefLayer0
import proofs.«161618_j71751723647734_1_alg».proof.Proof.RefLayer1
import proofs.«161618_j71751723647734_1_alg».proof.Proof.RefLayer2

set_option maxRecDepth 16384

noncomputable section

namespace Cert.KernelIdeal.Regions

open Cert.KernelIdeal Cert.KernelIdeal.Gen Idealize.ShloMosaic Idealize.ShloMosaic.TcCoe Idealize.ShloMosaic.ValueIdx Idealize.SL.Sem
open Cert.ReferenceIdeal.ReadP

variable (m : (ℓ : Loc nD τ sig) → Buf (Elt Ideal) ℓ) (ρ : Dev nD → PrngReg)

/-- Region 0: entered with the clamped degrees, the layer's aggregated rows and node rows and layer 0's weights in its
    input arrays, it leaves the reference's stages of layer 0 in its two output arrays. -/
theorem region0 (c : Dev nD) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal))
    (hdeg : (fun r : Fin 100000 => V3 m ρ c main_v9 (ix2 r 0)) = fun r => val_main_v8 (F := Ideal) A1 (ix1 r))
    (hh : V3 m ρ c main_v20 = val_main_v19 (F := Ideal) A0 A1)
    (hx : V3 m ρ c main_arg0 = A0)
    (hwl : V3 m ρ c main_v22 = Cert.LayerSpec.wslice 0 A3)
    (hbl : V3 m ρ c main_v24 = Cert.LayerSpec.bslice 0 A4)
    (hwr : V3 m ρ c main_v26 = Cert.LayerSpec.wslice 0 A5)
    (hlw : V3 m ρ c main_v28 = Cert.LayerSpec.lslice 0 A6) :
    W4 m ρ c (Proc.devRef .tc main_v29_0) = val_main_v235 (F := Ideal) A0 A1 A3 A4 A5 ∧ W4 m ρ c (Proc.devRef .tc main_v29_1) = val_main_v238 (F := Ideal) A0 A1 A3 A4 A5 A6 := by
  have hX : Cert.KernelIdeal.Blocks0.X (V3 m ρ) c = val_main_v235 (F := Ideal) A0 A1 A3 A4 A5 := by
    unfold Cert.KernelIdeal.Blocks0.X
    rw [hdeg, hh, hx, hwl, hbl, hwr]
    exact (Cert.ReferenceIdeal.RefLayer.x1_eq A0 A1 A3 A4 A5).symm
  have hP : Cert.KernelIdeal.Blocks0.P (V3 m ρ) c = val_main_v238 (F := Ideal) A0 A1 A3 A4 A5 A6 := by
    unfold Cert.KernelIdeal.Blocks0.P
    rw [hX, hlw]
    exact (Cert.ReferenceIdeal.RefLayer.p1_eq A0 A1 A3 A4 A5 A6).symm
  exact ⟨(W4_arr m ρ c 7).trans ((Cert.KernelIdeal.Blocks0.final7 (V3 m ρ) c).trans hX),
    (W4_arr m ρ c 8).trans ((Cert.KernelIdeal.Blocks0.final8 (V3 m ρ) c).trans hP)⟩

/-- Region 1: entered with the clamped degrees, the layer's aggregated rows and node rows and layer 1's weights in its
    input arrays, it leaves the reference's stages of layer 1 in its two output arrays. -/
theorem region1 (c : Dev nD) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal))
    (hdeg : (fun r : Fin 100000 => V5 m ρ c main_v9 (ix2 r 0)) = fun r => val_main_v8 (F := Ideal) A1 (ix1 r))
    (hh : V5 m ρ c main_v43 = val_main_v252 (F := Ideal) A0 A1 A3 A4 A5)
    (hx : V5 m ρ c main_v29_0 = val_main_v235 (F := Ideal) A0 A1 A3 A4 A5)
    (hwl : V5 m ρ c main_v45 = Cert.LayerSpec.wslice 1 A3)
    (hbl : V5 m ρ c main_v47 = Cert.LayerSpec.bslice 1 A4)
    (hwr : V5 m ρ c main_v49 = Cert.LayerSpec.wslice 1 A5)
    (hlw : V5 m ρ c main_v51 = Cert.LayerSpec.lslice 1 A6) :
    W6 m ρ c (Proc.devRef .tc main_v52_0) = val_main_v468 (F := Ideal) A0 A1 A3 A4 A5 ∧ W6 m ρ c (Proc.devRef .tc main_v52_1) = val_main_v471 (F := Ideal) A0 A1 A3 A4 A5 A6 := by
  have hX : Cert.KernelIdeal.Blocks1.X (V5 m ρ) c = val_main_v468 (F := Ideal) A0 A1 A3 A4 A5 := by
    unfold Cert.KernelIdeal.Blocks1.X
    rw [hdeg, hh, hx, hwl, hbl, hwr]
    exact (Cert.ReferenceIdeal.RefLayer.x2_eq A0 A1 A3 A4 A5).symm
  have hP : Cert.KernelIdeal.Blocks1.P (V5 m ρ) c = val_main_v471 (F := Ideal) A0 A1 A3 A4 A5 A6 := by
    unfold Cert.KernelIdeal.Blocks1.P
    rw [hX, hlw]
    exact (Cert.ReferenceIdeal.RefLayer.p2_eq A0 A1 A3 A4 A5 A6).symm
  exact ⟨(W6_arr m ρ c 7).trans ((Cert.KernelIdeal.Blocks1.final7 (V5 m ρ) c).trans hX),
    (W6_arr m ρ c 8).trans ((Cert.KernelIdeal.Blocks1.final8 (V5 m ρ) c).trans hP)⟩

/-- Region 2: entered with the clamped degrees, the layer's aggregated rows and node rows and layer 2's weights in its
    input arrays, it leaves the reference's stages of layer 2 in its two output arrays. -/
theorem region2 (c : Dev nD) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal))
    (hdeg : (fun r : Fin 100000 => V7 m ρ c main_v9 (ix2 r 0)) = fun r => val_main_v8 (F := Ideal) A1 (ix1 r))
    (hh : V7 m ρ c main_v66 = val_main_v485 (F := Ideal) A0 A1 A3 A4 A5)
    (hx : V7 m ρ c main_v52_0 = val_main_v468 (F := Ideal) A0 A1 A3 A4 A5)
    (hwl : V7 m ρ c main_v68 = Cert.LayerSpec.wslice 2 A3)
    (hbl : V7 m ρ c main_v70 = Cert.LayerSpec.bslice 2 A4)
    (hwr : V7 m ρ c main_v72 = Cert.LayerSpec.wslice 2 A5)
    (hlw : V7 m ρ c main_v74 = Cert.LayerSpec.lslice 2 A6) :
    W8 m ρ c (Proc.devRef .tc main_v75_0) = val_main_v701 (F := Ideal) A0 A1 A3 A4 A5 ∧ W8 m ρ c (Proc.devRef .tc main_v75_1) = val_main_v704 (F := Ideal) A0 A1 A3 A4 A5 A6 := by
  have hX : Cert.KernelIdeal.Blocks2.X (V7 m ρ) c = val_main_v701 (F := Ideal) A0 A1 A3 A4 A5 := by
    unfold Cert.KernelIdeal.Blocks2.X
    rw [hdeg, hh, hx, hwl, hbl, hwr]
    exact (Cert.ReferenceIdeal.RefLayer.x3_eq A0 A1 A3 A4 A5).symm
  have hP : Cert.KernelIdeal.Blocks2.P (V7 m ρ) c = val_main_v704 (F := Ideal) A0 A1 A3 A4 A5 A6 := by
    unfold Cert.KernelIdeal.Blocks2.P
    rw [hX, hlw]
    exact (Cert.ReferenceIdeal.RefLayer.p3_eq A0 A1 A3 A4 A5 A6).symm
  exact ⟨(W8_arr m ρ c 7).trans ((Cert.KernelIdeal.Blocks2.final7 (V7 m ρ) c).trans hX),
    (W8_arr m ρ c 8).trans ((Cert.KernelIdeal.Blocks2.final8 (V7 m ρ) c).trans hP)⟩

end Cert.KernelIdeal.Regions

end
-- ==== Proof.SliceIdx.lean ====
/-
  Reading the layer's slices of the stacked weights at an index. Layer `l`'s weights are cut out of the stacked arrays by
  a unit-stride slice at offset `l` on the leading axis followed by a reshape that drops that axis; at an index this is
  the stacked array at `l` prefixed to the index (`wslice`, `bslice`, `lslice` of the layer specification). The clamped
  degrees enter the kernel as a 100000 × 1 column: the reshape of the degree vector, read at (r, 0), is the vector at r.
-/
import proofs.«161618_j71751723647734_1_alg».proof.Proof.LayerSpec
import Idealize.ShloMosaic.Lib.Pipeline.Value
import Idealize.ShloMosaic.Lib.ValueIdx

noncomputable section

namespace Cert.LayerSpec

open Idealize.ShloMosaic Idealize.ShloMosaic.ValueIdx

/-- The degree column at (r, 0) is the degree vector at r. -/
theorem reshape_col {α : Type} (v : (⟨1, ![100000]⟩ : Shape).Idx → α)
    (h : (⟨1, ![100000]⟩ : Shape).ShapeCasts ⟨2, ![100000, 1]⟩) (r : Fin 100000) :
    shapeCast ⟨2, ![100000, 1]⟩ v h (ix2 r 0) = v (ix1 r) :=
  shapeCast_apply v h (ix2 r 0) (ix1 r) (by
    rw [Shape.rowMajor_val_one, Shape.rowMajor_val_two]
    show r.val = r.val * 1 + 0
    omega)

/-- Layer `l`'s eleven weight matrices: the slice at `l` with the leading unit axis dropped. -/
theorem wslice_eq (l : Fin 3) (w : (⟨4, ![3, 11, 64, 64]⟩ : Shape).Idx → EReal) (off : Fin 4 → Nat)
    (hoff : ∀ a, off a = (![l.val, 0, 0, 0] : Fin 4 → Nat) a)
    (hs : (⟨4, ![3, 11, 64, 64]⟩ : Shape).Slices off ⟨4, ![1, 11, 64, 64]⟩)
    (hc : (⟨4, ![1, 11, 64, 64]⟩ : Shape).ShapeCasts ⟨3, ![11, 64, 64]⟩) :
    shapeCast ⟨3, ![11, 64, 64]⟩ (extractStridedSlice ⟨4, ![1, 11, 64, 64]⟩ off w hs) hc = wslice l w := by
  funext i
  obtain ⟨d, k, q, rfl⟩ : ∃ (d : Fin 11) (k q : Fin 64), i = ix3 d k q := ⟨i 0, i 1, i 2, eq_ix3 i⟩
  rw [shapeCast_apply _ hc (ix3 d k q) (ix4 (0 : Fin 1) d k q) (by
    rw [Shape.rowMajor_val_four, Shape.rowMajor_val_three]
    show ((0 * 11 + d.val) * 64 + k.val) * 64 + q.val = (d.val * 64 + k.val) * 64 + q.val
    omega)]
  exact extractStridedSlice_apply off w hs (ix4 (0 : Fin 1) d k q) (ix4 l d k q) (fun a => by
    rw [hoff a]
    match a with
    | ⟨0, _⟩ => show l.val = l.val + 0; omega
    | ⟨1, _⟩ => show d.val = 0 + d.val; omega
    | ⟨2, _⟩ => show k.val = 0 + k.val; omega
    | ⟨3, _⟩ => show q.val = 0 + q.val; omega)

/-- Layer `l`'s eleven bias rows. -/
theorem bslice_eq (l : Fin 3) (b : (⟨3, ![3, 11, 64]⟩ : Shape).Idx → EReal) (off : Fin 3 → Nat)
    (hoff : ∀ a, off a = (![l.val, 0, 0] : Fin 3 → Nat) a)
    (hs : (⟨3, ![3, 11, 64]⟩ : Shape).Slices off ⟨3, ![1, 11, 64]⟩)
    (hc : (⟨3, ![1, 11, 64]⟩ : Shape).ShapeCasts ⟨2, ![11, 64]⟩) :
    shapeCast ⟨2, ![11, 64]⟩ (extractStridedSlice ⟨3, ![1, 11, 64]⟩ off b hs) hc = bslice l b := by
  funext i
  obtain ⟨d, q, rfl⟩ : ∃ (d : Fin 11) (q : Fin 64), i = ix2 d q := ⟨i 0, i 1, eq_ix2 i⟩
  rw [shapeCast_apply _ hc (ix2 d q) (ix3 (0 : Fin 1) d q) (by
    rw [Shape.rowMajor_val_three, Shape.rowMajor_val_two]
    show (0 * 11 + d.val) * 64 + q.val = d.val * 64 + q.val
    omega)]
  exact extractStridedSlice_apply off b hs (ix3 (0 : Fin 1) d q) (ix3 l d q) (fun a => by
    rw [hoff a]
    match a with
    | ⟨0, _⟩ => show l.val = l.val + 0; omega
    | ⟨1, _⟩ => show d.val = 0 + d.val; omega
    | ⟨2, _⟩ => show q.val = 0 + q.val; omega)

/-- Layer `l`'s projection matrix. -/
theorem lslice_eq (l : Fin 3) (w : (⟨3, ![3, 64, 64]⟩ : Shape).Idx → EReal) (off : Fin 3 → Nat)
    (hoff : ∀ a, off a = (![l.val, 0, 0] : Fin 3 → Nat) a)
    (hs : (⟨3, ![3, 64, 64]⟩ : Shape).Slices off ⟨3, ![1, 64, 64]⟩)
    (hc : (⟨3, ![1, 64, 64]⟩ : Shape).ShapeCasts ⟨2, ![64, 64]⟩) :
    shapeCast ⟨2, ![64, 64]⟩ (extractStridedSlice ⟨3, ![1, 64, 64]⟩ off w hs) hc = lslice l w := by
  funext i
  obtain ⟨k, q, rfl⟩ : ∃ (k q : Fin 64), i = ix2 k q := ⟨i 0, i 1, eq_ix2 i⟩
  rw [shapeCast_apply _ hc (ix2 k q) (ix3 (0 : Fin 1) k q) (by
    rw [Shape.rowMajor_val_three, Shape.rowMajor_val_two]
    show (0 * 64 + k.val) * 64 + q.val = k.val * 64 + q.val
    omega)]
  exact extractStridedSlice_apply off w hs (ix3 (0 : Fin 1) k q) (ix3 l k q) (fun a => by
    rw [hoff a]
    match a with
    | ⟨0, _⟩ => show l.val = l.val + 0; omega
    | ⟨1, _⟩ => show k.val = 0 + k.val; omega
    | ⟨2, _⟩ => show q.val = 0 + q.val; omega)

end Cert.LayerSpec

end
-- ==== Proof.Stretch0.lean ====
/-
  The kernel program's first three host stretches are the reference's first operations on differently numbered buffers:
  the edge lists cut out of the edge array, the in-degrees counted and clamped, the zero pooled sum, layer 0's aggregated
  rows (the node features gathered at the edges' sources and summed at their targets) and layer 0's weights cut out of
  the stacked arrays. Run from any launch contents, they leave these buffers at the reference's stages of the launch
  contents' arguments, and the arguments as they were.
-/
import proofs.«161618_j71751723647734_1_alg».proof.Proof.Gen.KernelIdeal.Frame
import proofs.«161618_j71751723647734_1_alg».proof.Proof.RefRead
import proofs.«161618_j71751723647734_1_alg».proof.Proof.SliceIdx
import Idealize.ShloMosaic.Lib.StableHlo.Run

set_option maxRecDepth 16384
set_option maxHeartbeats 4000000

noncomputable section

namespace Cert.KernelIdeal.Stretch

open Cert.KernelIdeal Cert.KernelIdeal.Gen Idealize.ShloMosaic Idealize.ShloMosaic.TcCoe Idealize.ShloMosaic.StableHlo
open Idealize.SL.Sem
open Cert.ReferenceIdeal.ReadP
open Idealize.ShloMosaic.ValueIdx

/-- The edges' source nodes. -/
theorem s0_v1
    (W : Valuation τ sig (Elt Ideal))
    (A1 : (⟨S2x1000000, .i32⟩ : BufTy).Contents (Elt Ideal))
    (h1 : W (Proc.devRef .tc main_arg1) = A1) :
    StableHlo.after hostOps0_2 (StableHlo.after hostOps0_1 (StableHlo.after hostOps0 W)) (Proc.devRef .tc main_v1) = val_main_v1 (F := Ideal) A1 := by
  after_results_simp
  rw [h1]
  rfl

/-- The edges' target nodes. -/
theorem s0_v3
    (W : Valuation τ sig (Elt Ideal))
    (A1 : (⟨S2x1000000, .i32⟩ : BufTy).Contents (Elt Ideal))
    (h1 : W (Proc.devRef .tc main_arg1) = A1) :
    StableHlo.after hostOps0_2 (StableHlo.after hostOps0_1 (StableHlo.after hostOps0 W)) (Proc.devRef .tc main_v3) = val_main_v3 (F := Ideal) A1 := by
  after_results_simp
  rw [h1]
  rfl

/-- The zero pooled sum. -/
theorem s0_v10
    (W : Valuation τ sig (Elt Ideal)) :
    StableHlo.after hostOps0_2 (StableHlo.after hostOps0_1 (StableHlo.after hostOps0 W)) (Proc.devRef .tc main_v10) = val_main_v9 (F := Ideal) := by
  after_results_simp
  rfl

/-- Layer 0's aggregated rows: the node features gathered at the edges' sources and summed at their targets. -/
theorem s0_v20
    (W : Valuation τ sig (Elt Ideal))
    (A0 : (⟨S100000x64, .f32⟩ : BufTy).Contents (Elt Ideal))
    (A1 : (⟨S2x1000000, .i32⟩ : BufTy).Contents (Elt Ideal))
    (h0 : W (Proc.devRef .tc main_arg0) = A0)
    (h1 : W (Proc.devRef .tc main_arg1) = A1) :
    StableHlo.after hostOps0_2 (StableHlo.after hostOps0_1 (StableHlo.after hostOps0 W)) (Proc.devRef .tc main_v20) = val_main_v19 (F := Ideal) A0 A1 := by
  after_results_simp
  rw [h0, h1]
  rfl

/-- The clamp of the counted in-degrees to [0, 10], from any contents holding the counts and the two bounds. -/
theorem clip_deg (V : Valuation τ sig (Elt Ideal)) (X7 : (⟨S100000, .i32⟩ : BufTy).Contents (Elt Ideal))
    (h7 : V (Proc.devRef .tc main_v7) = X7)
    (hc1 : V (Proc.devRef .tc main_c_1) = constantI S_ 32 0#32)
    (hc2 : V (Proc.devRef .tc main_c_2) = constantI S_ 32 10#32) :
    StableHlo.after hostOps0_1 V (Proc.devRef .tc main_v8)
      = minsi (broadcastInDim S100000 ![] Facts₀.bcast_S_S100000 (constantI S_ 32 10#32))
          (maxsi (broadcastInDim S100000 ![] Facts₀.bcast_S_S100000 (constantI S_ 32 0#32)) X7) := by
  after_results_simp
  rw [h7, hc1, hc2]
  rfl

/-- The clamped in-degrees after the first two stretches. -/
theorem s0_v8 (W : Valuation τ sig (Elt Ideal)) (A1 : (⟨S2x1000000, .i32⟩ : BufTy).Contents (Elt Ideal))
    (h1 : W (Proc.devRef .tc main_arg1) = A1) :
    StableHlo.after hostOps0_1 (StableHlo.after hostOps0 W) (Proc.devRef .tc main_v8) = val_main_v8 (F := Ideal) A1 := by
  refine (clip_deg _ (val_main_v7 (F := Ideal) A1) ?_ ?_ ?_).trans rfl
  · after_results_simp
    rw [h1]
    rfl
  · after_results_simp
  · after_results_simp

/-- The clamped in-degrees enter the kernels as a column: at (r, 0) it is node r's clamped in-degree. -/
theorem s0_deg (W : Valuation τ sig (Elt Ideal)) (A1 : (⟨S2x1000000, .i32⟩ : BufTy).Contents (Elt Ideal)) (h1 : W (Proc.devRef .tc main_arg1) = A1) (r : Fin 100000) :
    StableHlo.after hostOps0_2 (StableHlo.after hostOps0_1 (StableHlo.after hostOps0 W)) (Proc.devRef .tc main_v9) (ix2 r 0) = val_main_v8 (F := Ideal) A1 (ix1 r) := by
  have h9 : StableHlo.after hostOps0_2 (StableHlo.after hostOps0_1 (StableHlo.after hostOps0 W)) (Proc.devRef .tc main_v9)
      = shapeCast S100000x1 (StableHlo.after hostOps0_1 (StableHlo.after hostOps0 W) (Proc.devRef .tc main_v8))
          Facts₀.shapeCasts_S100000_S100000x1 := by
    generalize StableHlo.after hostOps0_1 (StableHlo.after hostOps0 W) = V'
    after_results_simp
    rfl
  rw [h9, s0_v8 W A1 h1]
  exact Cert.LayerSpec.reshape_col _ _ r

/-- Layer 0's eleven left matrices out of the stacked ones. -/
theorem s0_v22
    (W : Valuation τ sig (Elt Ideal))
    (A3 : (⟨S3x11x64x64, .f32⟩ : BufTy).Contents (Elt Ideal))
    (h3 : W (Proc.devRef .tc main_arg3) = A3) :
    StableHlo.after hostOps0_2 (StableHlo.after hostOps0_1 (StableHlo.after hostOps0 W)) (Proc.devRef .tc main_v22) = Cert.LayerSpec.wslice 0 A3 := by
  refine Eq.trans ?_ (Cert.LayerSpec.wslice_eq 0 A3 ![0, 0, 0, 0] (fun a => by fin_cases a <;> rfl) Facts₀.slices_S3x11x64x64_S1x11x64x64_0_0_0_0 Facts₀.shapeCasts_S1x11x64x64_S11x64x64)
  after_results_simp
  rw [h3]
  rfl

/-- Layer 0's eleven bias rows out of the stacked ones. -/
theorem s0_v24
    (W : Valuation τ sig (Elt Ideal))
    (A4 : (⟨S3x11x64, .f32⟩ : BufTy).Contents (Elt Ideal))
    (h4 : W (Proc.devRef .tc main_arg4) = A4) :
    StableHlo.after hostOps0_2 (StableHlo.after hostOps0_1 (StableHlo.after hostOps0 W)) (Proc.devRef .tc main_v24) = Cert.LayerSpec.bslice 0 A4 := by
  refine Eq.trans ?_ (Cert.LayerSpec.bslice_eq 0 A4 ![0, 0, 0] (fun a => by fin_cases a <;> rfl) Facts₀.slices_S3x11x64_S1x11x64_0_0_0 Facts₀.shapeCasts_S1x11x64_S11x64)
  after_results_simp
  rw [h4]
  rfl

/-- Layer 0's eleven right matrices out of the stacked ones. -/
theorem s0_v26
    (W : Valuation τ sig (Elt Ideal))
    (A5 : (⟨S3x11x64x64, .f32⟩ : BufTy).Contents (Elt Ideal))
    (h5 : W (Proc.devRef .tc main_arg5) = A5) :
    StableHlo.after hostOps0_2 (StableHlo.after hostOps0_1 (StableHlo.after hostOps0 W)) (Proc.devRef .tc main_v26) = Cert.LayerSpec.wslice 0 A5 := by
  refine Eq.trans ?_ (Cert.LayerSpec.wslice_eq 0 A5 ![0, 0, 0, 0] (fun a => by fin_cases a <;> rfl) Facts₀.slices_S3x11x64x64_S1x11x64x64_0_0_0_0 Facts₀.shapeCasts_S1x11x64x64_S11x64x64)
  after_results_simp
  rw [h5]
  rfl

/-- Layer 0's projection matrix out of the stacked ones. -/
theorem s0_v28
    (W : Valuation τ sig (Elt Ideal))
    (A6 : (⟨S3x64x64, .f32⟩ : BufTy).Contents (Elt Ideal))
    (h6 : W (Proc.devRef .tc main_arg6) = A6) :
    StableHlo.after hostOps0_2 (StableHlo.after hostOps0_1 (StableHlo.after hostOps0 W)) (Proc.devRef .tc main_v28) = Cert.LayerSpec.lslice 0 A6 := by
  refine Eq.trans ?_ (Cert.LayerSpec.lslice_eq 0 A6 ![0, 0, 0] (fun a => by fin_cases a <;> rfl) Facts₀.slices_S3x64x64_S1x64x64_0_0_0 Facts₀.shapeCasts_S1x64x64_S64x64)
  after_results_simp
  rw [h6]
  rfl

/-! The arguments are not written. -/

theorem s0_arg0
    (W : Valuation τ sig (Elt Ideal)) :
    StableHlo.after hostOps0_2 (StableHlo.after hostOps0_1 (StableHlo.after hostOps0 W)) (Proc.devRef .tc main_arg0) = W (Proc.devRef .tc main_arg0) := by
  after_results_simp

theorem s0_arg1
    (W : Valuation τ sig (Elt Ideal)) :
    StableHlo.after hostOps0_2 (StableHlo.after hostOps0_1 (StableHlo.after hostOps0 W)) (Proc.devRef .tc main_arg1) = W (Proc.devRef .tc main_arg1) := by
  after_results_simp

theorem s0_arg2
    (W : Valuation τ sig (Elt Ideal)) :
    StableHlo.after hostOps0_2 (StableHlo.after hostOps0_1 (StableHlo.after hostOps0 W)) (Proc.devRef .tc main_arg2) = W (Proc.devRef .tc main_arg2) := by
  after_results_simp

theorem s0_arg3
    (W : Valuation τ sig (Elt Ideal)) :
    StableHlo.after hostOps0_2 (StableHlo.after hostOps0_1 (StableHlo.after hostOps0 W)) (Proc.devRef .tc main_arg3) = W (Proc.devRef .tc main_arg3) := by
  after_results_simp

theorem s0_arg4
    (W : Valuation τ sig (Elt Ideal)) :
    StableHlo.after hostOps0_2 (StableHlo.after hostOps0_1 (StableHlo.after hostOps0 W)) (Proc.devRef .tc main_arg4) = W (Proc.devRef .tc main_arg4) := by
  after_results_simp

theorem s0_arg5
    (W : Valuation τ sig (Elt Ideal)) :
    StableHlo.after hostOps0_2 (StableHlo.after hostOps0_1 (StableHlo.after hostOps0 W)) (Proc.devRef .tc main_arg5) = W (Proc.devRef .tc main_arg5) := by
  after_results_simp

theorem s0_arg6
    (W : Valuation τ sig (Elt Ideal)) :
    StableHlo.after hostOps0_2 (StableHlo.after hostOps0_1 (StableHlo.after hostOps0 W)) (Proc.devRef .tc main_arg6) = W (Proc.devRef .tc main_arg6) := by
  after_results_simp

theorem s0_arg7
    (W : Valuation τ sig (Elt Ideal)) :
    StableHlo.after hostOps0_2 (StableHlo.after hostOps0_1 (StableHlo.after hostOps0 W)) (Proc.devRef .tc main_arg7) = W (Proc.devRef .tc main_arg7) := by
  after_results_simp

theorem s0_arg8
    (W : Valuation τ sig (Elt Ideal)) :
    StableHlo.after hostOps0_2 (StableHlo.after hostOps0_1 (StableHlo.after hostOps0 W)) (Proc.devRef .tc main_arg8) = W (Proc.devRef .tc main_arg8) := by
  after_results_simp

end Cert.KernelIdeal.Stretch

end
-- ==== Proof.Stretch1.lean ====
/-
  The kernel program's host stretch between layer kernels 0 and 1 is the reference's own operations on differently
  numbered buffers: layer 0's projections summed per graph into the pooled sum, layer 0's new features gathered at the
  edges' sources and summed at their targets, and layer 1's weights cut out of the stacked arrays. Run from any buffer
  contents whose relevant buffers hold the reference's stages, it leaves its result buffers at the corresponding later
  stages of the reference, and the buffers it does not write as they were.
-/
import proofs.«161618_j71751723647734_1_alg».proof.Proof.Gen.KernelIdeal.Frame
import proofs.«161618_j71751723647734_1_alg».proof.Proof.RefRead
import proofs.«161618_j71751723647734_1_alg».proof.Proof.SliceIdx
import Idealize.ShloMosaic.Lib.StableHlo.Run

set_option maxRecDepth 16384
set_option maxHeartbeats 4000000

noncomputable section

namespace Cert.KernelIdeal.Stretch

open Cert.KernelIdeal Cert.KernelIdeal.Gen Idealize.ShloMosaic Idealize.ShloMosaic.TcCoe Idealize.ShloMosaic.StableHlo
open Idealize.SL.Sem
open Cert.ReferenceIdeal.ReadP
open Idealize.ShloMosaic.ValueIdx

/-- The pooled sum after layer 0: the zero pooled sum plus layer 0's projections summed per graph. -/
theorem s1_v33
    (W : Valuation τ sig (Elt Ideal))
    (A0 : (⟨S100000x64, .f32⟩ : BufTy).Contents (Elt Ideal))
    (A1 : (⟨S2x1000000, .i32⟩ : BufTy).Contents (Elt Ideal))
    (A2 : (⟨S100000, .i32⟩ : BufTy).Contents (Elt Ideal))
    (A3 : (⟨S3x11x64x64, .f32⟩ : BufTy).Contents (Elt Ideal))
    (A4 : (⟨S3x11x64, .f32⟩ : BufTy).Contents (Elt Ideal))
    (A5 : (⟨S3x11x64x64, .f32⟩ : BufTy).Contents (Elt Ideal))
    (A6 : (⟨S3x64x64, .f32⟩ : BufTy).Contents (Elt Ideal))
    (hz : W (Proc.devRef .tc main_v10) = val_main_v9 (F := Ideal))
    (hp : W (Proc.devRef .tc main_v29_1) = val_main_v238 (F := Ideal) A0 A1 A3 A4 A5 A6)
    (h2 : W (Proc.devRef .tc main_arg2) = A2) :
    StableHlo.after hostOps1 W (Proc.devRef .tc main_v33) = val_main_v242 (F := Ideal) A0 A1 A2 A3 A4 A5 A6 := by
  after_results_simp
  rw [hz, hp, h2]
  rfl

/-- Layer 1's aggregated rows: layer 0's new features gathered at the edges' sources and summed at their targets. -/
theorem s1_v43
    (W : Valuation τ sig (Elt Ideal))
    (A0 : (⟨S100000x64, .f32⟩ : BufTy).Contents (Elt Ideal))
    (A1 : (⟨S2x1000000, .i32⟩ : BufTy).Contents (Elt Ideal))
    (A3 : (⟨S3x11x64x64, .f32⟩ : BufTy).Contents (Elt Ideal))
    (A4 : (⟨S3x11x64, .f32⟩ : BufTy).Contents (Elt Ideal))
    (A5 : (⟨S3x11x64x64, .f32⟩ : BufTy).Contents (Elt Ideal))
    (hs : W (Proc.devRef .tc main_v1) = val_main_v1 (F := Ideal) A1)
    (hd : W (Proc.devRef .tc main_v3) = val_main_v3 (F := Ideal) A1)
    (hx : W (Proc.devRef .tc main_v29_0) = val_main_v235 (F := Ideal) A0 A1 A3 A4 A5) :
    StableHlo.after hostOps1 W (Proc.devRef .tc main_v43) = val_main_v252 (F := Ideal) A0 A1 A3 A4 A5 := by
  after_results_simp
  rw [hs, hd, hx]
  rfl

/-- Layer 1's eleven left matrices out of the stacked ones. -/
theorem s1_v45
    (W : Valuation τ sig (Elt Ideal))
    (A3 : (⟨S3x11x64x64, .f32⟩ : BufTy).Contents (Elt Ideal))
    (h3 : W (Proc.devRef .tc main_arg3) = A3) :
    StableHlo.after hostOps1 W (Proc.devRef .tc main_v45) = Cert.LayerSpec.wslice 1 A3 := by
  refine Eq.trans ?_ (Cert.LayerSpec.wslice_eq 1 A3 ![1, 0, 0, 0] (fun a => by fin_cases a <;> rfl) Facts₀.slices_S3x11x64x64_S1x11x64x64_1_0_0_0 Facts₀.shapeCasts_S1x11x64x64_S11x64x64)
  after_results_simp
  rw [h3]
  rfl

/-- Layer 1's eleven bias rows out of the stacked ones. -/
theorem s1_v47
    (W : Valuation τ sig (Elt Ideal))
    (A4 : (⟨S3x11x64, .f32⟩ : BufTy).Contents (Elt Ideal))
    (h4 : W (Proc.devRef .tc main_arg4) = A4) :
    StableHlo.after hostOps1 W (Proc.devRef .tc main_v47) = Cert.LayerSpec.bslice 1 A4 := by
  refine Eq.trans ?_ (Cert.LayerSpec.bslice_eq 1 A4 ![1, 0, 0] (fun a => by fin_cases a <;> rfl) Facts₀.slices_S3x11x64_S1x11x64_1_0_0 Facts₀.shapeCasts_S1x11x64_S11x64)
  after_results_simp
  rw [h4]
  rfl

/-- Layer 1's eleven right matrices out of the stacked ones. -/
theorem s1_v49
    (W : Valuation τ sig (Elt Ideal))
    (A5 : (⟨S3x11x64x64, .f32⟩ : BufTy).Contents (Elt Ideal))
    (h5 : W (Proc.devRef .tc main_arg5) = A5) :
    StableHlo.after hostOps1 W (Proc.devRef .tc main_v49) = Cert.LayerSpec.wslice 1 A5 := by
  refine Eq.trans ?_ (Cert.LayerSpec.wslice_eq 1 A5 ![1, 0, 0, 0] (fun a => by fin_cases a <;> rfl) Facts₀.slices_S3x11x64x64_S1x11x64x64_1_0_0_0 Facts₀.shapeCasts_S1x11x64x64_S11x64x64)
  after_results_simp
  rw [h5]
  rfl

/-- Layer 1's projection matrix out of the stacked ones. -/
theorem s1_v51
    (W : Valuation τ sig (Elt Ideal))
    (A6 : (⟨S3x64x64, .f32⟩ : BufTy).Contents (Elt Ideal))
    (h6 : W (Proc.devRef .tc main_arg6) = A6) :
    StableHlo.after hostOps1 W (Proc.devRef .tc main_v51) = Cert.LayerSpec.lslice 1 A6 := by
  refine Eq.trans ?_ (Cert.LayerSpec.lslice_eq 1 A6 ![1, 0, 0] (fun a => by fin_cases a <;> rfl) Facts₀.slices_S3x64x64_S1x64x64_1_0_0 Facts₀.shapeCasts_S1x64x64_S64x64)
  after_results_simp
  rw [h6]
  rfl

/-! Buffers the stretch does not write keep their contents. -/

theorem s1_keep_v1
    (W : Valuation τ sig (Elt Ideal)) :
    StableHlo.after hostOps1 W (Proc.devRef .tc main_v1) = W (Proc.devRef .tc main_v1) := by
  after_results_simp

theorem s1_keep_v3
    (W : Valuation τ sig (Elt Ideal)) :
    StableHlo.after hostOps1 W (Proc.devRef .tc main_v3) = W (Proc.devRef .tc main_v3) := by
  after_results_simp

theorem s1_keep_v9
    (W : Valuation τ sig (Elt Ideal)) :
    StableHlo.after hostOps1 W (Proc.devRef .tc main_v9) = W (Proc.devRef .tc main_v9) := by
  after_results_simp

theorem s1_keep_v29_0
    (W : Valuation τ sig (Elt Ideal)) :
    StableHlo.after hostOps1 W (Proc.devRef .tc main_v29_0) = W (Proc.devRef .tc main_v29_0) := by
  after_results_simp

theorem s1_keep_arg0
    (W : Valuation τ sig (Elt Ideal)) :
    StableHlo.after hostOps1 W (Proc.devRef .tc main_arg0) = W (Proc.devRef .tc main_arg0) := by
  after_results_simp

theorem s1_keep_arg1
    (W : Valuation τ sig (Elt Ideal)) :
    StableHlo.after hostOps1 W (Proc.devRef .tc main_arg1) = W (Proc.devRef .tc main_arg1) := by
  after_results_simp

theorem s1_keep_arg2
    (W : Valuation τ sig (Elt Ideal)) :
    StableHlo.after hostOps1 W (Proc.devRef .tc main_arg2) = W (Proc.devRef .tc main_arg2) := by
  after_results_simp

theorem s1_keep_arg3
    (W : Valuation τ sig (Elt Ideal)) :
    StableHlo.after hostOps1 W (Proc.devRef .tc main_arg3) = W (Proc.devRef .tc main_arg3) := by
  after_results_simp

theorem s1_keep_arg4
    (W : Valuation τ sig (Elt Ideal)) :
    StableHlo.after hostOps1 W (Proc.devRef .tc main_arg4) = W (Proc.devRef .tc main_arg4) := by
  after_results_simp

theorem s1_keep_arg5
    (W : Valuation τ sig (Elt Ideal)) :
    StableHlo.after hostOps1 W (Proc.devRef .tc main_arg5) = W (Proc.devRef .tc main_arg5) := by
  after_results_simp

theorem s1_keep_arg6
    (W : Valuation τ sig (Elt Ideal)) :
    StableHlo.after hostOps1 W (Proc.devRef .tc main_arg6) = W (Proc.devRef .tc main_arg6) := by
  after_results_simp

theorem s1_keep_arg7
    (W : Valuation τ sig (Elt Ideal)) :
    StableHlo.after hostOps1 W (Proc.devRef .tc main_arg7) = W (Proc.devRef .tc main_arg7) := by
  after_results_simp

theorem s1_keep_arg8
    (W : Valuation τ sig (Elt Ideal)) :
    StableHlo.after hostOps1 W (Proc.devRef .tc main_arg8) = W (Proc.devRef .tc main_arg8) := by
  after_results_simp

end Cert.KernelIdeal.Stretch

end
-- ==== Proof.Stretch2.lean ====
/-
  The host stretch between region 1 and region 2 of the kernel program, run from an arbitrary valuation whose relevant
  buffers hold the reference's stages: its result buffers end at the reference's corresponding stages (the pooled sum
  after layer 1, layer 2's aggregated rows, layer 2's slices of the stacked weights), and the buffers it does not write
  keep their contents. The stretch's operations are the reference's own operations on differently numbered buffers.
-/
import proofs.«161618_j71751723647734_1_alg».proof.Proof.Gen.KernelIdeal.Frame
import proofs.«161618_j71751723647734_1_alg».proof.Proof.RefRead
import proofs.«161618_j71751723647734_1_alg».proof.Proof.SliceIdx
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo Idealize.SL.Sem
open Idealize.ShloMosaic.ValueIdx
open Cert.ReferenceIdeal.ReadP

/-- The stretch's operations on buffers holding the reference's earlier stages are the reference's own operations: the
    result buffer ends at the reference's stage. -/
theorem s2_v56 (W : Valuation τ sig (Elt Ideal)) (A0 : (⟨S100000x64, .f32⟩ : BufTy).Contents (Elt Ideal)) (A1 : (⟨S2x1000000, .i32⟩ : BufTy).Contents (Elt Ideal)) (A2 : (⟨S100000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal)) (hz : W (Proc.devRef .tc main_v33) = val_main_v242 (F := Ideal) A0 A1 A2 A3 A4 A5 A6) (hp : W (Proc.devRef .tc main_v52_1) = val_main_v471 (F := Ideal) A0 A1 A3 A4 A5 A6) (h2 : W (Proc.devRef .tc main_arg2) = A2) :
    StableHlo.after hostOps2 W (Proc.devRef .tc main_v56) = val_main_v475 (F := Ideal) A0 A1 A2 A3 A4 A5 A6 := by
  after_results_simp
  rw [hz, hp, h2]
  rfl

/-- The stretch's operations on buffers holding the reference's earlier stages are the reference's own operations: the
    result buffer ends at the reference's stage. -/
theorem s2_v66 (W : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (hs : W (Proc.devRef .tc main_v1) = val_main_v1 (F := Ideal) A1) (hd : W (Proc.devRef .tc main_v3) = val_main_v3 (F := Ideal) A1) (hx : W (Proc.devRef .tc main_v52_0) = val_main_v468 (F := Ideal) A0 A1 A3 A4 A5) :
    StableHlo.after hostOps2 W (Proc.devRef .tc main_v66) = val_main_v485 (F := Ideal) A0 A1 A3 A4 A5 := by
  after_results_simp
  rw [hs, hd, hx]
  rfl

/-- The slice of the stacked array at this layer, leading unit axis dropped, is the layer's slice of the specification. -/
theorem s2_v68 (W : Valuation τ sig (Elt Ideal)) (A3 : (⟨S3x11x64x64, .f32⟩ : BufTy).Contents (Elt Ideal)) (h3 : W (Proc.devRef .tc main_arg3) = A3) :
    StableHlo.after hostOps2 W (Proc.devRef .tc main_v68) = Cert.LayerSpec.wslice 2 A3 := by
  after_results_simp
  rw [h3]
  exact Cert.LayerSpec.wslice_eq 2 A3 _ (fun a => by fin_cases a <;> rfl) _ _

/-- The slice of the stacked array at this layer, leading unit axis dropped, is the layer's slice of the specification. -/
theorem s2_v70 (W : Valuation τ sig (Elt Ideal)) (A4 : (⟨S3x11x64, .f32⟩ : BufTy).Contents (Elt Ideal)) (h4 : W (Proc.devRef .tc main_arg4) = A4) :
    StableHlo.after hostOps2 W (Proc.devRef .tc main_v70) = Cert.LayerSpec.bslice 2 A4 := by
  after_results_simp
  rw [h4]
  exact Cert.LayerSpec.bslice_eq 2 A4 _ (fun a => by fin_cases a <;> rfl) _ _

/-- The slice of the stacked array at this layer, leading unit axis dropped, is the layer's slice of the specification. -/
theorem s2_v72 (W : Valuation τ sig (Elt Ideal)) (A5 : (⟨S3x11x64x64, .f32⟩ : BufTy).Contents (Elt Ideal)) (h5 : W (Proc.devRef .tc main_arg5) = A5) :
    StableHlo.after hostOps2 W (Proc.devRef .tc main_v72) = Cert.LayerSpec.wslice 2 A5 := by
  after_results_simp
  rw [h5]
  exact Cert.LayerSpec.wslice_eq 2 A5 _ (fun a => by fin_cases a <;> rfl) _ _

/-- The slice of the stacked array at this layer, leading unit axis dropped, is the layer's slice of the specification. -/
theorem s2_v74 (W : Valuation τ sig (Elt Ideal)) (A6 : (⟨S3x64x64, .f32⟩ : BufTy).Contents (Elt Ideal)) (h6 : W (Proc.devRef .tc main_arg6) = A6) :
    StableHlo.after hostOps2 W (Proc.devRef .tc main_v74) = Cert.LayerSpec.lslice 2 A6 := by
  after_results_simp
  rw [h6]
  exact Cert.LayerSpec.lslice_eq 2 A6 _ (fun a => by fin_cases a <;> rfl) _ _

/-- The stretch writes no value to this buffer: it keeps its contents. -/
theorem s2_keep_v9 (W : Valuation τ sig (Elt Ideal)) :
    StableHlo.after hostOps2 W (Proc.devRef .tc main_v9) = W (Proc.devRef .tc main_v9) := by
  after_results_simp

/-- The stretch writes no value to this buffer: it keeps its contents. -/
theorem s2_keep_v52_0 (W : Valuation τ sig (Elt Ideal)) :
    StableHlo.after hostOps2 W (Proc.devRef .tc main_v52_0) = W (Proc.devRef .tc main_v52_0) := by
  after_results_simp

/-- The stretch writes no value to this buffer: it keeps its contents. -/
theorem s2_keep_arg0 (W : Valuation τ sig (Elt Ideal)) :
    StableHlo.after hostOps2 W (Proc.devRef .tc main_arg0) = W (Proc.devRef .tc main_arg0) := by
  after_results_simp

/-- The stretch writes no value to this buffer: it keeps its contents. -/
theorem s2_keep_arg1 (W : Valuation τ sig (Elt Ideal)) :
    StableHlo.after hostOps2 W (Proc.devRef .tc main_arg1) = W (Proc.devRef .tc main_arg1) := by
  after_results_simp

/-- The stretch writes no value to this buffer: it keeps its contents. -/
theorem s2_keep_arg2 (W : Valuation τ sig (Elt Ideal)) :
    StableHlo.after hostOps2 W (Proc.devRef .tc main_arg2) = W (Proc.devRef .tc main_arg2) := by
  after_results_simp

/-- The stretch writes no value to this buffer: it keeps its contents. -/
theorem s2_keep_arg3 (W : Valuation τ sig (Elt Ideal)) :
    StableHlo.after hostOps2 W (Proc.devRef .tc main_arg3) = W (Proc.devRef .tc main_arg3) := by
  after_results_simp

/-- The stretch writes no value to this buffer: it keeps its contents. -/
theorem s2_keep_arg4 (W : Valuation τ sig (Elt Ideal)) :
    StableHlo.after hostOps2 W (Proc.devRef .tc main_arg4) = W (Proc.devRef .tc main_arg4) := by
  after_results_simp

/-- The stretch writes no value to this buffer: it keeps its contents. -/
theorem s2_keep_arg5 (W : Valuation τ sig (Elt Ideal)) :
    StableHlo.after hostOps2 W (Proc.devRef .tc main_arg5) = W (Proc.devRef .tc main_arg5) := by
  after_results_simp

/-- The stretch writes no value to this buffer: it keeps its contents. -/
theorem s2_keep_arg6 (W : Valuation τ sig (Elt Ideal)) :
    StableHlo.after hostOps2 W (Proc.devRef .tc main_arg6) = W (Proc.devRef .tc main_arg6) := by
  after_results_simp

/-- The stretch writes no value to this buffer: it keeps its contents. -/
theorem s2_keep_arg7 (W : Valuation τ sig (Elt Ideal)) :
    StableHlo.after hostOps2 W (Proc.devRef .tc main_arg7) = W (Proc.devRef .tc main_arg7) := by
  after_results_simp

/-- The stretch writes no value to this buffer: it keeps its contents. -/
theorem s2_keep_arg8 (W : Valuation τ sig (Elt Ideal)) :
    StableHlo.after hostOps2 W (Proc.devRef .tc main_arg8) = W (Proc.devRef .tc main_arg8) := by
  after_results_simp

end Cert.KernelIdeal.Stretch

end
-- ==== Proof.Stretch3.lean ====
/-
  The kernel program's last host stretch is the reference's last operations on differently numbered buffers: the third
  layer's projections summed per graph and added to the pooled sum, the read-out product and its bias. Run from any
  buffer contents whose relevant buffers hold the reference's stages, it leaves the result buffer at the reference's
  result.
-/
import proofs.«161618_j71751723647734_1_alg».proof.Proof.Gen.KernelIdeal.Frame
import proofs.«161618_j71751723647734_1_alg».proof.Proof.RefRead
import Idealize.ShloMosaic.Lib.StableHlo.Run

set_option maxRecDepth 16384
set_option maxHeartbeats 4000000

noncomputable section

namespace Cert.KernelIdeal.Stretch

open Cert.KernelIdeal Cert.KernelIdeal.Gen Idealize.ShloMosaic Idealize.ShloMosaic.TcCoe Idealize.ShloMosaic.StableHlo
open Idealize.SL.Sem
open Cert.ReferenceIdeal.ReadP
open Idealize.ShloMosaic.ValueIdx

/-- From contents holding the pooled sum after two layers, the third layer's projections, the graph indices, the
    read-out matrix and its bias, the last stretch leaves the program's result at the reference's result. -/
theorem s3_v83
    (W : Valuation τ sig (Elt Ideal))
    (A0 : (⟨S100000x64, .f32⟩ : BufTy).Contents (Elt Ideal))
    (A1 : (⟨S2x1000000, .i32⟩ : BufTy).Contents (Elt Ideal))
    (A2 : (⟨S100000, .i32⟩ : BufTy).Contents (Elt Ideal))
    (A3 : (⟨S3x11x64x64, .f32⟩ : BufTy).Contents (Elt Ideal))
    (A4 : (⟨S3x11x64, .f32⟩ : BufTy).Contents (Elt Ideal))
    (A5 : (⟨S3x11x64x64, .f32⟩ : BufTy).Contents (Elt Ideal))
    (A6 : (⟨S3x64x64, .f32⟩ : BufTy).Contents (Elt Ideal))
    (A7 : (⟨S64x64, .f32⟩ : BufTy).Contents (Elt Ideal))
    (A8 : (⟨S64, .f32⟩ : BufTy).Contents (Elt Ideal))
    (hz : W (Proc.devRef .tc main_v56) = val_main_v475 (F := Ideal) A0 A1 A2 A3 A4 A5 A6)
    (hp : W (Proc.devRef .tc main_v75_1) = val_main_v704 (F := Ideal) A0 A1 A3 A4 A5 A6)
    (h2 : W (Proc.devRef .tc main_arg2) = A2)
    (h7 : W (Proc.devRef .tc main_arg7) = A7)
    (h8 : W (Proc.devRef .tc main_arg8) = A8) :
    StableHlo.after hostOps3 W (Proc.devRef .tc main_v83) = val_main_v712 (F := Ideal) A0 A1 A2 A3 A4 A5 A6 A7 A8 := by
  after_results_simp
  rw [hz, hp, h2, h7, h8]
  rfl

end Cert.KernelIdeal.Stretch

end
-- ==== Proof.KernelValue.lean ====
/-
  The idealized kernel program's result is the reference's last stage of the arguments. The program's final memory is a
  fold over its segments (host stretch, region, host stretch, …). Walking the fold from the launch: after the first host
  stretches the buffers the first region reads hold the reference's clamped degrees, first aggregated rows and first
  slices of the weights; a region whose inputs hold the reference's stages leaves the reference's new features and
  projections of that layer in its outputs; the host stretch after it pools the projections, gathers and scatter-adds
  the new features into the next layer's aggregated rows and slices the next weights — each again the reference's own
  stage, since these are the reference's own operations; and the last stretch pools the third projections and applies
  the final linear layer, which is the reference's result stage. Buffers a segment does not write keep their contents.
-/
import proofs.«161618_j71751723647734_1_alg».proof.Proof.Regions
import proofs.«161618_j71751723647734_1_alg».proof.Proof.Stretch0
import proofs.«161618_j71751723647734_1_alg».proof.Proof.Stretch1
import proofs.«161618_j71751723647734_1_alg».proof.Proof.Stretch2
import proofs.«161618_j71751723647734_1_alg».proof.Proof.Stretch3

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem
open Idealize.ShloMosaic.StableHlo
open Cert.ReferenceIdeal.ReadP Cert.KernelIdeal.Stretch

variable (m : (ℓ : Loc nD τ sig) → Buf (Elt Ideal) ℓ) (ρ : Dev nD → PrngReg)

/-- An input array of region 0 is unchanged by the region. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hw _).trans (A_eq0 (V3 m ρ) c w))
/-- An input array of region 1 is unchanged by the region. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hw _).trans (A_eq1 (V5 m ρ) c w))
/-- An input array of region 2 is unchanged by the region. -/
theorem W8_in (c : Dev nD) (w : Fin cfg2.W) (hw : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hw _).trans (A_eq2 (V7 m ρ) c w))

/-- The fold of @main's segments, read at the result buffer, from any launch contents of the nine arguments. -/
theorem kernel_value_of (c : Dev nD) (A0 : (⟨S100000x64, .f32⟩ : BufTy).Contents (Elt Ideal)) (A1 : (⟨S2x1000000, .i32⟩ : BufTy).Contents (Elt Ideal)) (A2 : (⟨S100000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal)) (A7 : (⟨S64x64, .f32⟩ : BufTy).Contents (Elt Ideal)) (A8 : (⟨S64, .f32⟩ : BufTy).Contents (Elt Ideal))
    (h0 : W0 m ρ c (Proc.devRef .tc main_arg0) = A0) (h1 : W0 m ρ c (Proc.devRef .tc main_arg1) = A1)
    (h2 : W0 m ρ c (Proc.devRef .tc main_arg2) = A2) (h3 : W0 m ρ c (Proc.devRef .tc main_arg3) = A3)
    (h4 : W0 m ρ c (Proc.devRef .tc main_arg4) = A4) (h5 : W0 m ρ c (Proc.devRef .tc main_arg5) = A5)
    (h6 : W0 m ρ c (Proc.devRef .tc main_arg6) = A6) (h7 : W0 m ρ c (Proc.devRef .tc main_arg7) = A7)
    (h8 : W0 m ρ c (Proc.devRef .tc main_arg8) = A8) :
    W9 m ρ c (Proc.devRef .tc main_v83) = val_main_v712 (F := Ideal) A0 A1 A2 A3 A4 A5 A6 A7 A8 := by
  -- the first host stretches: the entry contents of region 0
  have a3_0 : W3 m ρ c (Proc.devRef .tc main_arg0) = A0 := (s0_arg0 (W0 m ρ c)).trans h0
  have a3_1 : W3 m ρ c (Proc.devRef .tc main_arg1) = A1 := (s0_arg1 (W0 m ρ c)).trans h1
  have a3_2 : W3 m ρ c (Proc.devRef .tc main_arg2) = A2 := (s0_arg2 (W0 m ρ c)).trans h2
  have a3_3 : W3 m ρ c (Proc.devRef .tc main_arg3) = A3 := (s0_arg3 (W0 m ρ c)).trans h3
  have a3_4 : W3 m ρ c (Proc.devRef .tc main_arg4) = A4 := (s0_arg4 (W0 m ρ c)).trans h4
  have a3_5 : W3 m ρ c (Proc.devRef .tc main_arg5) = A5 := (s0_arg5 (W0 m ρ c)).trans h5
  have a3_6 : W3 m ρ c (Proc.devRef .tc main_arg6) = A6 := (s0_arg6 (W0 m ρ c)).trans h6
  have a3_7 : W3 m ρ c (Proc.devRef .tc main_arg7) = A7 := (s0_arg7 (W0 m ρ c)).trans h7
  have a3_8 : W3 m ρ c (Proc.devRef .tc main_arg8) = A8 := (s0_arg8 (W0 m ρ c)).trans h8
  have w3_v1 : W3 m ρ c (Proc.devRef .tc main_v1) = val_main_v1 (F := Ideal) A1 := s0_v1 (W0 m ρ c) A1 h1
  have w3_v3 : W3 m ρ c (Proc.devRef .tc main_v3) = val_main_v3 (F := Ideal) A1 := s0_v3 (W0 m ρ c) A1 h1
  have w3_v10 : W3 m ρ c (Proc.devRef .tc main_v10) = val_main_v9 (F := Ideal) := s0_v10 (W0 m ρ c)
  have w3_deg : ∀ r : Fin 100000, W3 m ρ c (Proc.devRef .tc main_v9) (ix2 r 0) = val_main_v8 (F := Ideal) A1 (ix1 r) :=
    fun r => s0_deg (W0 m ρ c) A1 h1 r
  -- region 0
  obtain ⟨x1, p1⟩ := Cert.KernelIdeal.Regions.region0 m ρ c A0 A1 A3 A4 A5 A6 (funext fun r => w3_deg r)
    (s0_v20 (W0 m ρ c) A0 A1 h0 h1) a3_0 (s0_v22 (W0 m ρ c) A3 h3) (s0_v24 (W0 m ρ c) A4 h4)
    (s0_v26 (W0 m ρ c) A5 h5) (s0_v28 (W0 m ρ c) A6 h6)
  -- what region 0 leaves alone
  have w4_v1 : W4 m ρ c (Proc.devRef .tc main_v1) = val_main_v1 (F := Ideal) A1 := (W4_of_ne m ρ c main_v1 (by decide)).trans w3_v1
  have w4_v3 : W4 m ρ c (Proc.devRef .tc main_v3) = val_main_v3 (F := Ideal) A1 := (W4_of_ne m ρ c main_v3 (by decide)).trans w3_v3
  have w4_v10 : W4 m ρ c (Proc.devRef .tc main_v10) = val_main_v9 (F := Ideal) := (W4_of_ne m ρ c main_v10 (by decide)).trans w3_v10
  have w4_v9 : W4 m ρ c (Proc.devRef .tc main_v9) = W3 m ρ c (Proc.devRef .tc main_v9) := W4_in m ρ c 0 rfl
  have a4_0 : W4 m ρ c (Proc.devRef .tc main_arg0) = A0 := (W4_in m ρ c 2 rfl).trans a3_0
  have a4_1 : W4 m ρ c (Proc.devRef .tc main_arg1) = A1 := (W4_of_ne m ρ c main_arg1 (by decide)).trans a3_1
  have a4_2 : W4 m ρ c (Proc.devRef .tc main_arg2) = A2 := (W4_of_ne m ρ c main_arg2 (by decide)).trans a3_2
  have a4_3 : W4 m ρ c (Proc.devRef .tc main_arg3) = A3 := (W4_of_ne m ρ c main_arg3 (by decide)).trans a3_3
  have a4_4 : W4 m ρ c (Proc.devRef .tc main_arg4) = A4 := (W4_of_ne m ρ c main_arg4 (by decide)).trans a3_4
  have a4_5 : W4 m ρ c (Proc.devRef .tc main_arg5) = A5 := (W4_of_ne m ρ c main_arg5 (by decide)).trans a3_5
  have a4_6 : W4 m ρ c (Proc.devRef .tc main_arg6) = A6 := (W4_of_ne m ρ c main_arg6 (by decide)).trans a3_6
  have a4_7 : W4 m ρ c (Proc.devRef .tc main_arg7) = A7 := (W4_of_ne m ρ c main_arg7 (by decide)).trans a3_7
  have a4_8 : W4 m ρ c (Proc.devRef .tc main_arg8) = A8 := (W4_of_ne m ρ c main_arg8 (by decide)).trans a3_8
  -- the host stretch after region 0: the entry contents of region 1
  have w5_v33 : W5 m ρ c (Proc.devRef .tc main_v33) = val_main_v242 (F := Ideal) A0 A1 A2 A3 A4 A5 A6 :=
    s1_v33 (W4 m ρ c) A0 A1 A2 A3 A4 A5 A6 w4_v10 p1 a4_2
  have w5_v43 : W5 m ρ c (Proc.devRef .tc main_v43) = val_main_v252 (F := Ideal) A0 A1 A3 A4 A5 :=
    s1_v43 (W4 m ρ c) A0 A1 A3 A4 A5 w4_v1 w4_v3 x1
  have w5_v1 : W5 m ρ c (Proc.devRef .tc main_v1) = val_main_v1 (F := Ideal) A1 := (s1_keep_v1 (W4 m ρ c)).trans w4_v1
  have w5_v3 : W5 m ρ c (Proc.devRef .tc main_v3) = val_main_v3 (F := Ideal) A1 := (s1_keep_v3 (W4 m ρ c)).trans w4_v3
  have w5_deg : ∀ r : Fin 100000, W5 m ρ c (Proc.devRef .tc main_v9) (ix2 r 0) = val_main_v8 (F := Ideal) A1 (ix1 r) := fun r => by
    rw [show W5 m ρ c (Proc.devRef .tc main_v9) = W3 m ρ c (Proc.devRef .tc main_v9) from (s1_keep_v9 (W4 m ρ c)).trans w4_v9]
    exact w3_deg r
  have w5_x : W5 m ρ c (Proc.devRef .tc main_v29_0) = val_main_v235 (F := Ideal) A0 A1 A3 A4 A5 := (s1_keep_v29_0 (W4 m ρ c)).trans x1
  have a5_0 : W5 m ρ c (Proc.devRef .tc main_arg0) = A0 := (s1_keep_arg0 (W4 m ρ c)).trans a4_0
  have a5_1 : W5 m ρ c (Proc.devRef .tc main_arg1) = A1 := (s1_keep_arg1 (W4 m ρ c)).trans a4_1
  have a5_2 : W5 m ρ c (Proc.devRef .tc main_arg2) = A2 := (s1_keep_arg2 (W4 m ρ c)).trans a4_2
  have a5_3 : W5 m ρ c (Proc.devRef .tc main_arg3) = A3 := (s1_keep_arg3 (W4 m ρ c)).trans a4_3
  have a5_4 : W5 m ρ c (Proc.devRef .tc main_arg4) = A4 := (s1_keep_arg4 (W4 m ρ c)).trans a4_4
  have a5_5 : W5 m ρ c (Proc.devRef .tc main_arg5) = A5 := (s1_keep_arg5 (W4 m ρ c)).trans a4_5
  have a5_6 : W5 m ρ c (Proc.devRef .tc main_arg6) = A6 := (s1_keep_arg6 (W4 m ρ c)).trans a4_6
  have a5_7 : W5 m ρ c (Proc.devRef .tc main_arg7) = A7 := (s1_keep_arg7 (W4 m ρ c)).trans a4_7
  have a5_8 : W5 m ρ c (Proc.devRef .tc main_arg8) = A8 := (s1_keep_arg8 (W4 m ρ c)).trans a4_8
  -- region 1
  obtain ⟨x2, p2⟩ := Cert.KernelIdeal.Regions.region1 m ρ c A0 A1 A3 A4 A5 A6 (funext fun r => w5_deg r)
    w5_v43 w5_x (s1_v45 (W4 m ρ c) A3 a4_3) (s1_v47 (W4 m ρ c) A4 a4_4) (s1_v49 (W4 m ρ c) A5 a4_5) (s1_v51 (W4 m ρ c) A6 a4_6)
  -- what region 1 leaves alone
  have w6_v1 : W6 m ρ c (Proc.devRef .tc main_v1) = val_main_v1 (F := Ideal) A1 := (W6_of_ne m ρ c main_v1 (by decide)).trans w5_v1
  have w6_v3 : W6 m ρ c (Proc.devRef .tc main_v3) = val_main_v3 (F := Ideal) A1 := (W6_of_ne m ρ c main_v3 (by decide)).trans w5_v3
  have w6_v33 : W6 m ρ c (Proc.devRef .tc main_v33) = val_main_v242 (F := Ideal) A0 A1 A2 A3 A4 A5 A6 := (W6_of_ne m ρ c main_v33 (by decide)).trans w5_v33
  have w6_v9 : W6 m ρ c (Proc.devRef .tc main_v9) = W5 m ρ c (Proc.devRef .tc main_v9) := W6_in m ρ c 0 rfl
  have a6_0 : W6 m ρ c (Proc.devRef .tc main_arg0) = A0 := (W6_of_ne m ρ c main_arg0 (by decide)).trans a5_0
  have a6_1 : W6 m ρ c (Proc.devRef .tc main_arg1) = A1 := (W6_of_ne m ρ c main_arg1 (by decide)).trans a5_1
  have a6_2 : W6 m ρ c (Proc.devRef .tc main_arg2) = A2 := (W6_of_ne m ρ c main_arg2 (by decide)).trans a5_2
  have a6_3 : W6 m ρ c (Proc.devRef .tc main_arg3) = A3 := (W6_of_ne m ρ c main_arg3 (by decide)).trans a5_3
  have a6_4 : W6 m ρ c (Proc.devRef .tc main_arg4) = A4 := (W6_of_ne m ρ c main_arg4 (by decide)).trans a5_4
  have a6_5 : W6 m ρ c (Proc.devRef .tc main_arg5) = A5 := (W6_of_ne m ρ c main_arg5 (by decide)).trans a5_5
  have a6_6 : W6 m ρ c (Proc.devRef .tc main_arg6) = A6 := (W6_of_ne m ρ c main_arg6 (by decide)).trans a5_6
  have a6_7 : W6 m ρ c (Proc.devRef .tc main_arg7) = A7 := (W6_of_ne m ρ c main_arg7 (by decide)).trans a5_7
  have a6_8 : W6 m ρ c (Proc.devRef .tc main_arg8) = A8 := (W6_of_ne m ρ c main_arg8 (by decide)).trans a5_8
  -- the host stretch after region 1: the entry contents of region 2
  have w7_v56 : W7 m ρ c (Proc.devRef .tc main_v56) = val_main_v475 (F := Ideal) A0 A1 A2 A3 A4 A5 A6 :=
    s2_v56 (W6 m ρ c) A0 A1 A2 A3 A4 A5 A6 w6_v33 p2 a6_2
  have w7_v66 : W7 m ρ c (Proc.devRef .tc main_v66) = val_main_v485 (F := Ideal) A0 A1 A3 A4 A5 :=
    s2_v66 (W6 m ρ c) A0 A1 A3 A4 A5 w6_v1 w6_v3 x2
  have w7_deg : ∀ r : Fin 100000, W7 m ρ c (Proc.devRef .tc main_v9) (ix2 r 0) = val_main_v8 (F := Ideal) A1 (ix1 r) := fun r => by
    rw [show W7 m ρ c (Proc.devRef .tc main_v9) = W5 m ρ c (Proc.devRef .tc main_v9) from (s2_keep_v9 (W6 m ρ c)).trans w6_v9]
    exact w5_deg r
  have w7_x : W7 m ρ c (Proc.devRef .tc main_v52_0) = val_main_v468 (F := Ideal) A0 A1 A3 A4 A5 := (s2_keep_v52_0 (W6 m ρ c)).trans x2
  have a7_2 : W7 m ρ c (Proc.devRef .tc main_arg2) = A2 := (s2_keep_arg2 (W6 m ρ c)).trans a6_2
  have a7_7 : W7 m ρ c (Proc.devRef .tc main_arg7) = A7 := (s2_keep_arg7 (W6 m ρ c)).trans a6_7
  have a7_8 : W7 m ρ c (Proc.devRef .tc main_arg8) = A8 := (s2_keep_arg8 (W6 m ρ c)).trans a6_8
  -- region 2
  obtain ⟨x3, p3⟩ := Cert.KernelIdeal.Regions.region2 m ρ c A0 A1 A3 A4 A5 A6 (funext fun r => w7_deg r)
    w7_v66 w7_x (s2_v68 (W6 m ρ c) A3 a6_3) (s2_v70 (W6 m ρ c) A4 a6_4) (s2_v72 (W6 m ρ c) A5 a6_5) (s2_v74 (W6 m ρ c) A6 a6_6)
  -- what region 2 leaves alone, and the last host stretch
  have w8_v56 : W8 m ρ c (Proc.devRef .tc main_v56) = val_main_v475 (F := Ideal) A0 A1 A2 A3 A4 A5 A6 := (W8_of_ne m ρ c main_v56 (by decide)).trans w7_v56
  have a8_2 : W8 m ρ c (Proc.devRef .tc main_arg2) = A2 := (W8_of_ne m ρ c main_arg2 (by decide)).trans a7_2
  have a8_7 : W8 m ρ c (Proc.devRef .tc main_arg7) = A7 := (W8_of_ne m ρ c main_arg7 (by decide)).trans a7_7
  have a8_8 : W8 m ρ c (Proc.devRef .tc main_arg8) = A8 := (W8_of_ne m ρ c main_arg8 (by decide)).trans a7_8
  exact s3_v83 (W8 m ρ c) A0 A1 A2 A3 A4 A5 A6 A7 A8 w8_v56 p3 a8_2 a8_7 a8_8

/-- The kernel program's result buffer ends at the reference's last stage of the launch contents of the arguments. -/
theorem kernel_value (c : Dev nD) :
    W9 m ρ c (Proc.devRef .tc main_v83) = val_main_v712 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) :=
  kernel_value_of m ρ c _ _ _ _ _ _ _ _ _ rfl rfl rfl rfl rfl rfl rfl rfl rfl

end Cert.KernelIdeal.KernelValue

end
-- ==== Proof.RefPieceA.lean ====
/-
  The reference's operations through layer 0's new features, run from any buffer contents holding the arguments: the edge
  lists, the clamped in-degrees, the zero pooled sum and layer 0's new features end at their stages, and the arguments
  keep their contents. The piece is run in consecutive windows — the edge lists and the degree counts, the clamp of the
  degrees, then the buckets window by window —; between windows the running sum of the degree buckets, the pieces of
  the bucket in progress, the clamped degrees, the aggregated rows and the arguments are carried at their stages.
-/
import proofs.«161618_j71751723647734_1_alg».proof.Proof.RefOps
import proofs.«161618_j71751723647734_1_alg».proof.Proof.RefRead
import Idealize.ShloMosaic.Lib.StableHlo.Run

set_option maxRecDepth 16384
set_option maxHeartbeats 4000000

noncomputable section

namespace Cert.ReferenceIdeal.RefRun

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

/-- Running a concatenation is running its parts one after the other. -/
theorem after_appA (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The piece, window after window. -/
theorem after_opsA (W : Valuation τ sig (Elt Ideal)) :
    StableHlo.after opsA W
      = StableHlo.after opsA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) := by
  show StableHlo.after (((List.take 12 (opsA0 (F := Ideal))) ++ ((List.take 6 (List.drop 12 (opsA0 (F := Ideal)))) ++ (List.drop 18 (opsA0 (F := Ideal))))) ++ (opsA1 ++ (opsA2 ++ (opsA3 ++ opsA4)))) W = _
  rw [after_appA, after_appA, after_appA, after_appA, after_appA, after_appA]

/-! ## Window A0p: the edge lists and the in-degree counts -/

/-- The buffers this window writes. -/
abbrev wrA0p : List (Ref sig .tc) := [main_v0, main_v1, main_v2, main_v3, main_c, main_v4, main_c_0, main_v5, main_v6, main_v7, main_c_1, main_c_2]

theorem writesA0p : (List.take 12 (opsA0 (F := Ideal))).Forall fun op => op.writes ⊆ ((wrA0p).map (Proc.devRef (τ := τ) .tc)).toFinset := by
  simp only [opsA0, List.take_succ_cons, List.take_zero, List.drop_succ_cons, List.drop_zero, List.Forall, nullary_writes, unary_writes, binary_writes, ternary_writes, reshape_writes,
    Finset.singleton_subset_iff, List.mem_toFinset]
  repeat' apply And.intro
  all_goals exact List.mem_map_of_mem (by decide)

/-- A buffer this window does not write keeps its contents. -/
theorem keepA0p (V : Valuation τ sig (Elt Ideal)) (r : Ref sig .tc) (hr : r ∉ wrA0p) :
    StableHlo.after (List.take 12 (opsA0 (F := Ideal))) V (Proc.devRef .tc r) = V (Proc.devRef .tc r) :=
  after_of_writes_sub (List.take 12 (opsA0 (F := Ideal))) V writesA0p hr

theorem wA0p_v1 (V : Valuation τ sig (Elt Ideal)) (A1 : (⟨S2x1000000, .i32⟩ : BufTy).Contents (Elt Ideal))
    (ha1 : V (Proc.devRef .tc main_arg1) = A1) :
    StableHlo.after (List.take 12 (opsA0 (F := Ideal))) V (Proc.devRef .tc main_v1) = val_main_v1 (F := Ideal) A1 := by
  simp only [opsA0, List.take_succ_cons, List.take_zero, List.drop_succ_cons, List.drop_zero]
  after_results_simp
  rw [ha1]
  rfl

theorem wA0p_v3 (V : Valuation τ sig (Elt Ideal)) (A1 : (⟨S2x1000000, .i32⟩ : BufTy).Contents (Elt Ideal))
    (ha1 : V (Proc.devRef .tc main_arg1) = A1) :
    StableHlo.after (List.take 12 (opsA0 (F := Ideal))) V (Proc.devRef .tc main_v3) = val_main_v3 (F := Ideal) A1 := by
  simp only [opsA0, List.take_succ_cons, List.take_zero, List.drop_succ_cons, List.drop_zero]
  after_results_simp
  rw [ha1]
  rfl

theorem wA0p_v7 (V : Valuation τ sig (Elt Ideal)) (A1 : (⟨S2x1000000, .i32⟩ : BufTy).Contents (Elt Ideal))
    (ha1 : V (Proc.devRef .tc main_arg1) = A1) :
    StableHlo.after (List.take 12 (opsA0 (F := Ideal))) V (Proc.devRef .tc main_v7) = val_main_v7 (F := Ideal) A1 := by
  simp only [opsA0, List.take_succ_cons, List.take_zero, List.drop_succ_cons, List.drop_zero]
  after_results_simp
  rw [ha1]
  rfl

theorem wA0p_c_1 (V : Valuation τ sig (Elt Ideal)) :
    StableHlo.after (List.take 12 (opsA0 (F := Ideal))) V (Proc.devRef .tc main_c_1) = val_main_c_1 (F := Ideal) := by
  simp only [opsA0, List.take_succ_cons, List.take_zero, List.drop_succ_cons, List.drop_zero]
  after_results_simp
  rfl

theorem wA0p_c_2 (V : Valuation τ sig (Elt Ideal)) :
    StableHlo.after (List.take 12 (opsA0 (F := Ideal))) V (Proc.devRef .tc main_c_2) = val_main_c_2 (F := Ideal) := by
  simp only [opsA0, List.take_succ_cons, List.take_zero, List.drop_succ_cons, List.drop_zero]
  after_results_simp
  rfl

/-! ## Window A0c: the clamp of the in-degrees -/

/-- The buffers this window writes. -/
abbrev wrA0c : List (Ref sig .tc) := [main_call0_v0, main_call0_v1, main_call0_v2, main_call0_v3, main_call0_v4, main_v8]

theorem writesA0c : (List.take 6 (List.drop 12 (opsA0 (F := Ideal)))).Forall fun op => op.writes ⊆ ((wrA0c).map (Proc.devRef (τ := τ) .tc)).toFinset := by
  simp only [opsA0, List.take_succ_cons, List.take_zero, List.drop_succ_cons, List.drop_zero, List.Forall, nullary_writes, unary_writes, binary_writes, ternary_writes, reshape_writes,
    Finset.singleton_subset_iff, List.mem_toFinset]
  repeat' apply And.intro
  all_goals exact List.mem_map_of_mem (by decide)

/-- A buffer this window does not write keeps its contents. -/
theorem keepA0c (V : Valuation τ sig (Elt Ideal)) (r : Ref sig .tc) (hr : r ∉ wrA0c) :
    StableHlo.after (List.take 6 (List.drop 12 (opsA0 (F := Ideal)))) V (Proc.devRef .tc r) = V (Proc.devRef .tc r) :=
  after_of_writes_sub (List.take 6 (List.drop 12 (opsA0 (F := Ideal)))) V writesA0c hr

/-- The clamp of the counted in-degrees to [0, 10], from any contents holding the counts and the two bounds. -/
theorem clipA (V : Valuation τ sig (Elt Ideal)) (X7 : (⟨S100000, .i32⟩ : BufTy).Contents (Elt Ideal))
    (C1 C2 : (⟨S_, .i32⟩ : BufTy).Contents (Elt Ideal))
    (h7 : V (Proc.devRef .tc main_v7) = X7) (hc1 : V (Proc.devRef .tc main_c_1) = C1)
    (hc2 : V (Proc.devRef .tc main_c_2) = C2) :
    StableHlo.after (List.take 6 (List.drop 12 (opsA0 (F := Ideal)))) V (Proc.devRef .tc main_v8)
      = minsi (broadcastInDim S100000 ![] bcast_S_S100000 (id C2))
          (maxsi (broadcastInDim S100000 ![] bcast_S_S100000 (id C1)) X7) := by
  simp only [opsA0, List.take_succ_cons, List.take_zero, List.drop_succ_cons, List.drop_zero]
  after_results_simp
  rw [h7, hc1, hc2]
  rfl

theorem wA0c_v8 (V : Valuation τ sig (Elt Ideal)) (A1 : (⟨S2x1000000, .i32⟩ : BufTy).Contents (Elt Ideal))
    (hc_2 : V (Proc.devRef .tc main_c_2) = val_main_c_2 (F := Ideal))
    (hc_1 : V (Proc.devRef .tc main_c_1) = val_main_c_1 (F := Ideal))
    (hv7 : V (Proc.devRef .tc main_v7) = val_main_v7 (F := Ideal) A1) :
    StableHlo.after (List.take 6 (List.drop 12 (opsA0 (F := Ideal)))) V (Proc.devRef .tc main_v8) = val_main_v8 (F := Ideal) A1 :=
  (clipA V (val_main_v7 (F := Ideal) A1) (val_main_c_1 (F := Ideal)) (val_main_c_2 (F := Ideal)) hv7 hc_1 hc_2).trans rfl

/-! ## Window A0r: the zero pooled sum, layer 0's aggregated rows and the first buckets -/

/-- The buffers this window writes. -/
abbrev wrA0r : List (Ref sig .tc) := [main_cst, main_v9, main_c_3, main_v10, main_v11, main_c_4, main_v12, main_v13, main_v14, main_v15, main_v16, main_cst_5, main_v17, main_v18, main_v19, main_cst_6, main_v20, main_c_7, main_v21, main_v22, main_v23, main_v24, main_v25, main_v26, main_v27, main_v28, main_v29, main_v30, main_v31, main_v32, main_v33, main_v34, main_v35, main_v36, main_v37, main_v38, main_v39, main_c_8, main_v40, main_v41, main_v42, main_v43, main_v44, main_v45, main_v46, main_v47, main_v48]

theorem writesA0r : (List.drop 18 (opsA0 (F := Ideal))).Forall fun op => op.writes ⊆ ((wrA0r).map (Proc.devRef (τ := τ) .tc)).toFinset := by
  simp only [opsA0, List.take_succ_cons, List.take_zero, List.drop_succ_cons, List.drop_zero, List.Forall, nullary_writes, unary_writes, binary_writes, ternary_writes, reshape_writes,
    Finset.singleton_subset_iff, List.mem_toFinset]
  repeat' apply And.intro
  all_goals exact List.mem_map_of_mem (by decide)

/-- A buffer this window does not write keeps its contents. -/
theorem keepA0r (V : Valuation τ sig (Elt Ideal)) (r : Ref sig .tc) (hr : r ∉ wrA0r) :
    StableHlo.after (List.drop 18 (opsA0 (F := Ideal))) V (Proc.devRef .tc r) = V (Proc.devRef .tc r) :=
  after_of_writes_sub (List.drop 18 (opsA0 (F := Ideal))) V writesA0r hr

theorem wA0r_v9 (V : Valuation τ sig (Elt Ideal)) :
    StableHlo.after (List.drop 18 (opsA0 (F := Ideal))) V (Proc.devRef .tc main_v9) = val_main_v9 (F := Ideal) := by
  simp only [opsA0, List.take_succ_cons, List.take_zero, List.drop_succ_cons, List.drop_zero]
  after_results_simp
  rfl

theorem wA0r_v19 (V : Valuation τ sig (Elt Ideal)) (A0 : (⟨S100000x64, .f32⟩ : BufTy).Contents (Elt Ideal)) (A1 : (⟨S2x1000000, .i32⟩ : BufTy).Contents (Elt Ideal))
    (hv3 : V (Proc.devRef .tc main_v3) = val_main_v3 (F := Ideal) A1)
    (ha0 : V (Proc.devRef .tc main_arg0) = A0)
    (hv1 : V (Proc.devRef .tc main_v1) = val_main_v1 (F := Ideal) A1) :
    StableHlo.after (List.drop 18 (opsA0 (F := Ideal))) V (Proc.devRef .tc main_v19) = val_main_v19 (F := Ideal) A0 A1 := by
  simp only [opsA0, List.take_succ_cons, List.take_zero, List.drop_succ_cons, List.drop_zero]
  after_results_simp
  rw [hv3, ha0, hv1]
  rfl

theorem wA0r_v39 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv8 : V (Proc.devRef .tc main_v8) = val_main_v8 (F := Ideal) A1)
    (hv3 : V (Proc.devRef .tc main_v3) = val_main_v3 (F := Ideal) A1)
    (ha0 : V (Proc.devRef .tc main_arg0) = A0)
    (hv1 : V (Proc.devRef .tc main_v1) = val_main_v1 (F := Ideal) A1)
    (ha3 : V (Proc.devRef .tc main_arg3) = A3)
    (ha4 : V (Proc.devRef .tc main_arg4) = A4)
    (ha5 : V (Proc.devRef .tc main_arg5) = A5) :
    StableHlo.after (List.drop 18 (opsA0 (F := Ideal))) V (Proc.devRef .tc main_v39) = val_main_v39 (F := Ideal) A0 A1 A3 A4 A5 := by
  simp only [opsA0, List.take_succ_cons, List.take_zero, List.drop_succ_cons, List.drop_zero]
  after_results_simp
  rw [hv8, hv3, ha0, hv1, ha3, ha4, ha5]
  rfl

theorem wA0r_v43 (V : Valuation τ sig (Elt Ideal)) (A1 : (⟨S2x1000000, .i32⟩ : BufTy).Contents (Elt Ideal))
    (hv8 : V (Proc.devRef .tc main_v8) = val_main_v8 (F := Ideal) A1) :
    StableHlo.after (List.drop 18 (opsA0 (F := Ideal))) V (Proc.devRef .tc main_v43) = val_main_v43 (F := Ideal) A1 := by
  simp only [opsA0, List.take_succ_cons, List.take_zero, List.drop_succ_cons, List.drop_zero]
  after_results_simp
  rw [hv8]
  rfl

theorem wA0r_v46 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal))
    (hv3 : V (Proc.devRef .tc main_v3) = val_main_v3 (F := Ideal) A1)
    (ha0 : V (Proc.devRef .tc main_arg0) = A0)
    (hv1 : V (Proc.devRef .tc main_v1) = val_main_v1 (F := Ideal) A1)
    (ha3 : V (Proc.devRef .tc main_arg3) = A3) :
    StableHlo.after (List.drop 18 (opsA0 (F := Ideal))) V (Proc.devRef .tc main_v46) = val_main_v46 (F := Ideal) A0 A1 A3 := by
  simp only [opsA0, List.take_succ_cons, List.take_zero, List.drop_succ_cons, List.drop_zero]
  after_results_simp
  rw [hv3, ha0, hv1, ha3]
  rfl

theorem wA0r_v48 (V : Valuation τ sig (Elt Ideal)) (A4 : (⟨S3x11x64, .f32⟩ : BufTy).Contents (Elt Ideal))
    (ha4 : V (Proc.devRef .tc main_arg4) = A4) :
    StableHlo.after (List.drop 18 (opsA0 (F := Ideal))) V (Proc.devRef .tc main_v48) = val_main_v48 (F := Ideal) A4 := by
  simp only [opsA0, List.take_succ_cons, List.take_zero, List.drop_succ_cons, List.drop_zero]
  after_results_simp
  rw [ha4]
  rfl

/-! ## Window A1: buckets -/

/-- The buffers this window writes. -/
abbrev wrA1 : List (Ref sig .tc) := [main_v49, main_v50, main_v51, main_v52, main_v53, main_v54, main_v55, main_v56, main_v57, main_v58, main_c_9, main_v59, main_v60, main_v61, main_v62, main_v63, main_v64, main_v65, main_v66, main_v67, main_v68, main_v69, main_v70, main_v71, main_v72, main_v73, main_v74, main_v75, main_v76, main_v77, main_c_10, main_v78, main_v79, main_v80, main_v81, main_v82, main_v83, main_v84, main_v85, main_v86, main_v87, main_v88, main_v89, main_v90, main_v91, main_v92, main_v93, main_v94, main_v95, main_v96, main_c_11, main_v97, main_v98, main_v99, main_v100, main_v101, main_v102, main_v103, main_v104, main_v105]

theorem writesA1 : (opsA1 (F := Ideal)).Forall fun op => op.writes ⊆ ((wrA1).map (Proc.devRef (τ := τ) .tc)).toFinset := by
  simp only [opsA1, List.Forall, nullary_writes, unary_writes, binary_writes, ternary_writes, reshape_writes,
    Finset.singleton_subset_iff, List.mem_toFinset]
  repeat' apply And.intro
  all_goals exact List.mem_map_of_mem (by decide)

/-- A buffer this window does not write keeps its contents. -/
theorem keepA1 (V : Valuation τ sig (Elt Ideal)) (r : Ref sig .tc) (hr : r ∉ wrA1) :
    StableHlo.after opsA1 V (Proc.devRef .tc r) = V (Proc.devRef .tc r) :=
  after_of_writes_sub opsA1 V writesA1 hr

theorem wA1_v96 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv39 : V (Proc.devRef .tc main_v39) = val_main_v39 (F := Ideal) A0 A1 A3 A4 A5)
    (hv43 : V (Proc.devRef .tc main_v43) = val_main_v43 (F := Ideal) A1)
    (hv46 : V (Proc.devRef .tc main_v46) = val_main_v46 (F := Ideal) A0 A1 A3)
    (hv48 : V (Proc.devRef .tc main_v48) = val_main_v48 (F := Ideal) A4)
    (ha0 : V (Proc.devRef .tc main_arg0) = A0)
    (ha5 : V (Proc.devRef .tc main_arg5) = A5)
    (hv8 : V (Proc.devRef .tc main_v8) = val_main_v8 (F := Ideal) A1)
    (hv19 : V (Proc.devRef .tc main_v19) = val_main_v19 (F := Ideal) A0 A1)
    (ha3 : V (Proc.devRef .tc main_arg3) = A3)
    (ha4 : V (Proc.devRef .tc main_arg4) = A4) :
    StableHlo.after opsA1 V (Proc.devRef .tc main_v96) = val_main_v96 (F := Ideal) A0 A1 A3 A4 A5 := by
  after_results_simp
  rw [hv39, hv43, hv46, hv48, ha0, ha5, hv8, hv19, ha3, ha4]
  rfl

theorem wA1_v100 (V : Valuation τ sig (Elt Ideal)) (A1 : (⟨S2x1000000, .i32⟩ : BufTy).Contents (Elt Ideal))
    (hv8 : V (Proc.devRef .tc main_v8) = val_main_v8 (F := Ideal) A1) :
    StableHlo.after opsA1 V (Proc.devRef .tc main_v100) = val_main_v100 (F := Ideal) A1 := by
  after_results_simp
  rw [hv8]
  rfl

theorem wA1_v103 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal))
    (hv19 : V (Proc.devRef .tc main_v19) = val_main_v19 (F := Ideal) A0 A1)
    (ha3 : V (Proc.devRef .tc main_arg3) = A3) :
    StableHlo.after opsA1 V (Proc.devRef .tc main_v103) = val_main_v103 (F := Ideal) A0 A1 A3 := by
  after_results_simp
  rw [hv19, ha3]
  rfl

theorem wA1_v105 (V : Valuation τ sig (Elt Ideal)) (A4 : (⟨S3x11x64, .f32⟩ : BufTy).Contents (Elt Ideal))
    (ha4 : V (Proc.devRef .tc main_arg4) = A4) :
    StableHlo.after opsA1 V (Proc.devRef .tc main_v105) = val_main_v105 (F := Ideal) A4 := by
  after_results_simp
  rw [ha4]
  rfl

/-! ## Window A2: buckets -/

/-- The buffers this window writes. -/
abbrev wrA2 : List (Ref sig .tc) := [main_v106, main_v107, main_v108, main_v109, main_v110, main_v111, main_v112, main_v113, main_v114, main_v115, main_c_12, main_v116, main_v117, main_v118, main_v119, main_v120, main_v121, main_v122, main_v123, main_v124, main_v125, main_v126, main_v127, main_v128, main_v129, main_v130, main_v131, main_v132, main_v133, main_v134, main_c_13, main_v135, main_v136, main_v137, main_v138, main_v139, main_v140, main_v141, main_v142, main_v143, main_v144, main_v145, main_v146, main_v147, main_v148, main_v149, main_v150, main_v151, main_v152, main_v153, main_c_14, main_v154, main_v155, main_v156, main_v157, main_v158, main_v159, main_v160, main_v161, main_v162]

theorem writesA2 : (opsA2 (F := Ideal)).Forall fun op => op.writes ⊆ ((wrA2).map (Proc.devRef (τ := τ) .tc)).toFinset := by
  simp only [opsA2, List.Forall, nullary_writes, unary_writes, binary_writes, ternary_writes, reshape_writes,
    Finset.singleton_subset_iff, List.mem_toFinset]
  repeat' apply And.intro
  all_goals exact List.mem_map_of_mem (by decide)

/-- A buffer this window does not write keeps its contents. -/
theorem keepA2 (V : Valuation τ sig (Elt Ideal)) (r : Ref sig .tc) (hr : r ∉ wrA2) :
    StableHlo.after opsA2 V (Proc.devRef .tc r) = V (Proc.devRef .tc r) :=
  after_of_writes_sub opsA2 V writesA2 hr

theorem wA2_v153 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv96 : V (Proc.devRef .tc main_v96) = val_main_v96 (F := Ideal) A0 A1 A3 A4 A5)
    (hv100 : V (Proc.devRef .tc main_v100) = val_main_v100 (F := Ideal) A1)
    (hv103 : V (Proc.devRef .tc main_v103) = val_main_v103 (F := Ideal) A0 A1 A3)
    (hv105 : V (Proc.devRef .tc main_v105) = val_main_v105 (F := Ideal) A4)
    (ha0 : V (Proc.devRef .tc main_arg0) = A0)
    (ha5 : V (Proc.devRef .tc main_arg5) = A5)
    (hv8 : V (Proc.devRef .tc main_v8) = val_main_v8 (F := Ideal) A1)
    (hv19 : V (Proc.devRef .tc main_v19) = val_main_v19 (F := Ideal) A0 A1)
    (ha3 : V (Proc.devRef .tc main_arg3) = A3)
    (ha4 : V (Proc.devRef .tc main_arg4) = A4) :
    StableHlo.after opsA2 V (Proc.devRef .tc main_v153) = val_main_v153 (F := Ideal) A0 A1 A3 A4 A5 := by
  after_results_simp
  rw [hv96, hv100, hv103, hv105, ha0, ha5, hv8, hv19, ha3, ha4]
  rfl

theorem wA2_v157 (V : Valuation τ sig (Elt Ideal)) (A1 : (⟨S2x1000000, .i32⟩ : BufTy).Contents (Elt Ideal))
    (hv8 : V (Proc.devRef .tc main_v8) = val_main_v8 (F := Ideal) A1) :
    StableHlo.after opsA2 V (Proc.devRef .tc main_v157) = val_main_v157 (F := Ideal) A1 := by
  after_results_simp
  rw [hv8]
  rfl

theorem wA2_v160 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal))
    (hv19 : V (Proc.devRef .tc main_v19) = val_main_v19 (F := Ideal) A0 A1)
    (ha3 : V (Proc.devRef .tc main_arg3) = A3) :
    StableHlo.after opsA2 V (Proc.devRef .tc main_v160) = val_main_v160 (F := Ideal) A0 A1 A3 := by
  after_results_simp
  rw [hv19, ha3]
  rfl

theorem wA2_v162 (V : Valuation τ sig (Elt Ideal)) (A4 : (⟨S3x11x64, .f32⟩ : BufTy).Contents (Elt Ideal))
    (ha4 : V (Proc.devRef .tc main_arg4) = A4) :
    StableHlo.after opsA2 V (Proc.devRef .tc main_v162) = val_main_v162 (F := Ideal) A4 := by
  after_results_simp
  rw [ha4]
  rfl

/-! ## Window A3: buckets -/

/-- The buffers this window writes. -/
abbrev wrA3 : List (Ref sig .tc) := [main_v163, main_v164, main_v165, main_v166, main_v167, main_v168, main_v169, main_v170, main_v171, main_v172, main_c_15, main_v173, main_v174, main_v175, main_v176, main_v177, main_v178, main_v179, main_v180, main_v181, main_v182, main_v183, main_v184, main_v185, main_v186, main_v187, main_v188, main_v189, main_v190, main_v191, main_c_16, main_v192, main_v193, main_v194, main_v195, main_v196, main_v197, main_v198, main_v199, main_v200, main_v201, main_v202, main_v203, main_v204, main_v205, main_v206, main_v207, main_v208, main_v209, main_v210, main_c_17, main_v211, main_v212, main_v213, main_v214, main_v215, main_v216, main_v217, main_v218, main_v219]

theorem writesA3 : (opsA3 (F := Ideal)).Forall fun op => op.writes ⊆ ((wrA3).map (Proc.devRef (τ := τ) .tc)).toFinset := by
  simp only [opsA3, List.Forall, nullary_writes, unary_writes, binary_writes, ternary_writes, reshape_writes,
    Finset.singleton_subset_iff, List.mem_toFinset]
  repeat' apply And.intro
  all_goals exact List.mem_map_of_mem (by decide)

/-- A buffer this window does not write keeps its contents. -/
theorem keepA3 (V : Valuation τ sig (Elt Ideal)) (r : Ref sig .tc) (hr : r ∉ wrA3) :
    StableHlo.after opsA3 V (Proc.devRef .tc r) = V (Proc.devRef .tc r) :=
  after_of_writes_sub opsA3 V writesA3 hr

theorem wA3_v210 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv153 : V (Proc.devRef .tc main_v153) = val_main_v153 (F := Ideal) A0 A1 A3 A4 A5)
    (hv157 : V (Proc.devRef .tc main_v157) = val_main_v157 (F := Ideal) A1)
    (hv160 : V (Proc.devRef .tc main_v160) = val_main_v160 (F := Ideal) A0 A1 A3)
    (hv162 : V (Proc.devRef .tc main_v162) = val_main_v162 (F := Ideal) A4)
    (ha0 : V (Proc.devRef .tc main_arg0) = A0)
    (ha5 : V (Proc.devRef .tc main_arg5) = A5)
    (hv8 : V (Proc.devRef .tc main_v8) = val_main_v8 (F := Ideal) A1)
    (hv19 : V (Proc.devRef .tc main_v19) = val_main_v19 (F := Ideal) A0 A1)
    (ha3 : V (Proc.devRef .tc main_arg3) = A3)
    (ha4 : V (Proc.devRef .tc main_arg4) = A4) :
    StableHlo.after opsA3 V (Proc.devRef .tc main_v210) = val_main_v210 (F := Ideal) A0 A1 A3 A4 A5 := by
  after_results_simp
  rw [hv153, hv157, hv160, hv162, ha0, ha5, hv8, hv19, ha3, ha4]
  rfl

theorem wA3_v214 (V : Valuation τ sig (Elt Ideal)) (A1 : (⟨S2x1000000, .i32⟩ : BufTy).Contents (Elt Ideal))
    (hv8 : V (Proc.devRef .tc main_v8) = val_main_v8 (F := Ideal) A1) :
    StableHlo.after opsA3 V (Proc.devRef .tc main_v214) = val_main_v214 (F := Ideal) A1 := by
  after_results_simp
  rw [hv8]
  rfl

theorem wA3_v217 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal))
    (hv19 : V (Proc.devRef .tc main_v19) = val_main_v19 (F := Ideal) A0 A1)
    (ha3 : V (Proc.devRef .tc main_arg3) = A3) :
    StableHlo.after opsA3 V (Proc.devRef .tc main_v217) = val_main_v217 (F := Ideal) A0 A1 A3 := by
  after_results_simp
  rw [hv19, ha3]
  rfl

theorem wA3_v219 (V : Valuation τ sig (Elt Ideal)) (A4 : (⟨S3x11x64, .f32⟩ : BufTy).Contents (Elt Ideal))
    (ha4 : V (Proc.devRef .tc main_arg4) = A4) :
    StableHlo.after opsA3 V (Proc.devRef .tc main_v219) = val_main_v219 (F := Ideal) A4 := by
  after_results_simp
  rw [ha4]
  rfl

/-! ## Window A4: the last bucket and the logistic -/

/-- The buffers this window writes. -/
abbrev wrA4 : List (Ref sig .tc) := [main_v220, main_v221, main_v222, main_v223, main_v224, main_v225, main_v226, main_v227, main_v228, main_v229, main_v230, main_v231, main_cst_18, main_v232, main_v233, main_cst_19, main_v234, main_v235]

theorem writesA4 : (opsA4 (F := Ideal)).Forall fun op => op.writes ⊆ ((wrA4).map (Proc.devRef (τ := τ) .tc)).toFinset := by
  simp only [opsA4, List.Forall, nullary_writes, unary_writes, binary_writes, ternary_writes, reshape_writes,
    Finset.singleton_subset_iff, List.mem_toFinset]
  repeat' apply And.intro
  all_goals exact List.mem_map_of_mem (by decide)

/-- A buffer this window does not write keeps its contents. -/
theorem keepA4 (V : Valuation τ sig (Elt Ideal)) (r : Ref sig .tc) (hr : r ∉ wrA4) :
    StableHlo.after opsA4 V (Proc.devRef .tc r) = V (Proc.devRef .tc r) :=
  after_of_writes_sub opsA4 V writesA4 hr

theorem wA4_v235 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv210 : V (Proc.devRef .tc main_v210) = val_main_v210 (F := Ideal) A0 A1 A3 A4 A5)
    (hv214 : V (Proc.devRef .tc main_v214) = val_main_v214 (F := Ideal) A1)
    (hv217 : V (Proc.devRef .tc main_v217) = val_main_v217 (F := Ideal) A0 A1 A3)
    (hv219 : V (Proc.devRef .tc main_v219) = val_main_v219 (F := Ideal) A4)
    (ha0 : V (Proc.devRef .tc main_arg0) = A0)
    (ha5 : V (Proc.devRef .tc main_arg5) = A5) :
    StableHlo.after opsA4 V (Proc.devRef .tc main_v235) = val_main_v235 (F := Ideal) A0 A1 A3 A4 A5 := by
  after_results_simp
  rw [hv210, hv214, hv217, hv219, ha0, ha5]
  rfl

/-! ## The piece -/

/-- The edges' source nodes. -/
theorem rA_v1
    (W : Valuation τ sig (Elt Ideal))
    (A1 : (⟨S2x1000000, .i32⟩ : BufTy).Contents (Elt Ideal))
    (h1 : W (Proc.devRef .tc main_arg1) = A1) :
    StableHlo.after opsA W (Proc.devRef .tc main_v1) = val_main_v1 (F := Ideal) A1 := by
  rw [after_opsA]
  have f1_v1 := wA0p_v1 W A1 h1
  have f2_v1 := (keepA0c (StableHlo.after (List.take 12 (opsA0 (F := Ideal))) W) main_v1 (by decide)).trans f1_v1
  have f3_v1 := (keepA0r (StableHlo.after (List.take 6 (List.drop 12 (opsA0 (F := Ideal)))) (StableHlo.after (List.take 12 (opsA0 (F := Ideal))) W)) main_v1 (by decide)).trans f2_v1
  have f4_v1 := (keepA1 (StableHlo.after (List.drop 18 (opsA0 (F := Ideal))) (StableHlo.after (List.take 6 (List.drop 12 (opsA0 (F := Ideal)))) (StableHlo.after (List.take 12 (opsA0 (F := Ideal))) W))) main_v1 (by decide)).trans f3_v1
  have f5_v1 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_v1 (by decide)).trans f4_v1
  have f6_v1 := (keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_v1 (by decide)).trans f5_v1
  have f7_v1 := (keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_v1 (by decide)).trans f6_v1
  exact f7_v1

/-- The edges' target nodes. -/
theorem rA_v3
    (W : Valuation τ sig (Elt Ideal))
    (A1 : (⟨S2x1000000, .i32⟩ : BufTy).Contents (Elt Ideal))
    (h1 : W (Proc.devRef .tc main_arg1) = A1) :
    StableHlo.after opsA W (Proc.devRef .tc main_v3) = val_main_v3 (F := Ideal) A1 := by
  rw [after_opsA]
  have f1_v3 := wA0p_v3 W A1 h1
  have f2_v3 := (keepA0c (StableHlo.after (List.take 12 (opsA0 (F := Ideal))) W) main_v3 (by decide)).trans f1_v3
  have f3_v3 := (keepA0r (StableHlo.after (List.take 6 (List.drop 12 (opsA0 (F := Ideal)))) (StableHlo.after (List.take 12 (opsA0 (F := Ideal))) W)) main_v3 (by decide)).trans f2_v3
  have f4_v3 := (keepA1 (StableHlo.after (List.drop 18 (opsA0 (F := Ideal))) (StableHlo.after (List.take 6 (List.drop 12 (opsA0 (F := Ideal)))) (StableHlo.after (List.take 12 (opsA0 (F := Ideal))) W))) main_v3 (by decide)).trans f3_v3
  have f5_v3 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_v3 (by decide)).trans f4_v3
  have f6_v3 := (keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_v3 (by decide)).trans f5_v3
  have f7_v3 := (keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_v3 (by decide)).trans f6_v3
  exact f7_v3

/-- The clamped in-degrees. -/
theorem rA_v8
    (W : Valuation τ sig (Elt Ideal))
    (A1 : (⟨S2x1000000, .i32⟩ : BufTy).Contents (Elt Ideal))
    (h1 : W (Proc.devRef .tc main_arg1) = A1) :
    StableHlo.after opsA W (Proc.devRef .tc main_v8) = val_main_v8 (F := Ideal) A1 := by
  rw [after_opsA]
  have f1_c_2 := wA0p_c_2 W
  have f1_c_1 := wA0p_c_1 W
  have f1_v7 := wA0p_v7 W A1 h1
  have f2_v8 := wA0c_v8 (StableHlo.after (List.take 12 (opsA0 (F := Ideal))) W) A1 f1_c_2 f1_c_1 f1_v7
  have f3_v8 := (keepA0r (StableHlo.after (List.take 6 (List.drop 12 (opsA0 (F := Ideal)))) (StableHlo.after (List.take 12 (opsA0 (F := Ideal))) W)) main_v8 (by decide)).trans f2_v8
  have f4_v8 := (keepA1 (StableHlo.after (List.drop 18 (opsA0 (F := Ideal))) (StableHlo.after (List.take 6 (List.drop 12 (opsA0 (F := Ideal)))) (StableHlo.after (List.take 12 (opsA0 (F := Ideal))) W))) main_v8 (by decide)).trans f3_v8
  have f5_v8 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_v8 (by decide)).trans f4_v8
  have f6_v8 := (keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_v8 (by decide)).trans f5_v8
  have f7_v8 := (keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_v8 (by decide)).trans f6_v8
  exact f7_v8

/-- The zero pooled sum. -/
theorem rA_v9
    (W : Valuation τ sig (Elt Ideal)) :
    StableHlo.after opsA W (Proc.devRef .tc main_v9) = val_main_v9 (F := Ideal) := by
  rw [after_opsA]
  have f3_v9 := wA0r_v9 (StableHlo.after (List.take 6 (List.drop 12 (opsA0 (F := Ideal)))) (StableHlo.after (List.take 12 (opsA0 (F := Ideal))) W))
  have f4_v9 := (keepA1 (StableHlo.after (List.drop 18 (opsA0 (F := Ideal))) (StableHlo.after (List.take 6 (List.drop 12 (opsA0 (F := Ideal)))) (StableHlo.after (List.take 12 (opsA0 (F := Ideal))) W))) main_v9 (by decide)).trans f3_v9
  have f5_v9 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_v9 (by decide)).trans f4_v9
  have f6_v9 := (keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_v9 (by decide)).trans f5_v9
  have f7_v9 := (keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_v9 (by decide)).trans f6_v9
  exact f7_v9

/-- Layer 0's new features. -/
theorem rA_v235
    (W : Valuation τ sig (Elt Ideal))
    (A0 : (⟨S100000x64, .f32⟩ : BufTy).Contents (Elt Ideal))
    (A1 : (⟨S2x1000000, .i32⟩ : BufTy).Contents (Elt Ideal))
    (A3 : (⟨S3x11x64x64, .f32⟩ : BufTy).Contents (Elt Ideal))
    (A4 : (⟨S3x11x64, .f32⟩ : BufTy).Contents (Elt Ideal))
    (A5 : (⟨S3x11x64x64, .f32⟩ : BufTy).Contents (Elt Ideal))
    (h0 : W (Proc.devRef .tc main_arg0) = A0)
    (h1 : W (Proc.devRef .tc main_arg1) = A1)
    (h3 : W (Proc.devRef .tc main_arg3) = A3)
    (h4 : W (Proc.devRef .tc main_arg4) = A4)
    (h5 : W (Proc.devRef .tc main_arg5) = A5) :
    StableHlo.after opsA W (Proc.devRef .tc main_v235) = val_main_v235 (F := Ideal) A0 A1 A3 A4 A5 := by
  rw [after_opsA]
  have f1_c_2 := wA0p_c_2 W
  have f1_c_1 := wA0p_c_1 W
  have f1_v7 := wA0p_v7 W A1 h1
  have f1_v3 := wA0p_v3 W A1 h1
  have f1_arg0 := (keepA0p W main_arg0 (by decide)).trans h0
  have f1_v1 := wA0p_v1 W A1 h1
  have f1_arg3 := (keepA0p W main_arg3 (by decide)).trans h3
  have f1_arg4 := (keepA0p W main_arg4 (by decide)).trans h4
  have f1_arg5 := (keepA0p W main_arg5 (by decide)).trans h5
  have f2_v8 := wA0c_v8 (StableHlo.after (List.take 12 (opsA0 (F := Ideal))) W) A1 f1_c_2 f1_c_1 f1_v7
  have f2_v3 := (keepA0c (StableHlo.after (List.take 12 (opsA0 (F := Ideal))) W) main_v3 (by decide)).trans f1_v3
  have f2_arg0 := (keepA0c (StableHlo.after (List.take 12 (opsA0 (F := Ideal))) W) main_arg0 (by decide)).trans f1_arg0
  have f2_v1 := (keepA0c (StableHlo.after (List.take 12 (opsA0 (F := Ideal))) W) main_v1 (by decide)).trans f1_v1
  have f2_arg3 := (keepA0c (StableHlo.after (List.take 12 (opsA0 (F := Ideal))) W) main_arg3 (by decide)).trans f1_arg3
  have f2_arg4 := (keepA0c (StableHlo.after (List.take 12 (opsA0 (F := Ideal))) W) main_arg4 (by decide)).trans f1_arg4
  have f2_arg5 := (keepA0c (StableHlo.after (List.take 12 (opsA0 (F := Ideal))) W) main_arg5 (by decide)).trans f1_arg5
  have f3_v39 := wA0r_v39 (StableHlo.after (List.take 6 (List.drop 12 (opsA0 (F := Ideal)))) (StableHlo.after (List.take 12 (opsA0 (F := Ideal))) W)) A0 A1 A3 A4 A5 f2_v8 f2_v3 f2_arg0 f2_v1 f2_arg3 f2_arg4 f2_arg5
  have f3_v43 := wA0r_v43 (StableHlo.after (List.take 6 (List.drop 12 (opsA0 (F := Ideal)))) (StableHlo.after (List.take 12 (opsA0 (F := Ideal))) W)) A1 f2_v8
  have f3_v46 := wA0r_v46 (StableHlo.after (List.take 6 (List.drop 12 (opsA0 (F := Ideal)))) (StableHlo.after (List.take 12 (opsA0 (F := Ideal))) W)) A0 A1 A3 f2_v3 f2_arg0 f2_v1 f2_arg3
  have f3_v48 := wA0r_v48 (StableHlo.after (List.take 6 (List.drop 12 (opsA0 (F := Ideal)))) (StableHlo.after (List.take 12 (opsA0 (F := Ideal))) W)) A4 f2_arg4
  have f3_arg0 := (keepA0r (StableHlo.after (List.take 6 (List.drop 12 (opsA0 (F := Ideal)))) (StableHlo.after (List.take 12 (opsA0 (F := Ideal))) W)) main_arg0 (by decide)).trans f2_arg0
  have f3_arg5 := (keepA0r (StableHlo.after (List.take 6 (List.drop 12 (opsA0 (F := Ideal)))) (StableHlo.after (List.take 12 (opsA0 (F := Ideal))) W)) main_arg5 (by decide)).trans f2_arg5
  have f3_v8 := (keepA0r (StableHlo.after (List.take 6 (List.drop 12 (opsA0 (F := Ideal)))) (StableHlo.after (List.take 12 (opsA0 (F := Ideal))) W)) main_v8 (by decide)).trans f2_v8
  have f3_v19 := wA0r_v19 (StableHlo.after (List.take 6 (List.drop 12 (opsA0 (F := Ideal)))) (StableHlo.after (List.take 12 (opsA0 (F := Ideal))) W)) A0 A1 f2_v3 f2_arg0 f2_v1
  have f3_arg3 := (keepA0r (StableHlo.after (List.take 6 (List.drop 12 (opsA0 (F := Ideal)))) (StableHlo.after (List.take 12 (opsA0 (F := Ideal))) W)) main_arg3 (by decide)).trans f2_arg3
  have f3_arg4 := (keepA0r (StableHlo.after (List.take 6 (List.drop 12 (opsA0 (F := Ideal)))) (StableHlo.after (List.take 12 (opsA0 (F := Ideal))) W)) main_arg4 (by decide)).trans f2_arg4
  have f4_v96 := wA1_v96 (StableHlo.after (List.drop 18 (opsA0 (F := Ideal))) (StableHlo.after (List.take 6 (List.drop 12 (opsA0 (F := Ideal)))) (StableHlo.after (List.take 12 (opsA0 (F := Ideal))) W))) A0 A1 A3 A4 A5 f3_v39 f3_v43 f3_v46 f3_v48 f3_arg0 f3_arg5 f3_v8 f3_v19 f3_arg3 f3_arg4
  have f4_v100 := wA1_v100 (StableHlo.after (List.drop 18 (opsA0 (F := Ideal))) (StableHlo.after (List.take 6 (List.drop 12 (opsA0 (F := Ideal)))) (StableHlo.after (List.take 12 (opsA0 (F := Ideal))) W))) A1 f3_v8
  have f4_v103 := wA1_v103 (StableHlo.after (List.drop 18 (opsA0 (F := Ideal))) (StableHlo.after (List.take 6 (List.drop 12 (opsA0 (F := Ideal)))) (StableHlo.after (List.take 12 (opsA0 (F := Ideal))) W))) A0 A1 A3 f3_v19 f3_arg3
  have f4_v105 := wA1_v105 (StableHlo.after (List.drop 18 (opsA0 (F := Ideal))) (StableHlo.after (List.take 6 (List.drop 12 (opsA0 (F := Ideal)))) (StableHlo.after (List.take 12 (opsA0 (F := Ideal))) W))) A4 f3_arg4
  have f4_arg0 := (keepA1 (StableHlo.after (List.drop 18 (opsA0 (F := Ideal))) (StableHlo.after (List.take 6 (List.drop 12 (opsA0 (F := Ideal)))) (StableHlo.after (List.take 12 (opsA0 (F := Ideal))) W))) main_arg0 (by decide)).trans f3_arg0
  have f4_arg5 := (keepA1 (StableHlo.after (List.drop 18 (opsA0 (F := Ideal))) (StableHlo.after (List.take 6 (List.drop 12 (opsA0 (F := Ideal)))) (StableHlo.after (List.take 12 (opsA0 (F := Ideal))) W))) main_arg5 (by decide)).trans f3_arg5
  have f4_v8 := (keepA1 (StableHlo.after (List.drop 18 (opsA0 (F := Ideal))) (StableHlo.after (List.take 6 (List.drop 12 (opsA0 (F := Ideal)))) (StableHlo.after (List.take 12 (opsA0 (F := Ideal))) W))) main_v8 (by decide)).trans f3_v8
  have f4_v19 := (keepA1 (StableHlo.after (List.drop 18 (opsA0 (F := Ideal))) (StableHlo.after (List.take 6 (List.drop 12 (opsA0 (F := Ideal)))) (StableHlo.after (List.take 12 (opsA0 (F := Ideal))) W))) main_v19 (by decide)).trans f3_v19
  have f4_arg3 := (keepA1 (StableHlo.after (List.drop 18 (opsA0 (F := Ideal))) (StableHlo.after (List.take 6 (List.drop 12 (opsA0 (F := Ideal)))) (StableHlo.after (List.take 12 (opsA0 (F := Ideal))) W))) main_arg3 (by decide)).trans f3_arg3
  have f4_arg4 := (keepA1 (StableHlo.after (List.drop 18 (opsA0 (F := Ideal))) (StableHlo.after (List.take 6 (List.drop 12 (opsA0 (F := Ideal)))) (StableHlo.after (List.take 12 (opsA0 (F := Ideal))) W))) main_arg4 (by decide)).trans f3_arg4
  have f5_v153 := wA2_v153 (StableHlo.after opsA1 (StableHlo.after (List.drop 18 (opsA0 (F := Ideal))) (StableHlo.after (List.take 6 (List.drop 12 (opsA0 (F := Ideal)))) (StableHlo.after (List.take 12 (opsA0 (F := Ideal))) W)))) A0 A1 A3 A4 A5 f4_v96 f4_v100 f4_v103 f4_v105 f4_arg0 f4_arg5 f4_v8 f4_v19 f4_arg3 f4_arg4
  have f5_v157 := wA2_v157 (StableHlo.after opsA1 (StableHlo.after (List.drop 18 (opsA0 (F := Ideal))) (StableHlo.after (List.take 6 (List.drop 12 (opsA0 (F := Ideal)))) (StableHlo.after (List.take 12 (opsA0 (F := Ideal))) W)))) A1 f4_v8
  have f5_v160 := wA2_v160 (StableHlo.after opsA1 (StableHlo.after (List.drop 18 (opsA0 (F := Ideal))) (StableHlo.after (List.take 6 (List.drop 12 (opsA0 (F := Ideal)))) (StableHlo.after (List.take 12 (opsA0 (F := Ideal))) W)))) A0 A1 A3 f4_v19 f4_arg3
  have f5_v162 := wA2_v162 (StableHlo.after opsA1 (StableHlo.after (List.drop 18 (opsA0 (F := Ideal))) (StableHlo.after (List.take 6 (List.drop 12 (opsA0 (F := Ideal)))) (StableHlo.after (List.take 12 (opsA0 (F := Ideal))) W)))) A4 f4_arg4
  have f5_arg0 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg0 (by decide)).trans f4_arg0
  have f5_arg5 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg5 (by decide)).trans f4_arg5
  have f5_v8 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_v8 (by decide)).trans f4_v8
  have f5_v19 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_v19 (by decide)).trans f4_v19
  have f5_arg3 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg3 (by decide)).trans f4_arg3
  have f5_arg4 := (keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg4 (by decide)).trans f4_arg4
  have f6_v210 := wA3_v210 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) A0 A1 A3 A4 A5 f5_v153 f5_v157 f5_v160 f5_v162 f5_arg0 f5_arg5 f5_v8 f5_v19 f5_arg3 f5_arg4
  have f6_v214 := wA3_v214 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) A1 f5_v8
  have f6_v217 := wA3_v217 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) A0 A1 A3 f5_v19 f5_arg3
  have f6_v219 := wA3_v219 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) A4 f5_arg4
  have f6_arg0 := (keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg0 (by decide)).trans f5_arg0
  have f6_arg5 := (keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg5 (by decide)).trans f5_arg5
  have f7_v235 := wA4_v235 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) A0 A1 A3 A4 A5 f6_v210 f6_v214 f6_v217 f6_v219 f6_arg0 f6_arg5
  exact f7_v235

theorem rA_keep_arg0
    (W : Valuation τ sig (Elt Ideal)) :
    StableHlo.after opsA W (Proc.devRef .tc main_arg0) = W (Proc.devRef .tc main_arg0) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg0 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg0 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg0 (by decide)).trans ((keepA1 (StableHlo.after (List.drop 18 (opsA0 (F := Ideal))) (StableHlo.after (List.take 6 (List.drop 12 (opsA0 (F := Ideal)))) (StableHlo.after (List.take 12 (opsA0 (F := Ideal))) W))) main_arg0 (by decide)).trans ((keepA0r (StableHlo.after (List.take 6 (List.drop 12 (opsA0 (F := Ideal)))) (StableHlo.after (List.take 12 (opsA0 (F := Ideal))) W)) main_arg0 (by decide)).trans ((keepA0c (StableHlo.after (List.take 12 (opsA0 (F := Ideal))) W) main_arg0 (by decide)).trans (keepA0p W main_arg0 (by decide))))))))

theorem rA_keep_arg1
    (W : Valuation τ sig (Elt Ideal)) :
    StableHlo.after opsA W (Proc.devRef .tc main_arg1) = W (Proc.devRef .tc main_arg1) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg1 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg1 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg1 (by decide)).trans ((keepA1 (StableHlo.after (List.drop 18 (opsA0 (F := Ideal))) (StableHlo.after (List.take 6 (List.drop 12 (opsA0 (F := Ideal)))) (StableHlo.after (List.take 12 (opsA0 (F := Ideal))) W))) main_arg1 (by decide)).trans ((keepA0r (StableHlo.after (List.take 6 (List.drop 12 (opsA0 (F := Ideal)))) (StableHlo.after (List.take 12 (opsA0 (F := Ideal))) W)) main_arg1 (by decide)).trans ((keepA0c (StableHlo.after (List.take 12 (opsA0 (F := Ideal))) W) main_arg1 (by decide)).trans (keepA0p W main_arg1 (by decide))))))))

theorem rA_keep_arg2
    (W : Valuation τ sig (Elt Ideal)) :
    StableHlo.after opsA W (Proc.devRef .tc main_arg2) = W (Proc.devRef .tc main_arg2) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg2 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg2 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg2 (by decide)).trans ((keepA1 (StableHlo.after (List.drop 18 (opsA0 (F := Ideal))) (StableHlo.after (List.take 6 (List.drop 12 (opsA0 (F := Ideal)))) (StableHlo.after (List.take 12 (opsA0 (F := Ideal))) W))) main_arg2 (by decide)).trans ((keepA0r (StableHlo.after (List.take 6 (List.drop 12 (opsA0 (F := Ideal)))) (StableHlo.after (List.take 12 (opsA0 (F := Ideal))) W)) main_arg2 (by decide)).trans ((keepA0c (StableHlo.after (List.take 12 (opsA0 (F := Ideal))) W) main_arg2 (by decide)).trans (keepA0p W main_arg2 (by decide))))))))

theorem rA_keep_arg3
    (W : Valuation τ sig (Elt Ideal)) :
    StableHlo.after opsA W (Proc.devRef .tc main_arg3) = W (Proc.devRef .tc main_arg3) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg3 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg3 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg3 (by decide)).trans ((keepA1 (StableHlo.after (List.drop 18 (opsA0 (F := Ideal))) (StableHlo.after (List.take 6 (List.drop 12 (opsA0 (F := Ideal)))) (StableHlo.after (List.take 12 (opsA0 (F := Ideal))) W))) main_arg3 (by decide)).trans ((keepA0r (StableHlo.after (List.take 6 (List.drop 12 (opsA0 (F := Ideal)))) (StableHlo.after (List.take 12 (opsA0 (F := Ideal))) W)) main_arg3 (by decide)).trans ((keepA0c (StableHlo.after (List.take 12 (opsA0 (F := Ideal))) W) main_arg3 (by decide)).trans (keepA0p W main_arg3 (by decide))))))))

theorem rA_keep_arg4
    (W : Valuation τ sig (Elt Ideal)) :
    StableHlo.after opsA W (Proc.devRef .tc main_arg4) = W (Proc.devRef .tc main_arg4) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg4 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg4 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg4 (by decide)).trans ((keepA1 (StableHlo.after (List.drop 18 (opsA0 (F := Ideal))) (StableHlo.after (List.take 6 (List.drop 12 (opsA0 (F := Ideal)))) (StableHlo.after (List.take 12 (opsA0 (F := Ideal))) W))) main_arg4 (by decide)).trans ((keepA0r (StableHlo.after (List.take 6 (List.drop 12 (opsA0 (F := Ideal)))) (StableHlo.after (List.take 12 (opsA0 (F := Ideal))) W)) main_arg4 (by decide)).trans ((keepA0c (StableHlo.after (List.take 12 (opsA0 (F := Ideal))) W) main_arg4 (by decide)).trans (keepA0p W main_arg4 (by decide))))))))

theorem rA_keep_arg5
    (W : Valuation τ sig (Elt Ideal)) :
    StableHlo.after opsA W (Proc.devRef .tc main_arg5) = W (Proc.devRef .tc main_arg5) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg5 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg5 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg5 (by decide)).trans ((keepA1 (StableHlo.after (List.drop 18 (opsA0 (F := Ideal))) (StableHlo.after (List.take 6 (List.drop 12 (opsA0 (F := Ideal)))) (StableHlo.after (List.take 12 (opsA0 (F := Ideal))) W))) main_arg5 (by decide)).trans ((keepA0r (StableHlo.after (List.take 6 (List.drop 12 (opsA0 (F := Ideal)))) (StableHlo.after (List.take 12 (opsA0 (F := Ideal))) W)) main_arg5 (by decide)).trans ((keepA0c (StableHlo.after (List.take 12 (opsA0 (F := Ideal))) W) main_arg5 (by decide)).trans (keepA0p W main_arg5 (by decide))))))))

theorem rA_keep_arg6
    (W : Valuation τ sig (Elt Ideal)) :
    StableHlo.after opsA W (Proc.devRef .tc main_arg6) = W (Proc.devRef .tc main_arg6) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg6 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg6 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg6 (by decide)).trans ((keepA1 (StableHlo.after (List.drop 18 (opsA0 (F := Ideal))) (StableHlo.after (List.take 6 (List.drop 12 (opsA0 (F := Ideal)))) (StableHlo.after (List.take 12 (opsA0 (F := Ideal))) W))) main_arg6 (by decide)).trans ((keepA0r (StableHlo.after (List.take 6 (List.drop 12 (opsA0 (F := Ideal)))) (StableHlo.after (List.take 12 (opsA0 (F := Ideal))) W)) main_arg6 (by decide)).trans ((keepA0c (StableHlo.after (List.take 12 (opsA0 (F := Ideal))) W) main_arg6 (by decide)).trans (keepA0p W main_arg6 (by decide))))))))

theorem rA_keep_arg7
    (W : Valuation τ sig (Elt Ideal)) :
    StableHlo.after opsA W (Proc.devRef .tc main_arg7) = W (Proc.devRef .tc main_arg7) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg7 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg7 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg7 (by decide)).trans ((keepA1 (StableHlo.after (List.drop 18 (opsA0 (F := Ideal))) (StableHlo.after (List.take 6 (List.drop 12 (opsA0 (F := Ideal)))) (StableHlo.after (List.take 12 (opsA0 (F := Ideal))) W))) main_arg7 (by decide)).trans ((keepA0r (StableHlo.after (List.take 6 (List.drop 12 (opsA0 (F := Ideal)))) (StableHlo.after (List.take 12 (opsA0 (F := Ideal))) W)) main_arg7 (by decide)).trans ((keepA0c (StableHlo.after (List.take 12 (opsA0 (F := Ideal))) W) main_arg7 (by decide)).trans (keepA0p W main_arg7 (by decide))))))))

theorem rA_keep_arg8
    (W : Valuation τ sig (Elt Ideal)) :
    StableHlo.after opsA W (Proc.devRef .tc main_arg8) = W (Proc.devRef .tc main_arg8) := by
  rw [after_opsA]
  exact ((keepA4 (StableHlo.after opsA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W)))))) main_arg8 (by decide)).trans ((keepA3 (StableHlo.after opsA2 (StableHlo.after opsA1 (StableHlo.after (List.drop 18 (opsA0 (F := Ideal))) (StableHlo.after (List.take 6 (List.drop 12 (opsA0 (F := Ideal)))) (StableHlo.after (List.take 12 (opsA0 (F := Ideal))) W))))) main_arg8 (by decide)).trans ((keepA2 (StableHlo.after opsA1 (StableHlo.after (List.drop 18 (opsA0 (F := Ideal))) (StableHlo.after (List.take 6 (List.drop 12 (opsA0 (F := Ideal)))) (StableHlo.after (List.take 12 (opsA0 (F := Ideal))) W)))) main_arg8 (by decide)).trans ((keepA1 (StableHlo.after (List.drop 18 (opsA0 (F := Ideal))) (StableHlo.after (List.take 6 (List.drop 12 (opsA0 (F := Ideal)))) (StableHlo.after (List.take 12 (opsA0 (F := Ideal))) W))) main_arg8 (by decide)).trans ((keepA0r (StableHlo.after (List.take 6 (List.drop 12 (opsA0 (F := Ideal)))) (StableHlo.after (List.take 12 (opsA0 (F := Ideal))) W)) main_arg8 (by decide)).trans ((keepA0c (StableHlo.after (List.take 12 (opsA0 (F := Ideal))) W) main_arg8 (by decide)).trans (keepA0p W main_arg8 (by decide))))))))

end Cert.ReferenceIdeal.RefRun

end
-- ==== Proof.RefPieceB.lean ====
/-
  The reference's operations of layer 1 — from the projection of layer 0's new features to layer 1's new features — run
  from any buffer contents whose live-in buffers hold the reference's stages: the pooled sum after layer 0 and layer 1's
  new features end at their stages, and the buffers the piece does not write keep their contents. The piece is run in
  its five consecutive windows; between windows the running sum of the degree buckets, the bucket in progress, the
  clamped degrees, the aggregated rows, layer 0's features and the weights are carried at their stages.
-/
import proofs.«161618_j71751723647734_1_alg».proof.Proof.RefOps
import proofs.«161618_j71751723647734_1_alg».proof.Proof.RefRead
import Idealize.ShloMosaic.Lib.StableHlo.Run

set_option maxRecDepth 16384
set_option maxHeartbeats 4000000

noncomputable section

namespace Cert.ReferenceIdeal.RefRun

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

/-- Running a concatenation is running its parts one after the other. -/
theorem after_appB (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The piece, window after window. -/
theorem after_opsB (V : Valuation τ sig (Elt Ideal)) :
    StableHlo.after opsB V
      = StableHlo.after opsB4 (StableHlo.after opsB3 (StableHlo.after opsB2 (StableHlo.after opsB1 (StableHlo.after opsB0 V)))) := by
  show StableHlo.after (opsB0 ++ (opsB1 ++ (opsB2 ++ (opsB3 ++ opsB4)))) V = _
  rw [after_appB, after_appB, after_appB, after_appB]

/-! ## Window 0 -/

/-- The buffers window 0 writes. -/
abbrev wrB0 : List (Ref sig .tc) := [main_v236, main_v237, main_v238, main_cst_20, main_v239, main_v240, main_v241, main_v242, main_c_21, main_v243, main_v244, main_c_22, main_v245, main_v246, main_v247, main_v248, main_v249, main_cst_23, main_v250, main_v251, main_v252, main_cst_24, main_v253, main_c_25, main_v254, main_v255, main_v256, main_v257, main_v258, main_v259, main_v260, main_v261, main_v262, main_v263, main_v264, main_v265, main_v266, main_v267, main_v268, main_v269, main_v270, main_v271]

theorem writesB0 : (opsB0 (F := Ideal)).Forall fun op => op.writes ⊆ ((wrB0).map (Proc.devRef (τ := τ) .tc)).toFinset := by
  simp only [opsB0, List.Forall, nullary_writes, unary_writes, binary_writes, ternary_writes, reshape_writes,
    Finset.singleton_subset_iff, List.mem_toFinset]
  repeat' apply And.intro
  all_goals exact List.mem_map_of_mem (by decide)

/-- A buffer window 0 does not write keeps its contents. -/
theorem keepB0 (V : Valuation τ sig (Elt Ideal)) (r : Ref sig .tc) (hr : r ∉ wrB0) :
    StableHlo.after opsB0 V (Proc.devRef .tc r) = V (Proc.devRef .tc r) :=
  after_of_writes_sub opsB0 V writesB0 hr

theorem wB0_v242 (V : Valuation τ sig (Elt Ideal)) (A0 : (⟨S100000x64, .f32⟩ : BufTy).Contents (Elt Ideal)) (A1 : (⟨S2x1000000, .i32⟩ : BufTy).Contents (Elt Ideal)) (A2 : (⟨S100000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal))
    (hv9 : V (Proc.devRef .tc main_v9) = val_main_v9 (F := Ideal))
    (ha2 : V (Proc.devRef .tc main_arg2) = A2)
    (hv235 : V (Proc.devRef .tc main_v235) = val_main_v235 (F := Ideal) A0 A1 A3 A4 A5)
    (ha6 : V (Proc.devRef .tc main_arg6) = A6) :
    StableHlo.after opsB0 V (Proc.devRef .tc main_v242) = val_main_v242 (F := Ideal) A0 A1 A2 A3 A4 A5 A6 := by
  after_results_simp
  rw [hv9, ha2, hv235, ha6]
  rfl

theorem wB0_v252 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv3 : V (Proc.devRef .tc main_v3) = val_main_v3 (F := Ideal) A1)
    (hv235 : V (Proc.devRef .tc main_v235) = val_main_v235 (F := Ideal) A0 A1 A3 A4 A5)
    (hv1 : V (Proc.devRef .tc main_v1) = val_main_v1 (F := Ideal) A1) :
    StableHlo.after opsB0 V (Proc.devRef .tc main_v252) = val_main_v252 (F := Ideal) A0 A1 A3 A4 A5 := by
  after_results_simp
  rw [hv3, hv235, hv1]
  rfl

theorem wB0_v253 (V : Valuation τ sig (Elt Ideal)) :
    StableHlo.after opsB0 V (Proc.devRef .tc main_v253) = val_main_v253 (F := Ideal) := by
  after_results_simp
  rfl

theorem wB0_v271 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv8 : V (Proc.devRef .tc main_v8) = val_main_v8 (F := Ideal) A1)
    (hv3 : V (Proc.devRef .tc main_v3) = val_main_v3 (F := Ideal) A1)
    (hv235 : V (Proc.devRef .tc main_v235) = val_main_v235 (F := Ideal) A0 A1 A3 A4 A5)
    (hv1 : V (Proc.devRef .tc main_v1) = val_main_v1 (F := Ideal) A1)
    (ha3 : V (Proc.devRef .tc main_arg3) = A3)
    (ha4 : V (Proc.devRef .tc main_arg4) = A4)
    (ha5 : V (Proc.devRef .tc main_arg5) = A5) :
    StableHlo.after opsB0 V (Proc.devRef .tc main_v271) = val_main_v271 (F := Ideal) A0 A1 A3 A4 A5 := by
  after_results_simp
  rw [hv8, hv3, hv235, hv1, ha3, ha4, ha5]
  rfl

/-! ## Window 1 -/

/-- The buffers window 1 writes. -/
abbrev wrB1 : List (Ref sig .tc) := [main_v272, main_c_26, main_v273, main_v274, main_v275, main_v276, main_v277, main_v278, main_v279, main_v280, main_v281, main_v282, main_v283, main_v284, main_v285, main_v286, main_v287, main_v288, main_v289, main_v290, main_v291, main_c_27, main_v292, main_v293, main_v294, main_v295, main_v296, main_v297, main_v298, main_v299, main_v300, main_v301, main_v302, main_v303, main_v304, main_v305, main_v306, main_v307, main_v308, main_v309, main_v310, main_c_28, main_v311, main_v312, main_v313, main_v314, main_v315, main_v316, main_v317, main_v318, main_v319, main_v320, main_v321, main_v322, main_v323, main_v324, main_v325, main_v326, main_v327, main_v328]

theorem writesB1 : (opsB1 (F := Ideal)).Forall fun op => op.writes ⊆ ((wrB1).map (Proc.devRef (τ := τ) .tc)).toFinset := by
  simp only [opsB1, List.Forall, nullary_writes, unary_writes, binary_writes, ternary_writes, reshape_writes,
    Finset.singleton_subset_iff, List.mem_toFinset]
  repeat' apply And.intro
  all_goals exact List.mem_map_of_mem (by decide)

/-- A buffer window 1 does not write keeps its contents. -/
theorem keepB1 (V : Valuation τ sig (Elt Ideal)) (r : Ref sig .tc) (hr : r ∉ wrB1) :
    StableHlo.after opsB1 V (Proc.devRef .tc r) = V (Proc.devRef .tc r) :=
  after_of_writes_sub opsB1 V writesB1 hr

theorem wB1_v310 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv253 : V (Proc.devRef .tc main_v253) = val_main_v253 (F := Ideal))
    (hv271 : V (Proc.devRef .tc main_v271) = val_main_v271 (F := Ideal) A0 A1 A3 A4 A5)
    (hv8 : V (Proc.devRef .tc main_v8) = val_main_v8 (F := Ideal) A1)
    (hv252 : V (Proc.devRef .tc main_v252) = val_main_v252 (F := Ideal) A0 A1 A3 A4 A5)
    (ha3 : V (Proc.devRef .tc main_arg3) = A3)
    (ha4 : V (Proc.devRef .tc main_arg4) = A4)
    (hv235 : V (Proc.devRef .tc main_v235) = val_main_v235 (F := Ideal) A0 A1 A3 A4 A5)
    (ha5 : V (Proc.devRef .tc main_arg5) = A5) :
    StableHlo.after opsB1 V (Proc.devRef .tc main_v310) = val_main_v310 (F := Ideal) A0 A1 A3 A4 A5 := by
  after_results_simp
  rw [hv253, hv271, hv8, hv252, ha3, ha4, hv235, ha5]
  rfl

theorem wB1_v328 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv8 : V (Proc.devRef .tc main_v8) = val_main_v8 (F := Ideal) A1)
    (hv252 : V (Proc.devRef .tc main_v252) = val_main_v252 (F := Ideal) A0 A1 A3 A4 A5)
    (ha3 : V (Proc.devRef .tc main_arg3) = A3)
    (ha4 : V (Proc.devRef .tc main_arg4) = A4)
    (hv235 : V (Proc.devRef .tc main_v235) = val_main_v235 (F := Ideal) A0 A1 A3 A4 A5)
    (ha5 : V (Proc.devRef .tc main_arg5) = A5) :
    StableHlo.after opsB1 V (Proc.devRef .tc main_v328) = val_main_v328 (F := Ideal) A0 A1 A3 A4 A5 := by
  after_results_simp
  rw [hv8, hv252, ha3, ha4, hv235, ha5]
  rfl

/-! ## Window 2 -/

/-- The buffers window 2 writes. -/
abbrev wrB2 : List (Ref sig .tc) := [main_v329, main_c_29, main_v330, main_v331, main_v332, main_v333, main_v334, main_v335, main_v336, main_v337, main_v338, main_v339, main_v340, main_v341, main_v342, main_v343, main_v344, main_v345, main_v346, main_v347, main_v348, main_c_30, main_v349, main_v350, main_v351, main_v352, main_v353, main_v354, main_v355, main_v356, main_v357, main_v358, main_v359, main_v360, main_v361, main_v362, main_v363, main_v364, main_v365, main_v366, main_v367, main_c_31, main_v368, main_v369, main_v370, main_v371, main_v372, main_v373, main_v374, main_v375, main_v376, main_v377, main_v378, main_v379, main_v380, main_v381, main_v382, main_v383, main_v384, main_v385]

theorem writesB2 : (opsB2 (F := Ideal)).Forall fun op => op.writes ⊆ ((wrB2).map (Proc.devRef (τ := τ) .tc)).toFinset := by
  simp only [opsB2, List.Forall, nullary_writes, unary_writes, binary_writes, ternary_writes, reshape_writes,
    Finset.singleton_subset_iff, List.mem_toFinset]
  repeat' apply And.intro
  all_goals exact List.mem_map_of_mem (by decide)

/-- A buffer window 2 does not write keeps its contents. -/
theorem keepB2 (V : Valuation τ sig (Elt Ideal)) (r : Ref sig .tc) (hr : r ∉ wrB2) :
    StableHlo.after opsB2 V (Proc.devRef .tc r) = V (Proc.devRef .tc r) :=
  after_of_writes_sub opsB2 V writesB2 hr

theorem wB2_v367 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv310 : V (Proc.devRef .tc main_v310) = val_main_v310 (F := Ideal) A0 A1 A3 A4 A5)
    (hv328 : V (Proc.devRef .tc main_v328) = val_main_v328 (F := Ideal) A0 A1 A3 A4 A5)
    (hv8 : V (Proc.devRef .tc main_v8) = val_main_v8 (F := Ideal) A1)
    (hv252 : V (Proc.devRef .tc main_v252) = val_main_v252 (F := Ideal) A0 A1 A3 A4 A5)
    (ha3 : V (Proc.devRef .tc main_arg3) = A3)
    (ha4 : V (Proc.devRef .tc main_arg4) = A4)
    (hv235 : V (Proc.devRef .tc main_v235) = val_main_v235 (F := Ideal) A0 A1 A3 A4 A5)
    (ha5 : V (Proc.devRef .tc main_arg5) = A5) :
    StableHlo.after opsB2 V (Proc.devRef .tc main_v367) = val_main_v367 (F := Ideal) A0 A1 A3 A4 A5 := by
  after_results_simp
  rw [hv310, hv328, hv8, hv252, ha3, ha4, hv235, ha5]
  rfl

theorem wB2_v385 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv8 : V (Proc.devRef .tc main_v8) = val_main_v8 (F := Ideal) A1)
    (hv252 : V (Proc.devRef .tc main_v252) = val_main_v252 (F := Ideal) A0 A1 A3 A4 A5)
    (ha3 : V (Proc.devRef .tc main_arg3) = A3)
    (ha4 : V (Proc.devRef .tc main_arg4) = A4)
    (hv235 : V (Proc.devRef .tc main_v235) = val_main_v235 (F := Ideal) A0 A1 A3 A4 A5)
    (ha5 : V (Proc.devRef .tc main_arg5) = A5) :
    StableHlo.after opsB2 V (Proc.devRef .tc main_v385) = val_main_v385 (F := Ideal) A0 A1 A3 A4 A5 := by
  after_results_simp
  rw [hv8, hv252, ha3, ha4, hv235, ha5]
  rfl

/-! ## Window 3 -/

/-- The buffers window 3 writes. -/
abbrev wrB3 : List (Ref sig .tc) := [main_v386, main_c_32, main_v387, main_v388, main_v389, main_v390, main_v391, main_v392, main_v393, main_v394, main_v395, main_v396, main_v397, main_v398, main_v399, main_v400, main_v401, main_v402, main_v403, main_v404, main_v405, main_c_33, main_v406, main_v407, main_v408, main_v409, main_v410, main_v411, main_v412, main_v413, main_v414, main_v415, main_v416, main_v417, main_v418, main_v419, main_v420, main_v421, main_v422, main_v423, main_v424, main_c_34, main_v425, main_v426, main_v427, main_v428, main_v429, main_v430, main_v431, main_v432, main_v433, main_v434, main_v435, main_v436, main_v437, main_v438, main_v439, main_v440, main_v441, main_v442]

theorem writesB3 : (opsB3 (F := Ideal)).Forall fun op => op.writes ⊆ ((wrB3).map (Proc.devRef (τ := τ) .tc)).toFinset := by
  simp only [opsB3, List.Forall, nullary_writes, unary_writes, binary_writes, ternary_writes, reshape_writes,
    Finset.singleton_subset_iff, List.mem_toFinset]
  repeat' apply And.intro
  all_goals exact List.mem_map_of_mem (by decide)

/-- A buffer window 3 does not write keeps its contents. -/
theorem keepB3 (V : Valuation τ sig (Elt Ideal)) (r : Ref sig .tc) (hr : r ∉ wrB3) :
    StableHlo.after opsB3 V (Proc.devRef .tc r) = V (Proc.devRef .tc r) :=
  after_of_writes_sub opsB3 V writesB3 hr

theorem wB3_v424 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv367 : V (Proc.devRef .tc main_v367) = val_main_v367 (F := Ideal) A0 A1 A3 A4 A5)
    (hv385 : V (Proc.devRef .tc main_v385) = val_main_v385 (F := Ideal) A0 A1 A3 A4 A5)
    (hv8 : V (Proc.devRef .tc main_v8) = val_main_v8 (F := Ideal) A1)
    (hv252 : V (Proc.devRef .tc main_v252) = val_main_v252 (F := Ideal) A0 A1 A3 A4 A5)
    (ha3 : V (Proc.devRef .tc main_arg3) = A3)
    (ha4 : V (Proc.devRef .tc main_arg4) = A4)
    (hv235 : V (Proc.devRef .tc main_v235) = val_main_v235 (F := Ideal) A0 A1 A3 A4 A5)
    (ha5 : V (Proc.devRef .tc main_arg5) = A5) :
    StableHlo.after opsB3 V (Proc.devRef .tc main_v424) = val_main_v424 (F := Ideal) A0 A1 A3 A4 A5 := by
  after_results_simp
  rw [hv367, hv385, hv8, hv252, ha3, ha4, hv235, ha5]
  rfl

theorem wB3_v442 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv8 : V (Proc.devRef .tc main_v8) = val_main_v8 (F := Ideal) A1)
    (hv252 : V (Proc.devRef .tc main_v252) = val_main_v252 (F := Ideal) A0 A1 A3 A4 A5)
    (ha3 : V (Proc.devRef .tc main_arg3) = A3)
    (ha4 : V (Proc.devRef .tc main_arg4) = A4)
    (hv235 : V (Proc.devRef .tc main_v235) = val_main_v235 (F := Ideal) A0 A1 A3 A4 A5)
    (ha5 : V (Proc.devRef .tc main_arg5) = A5) :
    StableHlo.after opsB3 V (Proc.devRef .tc main_v442) = val_main_v442 (F := Ideal) A0 A1 A3 A4 A5 := by
  after_results_simp
  rw [hv8, hv252, ha3, ha4, hv235, ha5]
  rfl

/-! ## Window 4 -/

/-- The buffers window 4 writes. -/
abbrev wrB4 : List (Ref sig .tc) := [main_v443, main_c_35, main_v444, main_v445, main_v446, main_v447, main_v448, main_v449, main_v450, main_v451, main_v452, main_v453, main_v454, main_v455, main_v456, main_v457, main_v458, main_v459, main_v460, main_v461, main_v462, main_v463, main_v464, main_cst_36, main_v465, main_v466, main_cst_37, main_v467, main_v468]

theorem writesB4 : (opsB4 (F := Ideal)).Forall fun op => op.writes ⊆ ((wrB4).map (Proc.devRef (τ := τ) .tc)).toFinset := by
  simp only [opsB4, List.Forall, nullary_writes, unary_writes, binary_writes, ternary_writes, reshape_writes,
    Finset.singleton_subset_iff, List.mem_toFinset]
  repeat' apply And.intro
  all_goals exact List.mem_map_of_mem (by decide)

/-- A buffer window 4 does not write keeps its contents. -/
theorem keepB4 (V : Valuation τ sig (Elt Ideal)) (r : Ref sig .tc) (hr : r ∉ wrB4) :
    StableHlo.after opsB4 V (Proc.devRef .tc r) = V (Proc.devRef .tc r) :=
  after_of_writes_sub opsB4 V writesB4 hr

theorem wB4_v468 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (hv424 : V (Proc.devRef .tc main_v424) = val_main_v424 (F := Ideal) A0 A1 A3 A4 A5)
    (hv442 : V (Proc.devRef .tc main_v442) = val_main_v442 (F := Ideal) A0 A1 A3 A4 A5)
    (hv8 : V (Proc.devRef .tc main_v8) = val_main_v8 (F := Ideal) A1)
    (hv252 : V (Proc.devRef .tc main_v252) = val_main_v252 (F := Ideal) A0 A1 A3 A4 A5)
    (ha3 : V (Proc.devRef .tc main_arg3) = A3)
    (ha4 : V (Proc.devRef .tc main_arg4) = A4)
    (hv235 : V (Proc.devRef .tc main_v235) = val_main_v235 (F := Ideal) A0 A1 A3 A4 A5)
    (ha5 : V (Proc.devRef .tc main_arg5) = A5) :
    StableHlo.after opsB4 V (Proc.devRef .tc main_v468) = val_main_v468 (F := Ideal) A0 A1 A3 A4 A5 := by
  after_results_simp
  rw [hv424, hv442, hv8, hv252, ha3, ha4, hv235, ha5]
  rfl

/-! ## The piece -/

/-- The pooled sum after layer 0. -/
theorem rB_v242
    (W : Valuation τ sig (Elt Ideal))
    (A0 : (⟨S100000x64, .f32⟩ : BufTy).Contents (Elt Ideal))
    (A1 : (⟨S2x1000000, .i32⟩ : BufTy).Contents (Elt Ideal))
    (A2 : (⟨S100000, .i32⟩ : BufTy).Contents (Elt Ideal))
    (A3 : (⟨S3x11x64x64, .f32⟩ : BufTy).Contents (Elt Ideal))
    (A4 : (⟨S3x11x64, .f32⟩ : BufTy).Contents (Elt Ideal))
    (A5 : (⟨S3x11x64x64, .f32⟩ : BufTy).Contents (Elt Ideal))
    (A6 : (⟨S3x64x64, .f32⟩ : BufTy).Contents (Elt Ideal))
    (hz : W (Proc.devRef .tc main_v9) = val_main_v9 (F := Ideal))
    (hx : W (Proc.devRef .tc main_v235) = val_main_v235 (F := Ideal) A0 A1 A3 A4 A5)
    (h2 : W (Proc.devRef .tc main_arg2) = A2)
    (h6 : W (Proc.devRef .tc main_arg6) = A6) :
    StableHlo.after opsB W (Proc.devRef .tc main_v242) = val_main_v242 (F := Ideal) A0 A1 A2 A3 A4 A5 A6 := by
  rw [after_opsB]
  have f1_v242 := wB0_v242 W A0 A1 A2 A3 A4 A5 A6 hz h2 hx h6
  have f2_v242 := (keepB1 (StableHlo.after opsB0 W) main_v242 (by decide)).trans f1_v242
  have f3_v242 := (keepB2 (StableHlo.after opsB1 (StableHlo.after opsB0 W)) main_v242 (by decide)).trans f2_v242
  have f4_v242 := (keepB3 (StableHlo.after opsB2 (StableHlo.after opsB1 (StableHlo.after opsB0 W))) main_v242 (by decide)).trans f3_v242
  have f5_v242 := (keepB4 (StableHlo.after opsB3 (StableHlo.after opsB2 (StableHlo.after opsB1 (StableHlo.after opsB0 W)))) main_v242 (by decide)).trans f4_v242
  exact f5_v242

/-- Layer 1's new features. -/
theorem rB_v468
    (W : Valuation τ sig (Elt Ideal))
    (A0 : (⟨S100000x64, .f32⟩ : BufTy).Contents (Elt Ideal))
    (A1 : (⟨S2x1000000, .i32⟩ : BufTy).Contents (Elt Ideal))
    (A3 : (⟨S3x11x64x64, .f32⟩ : BufTy).Contents (Elt Ideal))
    (A4 : (⟨S3x11x64, .f32⟩ : BufTy).Contents (Elt Ideal))
    (A5 : (⟨S3x11x64x64, .f32⟩ : BufTy).Contents (Elt Ideal))
    (hs : W (Proc.devRef .tc main_v1) = val_main_v1 (F := Ideal) A1)
    (hd : W (Proc.devRef .tc main_v3) = val_main_v3 (F := Ideal) A1)
    (hg : W (Proc.devRef .tc main_v8) = val_main_v8 (F := Ideal) A1)
    (hx : W (Proc.devRef .tc main_v235) = val_main_v235 (F := Ideal) A0 A1 A3 A4 A5)
    (h3 : W (Proc.devRef .tc main_arg3) = A3)
    (h4 : W (Proc.devRef .tc main_arg4) = A4)
    (h5 : W (Proc.devRef .tc main_arg5) = A5) :
    StableHlo.after opsB W (Proc.devRef .tc main_v468) = val_main_v468 (F := Ideal) A0 A1 A3 A4 A5 := by
  rw [after_opsB]
  have f1_v253 := wB0_v253 W
  have f1_v271 := wB0_v271 W A0 A1 A3 A4 A5 hg hd hx hs h3 h4 h5
  have f1_v8 := (keepB0 W main_v8 (by decide)).trans hg
  have f1_v252 := wB0_v252 W A0 A1 A3 A4 A5 hd hx hs
  have f1_arg3 := (keepB0 W main_arg3 (by decide)).trans h3
  have f1_arg4 := (keepB0 W main_arg4 (by decide)).trans h4
  have f1_v235 := (keepB0 W main_v235 (by decide)).trans hx
  have f1_arg5 := (keepB0 W main_arg5 (by decide)).trans h5
  have f2_v310 := wB1_v310 (StableHlo.after opsB0 W) A0 A1 A3 A4 A5 f1_v253 f1_v271 f1_v8 f1_v252 f1_arg3 f1_arg4 f1_v235 f1_arg5
  have f2_v328 := wB1_v328 (StableHlo.after opsB0 W) A0 A1 A3 A4 A5 f1_v8 f1_v252 f1_arg3 f1_arg4 f1_v235 f1_arg5
  have f2_v8 := (keepB1 (StableHlo.after opsB0 W) main_v8 (by decide)).trans f1_v8
  have f2_v252 := (keepB1 (StableHlo.after opsB0 W) main_v252 (by decide)).trans f1_v252
  have f2_arg3 := (keepB1 (StableHlo.after opsB0 W) main_arg3 (by decide)).trans f1_arg3
  have f2_arg4 := (keepB1 (StableHlo.after opsB0 W) main_arg4 (by decide)).trans f1_arg4
  have f2_v235 := (keepB1 (StableHlo.after opsB0 W) main_v235 (by decide)).trans f1_v235
  have f2_arg5 := (keepB1 (StableHlo.after opsB0 W) main_arg5 (by decide)).trans f1_arg5
  have f3_v367 := wB2_v367 (StableHlo.after opsB1 (StableHlo.after opsB0 W)) A0 A1 A3 A4 A5 f2_v310 f2_v328 f2_v8 f2_v252 f2_arg3 f2_arg4 f2_v235 f2_arg5
  have f3_v385 := wB2_v385 (StableHlo.after opsB1 (StableHlo.after opsB0 W)) A0 A1 A3 A4 A5 f2_v8 f2_v252 f2_arg3 f2_arg4 f2_v235 f2_arg5
  have f3_v8 := (keepB2 (StableHlo.after opsB1 (StableHlo.after opsB0 W)) main_v8 (by decide)).trans f2_v8
  have f3_v252 := (keepB2 (StableHlo.after opsB1 (StableHlo.after opsB0 W)) main_v252 (by decide)).trans f2_v252
  have f3_arg3 := (keepB2 (StableHlo.after opsB1 (StableHlo.after opsB0 W)) main_arg3 (by decide)).trans f2_arg3
  have f3_arg4 := (keepB2 (StableHlo.after opsB1 (StableHlo.after opsB0 W)) main_arg4 (by decide)).trans f2_arg4
  have f3_v235 := (keepB2 (StableHlo.after opsB1 (StableHlo.after opsB0 W)) main_v235 (by decide)).trans f2_v235
  have f3_arg5 := (keepB2 (StableHlo.after opsB1 (StableHlo.after opsB0 W)) main_arg5 (by decide)).trans f2_arg5
  have f4_v424 := wB3_v424 (StableHlo.after opsB2 (StableHlo.after opsB1 (StableHlo.after opsB0 W))) A0 A1 A3 A4 A5 f3_v367 f3_v385 f3_v8 f3_v252 f3_arg3 f3_arg4 f3_v235 f3_arg5
  have f4_v442 := wB3_v442 (StableHlo.after opsB2 (StableHlo.after opsB1 (StableHlo.after opsB0 W))) A0 A1 A3 A4 A5 f3_v8 f3_v252 f3_arg3 f3_arg4 f3_v235 f3_arg5
  have f4_v8 := (keepB3 (StableHlo.after opsB2 (StableHlo.after opsB1 (StableHlo.after opsB0 W))) main_v8 (by decide)).trans f3_v8
  have f4_v252 := (keepB3 (StableHlo.after opsB2 (StableHlo.after opsB1 (StableHlo.after opsB0 W))) main_v252 (by decide)).trans f3_v252
  have f4_arg3 := (keepB3 (StableHlo.after opsB2 (StableHlo.after opsB1 (StableHlo.after opsB0 W))) main_arg3 (by decide)).trans f3_arg3
  have f4_arg4 := (keepB3 (StableHlo.after opsB2 (StableHlo.after opsB1 (StableHlo.after opsB0 W))) main_arg4 (by decide)).trans f3_arg4
  have f4_v235 := (keepB3 (StableHlo.after opsB2 (StableHlo.after opsB1 (StableHlo.after opsB0 W))) main_v235 (by decide)).trans f3_v235
  have f4_arg5 := (keepB3 (StableHlo.after opsB2 (StableHlo.after opsB1 (StableHlo.after opsB0 W))) main_arg5 (by decide)).trans f3_arg5
  have f5_v468 := wB4_v468 (StableHlo.after opsB3 (StableHlo.after opsB2 (StableHlo.after opsB1 (StableHlo.after opsB0 W)))) A0 A1 A3 A4 A5 f4_v424 f4_v442 f4_v8 f4_v252 f4_arg3 f4_arg4 f4_v235 f4_arg5
  exact f5_v468

theorem rB_keep_v1
    (W : Valuation τ sig (Elt Ideal)) :
    StableHlo.after opsB W (Proc.devRef .tc main_v1) = W (Proc.devRef .tc main_v1) := by
  rw [after_opsB]
  exact ((keepB4 (StableHlo.after opsB3 (StableHlo.after opsB2 (StableHlo.after opsB1 (StableHlo.after opsB0 W)))) main_v1 (by decide)).trans ((keepB3 (StableHlo.after opsB2 (StableHlo.after opsB1 (StableHlo.after opsB0 W))) main_v1 (by decide)).trans ((keepB2 (StableHlo.after opsB1 (StableHlo.after opsB0 W)) main_v1 (by decide)).trans ((keepB1 (StableHlo.after opsB0 W) main_v1 (by decide)).trans (keepB0 W main_v1 (by decide))))))

theorem rB_keep_v3
    (W : Valuation τ sig (Elt Ideal)) :
    StableHlo.after opsB W (Proc.devRef .tc main_v3) = W (Proc.devRef .tc main_v3) := by
  rw [after_opsB]
  exact ((keepB4 (StableHlo.after opsB3 (StableHlo.after opsB2 (StableHlo.after opsB1 (StableHlo.after opsB0 W)))) main_v3 (by decide)).trans ((keepB3 (StableHlo.after opsB2 (StableHlo.after opsB1 (StableHlo.after opsB0 W))) main_v3 (by decide)).trans ((keepB2 (StableHlo.after opsB1 (StableHlo.after opsB0 W)) main_v3 (by decide)).trans ((keepB1 (StableHlo.after opsB0 W) main_v3 (by decide)).trans (keepB0 W main_v3 (by decide))))))

theorem rB_keep_v8
    (W : Valuation τ sig (Elt Ideal)) :
    StableHlo.after opsB W (Proc.devRef .tc main_v8) = W (Proc.devRef .tc main_v8) := by
  rw [after_opsB]
  exact ((keepB4 (StableHlo.after opsB3 (StableHlo.after opsB2 (StableHlo.after opsB1 (StableHlo.after opsB0 W)))) main_v8 (by decide)).trans ((keepB3 (StableHlo.after opsB2 (StableHlo.after opsB1 (StableHlo.after opsB0 W))) main_v8 (by decide)).trans ((keepB2 (StableHlo.after opsB1 (StableHlo.after opsB0 W)) main_v8 (by decide)).trans ((keepB1 (StableHlo.after opsB0 W) main_v8 (by decide)).trans (keepB0 W main_v8 (by decide))))))

theorem rB_keep_arg0
    (W : Valuation τ sig (Elt Ideal)) :
    StableHlo.after opsB W (Proc.devRef .tc main_arg0) = W (Proc.devRef .tc main_arg0) := by
  rw [after_opsB]
  exact ((keepB4 (StableHlo.after opsB3 (StableHlo.after opsB2 (StableHlo.after opsB1 (StableHlo.after opsB0 W)))) main_arg0 (by decide)).trans ((keepB3 (StableHlo.after opsB2 (StableHlo.after opsB1 (StableHlo.after opsB0 W))) main_arg0 (by decide)).trans ((keepB2 (StableHlo.after opsB1 (StableHlo.after opsB0 W)) main_arg0 (by decide)).trans ((keepB1 (StableHlo.after opsB0 W) main_arg0 (by decide)).trans (keepB0 W main_arg0 (by decide))))))

theorem rB_keep_arg1
    (W : Valuation τ sig (Elt Ideal)) :
    StableHlo.after opsB W (Proc.devRef .tc main_arg1) = W (Proc.devRef .tc main_arg1) := by
  rw [after_opsB]
  exact ((keepB4 (StableHlo.after opsB3 (StableHlo.after opsB2 (StableHlo.after opsB1 (StableHlo.after opsB0 W)))) main_arg1 (by decide)).trans ((keepB3 (StableHlo.after opsB2 (StableHlo.after opsB1 (StableHlo.after opsB0 W))) main_arg1 (by decide)).trans ((keepB2 (StableHlo.after opsB1 (StableHlo.after opsB0 W)) main_arg1 (by decide)).trans ((keepB1 (StableHlo.after opsB0 W) main_arg1 (by decide)).trans (keepB0 W main_arg1 (by decide))))))

theorem rB_keep_arg2
    (W : Valuation τ sig (Elt Ideal)) :
    StableHlo.after opsB W (Proc.devRef .tc main_arg2) = W (Proc.devRef .tc main_arg2) := by
  rw [after_opsB]
  exact ((keepB4 (StableHlo.after opsB3 (StableHlo.after opsB2 (StableHlo.after opsB1 (StableHlo.after opsB0 W)))) main_arg2 (by decide)).trans ((keepB3 (StableHlo.after opsB2 (StableHlo.after opsB1 (StableHlo.after opsB0 W))) main_arg2 (by decide)).trans ((keepB2 (StableHlo.after opsB1 (StableHlo.after opsB0 W)) main_arg2 (by decide)).trans ((keepB1 (StableHlo.after opsB0 W) main_arg2 (by decide)).trans (keepB0 W main_arg2 (by decide))))))

theorem rB_keep_arg3
    (W : Valuation τ sig (Elt Ideal)) :
    StableHlo.after opsB W (Proc.devRef .tc main_arg3) = W (Proc.devRef .tc main_arg3) := by
  rw [after_opsB]
  exact ((keepB4 (StableHlo.after opsB3 (StableHlo.after opsB2 (StableHlo.after opsB1 (StableHlo.after opsB0 W)))) main_arg3 (by decide)).trans ((keepB3 (StableHlo.after opsB2 (StableHlo.after opsB1 (StableHlo.after opsB0 W))) main_arg3 (by decide)).trans ((keepB2 (StableHlo.after opsB1 (StableHlo.after opsB0 W)) main_arg3 (by decide)).trans ((keepB1 (StableHlo.after opsB0 W) main_arg3 (by decide)).trans (keepB0 W main_arg3 (by decide))))))

theorem rB_keep_arg4
    (W : Valuation τ sig (Elt Ideal)) :
    StableHlo.after opsB W (Proc.devRef .tc main_arg4) = W (Proc.devRef .tc main_arg4) := by
  rw [after_opsB]
  exact ((keepB4 (StableHlo.after opsB3 (StableHlo.after opsB2 (StableHlo.after opsB1 (StableHlo.after opsB0 W)))) main_arg4 (by decide)).trans ((keepB3 (StableHlo.after opsB2 (StableHlo.after opsB1 (StableHlo.after opsB0 W))) main_arg4 (by decide)).trans ((keepB2 (StableHlo.after opsB1 (StableHlo.after opsB0 W)) main_arg4 (by decide)).trans ((keepB1 (StableHlo.after opsB0 W) main_arg4 (by decide)).trans (keepB0 W main_arg4 (by decide))))))

theorem rB_keep_arg5
    (W : Valuation τ sig (Elt Ideal)) :
    StableHlo.after opsB W (Proc.devRef .tc main_arg5) = W (Proc.devRef .tc main_arg5) := by
  rw [after_opsB]
  exact ((keepB4 (StableHlo.after opsB3 (StableHlo.after opsB2 (StableHlo.after opsB1 (StableHlo.after opsB0 W)))) main_arg5 (by decide)).trans ((keepB3 (StableHlo.after opsB2 (StableHlo.after opsB1 (StableHlo.after opsB0 W))) main_arg5 (by decide)).trans ((keepB2 (StableHlo.after opsB1 (StableHlo.after opsB0 W)) main_arg5 (by decide)).trans ((keepB1 (StableHlo.after opsB0 W) main_arg5 (by decide)).trans (keepB0 W main_arg5 (by decide))))))

theorem rB_keep_arg6
    (W : Valuation τ sig (Elt Ideal)) :
    StableHlo.after opsB W (Proc.devRef .tc main_arg6) = W (Proc.devRef .tc main_arg6) := by
  rw [after_opsB]
  exact ((keepB4 (StableHlo.after opsB3 (StableHlo.after opsB2 (StableHlo.after opsB1 (StableHlo.after opsB0 W)))) main_arg6 (by decide)).trans ((keepB3 (StableHlo.after opsB2 (StableHlo.after opsB1 (StableHlo.after opsB0 W))) main_arg6 (by decide)).trans ((keepB2 (StableHlo.after opsB1 (StableHlo.after opsB0 W)) main_arg6 (by decide)).trans ((keepB1 (StableHlo.after opsB0 W) main_arg6 (by decide)).trans (keepB0 W main_arg6 (by decide))))))

theorem rB_keep_arg7
    (W : Valuation τ sig (Elt Ideal)) :
    StableHlo.after opsB W (Proc.devRef .tc main_arg7) = W (Proc.devRef .tc main_arg7) := by
  rw [after_opsB]
  exact ((keepB4 (StableHlo.after opsB3 (StableHlo.after opsB2 (StableHlo.after opsB1 (StableHlo.after opsB0 W)))) main_arg7 (by decide)).trans ((keepB3 (StableHlo.after opsB2 (StableHlo.after opsB1 (StableHlo.after opsB0 W))) main_arg7 (by decide)).trans ((keepB2 (StableHlo.after opsB1 (StableHlo.after opsB0 W)) main_arg7 (by decide)).trans ((keepB1 (StableHlo.after opsB0 W) main_arg7 (by decide)).trans (keepB0 W main_arg7 (by decide))))))

theorem rB_keep_arg8
    (W : Valuation τ sig (Elt Ideal)) :
    StableHlo.after opsB W (Proc.devRef .tc main_arg8) = W (Proc.devRef .tc main_arg8) := by
  rw [after_opsB]
  exact ((keepB4 (StableHlo.after opsB3 (StableHlo.after opsB2 (StableHlo.after opsB1 (StableHlo.after opsB0 W)))) main_arg8 (by decide)).trans ((keepB3 (StableHlo.after opsB2 (StableHlo.after opsB1 (StableHlo.after opsB0 W))) main_arg8 (by decide)).trans ((keepB2 (StableHlo.after opsB1 (StableHlo.after opsB0 W)) main_arg8 (by decide)).trans ((keepB1 (StableHlo.after opsB0 W) main_arg8 (by decide)).trans (keepB0 W main_arg8 (by decide))))))

end Cert.ReferenceIdeal.RefRun

end
-- ==== Proof.RefPieceC.lean ====
/-
  The reference's third piece (layer 2: the pooled sum after layer 1, layer 2's aggregated rows and its eleven buckets
  through its new features), run from an arbitrary valuation whose live-in buffers hold the reference's stages. The piece
  is five windows run one after the other; each window leaves its live-out buffers at their own stages of the arguments
  whenever its live-in buffers hold theirs, and keeps the buffers it does not write. Chaining the windows gives the
  piece's two results and that the arguments' buffers keep their contents.
-/
import proofs.«161618_j71751723647734_1_alg».proof.Proof.RefOps
import proofs.«161618_j71751723647734_1_alg».proof.Proof.RefRead
import Idealize.ShloMosaic.Lib.StableHlo.Run
import Idealize.ShloMosaic.Lib.Pipeline.Frame

set_option maxRecDepth 16384
set_option maxHeartbeats 4000000

noncomputable section

namespace Cert.ReferenceIdeal.RefRun

open Cert.ReferenceIdeal Cert.ReferenceIdeal.Gen Cert.ReferenceIdeal.RunP Cert.ReferenceIdeal.ReadP Idealize.ShloMosaic Idealize.ShloMosaic.TcCoe Idealize.ShloMosaic.StableHlo Idealize.SL.Sem

/-- Window 0 of the piece leaves this buffer at its stage, from live-in buffers at theirs. -/
theorem c0_v475 (V : Valuation τ sig (Elt Ideal)) (A0 : (⟨S100000x64, .f32⟩ : BufTy).Contents (Elt Ideal)) (A1 : (⟨S2x1000000, .i32⟩ : BufTy).Contents (Elt Ideal)) (A2 : (⟨S100000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal))
    (h_v242 : V (Proc.devRef .tc main_v242) = val_main_v242 (F := Ideal) A0 A1 A2 A3 A4 A5 A6)
    (h_v468 : V (Proc.devRef .tc main_v468) = val_main_v468 (F := Ideal) A0 A1 A3 A4 A5)
    (h_arg2 : V (Proc.devRef .tc main_arg2) = A2)
    (h_arg6 : V (Proc.devRef .tc main_arg6) = A6) :
    StableHlo.after opsC0 V (Proc.devRef .tc main_v475) = val_main_v475 (F := Ideal) A0 A1 A2 A3 A4 A5 A6 := by
  after_results_simp
  rw [h_v242, h_v468, h_arg2, h_arg6]
  rfl

/-- Window 0 of the piece leaves this buffer at its stage, from live-in buffers at theirs. -/
theorem c0_v485 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v1 : V (Proc.devRef .tc main_v1) = val_main_v1 (F := Ideal) A1)
    (h_v3 : V (Proc.devRef .tc main_v3) = val_main_v3 (F := Ideal) A1)
    (h_v468 : V (Proc.devRef .tc main_v468) = val_main_v468 (F := Ideal) A0 A1 A3 A4 A5) :
    StableHlo.after opsC0 V (Proc.devRef .tc main_v485) = val_main_v485 (F := Ideal) A0 A1 A3 A4 A5 := by
  after_results_simp
  rw [h_v1, h_v3, h_v468]
  rfl

/-- Window 0 of the piece leaves this buffer at its stage, from live-in buffers at theirs. -/
theorem c0_v486 (V : Valuation τ sig (Elt Ideal))  :
    StableHlo.after opsC0 V (Proc.devRef .tc main_v486) = val_main_v486 (F := Ideal) := by
  after_results_simp
  rfl

/-- Window 0 of the piece leaves this buffer at its stage, from live-in buffers at theirs. -/
theorem c0_v490 (V : Valuation τ sig (Elt Ideal)) (A1 : (⟨S2x1000000, .i32⟩ : BufTy).Contents (Elt Ideal))
    (h_v8 : V (Proc.devRef .tc main_v8) = val_main_v8 (F := Ideal) A1) :
    StableHlo.after opsC0 V (Proc.devRef .tc main_v490) = val_main_v490 (F := Ideal) A1 := by
  after_results_simp
  rw [h_v8]
  rfl

/-- Window 0 of the piece leaves this buffer at its stage, from live-in buffers at theirs. -/
theorem c0_v493 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v1 : V (Proc.devRef .tc main_v1) = val_main_v1 (F := Ideal) A1)
    (h_v3 : V (Proc.devRef .tc main_v3) = val_main_v3 (F := Ideal) A1)
    (h_v468 : V (Proc.devRef .tc main_v468) = val_main_v468 (F := Ideal) A0 A1 A3 A4 A5)
    (h_arg3 : V (Proc.devRef .tc main_arg3) = A3) :
    StableHlo.after opsC0 V (Proc.devRef .tc main_v493) = val_main_v493 (F := Ideal) A0 A1 A3 A4 A5 := by
  after_results_simp
  rw [h_v1, h_v3, h_v468, h_arg3]
  rfl

/-- Window 1 of the piece leaves this buffer at its stage, from live-in buffers at theirs. -/
theorem c1_v543 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v8 : V (Proc.devRef .tc main_v8) = val_main_v8 (F := Ideal) A1)
    (h_v468 : V (Proc.devRef .tc main_v468) = val_main_v468 (F := Ideal) A0 A1 A3 A4 A5)
    (h_v485 : V (Proc.devRef .tc main_v485) = val_main_v485 (F := Ideal) A0 A1 A3 A4 A5)
    (h_v486 : V (Proc.devRef .tc main_v486) = val_main_v486 (F := Ideal))
    (h_v490 : V (Proc.devRef .tc main_v490) = val_main_v490 (F := Ideal) A1)
    (h_v493 : V (Proc.devRef .tc main_v493) = val_main_v493 (F := Ideal) A0 A1 A3 A4 A5)
    (h_arg3 : V (Proc.devRef .tc main_arg3) = A3)
    (h_arg4 : V (Proc.devRef .tc main_arg4) = A4)
    (h_arg5 : V (Proc.devRef .tc main_arg5) = A5) :
    StableHlo.after opsC1 V (Proc.devRef .tc main_v543) = val_main_v543 (F := Ideal) A0 A1 A3 A4 A5 := by
  after_results_simp
  rw [h_v8, h_v468, h_v485, h_v486, h_v490, h_v493, h_arg3, h_arg4, h_arg5]
  rfl

/-- Window 1 of the piece leaves this buffer at its stage, from live-in buffers at theirs. -/
theorem c1_v547 (V : Valuation τ sig (Elt Ideal)) (A1 : (⟨S2x1000000, .i32⟩ : BufTy).Contents (Elt Ideal))
    (h_v8 : V (Proc.devRef .tc main_v8) = val_main_v8 (F := Ideal) A1) :
    StableHlo.after opsC1 V (Proc.devRef .tc main_v547) = val_main_v547 (F := Ideal) A1 := by
  after_results_simp
  rw [h_v8]
  rfl

/-- Window 1 of the piece leaves this buffer at its stage, from live-in buffers at theirs. -/
theorem c1_v550 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v485 : V (Proc.devRef .tc main_v485) = val_main_v485 (F := Ideal) A0 A1 A3 A4 A5)
    (h_arg3 : V (Proc.devRef .tc main_arg3) = A3) :
    StableHlo.after opsC1 V (Proc.devRef .tc main_v550) = val_main_v550 (F := Ideal) A0 A1 A3 A4 A5 := by
  after_results_simp
  rw [h_v485, h_arg3]
  rfl

/-- Window 2 of the piece leaves this buffer at its stage, from live-in buffers at theirs. -/
theorem c2_v600 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v8 : V (Proc.devRef .tc main_v8) = val_main_v8 (F := Ideal) A1)
    (h_v468 : V (Proc.devRef .tc main_v468) = val_main_v468 (F := Ideal) A0 A1 A3 A4 A5)
    (h_v485 : V (Proc.devRef .tc main_v485) = val_main_v485 (F := Ideal) A0 A1 A3 A4 A5)
    (h_v543 : V (Proc.devRef .tc main_v543) = val_main_v543 (F := Ideal) A0 A1 A3 A4 A5)
    (h_v547 : V (Proc.devRef .tc main_v547) = val_main_v547 (F := Ideal) A1)
    (h_v550 : V (Proc.devRef .tc main_v550) = val_main_v550 (F := Ideal) A0 A1 A3 A4 A5)
    (h_arg3 : V (Proc.devRef .tc main_arg3) = A3)
    (h_arg4 : V (Proc.devRef .tc main_arg4) = A4)
    (h_arg5 : V (Proc.devRef .tc main_arg5) = A5) :
    StableHlo.after opsC2 V (Proc.devRef .tc main_v600) = val_main_v600 (F := Ideal) A0 A1 A3 A4 A5 := by
  after_results_simp
  rw [h_v8, h_v468, h_v485, h_v543, h_v547, h_v550, h_arg3, h_arg4, h_arg5]
  rfl

/-- Window 2 of the piece leaves this buffer at its stage, from live-in buffers at theirs. -/
theorem c2_v604 (V : Valuation τ sig (Elt Ideal)) (A1 : (⟨S2x1000000, .i32⟩ : BufTy).Contents (Elt Ideal))
    (h_v8 : V (Proc.devRef .tc main_v8) = val_main_v8 (F := Ideal) A1) :
    StableHlo.after opsC2 V (Proc.devRef .tc main_v604) = val_main_v604 (F := Ideal) A1 := by
  after_results_simp
  rw [h_v8]
  rfl

/-- Window 2 of the piece leaves this buffer at its stage, from live-in buffers at theirs. -/
theorem c2_v607 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v485 : V (Proc.devRef .tc main_v485) = val_main_v485 (F := Ideal) A0 A1 A3 A4 A5)
    (h_arg3 : V (Proc.devRef .tc main_arg3) = A3) :
    StableHlo.after opsC2 V (Proc.devRef .tc main_v607) = val_main_v607 (F := Ideal) A0 A1 A3 A4 A5 := by
  after_results_simp
  rw [h_v485, h_arg3]
  rfl

/-- Window 3 of the piece leaves this buffer at its stage, from live-in buffers at theirs. -/
theorem c3_v657 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v8 : V (Proc.devRef .tc main_v8) = val_main_v8 (F := Ideal) A1)
    (h_v468 : V (Proc.devRef .tc main_v468) = val_main_v468 (F := Ideal) A0 A1 A3 A4 A5)
    (h_v485 : V (Proc.devRef .tc main_v485) = val_main_v485 (F := Ideal) A0 A1 A3 A4 A5)
    (h_v600 : V (Proc.devRef .tc main_v600) = val_main_v600 (F := Ideal) A0 A1 A3 A4 A5)
    (h_v604 : V (Proc.devRef .tc main_v604) = val_main_v604 (F := Ideal) A1)
    (h_v607 : V (Proc.devRef .tc main_v607) = val_main_v607 (F := Ideal) A0 A1 A3 A4 A5)
    (h_arg3 : V (Proc.devRef .tc main_arg3) = A3)
    (h_arg4 : V (Proc.devRef .tc main_arg4) = A4)
    (h_arg5 : V (Proc.devRef .tc main_arg5) = A5) :
    StableHlo.after opsC3 V (Proc.devRef .tc main_v657) = val_main_v657 (F := Ideal) A0 A1 A3 A4 A5 := by
  after_results_simp
  rw [h_v8, h_v468, h_v485, h_v600, h_v604, h_v607, h_arg3, h_arg4, h_arg5]
  rfl

/-- Window 3 of the piece leaves this buffer at its stage, from live-in buffers at theirs. -/
theorem c3_v661 (V : Valuation τ sig (Elt Ideal)) (A1 : (⟨S2x1000000, .i32⟩ : BufTy).Contents (Elt Ideal))
    (h_v8 : V (Proc.devRef .tc main_v8) = val_main_v8 (F := Ideal) A1) :
    StableHlo.after opsC3 V (Proc.devRef .tc main_v661) = val_main_v661 (F := Ideal) A1 := by
  after_results_simp
  rw [h_v8]
  rfl

/-- Window 3 of the piece leaves this buffer at its stage, from live-in buffers at theirs. -/
theorem c3_v664 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v485 : V (Proc.devRef .tc main_v485) = val_main_v485 (F := Ideal) A0 A1 A3 A4 A5)
    (h_arg3 : V (Proc.devRef .tc main_arg3) = A3) :
    StableHlo.after opsC3 V (Proc.devRef .tc main_v664) = val_main_v664 (F := Ideal) A0 A1 A3 A4 A5 := by
  after_results_simp
  rw [h_v485, h_arg3]
  rfl

/-- Window 4 of the piece leaves this buffer at its stage, from live-in buffers at theirs. -/
theorem c4_v701 (V : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal))
    (h_v8 : V (Proc.devRef .tc main_v8) = val_main_v8 (F := Ideal) A1)
    (h_v468 : V (Proc.devRef .tc main_v468) = val_main_v468 (F := Ideal) A0 A1 A3 A4 A5)
    (h_v485 : V (Proc.devRef .tc main_v485) = val_main_v485 (F := Ideal) A0 A1 A3 A4 A5)
    (h_v657 : V (Proc.devRef .tc main_v657) = val_main_v657 (F := Ideal) A0 A1 A3 A4 A5)
    (h_v661 : V (Proc.devRef .tc main_v661) = val_main_v661 (F := Ideal) A1)
    (h_v664 : V (Proc.devRef .tc main_v664) = val_main_v664 (F := Ideal) A0 A1 A3 A4 A5)
    (h_arg3 : V (Proc.devRef .tc main_arg3) = A3)
    (h_arg4 : V (Proc.devRef .tc main_arg4) = A4)
    (h_arg5 : V (Proc.devRef .tc main_arg5) = A5) :
    StableHlo.after opsC4 V (Proc.devRef .tc main_v701) = val_main_v701 (F := Ideal) A0 A1 A3 A4 A5 := by
  after_results_simp
  rw [h_v8, h_v468, h_v485, h_v657, h_v661, h_v664, h_arg3, h_arg4, h_arg5]
  rfl

/-- Window 0 of the piece writes no value to this buffer. -/
theorem c0_keep_v8 (V : Valuation τ sig (Elt Ideal)) :
    StableHlo.after opsC0 V (Proc.devRef .tc main_v8) = V (Proc.devRef .tc main_v8) := by
  after_results_simp

/-- Window 0 of the piece writes no value to this buffer. -/
theorem c0_keep_v468 (V : Valuation τ sig (Elt Ideal)) :
    StableHlo.after opsC0 V (Proc.devRef .tc main_v468) = V (Proc.devRef .tc main_v468) := by
  after_results_simp

/-- Window 0 of the piece writes no value to this buffer. -/
theorem c0_keep_arg0 (V : Valuation τ sig (Elt Ideal)) :
    StableHlo.after opsC0 V (Proc.devRef .tc main_arg0) = V (Proc.devRef .tc main_arg0) := by
  after_results_simp

/-- Window 0 of the piece writes no value to this buffer. -/
theorem c0_keep_arg1 (V : Valuation τ sig (Elt Ideal)) :
    StableHlo.after opsC0 V (Proc.devRef .tc main_arg1) = V (Proc.devRef .tc main_arg1) := by
  after_results_simp

/-- Window 0 of the piece writes no value to this buffer. -/
theorem c0_keep_arg2 (V : Valuation τ sig (Elt Ideal)) :
    StableHlo.after opsC0 V (Proc.devRef .tc main_arg2) = V (Proc.devRef .tc main_arg2) := by
  after_results_simp

/-- Window 0 of the piece writes no value to this buffer. -/
theorem c0_keep_arg3 (V : Valuation τ sig (Elt Ideal)) :
    StableHlo.after opsC0 V (Proc.devRef .tc main_arg3) = V (Proc.devRef .tc main_arg3) := by
  after_results_simp

/-- Window 0 of the piece writes no value to this buffer. -/
theorem c0_keep_arg4 (V : Valuation τ sig (Elt Ideal)) :
    StableHlo.after opsC0 V (Proc.devRef .tc main_arg4) = V (Proc.devRef .tc main_arg4) := by
  after_results_simp

/-- Window 0 of the piece writes no value to this buffer. -/
theorem c0_keep_arg5 (V : Valuation τ sig (Elt Ideal)) :
    StableHlo.after opsC0 V (Proc.devRef .tc main_arg5) = V (Proc.devRef .tc main_arg5) := by
  after_results_simp

/-- Window 0 of the piece writes no value to this buffer. -/
theorem c0_keep_arg6 (V : Valuation τ sig (Elt Ideal)) :
    StableHlo.after opsC0 V (Proc.devRef .tc main_arg6) = V (Proc.devRef .tc main_arg6) := by
  after_results_simp

/-- Window 0 of the piece writes no value to this buffer. -/
theorem c0_keep_arg7 (V : Valuation τ sig (Elt Ideal)) :
    StableHlo.after opsC0 V (Proc.devRef .tc main_arg7) = V (Proc.devRef .tc main_arg7) := by
  after_results_simp

/-- Window 0 of the piece writes no value to this buffer. -/
theorem c0_keep_arg8 (V : Valuation τ sig (Elt Ideal)) :
    StableHlo.after opsC0 V (Proc.devRef .tc main_arg8) = V (Proc.devRef .tc main_arg8) := by
  after_results_simp

/-- Window 1 of the piece writes no value to this buffer. -/
theorem c1_keep_v8 (V : Valuation τ sig (Elt Ideal)) :
    StableHlo.after opsC1 V (Proc.devRef .tc main_v8) = V (Proc.devRef .tc main_v8) := by
  after_results_simp

/-- Window 1 of the piece writes no value to this buffer. -/
theorem c1_keep_v468 (V : Valuation τ sig (Elt Ideal)) :
    StableHlo.after opsC1 V (Proc.devRef .tc main_v468) = V (Proc.devRef .tc main_v468) := by
  after_results_simp

/-- Window 1 of the piece writes no value to this buffer. -/
theorem c1_keep_v475 (V : Valuation τ sig (Elt Ideal)) :
    StableHlo.after opsC1 V (Proc.devRef .tc main_v475) = V (Proc.devRef .tc main_v475) := by
  after_results_simp

/-- Window 1 of the piece writes no value to this buffer. -/
theorem c1_keep_v485 (V : Valuation τ sig (Elt Ideal)) :
    StableHlo.after opsC1 V (Proc.devRef .tc main_v485) = V (Proc.devRef .tc main_v485) := by
  after_results_simp

/-- Window 1 of the piece writes no value to this buffer. -/
theorem c1_keep_arg0 (V : Valuation τ sig (Elt Ideal)) :
    StableHlo.after opsC1 V (Proc.devRef .tc main_arg0) = V (Proc.devRef .tc main_arg0) := by
  after_results_simp

/-- Window 1 of the piece writes no value to this buffer. -/
theorem c1_keep_arg1 (V : Valuation τ sig (Elt Ideal)) :
    StableHlo.after opsC1 V (Proc.devRef .tc main_arg1) = V (Proc.devRef .tc main_arg1) := by
  after_results_simp

/-- Window 1 of the piece writes no value to this buffer. -/
theorem c1_keep_arg2 (V : Valuation τ sig (Elt Ideal)) :
    StableHlo.after opsC1 V (Proc.devRef .tc main_arg2) = V (Proc.devRef .tc main_arg2) := by
  after_results_simp

/-- Window 1 of the piece writes no value to this buffer. -/
theorem c1_keep_arg3 (V : Valuation τ sig (Elt Ideal)) :
    StableHlo.after opsC1 V (Proc.devRef .tc main_arg3) = V (Proc.devRef .tc main_arg3) := by
  after_results_simp

/-- Window 1 of the piece writes no value to this buffer. -/
theorem c1_keep_arg4 (V : Valuation τ sig (Elt Ideal)) :
    StableHlo.after opsC1 V (Proc.devRef .tc main_arg4) = V (Proc.devRef .tc main_arg4) := by
  after_results_simp

/-- Window 1 of the piece writes no value to this buffer. -/
theorem c1_keep_arg5 (V : Valuation τ sig (Elt Ideal)) :
    StableHlo.after opsC1 V (Proc.devRef .tc main_arg5) = V (Proc.devRef .tc main_arg5) := by
  after_results_simp

/-- Window 1 of the piece writes no value to this buffer. -/
theorem c1_keep_arg6 (V : Valuation τ sig (Elt Ideal)) :
    StableHlo.after opsC1 V (Proc.devRef .tc main_arg6) = V (Proc.devRef .tc main_arg6) := by
  after_results_simp

/-- Window 1 of the piece writes no value to this buffer. -/
theorem c1_keep_arg7 (V : Valuation τ sig (Elt Ideal)) :
    StableHlo.after opsC1 V (Proc.devRef .tc main_arg7) = V (Proc.devRef .tc main_arg7) := by
  after_results_simp

/-- Window 1 of the piece writes no value to this buffer. -/
theorem c1_keep_arg8 (V : Valuation τ sig (Elt Ideal)) :
    StableHlo.after opsC1 V (Proc.devRef .tc main_arg8) = V (Proc.devRef .tc main_arg8) := by
  after_results_simp

/-- Window 2 of the piece writes no value to this buffer. -/
theorem c2_keep_v8 (V : Valuation τ sig (Elt Ideal)) :
    StableHlo.after opsC2 V (Proc.devRef .tc main_v8) = V (Proc.devRef .tc main_v8) := by
  after_results_simp

/-- Window 2 of the piece writes no value to this buffer. -/
theorem c2_keep_v468 (V : Valuation τ sig (Elt Ideal)) :
    StableHlo.after opsC2 V (Proc.devRef .tc main_v468) = V (Proc.devRef .tc main_v468) := by
  after_results_simp

/-- Window 2 of the piece writes no value to this buffer. -/
theorem c2_keep_v475 (V : Valuation τ sig (Elt Ideal)) :
    StableHlo.after opsC2 V (Proc.devRef .tc main_v475) = V (Proc.devRef .tc main_v475) := by
  after_results_simp

/-- Window 2 of the piece writes no value to this buffer. -/
theorem c2_keep_v485 (V : Valuation τ sig (Elt Ideal)) :
    StableHlo.after opsC2 V (Proc.devRef .tc main_v485) = V (Proc.devRef .tc main_v485) := by
  after_results_simp

/-- Window 2 of the piece writes no value to this buffer. -/
theorem c2_keep_arg0 (V : Valuation τ sig (Elt Ideal)) :
    StableHlo.after opsC2 V (Proc.devRef .tc main_arg0) = V (Proc.devRef .tc main_arg0) := by
  after_results_simp

/-- Window 2 of the piece writes no value to this buffer. -/
theorem c2_keep_arg1 (V : Valuation τ sig (Elt Ideal)) :
    StableHlo.after opsC2 V (Proc.devRef .tc main_arg1) = V (Proc.devRef .tc main_arg1) := by
  after_results_simp

/-- Window 2 of the piece writes no value to this buffer. -/
theorem c2_keep_arg2 (V : Valuation τ sig (Elt Ideal)) :
    StableHlo.after opsC2 V (Proc.devRef .tc main_arg2) = V (Proc.devRef .tc main_arg2) := by
  after_results_simp

/-- Window 2 of the piece writes no value to this buffer. -/
theorem c2_keep_arg3 (V : Valuation τ sig (Elt Ideal)) :
    StableHlo.after opsC2 V (Proc.devRef .tc main_arg3) = V (Proc.devRef .tc main_arg3) := by
  after_results_simp

/-- Window 2 of the piece writes no value to this buffer. -/
theorem c2_keep_arg4 (V : Valuation τ sig (Elt Ideal)) :
    StableHlo.after opsC2 V (Proc.devRef .tc main_arg4) = V (Proc.devRef .tc main_arg4) := by
  after_results_simp

/-- Window 2 of the piece writes no value to this buffer. -/
theorem c2_keep_arg5 (V : Valuation τ sig (Elt Ideal)) :
    StableHlo.after opsC2 V (Proc.devRef .tc main_arg5) = V (Proc.devRef .tc main_arg5) := by
  after_results_simp

/-- Window 2 of the piece writes no value to this buffer. -/
theorem c2_keep_arg6 (V : Valuation τ sig (Elt Ideal)) :
    StableHlo.after opsC2 V (Proc.devRef .tc main_arg6) = V (Proc.devRef .tc main_arg6) := by
  after_results_simp

/-- Window 2 of the piece writes no value to this buffer. -/
theorem c2_keep_arg7 (V : Valuation τ sig (Elt Ideal)) :
    StableHlo.after opsC2 V (Proc.devRef .tc main_arg7) = V (Proc.devRef .tc main_arg7) := by
  after_results_simp

/-- Window 2 of the piece writes no value to this buffer. -/
theorem c2_keep_arg8 (V : Valuation τ sig (Elt Ideal)) :
    StableHlo.after opsC2 V (Proc.devRef .tc main_arg8) = V (Proc.devRef .tc main_arg8) := by
  after_results_simp

/-- Window 3 of the piece writes no value to this buffer. -/
theorem c3_keep_v8 (V : Valuation τ sig (Elt Ideal)) :
    StableHlo.after opsC3 V (Proc.devRef .tc main_v8) = V (Proc.devRef .tc main_v8) := by
  after_results_simp

/-- Window 3 of the piece writes no value to this buffer. -/
theorem c3_keep_v468 (V : Valuation τ sig (Elt Ideal)) :
    StableHlo.after opsC3 V (Proc.devRef .tc main_v468) = V (Proc.devRef .tc main_v468) := by
  after_results_simp

/-- Window 3 of the piece writes no value to this buffer. -/
theorem c3_keep_v475 (V : Valuation τ sig (Elt Ideal)) :
    StableHlo.after opsC3 V (Proc.devRef .tc main_v475) = V (Proc.devRef .tc main_v475) := by
  after_results_simp

/-- Window 3 of the piece writes no value to this buffer. -/
theorem c3_keep_v485 (V : Valuation τ sig (Elt Ideal)) :
    StableHlo.after opsC3 V (Proc.devRef .tc main_v485) = V (Proc.devRef .tc main_v485) := by
  after_results_simp

/-- Window 3 of the piece writes no value to this buffer. -/
theorem c3_keep_arg0 (V : Valuation τ sig (Elt Ideal)) :
    StableHlo.after opsC3 V (Proc.devRef .tc main_arg0) = V (Proc.devRef .tc main_arg0) := by
  after_results_simp

/-- Window 3 of the piece writes no value to this buffer. -/
theorem c3_keep_arg1 (V : Valuation τ sig (Elt Ideal)) :
    StableHlo.after opsC3 V (Proc.devRef .tc main_arg1) = V (Proc.devRef .tc main_arg1) := by
  after_results_simp

/-- Window 3 of the piece writes no value to this buffer. -/
theorem c3_keep_arg2 (V : Valuation τ sig (Elt Ideal)) :
    StableHlo.after opsC3 V (Proc.devRef .tc main_arg2) = V (Proc.devRef .tc main_arg2) := by
  after_results_simp

/-- Window 3 of the piece writes no value to this buffer. -/
theorem c3_keep_arg3 (V : Valuation τ sig (Elt Ideal)) :
    StableHlo.after opsC3 V (Proc.devRef .tc main_arg3) = V (Proc.devRef .tc main_arg3) := by
  after_results_simp

/-- Window 3 of the piece writes no value to this buffer. -/
theorem c3_keep_arg4 (V : Valuation τ sig (Elt Ideal)) :
    StableHlo.after opsC3 V (Proc.devRef .tc main_arg4) = V (Proc.devRef .tc main_arg4) := by
  after_results_simp

/-- Window 3 of the piece writes no value to this buffer. -/
theorem c3_keep_arg5 (V : Valuation τ sig (Elt Ideal)) :
    StableHlo.after opsC3 V (Proc.devRef .tc main_arg5) = V (Proc.devRef .tc main_arg5) := by
  after_results_simp

/-- Window 3 of the piece writes no value to this buffer. -/
theorem c3_keep_arg6 (V : Valuation τ sig (Elt Ideal)) :
    StableHlo.after opsC3 V (Proc.devRef .tc main_arg6) = V (Proc.devRef .tc main_arg6) := by
  after_results_simp

/-- Window 3 of the piece writes no value to this buffer. -/
theorem c3_keep_arg7 (V : Valuation τ sig (Elt Ideal)) :
    StableHlo.after opsC3 V (Proc.devRef .tc main_arg7) = V (Proc.devRef .tc main_arg7) := by
  after_results_simp

/-- Window 3 of the piece writes no value to this buffer. -/
theorem c3_keep_arg8 (V : Valuation τ sig (Elt Ideal)) :
    StableHlo.after opsC3 V (Proc.devRef .tc main_arg8) = V (Proc.devRef .tc main_arg8) := by
  after_results_simp

/-- Window 4 of the piece writes no value to this buffer. -/
theorem c4_keep_v475 (V : Valuation τ sig (Elt Ideal)) :
    StableHlo.after opsC4 V (Proc.devRef .tc main_v475) = V (Proc.devRef .tc main_v475) := by
  after_results_simp

/-- Window 4 of the piece writes no value to this buffer. -/
theorem c4_keep_arg0 (V : Valuation τ sig (Elt Ideal)) :
    StableHlo.after opsC4 V (Proc.devRef .tc main_arg0) = V (Proc.devRef .tc main_arg0) := by
  after_results_simp

/-- Window 4 of the piece writes no value to this buffer. -/
theorem c4_keep_arg1 (V : Valuation τ sig (Elt Ideal)) :
    StableHlo.after opsC4 V (Proc.devRef .tc main_arg1) = V (Proc.devRef .tc main_arg1) := by
  after_results_simp

/-- Window 4 of the piece writes no value to this buffer. -/
theorem c4_keep_arg2 (V : Valuation τ sig (Elt Ideal)) :
    StableHlo.after opsC4 V (Proc.devRef .tc main_arg2) = V (Proc.devRef .tc main_arg2) := by
  after_results_simp

/-- Window 4 of the piece writes no value to this buffer. -/
theorem c4_keep_arg3 (V : Valuation τ sig (Elt Ideal)) :
    StableHlo.after opsC4 V (Proc.devRef .tc main_arg3) = V (Proc.devRef .tc main_arg3) := by
  after_results_simp

/-- Window 4 of the piece writes no value to this buffer. -/
theorem c4_keep_arg4 (V : Valuation τ sig (Elt Ideal)) :
    StableHlo.after opsC4 V (Proc.devRef .tc main_arg4) = V (Proc.devRef .tc main_arg4) := by
  after_results_simp

/-- Window 4 of the piece writes no value to this buffer. -/
theorem c4_keep_arg5 (V : Valuation τ sig (Elt Ideal)) :
    StableHlo.after opsC4 V (Proc.devRef .tc main_arg5) = V (Proc.devRef .tc main_arg5) := by
  after_results_simp

/-- Window 4 of the piece writes no value to this buffer. -/
theorem c4_keep_arg6 (V : Valuation τ sig (Elt Ideal)) :
    StableHlo.after opsC4 V (Proc.devRef .tc main_arg6) = V (Proc.devRef .tc main_arg6) := by
  after_results_simp

/-- Window 4 of the piece writes no value to this buffer. -/
theorem c4_keep_arg7 (V : Valuation τ sig (Elt Ideal)) :
    StableHlo.after opsC4 V (Proc.devRef .tc main_arg7) = V (Proc.devRef .tc main_arg7) := by
  after_results_simp

/-- Window 4 of the piece writes no value to this buffer. -/
theorem c4_keep_arg8 (V : Valuation τ sig (Elt Ideal)) :
    StableHlo.after opsC4 V (Proc.devRef .tc main_arg8) = V (Proc.devRef .tc main_arg8) := by
  after_results_simp

/-- The pooled sum after layer 1: the piece's first window computes it and the later windows keep it. -/
theorem rC_v475 (W : Valuation τ sig (Elt Ideal)) (A0 : (⟨S100000x64, .f32⟩ : BufTy).Contents (Elt Ideal)) (A1 : (⟨S2x1000000, .i32⟩ : BufTy).Contents (Elt Ideal)) (A2 : (⟨S100000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal)) (hz : W (Proc.devRef .tc main_v242) = val_main_v242 (F := Ideal) A0 A1 A2 A3 A4 A5 A6) (hx : W (Proc.devRef .tc main_v468) = val_main_v468 (F := Ideal) A0 A1 A3 A4 A5) (h2 : W (Proc.devRef .tc main_arg2) = A2) (h6 : W (Proc.devRef .tc main_arg6) = A6) :
    StableHlo.after opsC W (Proc.devRef .tc main_v475) = val_main_v475 (F := Ideal) A0 A1 A2 A3 A4 A5 A6 := by
  show StableHlo.after (opsC0 ++ (opsC1 ++ (opsC2 ++ (opsC3 ++ opsC4)))) W _ = _
  rw [StableHlo.after_append, StableHlo.after_append, StableHlo.after_append, StableHlo.after_append]
  have f1_v475 := c0_v475 W A0 A1 A2 A3 A4 A5 A6 hz hx h2 h6
  have f2_v475 := (c1_keep_v475 (StableHlo.after opsC0 W)).trans f1_v475
  have f3_v475 := (c2_keep_v475 (StableHlo.after opsC1 (StableHlo.after opsC0 W))).trans f2_v475
  have f4_v475 := (c3_keep_v475 (StableHlo.after opsC2 (StableHlo.after opsC1 (StableHlo.after opsC0 W)))).trans f3_v475
  have f5_v475 := (c4_keep_v475 (StableHlo.after opsC3 (StableHlo.after opsC2 (StableHlo.after opsC1 (StableHlo.after opsC0 W))))).trans f4_v475
  exact f5_v475

/-- Layer 2's new features: window by window, every live buffer at its own stage of the arguments. -/
theorem rC_v701 (W : Valuation τ sig (Elt Ideal)) (A0 : (⟨S100000x64, .f32⟩ : BufTy).Contents (Elt Ideal)) (A1 : (⟨S2x1000000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (hs : W (Proc.devRef .tc main_v1) = val_main_v1 (F := Ideal) A1) (hd : W (Proc.devRef .tc main_v3) = val_main_v3 (F := Ideal) A1) (hg : W (Proc.devRef .tc main_v8) = val_main_v8 (F := Ideal) A1) (hx : W (Proc.devRef .tc main_v468) = val_main_v468 (F := Ideal) A0 A1 A3 A4 A5) (h3 : W (Proc.devRef .tc main_arg3) = A3) (h4 : W (Proc.devRef .tc main_arg4) = A4) (h5 : W (Proc.devRef .tc main_arg5) = A5) :
    StableHlo.after opsC W (Proc.devRef .tc main_v701) = val_main_v701 (F := Ideal) A0 A1 A3 A4 A5 := by
  show StableHlo.after (opsC0 ++ (opsC1 ++ (opsC2 ++ (opsC3 ++ opsC4)))) W _ = _
  rw [StableHlo.after_append, StableHlo.after_append, StableHlo.after_append, StableHlo.after_append]
  have f1_v8 := (c0_keep_v8 W).trans hg
  have f1_v468 := (c0_keep_v468 W).trans hx
  have f1_v485 := c0_v485 W A0 A1 A3 A4 A5 hs hd hx
  have f1_v486 := c0_v486 W
  have f1_v490 := c0_v490 W A1 hg
  have f1_v493 := c0_v493 W A0 A1 A3 A4 A5 hs hd hx h3
  have f1_arg3 := (c0_keep_arg3 W).trans h3
  have f1_arg4 := (c0_keep_arg4 W).trans h4
  have f1_arg5 := (c0_keep_arg5 W).trans h5
  have f2_v8 := (c1_keep_v8 (StableHlo.after opsC0 W)).trans f1_v8
  have f2_v468 := (c1_keep_v468 (StableHlo.after opsC0 W)).trans f1_v468
  have f2_v485 := (c1_keep_v485 (StableHlo.after opsC0 W)).trans f1_v485
  have f2_v543 := c1_v543 (StableHlo.after opsC0 W) A0 A1 A3 A4 A5 f1_v8 f1_v468 f1_v485 f1_v486 f1_v490 f1_v493 f1_arg3 f1_arg4 f1_arg5
  have f2_v547 := c1_v547 (StableHlo.after opsC0 W) A1 f1_v8
  have f2_v550 := c1_v550 (StableHlo.after opsC0 W) A0 A1 A3 A4 A5 f1_v485 f1_arg3
  have f2_arg3 := (c1_keep_arg3 (StableHlo.after opsC0 W)).trans f1_arg3
  have f2_arg4 := (c1_keep_arg4 (StableHlo.after opsC0 W)).trans f1_arg4
  have f2_arg5 := (c1_keep_arg5 (StableHlo.after opsC0 W)).trans f1_arg5
  have f3_v8 := (c2_keep_v8 (StableHlo.after opsC1 (StableHlo.after opsC0 W))).trans f2_v8
  have f3_v468 := (c2_keep_v468 (StableHlo.after opsC1 (StableHlo.after opsC0 W))).trans f2_v468
  have f3_v485 := (c2_keep_v485 (StableHlo.after opsC1 (StableHlo.after opsC0 W))).trans f2_v485
  have f3_v600 := c2_v600 (StableHlo.after opsC1 (StableHlo.after opsC0 W)) A0 A1 A3 A4 A5 f2_v8 f2_v468 f2_v485 f2_v543 f2_v547 f2_v550 f2_arg3 f2_arg4 f2_arg5
  have f3_v604 := c2_v604 (StableHlo.after opsC1 (StableHlo.after opsC0 W)) A1 f2_v8
  have f3_v607 := c2_v607 (StableHlo.after opsC1 (StableHlo.after opsC0 W)) A0 A1 A3 A4 A5 f2_v485 f2_arg3
  have f3_arg3 := (c2_keep_arg3 (StableHlo.after opsC1 (StableHlo.after opsC0 W))).trans f2_arg3
  have f3_arg4 := (c2_keep_arg4 (StableHlo.after opsC1 (StableHlo.after opsC0 W))).trans f2_arg4
  have f3_arg5 := (c2_keep_arg5 (StableHlo.after opsC1 (StableHlo.after opsC0 W))).trans f2_arg5
  have f4_v8 := (c3_keep_v8 (StableHlo.after opsC2 (StableHlo.after opsC1 (StableHlo.after opsC0 W)))).trans f3_v8
  have f4_v468 := (c3_keep_v468 (StableHlo.after opsC2 (StableHlo.after opsC1 (StableHlo.after opsC0 W)))).trans f3_v468
  have f4_v485 := (c3_keep_v485 (StableHlo.after opsC2 (StableHlo.after opsC1 (StableHlo.after opsC0 W)))).trans f3_v485
  have f4_v657 := c3_v657 (StableHlo.after opsC2 (StableHlo.after opsC1 (StableHlo.after opsC0 W))) A0 A1 A3 A4 A5 f3_v8 f3_v468 f3_v485 f3_v600 f3_v604 f3_v607 f3_arg3 f3_arg4 f3_arg5
  have f4_v661 := c3_v661 (StableHlo.after opsC2 (StableHlo.after opsC1 (StableHlo.after opsC0 W))) A1 f3_v8
  have f4_v664 := c3_v664 (StableHlo.after opsC2 (StableHlo.after opsC1 (StableHlo.after opsC0 W))) A0 A1 A3 A4 A5 f3_v485 f3_arg3
  have f4_arg3 := (c3_keep_arg3 (StableHlo.after opsC2 (StableHlo.after opsC1 (StableHlo.after opsC0 W)))).trans f3_arg3
  have f4_arg4 := (c3_keep_arg4 (StableHlo.after opsC2 (StableHlo.after opsC1 (StableHlo.after opsC0 W)))).trans f3_arg4
  have f4_arg5 := (c3_keep_arg5 (StableHlo.after opsC2 (StableHlo.after opsC1 (StableHlo.after opsC0 W)))).trans f3_arg5
  have f5_v701 := c4_v701 (StableHlo.after opsC3 (StableHlo.after opsC2 (StableHlo.after opsC1 (StableHlo.after opsC0 W)))) A0 A1 A3 A4 A5 f4_v8 f4_v468 f4_v485 f4_v657 f4_v661 f4_v664 f4_arg3 f4_arg4 f4_arg5
  exact f5_v701

/-- The piece writes no value to this argument's buffer. -/
theorem rC_keep_arg0 (W : Valuation τ sig (Elt Ideal)) :
    StableHlo.after opsC W (Proc.devRef .tc main_arg0) = W (Proc.devRef .tc main_arg0) := by
  show StableHlo.after (opsC0 ++ (opsC1 ++ (opsC2 ++ (opsC3 ++ opsC4)))) W _ = _
  rw [StableHlo.after_append, StableHlo.after_append, StableHlo.after_append, StableHlo.after_append]
  exact (c4_keep_arg0 (StableHlo.after opsC3 (StableHlo.after opsC2 (StableHlo.after opsC1 (StableHlo.after opsC0 W))))).trans ((c3_keep_arg0 (StableHlo.after opsC2 (StableHlo.after opsC1 (StableHlo.after opsC0 W)))).trans ((c2_keep_arg0 (StableHlo.after opsC1 (StableHlo.after opsC0 W))).trans ((c1_keep_arg0 (StableHlo.after opsC0 W)).trans ((c0_keep_arg0 W)))))

/-- The piece writes no value to this argument's buffer. -/
theorem rC_keep_arg1 (W : Valuation τ sig (Elt Ideal)) :
    StableHlo.after opsC W (Proc.devRef .tc main_arg1) = W (Proc.devRef .tc main_arg1) := by
  show StableHlo.after (opsC0 ++ (opsC1 ++ (opsC2 ++ (opsC3 ++ opsC4)))) W _ = _
  rw [StableHlo.after_append, StableHlo.after_append, StableHlo.after_append, StableHlo.after_append]
  exact (c4_keep_arg1 (StableHlo.after opsC3 (StableHlo.after opsC2 (StableHlo.after opsC1 (StableHlo.after opsC0 W))))).trans ((c3_keep_arg1 (StableHlo.after opsC2 (StableHlo.after opsC1 (StableHlo.after opsC0 W)))).trans ((c2_keep_arg1 (StableHlo.after opsC1 (StableHlo.after opsC0 W))).trans ((c1_keep_arg1 (StableHlo.after opsC0 W)).trans ((c0_keep_arg1 W)))))

/-- The piece writes no value to this argument's buffer. -/
theorem rC_keep_arg2 (W : Valuation τ sig (Elt Ideal)) :
    StableHlo.after opsC W (Proc.devRef .tc main_arg2) = W (Proc.devRef .tc main_arg2) := by
  show StableHlo.after (opsC0 ++ (opsC1 ++ (opsC2 ++ (opsC3 ++ opsC4)))) W _ = _
  rw [StableHlo.after_append, StableHlo.after_append, StableHlo.after_append, StableHlo.after_append]
  exact (c4_keep_arg2 (StableHlo.after opsC3 (StableHlo.after opsC2 (StableHlo.after opsC1 (StableHlo.after opsC0 W))))).trans ((c3_keep_arg2 (StableHlo.after opsC2 (StableHlo.after opsC1 (StableHlo.after opsC0 W)))).trans ((c2_keep_arg2 (StableHlo.after opsC1 (StableHlo.after opsC0 W))).trans ((c1_keep_arg2 (StableHlo.after opsC0 W)).trans ((c0_keep_arg2 W)))))

/-- The piece writes no value to this argument's buffer. -/
theorem rC_keep_arg3 (W : Valuation τ sig (Elt Ideal)) :
    StableHlo.after opsC W (Proc.devRef .tc main_arg3) = W (Proc.devRef .tc main_arg3) := by
  show StableHlo.after (opsC0 ++ (opsC1 ++ (opsC2 ++ (opsC3 ++ opsC4)))) W _ = _
  rw [StableHlo.after_append, StableHlo.after_append, StableHlo.after_append, StableHlo.after_append]
  exact (c4_keep_arg3 (StableHlo.after opsC3 (StableHlo.after opsC2 (StableHlo.after opsC1 (StableHlo.after opsC0 W))))).trans ((c3_keep_arg3 (StableHlo.after opsC2 (StableHlo.after opsC1 (StableHlo.after opsC0 W)))).trans ((c2_keep_arg3 (StableHlo.after opsC1 (StableHlo.after opsC0 W))).trans ((c1_keep_arg3 (StableHlo.after opsC0 W)).trans ((c0_keep_arg3 W)))))

/-- The piece writes no value to this argument's buffer. -/
theorem rC_keep_arg4 (W : Valuation τ sig (Elt Ideal)) :
    StableHlo.after opsC W (Proc.devRef .tc main_arg4) = W (Proc.devRef .tc main_arg4) := by
  show StableHlo.after (opsC0 ++ (opsC1 ++ (opsC2 ++ (opsC3 ++ opsC4)))) W _ = _
  rw [StableHlo.after_append, StableHlo.after_append, StableHlo.after_append, StableHlo.after_append]
  exact (c4_keep_arg4 (StableHlo.after opsC3 (StableHlo.after opsC2 (StableHlo.after opsC1 (StableHlo.after opsC0 W))))).trans ((c3_keep_arg4 (StableHlo.after opsC2 (StableHlo.after opsC1 (StableHlo.after opsC0 W)))).trans ((c2_keep_arg4 (StableHlo.after opsC1 (StableHlo.after opsC0 W))).trans ((c1_keep_arg4 (StableHlo.after opsC0 W)).trans ((c0_keep_arg4 W)))))

/-- The piece writes no value to this argument's buffer. -/
theorem rC_keep_arg5 (W : Valuation τ sig (Elt Ideal)) :
    StableHlo.after opsC W (Proc.devRef .tc main_arg5) = W (Proc.devRef .tc main_arg5) := by
  show StableHlo.after (opsC0 ++ (opsC1 ++ (opsC2 ++ (opsC3 ++ opsC4)))) W _ = _
  rw [StableHlo.after_append, StableHlo.after_append, StableHlo.after_append, StableHlo.after_append]
  exact (c4_keep_arg5 (StableHlo.after opsC3 (StableHlo.after opsC2 (StableHlo.after opsC1 (StableHlo.after opsC0 W))))).trans ((c3_keep_arg5 (StableHlo.after opsC2 (StableHlo.after opsC1 (StableHlo.after opsC0 W)))).trans ((c2_keep_arg5 (StableHlo.after opsC1 (StableHlo.after opsC0 W))).trans ((c1_keep_arg5 (StableHlo.after opsC0 W)).trans ((c0_keep_arg5 W)))))

/-- The piece writes no value to this argument's buffer. -/
theorem rC_keep_arg6 (W : Valuation τ sig (Elt Ideal)) :
    StableHlo.after opsC W (Proc.devRef .tc main_arg6) = W (Proc.devRef .tc main_arg6) := by
  show StableHlo.after (opsC0 ++ (opsC1 ++ (opsC2 ++ (opsC3 ++ opsC4)))) W _ = _
  rw [StableHlo.after_append, StableHlo.after_append, StableHlo.after_append, StableHlo.after_append]
  exact (c4_keep_arg6 (StableHlo.after opsC3 (StableHlo.after opsC2 (StableHlo.after opsC1 (StableHlo.after opsC0 W))))).trans ((c3_keep_arg6 (StableHlo.after opsC2 (StableHlo.after opsC1 (StableHlo.after opsC0 W)))).trans ((c2_keep_arg6 (StableHlo.after opsC1 (StableHlo.after opsC0 W))).trans ((c1_keep_arg6 (StableHlo.after opsC0 W)).trans ((c0_keep_arg6 W)))))

/-- The piece writes no value to this argument's buffer. -/
theorem rC_keep_arg7 (W : Valuation τ sig (Elt Ideal)) :
    StableHlo.after opsC W (Proc.devRef .tc main_arg7) = W (Proc.devRef .tc main_arg7) := by
  show StableHlo.after (opsC0 ++ (opsC1 ++ (opsC2 ++ (opsC3 ++ opsC4)))) W _ = _
  rw [StableHlo.after_append, StableHlo.after_append, StableHlo.after_append, StableHlo.after_append]
  exact (c4_keep_arg7 (StableHlo.after opsC3 (StableHlo.after opsC2 (StableHlo.after opsC1 (StableHlo.after opsC0 W))))).trans ((c3_keep_arg7 (StableHlo.after opsC2 (StableHlo.after opsC1 (StableHlo.after opsC0 W)))).trans ((c2_keep_arg7 (StableHlo.after opsC1 (StableHlo.after opsC0 W))).trans ((c1_keep_arg7 (StableHlo.after opsC0 W)).trans ((c0_keep_arg7 W)))))

/-- The piece writes no value to this argument's buffer. -/
theorem rC_keep_arg8 (W : Valuation τ sig (Elt Ideal)) :
    StableHlo.after opsC W (Proc.devRef .tc main_arg8) = W (Proc.devRef .tc main_arg8) := by
  show StableHlo.after (opsC0 ++ (opsC1 ++ (opsC2 ++ (opsC3 ++ opsC4)))) W _ = _
  rw [StableHlo.after_append, StableHlo.after_append, StableHlo.after_append, StableHlo.after_append]
  exact (c4_keep_arg8 (StableHlo.after opsC3 (StableHlo.after opsC2 (StableHlo.after opsC1 (StableHlo.after opsC0 W))))).trans ((c3_keep_arg8 (StableHlo.after opsC2 (StableHlo.after opsC1 (StableHlo.after opsC0 W)))).trans ((c2_keep_arg8 (StableHlo.after opsC1 (StableHlo.after opsC0 W))).trans ((c1_keep_arg8 (StableHlo.after opsC0 W)).trans ((c0_keep_arg8 W)))))

end Cert.ReferenceIdeal.RefRun

end
-- ==== Proof.RefPieceD.lean ====
/-
  The reference's last piece (its last twelve operations: layer 2's projection, the pooled sum and the final linear
  layer), run from an arbitrary valuation whose live-in buffers hold the reference's stages: the result buffer ends at
  the reference's result stage, and the arguments' buffers keep their contents.
-/
import proofs.«161618_j71751723647734_1_alg».proof.Proof.RefOps
import proofs.«161618_j71751723647734_1_alg».proof.Proof.RefRead
import Idealize.ShloMosaic.Lib.StableHlo.Run

set_option maxRecDepth 16384

noncomputable section

namespace Cert.ReferenceIdeal.RefRun

open Cert.ReferenceIdeal Cert.ReferenceIdeal.Gen Cert.ReferenceIdeal.RunP Cert.ReferenceIdeal.ReadP Idealize.ShloMosaic Idealize.ShloMosaic.TcCoe Idealize.ShloMosaic.StableHlo Idealize.SL.Sem

/-- The result: from the pooled sum after layer 1 and layer 2's new features at their stages, the piece leaves the
    reference's result stage in the result buffer. -/
theorem rD_v712 (W : Valuation τ sig (Elt Ideal)) (A0 : (⟨S100000x64, .f32⟩ : BufTy).Contents (Elt Ideal)) (A1 : (⟨S2x1000000, .i32⟩ : BufTy).Contents (Elt Ideal)) (A2 : (⟨S100000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal)) (A7 : (⟨S64x64, .f32⟩ : BufTy).Contents (Elt Ideal)) (A8 : (⟨S64, .f32⟩ : BufTy).Contents (Elt Ideal))
    (hz : W (Proc.devRef .tc main_v475) = val_main_v475 (F := Ideal) A0 A1 A2 A3 A4 A5 A6)
    (hx : W (Proc.devRef .tc main_v701) = val_main_v701 (F := Ideal) A0 A1 A3 A4 A5)
    (h2 : W (Proc.devRef .tc main_arg2) = A2) (h6 : W (Proc.devRef .tc main_arg6) = A6)
    (h7 : W (Proc.devRef .tc main_arg7) = A7) (h8 : W (Proc.devRef .tc main_arg8) = A8) :
    StableHlo.after opsD W (Proc.devRef .tc main_v712) = val_main_v712 (F := Ideal) A0 A1 A2 A3 A4 A5 A6 A7 A8 := by
  after_results_simp
  rw [hz, hx, h2, h6, h7, h8]
  rfl

/-- The piece writes no value to this argument's buffer. -/
theorem rD_keep_arg0 (W : Valuation τ sig (Elt Ideal)) :
    StableHlo.after opsD W (Proc.devRef .tc main_arg0) = W (Proc.devRef .tc main_arg0) := by
  after_results_simp

/-- The piece writes no value to this argument's buffer. -/
theorem rD_keep_arg1 (W : Valuation τ sig (Elt Ideal)) :
    StableHlo.after opsD W (Proc.devRef .tc main_arg1) = W (Proc.devRef .tc main_arg1) := by
  after_results_simp

/-- The piece writes no value to this argument's buffer. -/
theorem rD_keep_arg2 (W : Valuation τ sig (Elt Ideal)) :
    StableHlo.after opsD W (Proc.devRef .tc main_arg2) = W (Proc.devRef .tc main_arg2) := by
  after_results_simp

/-- The piece writes no value to this argument's buffer. -/
theorem rD_keep_arg3 (W : Valuation τ sig (Elt Ideal)) :
    StableHlo.after opsD W (Proc.devRef .tc main_arg3) = W (Proc.devRef .tc main_arg3) := by
  after_results_simp

/-- The piece writes no value to this argument's buffer. -/
theorem rD_keep_arg4 (W : Valuation τ sig (Elt Ideal)) :
    StableHlo.after opsD W (Proc.devRef .tc main_arg4) = W (Proc.devRef .tc main_arg4) := by
  after_results_simp

/-- The piece writes no value to this argument's buffer. -/
theorem rD_keep_arg5 (W : Valuation τ sig (Elt Ideal)) :
    StableHlo.after opsD W (Proc.devRef .tc main_arg5) = W (Proc.devRef .tc main_arg5) := by
  after_results_simp

/-- The piece writes no value to this argument's buffer. -/
theorem rD_keep_arg6 (W : Valuation τ sig (Elt Ideal)) :
    StableHlo.after opsD W (Proc.devRef .tc main_arg6) = W (Proc.devRef .tc main_arg6) := by
  after_results_simp

/-- The piece writes no value to this argument's buffer. -/
theorem rD_keep_arg7 (W : Valuation τ sig (Elt Ideal)) :
    StableHlo.after opsD W (Proc.devRef .tc main_arg7) = W (Proc.devRef .tc main_arg7) := by
  after_results_simp

/-- The piece writes no value to this argument's buffer. -/
theorem rD_keep_arg8 (W : Valuation τ sig (Elt Ideal)) :
    StableHlo.after opsD W (Proc.devRef .tc main_arg8) = W (Proc.devRef .tc main_arg8) := by
  after_results_simp

end Cert.ReferenceIdeal.RefRun

end
-- ==== Proof.RefRun.lean ====
/-
  The reference program's run, with its result named by stages. The program is a straight line of 777 host operations;
  every weakly fair execution ends with each buffer at the fold of the operations over the launch contents. The fold is
  read here in four pieces cut at the layer boundaries: after the first piece the buffers the later ones read — source and
  target nodes, clamped degrees, the zero pooled array, layer 0's new features — hold their stages of the arguments; each
  later piece, run from buffers holding those stages, leaves the next layer's new features and the pooled sum at their
  stages; the last piece leaves the result at its stage. Earlier layers' results are carried as stages, never opened:
  the three layers reuse one another's results about twelve times each, and the fold written out as one term would be
  exponential in the number of layers. The nine arguments are written by no operation.
-/
import proofs.«161618_j71751723647734_1_alg».proof.Proof.RefPieceA
import proofs.«161618_j71751723647734_1_alg».proof.Proof.RefPieceB
import proofs.«161618_j71751723647734_1_alg».proof.Proof.RefPieceC
import proofs.«161618_j71751723647734_1_alg».proof.Proof.RefPieceD
import Idealize.ShloMosaic.Lib.Pipeline.Frame

noncomputable section

namespace Cert.ReferenceIdeal.RefRun

open Cert.ReferenceIdeal Cert.ReferenceIdeal.Gen Cert.ReferenceIdeal.RunP Cert.ReferenceIdeal.ReadP
open Idealize.ShloMosaic Idealize.ShloMosaic.TcCoe Idealize.ShloMosaic.StableHlo Idealize.SL.Sem

/-- The fold of all the operations is the four pieces' folds in turn. -/
theorem after_ops (V : Valuation τ sig (Elt Ideal)) :
    StableHlo.after (ops (F := Ideal)) V = StableHlo.after opsD (StableHlo.after opsC (StableHlo.after opsB (StableHlo.after opsA V))) := by
  show StableHlo.after (opsA ++ (opsB ++ (opsC ++ opsD))) V = _
  rw [StableHlo.after_append, StableHlo.after_append, StableHlo.after_append]

/-- The result buffer after the whole program, from any launch contents of the arguments: the last stage. -/
theorem value_of (V : Valuation τ sig (Elt Ideal)) (A0 : (⟨S100000x64, .f32⟩ : BufTy).Contents (Elt Ideal)) (A1 : (⟨S2x1000000, .i32⟩ : BufTy).Contents (Elt Ideal)) (A2 : (⟨S100000, .i32⟩ : BufTy).Contents (Elt Ideal)) (A3 : (⟨S3x11x64x64, .f32⟩ : BufTy).Contents (Elt Ideal)) (A4 : (⟨S3x11x64, .f32⟩ : BufTy).Contents (Elt Ideal)) (A5 : (⟨S3x11x64x64, .f32⟩ : BufTy).Contents (Elt Ideal)) (A6 : (⟨S3x64x64, .f32⟩ : BufTy).Contents (Elt Ideal)) (A7 : (⟨S64x64, .f32⟩ : BufTy).Contents (Elt Ideal)) (A8 : (⟨S64, .f32⟩ : BufTy).Contents (Elt Ideal))
    (h0 : V (Proc.devRef .tc main_arg0) = A0) (h1 : V (Proc.devRef .tc main_arg1) = A1) (h2 : V (Proc.devRef .tc main_arg2) = A2)
    (h3 : V (Proc.devRef .tc main_arg3) = A3) (h4 : V (Proc.devRef .tc main_arg4) = A4) (h5 : V (Proc.devRef .tc main_arg5) = A5)
    (h6 : V (Proc.devRef .tc main_arg6) = A6) (h7 : V (Proc.devRef .tc main_arg7) = A7) (h8 : V (Proc.devRef .tc main_arg8) = A8) :
    StableHlo.after (ops (F := Ideal)) V (Proc.devRef .tc main_v712) = val_main_v712 (F := Ideal) A0 A1 A2 A3 A4 A5 A6 A7 A8 := by
  rw [after_ops]
  -- after the first piece
  have a1 : StableHlo.after opsA V (Proc.devRef .tc main_arg1) = A1 := (rA_keep_arg1 V).trans h1
  have a2 : StableHlo.after opsA V (Proc.devRef .tc main_arg2) = A2 := (rA_keep_arg2 V).trans h2
  have a3 : StableHlo.after opsA V (Proc.devRef .tc main_arg3) = A3 := (rA_keep_arg3 V).trans h3
  have a4 : StableHlo.after opsA V (Proc.devRef .tc main_arg4) = A4 := (rA_keep_arg4 V).trans h4
  have a5 : StableHlo.after opsA V (Proc.devRef .tc main_arg5) = A5 := (rA_keep_arg5 V).trans h5
  have a6 : StableHlo.after opsA V (Proc.devRef .tc main_arg6) = A6 := (rA_keep_arg6 V).trans h6
  have a7 : StableHlo.after opsA V (Proc.devRef .tc main_arg7) = A7 := (rA_keep_arg7 V).trans h7
  have a8 : StableHlo.after opsA V (Proc.devRef .tc main_arg8) = A8 := (rA_keep_arg8 V).trans h8
  have a_v1 := rA_v1 V A1 h1
  have a_v3 := rA_v3 V A1 h1
  have a_v8 := rA_v8 V A1 h1
  have a_v9 := rA_v9 V
  have a_x := rA_v235 V A0 A1 A3 A4 A5 h0 h1 h3 h4 h5
  -- after the second piece
  have b_z := rB_v242 (StableHlo.after opsA V) A0 A1 A2 A3 A4 A5 A6 a_v9 a_x a2 a6
  have b_x := rB_v468 (StableHlo.after opsA V) A0 A1 A3 A4 A5 a_v1 a_v3 a_v8 a_x a3 a4 a5
  have b_v1 := (rB_keep_v1 (StableHlo.after opsA V)).trans a_v1
  have b_v3 := (rB_keep_v3 (StableHlo.after opsA V)).trans a_v3
  have b_v8 := (rB_keep_v8 (StableHlo.after opsA V)).trans a_v8
  have b2 := (rB_keep_arg2 (StableHlo.after opsA V)).trans a2
  have b3 := (rB_keep_arg3 (StableHlo.after opsA V)).trans a3
  have b4 := (rB_keep_arg4 (StableHlo.after opsA V)).trans a4
  have b5 := (rB_keep_arg5 (StableHlo.after opsA V)).trans a5
  have b6 := (rB_keep_arg6 (StableHlo.after opsA V)).trans a6
  have b7 := (rB_keep_arg7 (StableHlo.after opsA V)).trans a7
  have b8 := (rB_keep_arg8 (StableHlo.after opsA V)).trans a8
  -- after the third piece
  have c_z := rC_v475 (StableHlo.after opsB (StableHlo.after opsA V)) A0 A1 A2 A3 A4 A5 A6 b_z b_x b2 b6
  have c_x := rC_v701 (StableHlo.after opsB (StableHlo.after opsA V)) A0 A1 A3 A4 A5 b_v1 b_v3 b_v8 b_x b3 b4 b5
  have c2 := (rC_keep_arg2 (StableHlo.after opsB (StableHlo.after opsA V))).trans b2
  have c6 := (rC_keep_arg6 (StableHlo.after opsB (StableHlo.after opsA V))).trans b6
  have c7 := (rC_keep_arg7 (StableHlo.after opsB (StableHlo.after opsA V))).trans b7
  have c8 := (rC_keep_arg8 (StableHlo.after opsB (StableHlo.after opsA V))).trans b8
  -- the last piece
  exact rD_v712 (StableHlo.after opsC (StableHlo.after opsB (StableHlo.after opsA V))) A0 A1 A2 A3 A4 A5 A6 A7 A8 c_z c_x c2 c6 c7 c8

/-- Argument 0 is written by no operation. -/
theorem kept_arg0 (V : Valuation τ sig (Elt Ideal)) :
    StableHlo.after (ops (F := Ideal)) V (Proc.devRef .tc main_arg0) = V (Proc.devRef .tc main_arg0) := by
  rw [after_ops]
  exact (rD_keep_arg0 _).trans ((rC_keep_arg0 _).trans ((rB_keep_arg0 _).trans (rA_keep_arg0 V)))
/-- Argument 1 is written by no operation. -/
theorem kept_arg1 (V : Valuation τ sig (Elt Ideal)) :
    StableHlo.after (ops (F := Ideal)) V (Proc.devRef .tc main_arg1) = V (Proc.devRef .tc main_arg1) := by
  rw [after_ops]
  exact (rD_keep_arg1 _).trans ((rC_keep_arg1 _).trans ((rB_keep_arg1 _).trans (rA_keep_arg1 V)))
/-- Argument 2 is written by no operation. -/
theorem kept_arg2 (V : Valuation τ sig (Elt Ideal)) :
    StableHlo.after (ops (F := Ideal)) V (Proc.devRef .tc main_arg2) = V (Proc.devRef .tc main_arg2) := by
  rw [after_ops]
  exact (rD_keep_arg2 _).trans ((rC_keep_arg2 _).trans ((rB_keep_arg2 _).trans (rA_keep_arg2 V)))
/-- Argument 3 is written by no operation. -/
theorem kept_arg3 (V : Valuation τ sig (Elt Ideal)) :
    StableHlo.after (ops (F := Ideal)) V (Proc.devRef .tc main_arg3) = V (Proc.devRef .tc main_arg3) := by
  rw [after_ops]
  exact (rD_keep_arg3 _).trans ((rC_keep_arg3 _).trans ((rB_keep_arg3 _).trans (rA_keep_arg3 V)))
/-- Argument 4 is written by no operation. -/
theorem kept_arg4 (V : Valuation τ sig (Elt Ideal)) :
    StableHlo.after (ops (F := Ideal)) V (Proc.devRef .tc main_arg4) = V (Proc.devRef .tc main_arg4) := by
  rw [after_ops]
  exact (rD_keep_arg4 _).trans ((rC_keep_arg4 _).trans ((rB_keep_arg4 _).trans (rA_keep_arg4 V)))
/-- Argument 5 is written by no operation. -/
theorem kept_arg5 (V : Valuation τ sig (Elt Ideal)) :
    StableHlo.after (ops (F := Ideal)) V (Proc.devRef .tc main_arg5) = V (Proc.devRef .tc main_arg5) := by
  rw [after_ops]
  exact (rD_keep_arg5 _).trans ((rC_keep_arg5 _).trans ((rB_keep_arg5 _).trans (rA_keep_arg5 V)))
/-- Argument 6 is written by no operation. -/
theorem kept_arg6 (V : Valuation τ sig (Elt Ideal)) :
    StableHlo.after (ops (F := Ideal)) V (Proc.devRef .tc main_arg6) = V (Proc.devRef .tc main_arg6) := by
  rw [after_ops]
  exact (rD_keep_arg6 _).trans ((rC_keep_arg6 _).trans ((rB_keep_arg6 _).trans (rA_keep_arg6 V)))
/-- Argument 7 is written by no operation. -/
theorem kept_arg7 (V : Valuation τ sig (Elt Ideal)) :
    StableHlo.after (ops (F := Ideal)) V (Proc.devRef .tc main_arg7) = V (Proc.devRef .tc main_arg7) := by
  rw [after_ops]
  exact (rD_keep_arg7 _).trans ((rC_keep_arg7 _).trans ((rB_keep_arg7 _).trans (rA_keep_arg7 V)))
/-- Argument 8 is written by no operation. -/
theorem kept_arg8 (V : Valuation τ sig (Elt Ideal)) :
    StableHlo.after (ops (F := Ideal)) V (Proc.devRef .tc main_arg8) = V (Proc.devRef .tc main_arg8) := by
  rw [after_ops]
  exact (rD_keep_arg8 _).trans ((rC_keep_arg8 _).trans ((rB_keep_arg8 _).trans (rA_keep_arg8 V)))

/-- On every device, from any memory with zero counters: every weakly fair execution of the reference terminates with
    the result at the last stage of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v712) = val_main_v712 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c =>
      ⟨(h c main_v712).trans (value_of (launchContents m c) _ _ _ _ _ _ _ _ _ rfl rfl rfl rfl rfl rfl rfl rfl rfl),
       (h c main_arg0).trans (kept_arg0 (launchContents m c)),
       (h c main_arg1).trans (kept_arg1 (launchContents m c)),
       (h c main_arg2).trans (kept_arg2 (launchContents m c)),
       (h c main_arg3).trans (kept_arg3 (launchContents m c)),
       (h c main_arg4).trans (kept_arg4 (launchContents m c)),
       (h c main_arg5).trans (kept_arg5 (launchContents m c)),
       (h c main_arg6).trans (kept_arg6 (launchContents m c)),
       (h c main_arg7).trans (kept_arg7 (launchContents m c)),
       (h c main_arg8).trans (kept_arg8 (launchContents m c))⟩)
    (run_seq scopedRefs_eq scopedSems_eq (defs (F := Ideal)) (main (F := Ideal)) (fun _ => ops (F := Ideal)) main_eq (fun _ => ops_sub) m ρ)

end Cert.ReferenceIdeal.RefRun

end
-- ==== Proof.lean ====
/-
  The proof of `Cert.Claim`: a three-layer message-passing network with degree-bucketed weights, logistic activation,
  per-graph pooling and a final linear layer — the kernel program (three Pallas calls among host gathers and
  scatter-adds) against the all-host reference.

  What is claimed, and why it holds.
  * The three frames (each program runs to the end without a fault and leaves its nine arguments as launched): the two
    kernel programs by their generated frame certificates; the reference by its run (module RefRun), the result dropped.
  * `preserves`: the ideal pass rewrote nothing in the kernel, so there is nothing to state.
  * `algebraic`: at the ideal values both programs end with the same 512 × 64 array. Both are the same chain of host
    operations around the same per-layer map, and the only difference is how a layer is evaluated: the reference applies
    whole-array operations (eleven masked pairs of matrix products with a bias, added in order, then 1 / (1 + exp(−z)) and
    the projection product), the kernel evaluates the same expression on blocks of 10000 rows (with the logistic
    function as one operation and its matrix products accumulated into a zero splat). Row by row these are ONE function
    of the row's degree, aggregated row and own row (module LayerSpec): the kernel's payloads read at an index
    (KernPay0–2), its blocks tiled back into arrays (Blocks0–2), and the reference's stages read at an index
    (RefLayer0–2) all meet at it. No law of the extended reals beyond that is used — the two sides add and multiply in
    the same order — so the precondition (finite inputs) is never opened. The host operations between the layers
    (gather of the source rows, scatter-add into the target rows, pooling, the final product) are the same operations
    in both programs; they are carried through as the reference's own stages (Stretch, Regions, KernelValue).
-/
import proofs.«161618_j71751723647734_1_alg».proof.Defs
import proofs.«161618_j71751723647734_1_alg».proof.Proof.Gen.Kernel
import proofs.«161618_j71751723647734_1_alg».proof.Proof.Gen.Kernel.Frame
import proofs.«161618_j71751723647734_1_alg».proof.Proof.Gen.KernelIdeal
import proofs.«161618_j71751723647734_1_alg».proof.Proof.Gen.KernelIdeal.Frame
import proofs.«161618_j71751723647734_1_alg».proof.Proof.Gen.ReferenceIdeal
import proofs.«161618_j71751723647734_1_alg».proof.Proof.Gen.Pre_finite_inputs
import proofs.«161618_j71751723647734_1_alg».proof.Proof.ValueRun
import proofs.«161618_j71751723647734_1_alg».proof.Proof.KernelValue
import proofs.«161618_j71751723647734_1_alg».proof.Proof.RefRun
import Idealize.ShloMosaic.Adequacy
import Idealize.ShloMosaic.Init

noncomputable section

namespace Cert.Proof

open Idealize.ShloMosaic Idealize.SL.Sem

/-- The word-level kernel program runs and keeps its arguments: its generated frame certificate. -/
theorem frame_k : Cert.frame_Kernel (hKernel := Cert.Kernel.Gen.facts) (hPre_finite_inputs := Cert.Pre_finite_inputs.Gen.facts) :=
  fun m ρ _ => Cert.Kernel.Gen.frame m ρ

/-- The idealized kernel program likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefRun.run m ρ)

/-- Both idealized programs, from memories that agree on the arguments, end with the reference's last stage of the
    arguments: the kernel program by its run read at the result (`KernelValue.kernel_value`), the reference by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, (θ_run (Cert.KernelIdeal.defs (F := Ideal)) _ _).mono
      (fun _ h c => ⟨(h c).1.trans (Cert.KernelIdeal.KernelValue.kernel_value m ρ c), (h c).2⟩)
      (Cert.KernelIdeal.ValueRun.run_result (F := Ideal) m ρ), ?_⟩
  refine (θ_run (Cert.ReferenceIdeal.defs (F := Ideal)) _ _).mono (fun _ h c => ⟨(h c).1.trans ?_, (h c).2⟩)
    (Cert.ReferenceIdeal.RefRun.run m' ρ')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
